-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128x1 : Shape := ⟨5, ![8, 128, 128, 128, 1]⟩
abbrev S4x2097152 : Shape := ⟨2, ![4, 2097152]⟩
abbrev S4x4 : Shape := ⟨2, ![4, 4]⟩
abbrev S_ : Shape := ⟨0, ![]⟩

class Facts : Prop where
  bcast_S_S8x128x128x128x1 : S_.BroadcastsInDim S8x128x128x128x1 (![] : Fin 0 → Fin S8x128x128x128x1.rank)
  reducesTo_S8x128x128x128x1_S_d0_1_2_3_4 : S8x128x128x128x1.ReducesTo [0, 1, 2, 3, 4] S_
  h_S_ : 0 < S_.numel
  bcast_S_S4x2097152 : S_.BroadcastsInDim S4x2097152 (![] : Fin 0 → Fin S4x2097152.rank)
  reducesTo_S4x2097152_S_d0_1 : S4x2097152.ReducesTo [0, 1] S_
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_arg4 : FVec F S4x4 .f32) (main_arg5 : FVec F S4x4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4x4 .f32 := Host.absf main_arg4
  let main_cst_6 : FVec F S_ .f32 := constant S_ .f32 0x7F800000#32
  let main_v20 : FVec F S4x4 .f32 := broadcastInDim S4x4 ![] bcast_S_S4x4 main_cst_6
  let main_v21 : IVec S4x4 1 := cmpf .olt main_v19 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v18 main_v22
  let main_v24 : FVec F S4x4 .f32 := Host.absf main_arg5
  let main_cst_8 : FVec F S_ .f32 := constant S_ .f32 0x7F800000#32
  let main_v25 : FVec F S4x4 .f32 := broadcastInDim S4x4 ![] bcast_S_S4x4 main_cst_8
  let main_v26 : IVec S4x4 1 := cmpf .olt main_v24 main_v25
  let main_c_9 : IVec S_ 1 := constantI S_ 1 1#1
  let main_v27 : IVec S_ 1 := (fun x v => Host.reduce IntOp.andi x v reducesTo_S4x4_S_d0_1 h_S_) main_v26 main_c_9
  let main_v28 : IVec S_ 1 := andi main_v23 main_v27
  main_v28

def fn {F : FTy → Type} [FloatOps F] (main_arg0 : FVec F S8x128x128x128x1 .f32) (main_arg1 : FVec F S4x2097152 .f32) (main_arg2 : FVec F S4x2097152 .f32) (main_arg3 : FVec F S4x4 .f32) (main_arg4 : FVec F S4x4 .f32) (main_arg5 : FVec F S4x4 .f32) : IVec S_ 1 :=
  let main_v0 : FVec F S8x128x128x128x1 .f32 := Host.absf main_arg0
  let main_cst : FVec F S_ .f32 := constant S_ .f32 0x7F800000#32
  let main_v1 : FVec F S8x128x128x128x1 .f32 := broadcastInDim S8x128x128x128x1 ![] bcast_S_S8x128x128x128x1 main_cst
  let main_v2 : IVec S8x128x128x128x1 1 := cmpf .olt main_v0 main_v1
  let main_c : IVec S_ 1 := constantI S_ 1 1#1
  let main_v3 : IVec S_ 1 := (fun x v => Host.reduce IntOp.andi x v reducesTo_S8x128x128x128x1_S_d0_1_2_3_4 h_S_) main_v2 main_c
  let main_v4 : FVec F S4x2097152 .f32 := Host.absf main_arg1
  let main_cst_0 : FVec F S_ .f32 := constant S_ .f32 0x7F800000#32
  let main_v5 : FVec F S4x2097152 .f32 := broadcastInDim S4x2097152 ![] bcast_S_S4x2097152 main_cst_0
  let main_v6 : IVec S4x2097152 1 := cmpf .olt main_v4 main_v5
  let main_c_1 : IVec S_ 1 := constantI S_ 1 1#1
  let main_v7 : IVec S_ 1 := (fun x v => Host.reduce IntOp.andi x v reducesTo_S4x2097152_S_d0_1 h_S_) main_v6 main_c_1
  let main_v8 : IVec S_ 1 := andi main_v3 main_v7
  let main_v9 : FVec F S4x2097152 .f32 := Host.absf main_arg2
  let main_cst_2 : FVec F S_ .f32 := constant S_ .f32 0x7F800000#32
  let main_v10 : FVec F S4x2097152 .f32 := broadcastInDim S4x2097152 ![] bcast_S_S4x2097152 main_cst_2
  let main_v11 : IVec S4x2097152 1 := cmpf .olt main_v9 main_v10
  let main_c_3 : IVec S_ 1 := constantI S_ 1 1#1
  let main_v12 : IVec S_ 1 := (fun x v => Host.reduce IntOp.andi x v reducesTo_S4x2097152_S_d0_1 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_arg5 main_v13 main_v16
-- ==== Kernel.lean ====
abbrev S8x128x128x128x1 : Shape := ⟨5, ![8, 128, 128, 128, 1]⟩
abbrev S4x2097152 : Shape := ⟨2, ![4, 2097152]⟩
abbrev S4x4 : Shape := ⟨2, ![4, 4]⟩
abbrev S1x2097152 : Shape := ⟨2, ![1, 2097152]⟩
abbrev S2097152 : Shape := ⟨1, ![2097152]⟩
abbrev S16384x128 : Shape := ⟨2, ![16384, 128]⟩
abbrev S8x16384x128 : Shape := ⟨3, ![8, 16384, 128]⟩
abbrev S1024x128 : Shape := ⟨2, ![1024, 128]⟩
abbrev S8x1024x128 : Shape := ⟨3, ![8, 1024, 128]⟩
abbrev S1x1024x128 : Shape := ⟨3, ![1, 1024, 128]⟩
abbrev S8x2097152 : Shape := ⟨2, ![8, 2097152]⟩
abbrev S2097152x8 : Shape := ⟨2, ![2097152, 8]⟩
abbrev S_ : Shape := ⟨0, ![]⟩
abbrev S2097152x1 : Shape := ⟨2, ![2097152, 1]⟩
abbrev S1 : Shape := ⟨1, ![1]⟩
abbrev S1x1 : Shape := ⟨2, ![1, 1]⟩

abbrev nBuf : Space → Nat
  | .hbm => 314
  | .vmem => 10
  | .smem => 0
  | _ => 0

abbrev hbmTy0_0 (i : Nat) : BufTy := match i % 128 with
  | 0 => ⟨S8x128x128x128x1, .f32⟩
  | 1 => ⟨S4x2097152, .f32⟩
  | 2 => ⟨S4x2097152, .f32⟩
  | 3 => ⟨S4x4, .f32⟩
  | 4 => ⟨S4x4, .f32⟩
  | 5 => ⟨S4x4, .f32⟩
  | 6 => ⟨S4x2097152, .f32⟩
  | 7 => ⟨S4x2097152, .f32⟩
  | 8 => ⟨S4x2097152, .f32⟩
  | 9 => ⟨S4x2097152, .f32⟩
  | 10 => ⟨S1x2097152, .f32⟩
  | 11 => ⟨S2097152, .f32⟩
  | 12 => ⟨S16384x128, .f32⟩
  | 13 => ⟨S1x2097152, .f32⟩
  | 14 => ⟨S2097152, .f32⟩
  | 15 => ⟨S16384x128, .f32⟩
  | 16 => ⟨S1x2097152, .f32⟩
  | 17 => ⟨S2097152, .f32⟩
  | 18 => ⟨S16384x128, .f32⟩
  | 19 => ⟨S8x16384x128, .i32⟩
  | 20 => ⟨S8x16384x128, .f32⟩
  | 21 => ⟨S8x2097152, .i32⟩
  | 22 => ⟨S8x2097152, .f32⟩
  | 23 => ⟨S8x2097152, .f32⟩
  | 24 => ⟨S2097152x8, .f32⟩
  | 25 => ⟨S_, .f32⟩
  | 26 => ⟨S2097152x8, .f32⟩
  | 27 => ⟨S_, .f32⟩
  | 28 => ⟨S2097152, .f32⟩
  | 29 => ⟨S1x2097152, .i32⟩
  | 30 => ⟨S2097152, .i32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S2097152x1, .i32⟩
  | 39 => ⟨S1, .i32⟩
  | 40 => ⟨S_, .i32⟩
  | 41 => ⟨S2097152x1, .i32⟩
  | 42 => ⟨S2097152x1, .i1⟩
  | 43 => ⟨S1x1, .i32⟩
  | 44 => ⟨S2097152x1, .i32⟩
  | 45 => ⟨S2097152x1, .i1⟩
  | 46 => ⟨S2097152x1, .i1⟩
  | 47 => ⟨S_, .i1⟩
  | 48 => ⟨S2097152, .i1⟩
  | 49 => ⟨S2097152x8, .f32⟩
  | 50 => ⟨S2097152x8, .i1⟩
  | 51 => ⟨S_, .f32⟩
  | 52 => ⟨S2097152x8, .f32⟩
  | 53 => ⟨S2097152x8, .f32⟩
  | 54 => ⟨S1x2097152, .f32⟩
  | 55 => ⟨S2097152, .f32⟩
  | 56 => ⟨S2097152x1, .f32⟩
  | 57 => ⟨S2097152x8, .f32⟩
  | 58 => ⟨S2097152x8, .f32⟩
  | 59 => ⟨S2097152x8, .f32⟩
  | 60 => ⟨S1x2097152, .f32⟩
  | 61 => ⟨S2097152, .f32⟩
  | 62 => ⟨S2097152, .f32⟩
  | 63 => ⟨S1x2097152, .i32⟩
  | 64 => ⟨S2097152, .i32⟩
  | 65 => ⟨S_, .i32⟩
  | 66 => ⟨S2097152, .i32⟩
  | 67 => ⟨S2097152, .i1⟩
  | 68 => ⟨S_, .i32⟩
  | 69 => ⟨S2097152, .i32⟩
  | 70 => ⟨S2097152, .i32⟩
  | 71 => ⟨S2097152, .i32⟩
  | 72 => ⟨S2097152x1, .i32⟩
  | 73 => ⟨S1, .i32⟩
  | 74 => ⟨S_, .i32⟩
  | 75 => ⟨S2097152x1, .i32⟩
  | 76 => ⟨S2097152x1, .i1⟩
  | 77 => ⟨S1x1, .i32⟩
  | 78 => ⟨S2097152x1, .i32⟩
  | 79 => ⟨S2097152x1, .i1⟩
  | 80 => ⟨S2097152x1, .i1⟩
  | 81 => ⟨S_, .i1⟩
  | 82 => ⟨S2097152, .i1⟩
  | 83 => ⟨S2097152x8, .f32⟩
  | 84 => ⟨S2097152x8, .i1⟩
  | 85 => ⟨S_, .f32⟩
  | 86 => ⟨S2097152x8, .f32⟩
  | 87 => ⟨S2097152x8, .f32⟩
  | 88 => ⟨S1x2097152, .f32⟩
  | 89 => ⟨S2097152, .f32⟩
  | 90 => ⟨S2097152x1, .f32⟩
  | 91 => ⟨S2097152x8, .f32⟩
  | 92 => ⟨S2097152x8, .f32⟩
  | 93 => ⟨S2097152x8, .f32⟩
  | 94 => ⟨S1x2097152, .f32⟩
  | 95 => ⟨S2097152, .f32⟩
  | 96 => ⟨S2097152, .f32⟩
  | 97 => ⟨S1x2097152, .i32⟩
  | 98 => ⟨S2097152, .i32⟩
  | 99 => ⟨S_, .i32⟩
  | 100 => ⟨S2097152, .i32⟩
  | 101 => ⟨S2097152, .i1⟩
  | 102 => ⟨S_, .i32⟩
  | 103 => ⟨S2097152, .i32⟩
  | 104 => ⟨S2097152, .i32⟩
  | 105 => ⟨S2097152, .i32⟩
  | 106 => ⟨S2097152x1, .i32⟩
  | 107 => ⟨S1, .i32⟩
  | 108 => ⟨S_, .i32⟩
  | 109 => ⟨S2097152x1, .i32⟩
  | 110 => ⟨S2097152x1, .i1⟩
  | 111 => ⟨S1x1, .i32⟩
  | 112 => ⟨S2097152x1, .i32⟩
  | 113 => ⟨S2097152x1, .i1⟩
  | 114 => ⟨S2097152x1, .i1⟩
  | 115 => ⟨S_, .i1⟩
  | 116 => ⟨S2097152, .i1⟩
  | 117 => ⟨S2097152x8, .f32⟩
  | 118 => ⟨S2097152x8, .i1⟩
  | 119 => ⟨S_, .f32⟩
  | 120 => ⟨S2097152x8, .f32⟩
  | 121 => ⟨S2097152x8, .f32⟩
  | 122 => ⟨S1x2097152, .f32⟩
  | 123 => ⟨S2097152, .f32⟩
  | 124 => ⟨S2097152x1, .f32⟩
  | 125 => ⟨S2097152x8, .f32⟩
  | 126 => ⟨S2097152x8, .f32⟩
  | 127 => ⟨S2097152x8, .f32⟩
  | _ => ⟨S8x128x128x128x1, .f32⟩

abbrev hbmTy0_1 (i : Nat) : BufTy := match i % 128 with
  | 0 => ⟨S1x2097152, .f32⟩
  | 1 => ⟨S2097152, .f32⟩
  | 2 => ⟨S2097152, .f32⟩
  | 3 => ⟨S1x2097152, .i32⟩
  | 4 => ⟨S2097152, .i32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i32⟩
  | 11 => ⟨S2097152, .i32⟩
  | 12 => ⟨S2097152x1, .i32⟩
  | 13 => ⟨S1, .i32⟩
  | 14 => ⟨S_, .i32⟩
  | 15 => ⟨S2097152x1, .i32⟩
  | 16 => ⟨S2097152x1, .i1⟩
  | 17 => ⟨S1x1, .i32⟩
  | 18 => ⟨S2097152x1, .i32⟩
  | 19 => ⟨S2097152x1, .i1⟩
  | 20 => ⟨S2097152x1, .i1⟩
  | 21 => ⟨S_, .i1⟩
  | 22 => ⟨S2097152, .i1⟩
  | 23 => ⟨S2097152x8, .f32⟩
  | 24 => ⟨S2097152x8, .i1⟩
  | 25 => ⟨S_, .f32⟩
  | 26 => ⟨S2097152x8, .f32⟩
  | 27 => ⟨S2097152x8, .f32⟩
  | 28 => ⟨S1x2097152, .f32⟩
  | 29 => ⟨S2097152, .f32⟩
  | 30 => ⟨S2097152x1, .f32⟩
  | 31 => ⟨S2097152x8, .f32⟩
  | 32 => ⟨S2097152x8, .f32⟩
  | 33 => ⟨S2097152x8, .f32⟩
  | 34 => ⟨S1x2097152, .f32⟩
  | 35 => ⟨S2097152, .f32⟩
  | 36 => ⟨S2097152, .f32⟩
  | 37 => ⟨S1x2097152, .i32⟩
  | 38 => ⟨S2097152, .i32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S1, .i32⟩
  | 48 => ⟨S_, .i32⟩
  | 49 => ⟨S2097152x1, .i32⟩
  | 50 => ⟨S2097152x1, .i1⟩
  | 51 => ⟨S1x1, .i32⟩
  | 52 => ⟨S2097152x1, .i32⟩
  | 53 => ⟨S2097152x1, .i1⟩
  | 54 => ⟨S2097152x1, .i1⟩
  | 55 => ⟨S_, .i1⟩
  | 56 => ⟨S2097152, .i1⟩
  | 57 => ⟨S2097152x8, .f32⟩
  | 58 => ⟨S2097152x8, .i1⟩
  | 59 => ⟨S_, .f32⟩
  | 60 => ⟨S2097152x8, .f32⟩
  | 61 => ⟨S2097152x8, .f32⟩
  | 62 => ⟨S1x2097152, .f32⟩
  | 63 => ⟨S2097152, .f32⟩
  | 64 => ⟨S2097152x1, .f32⟩
  | 65 => ⟨S2097152x8, .f32⟩
  | 66 => ⟨S2097152x8, .f32⟩
  | 67 => ⟨S2097152x8, .f32⟩
  | 68 => ⟨S1x2097152, .f32⟩
  | 69 => ⟨S2097152, .f32⟩
  | 70 => ⟨S2097152, .f32⟩
  | 71 => ⟨S1x2097152, .i32⟩
  | 72 => ⟨S2097152, .i32⟩
  | 73 => ⟨S_, .i32⟩
  | 74 => ⟨S2097152, .i32⟩
  | 75 => ⟨S2097152, .i1⟩
  | 76 => ⟨S_, .i32⟩
  | 77 => ⟨S2097152, .i32⟩
  | 78 => ⟨S2097152, .i32⟩
  | 79 => ⟨S2097152, .i32⟩
  | 80 => ⟨S2097152x1, .i32⟩
  | 81 => ⟨S1, .i32⟩
  | 82 => ⟨S_, .i32⟩
  | 83 => ⟨S2097152x1, .i32⟩
  | 84 => ⟨S2097152x1, .i1⟩
  | 85 => ⟨S1x1, .i32⟩
  | 86 => ⟨S2097152x1, .i32⟩
  | 87 => ⟨S2097152x1, .i1⟩
  | 88 => ⟨S2097152x1, .i1⟩
  | 89 => ⟨S_, .i1⟩
  | 90 => ⟨S2097152, .i1⟩
  | 91 => ⟨S2097152x8, .f32⟩
  | 92 => ⟨S2097152x8, .i1⟩
  | 93 => ⟨S_, .f32⟩
  | 94 => ⟨S2097152x8, .f32⟩
  | 95 => ⟨S2097152x8, .f32⟩
  | 96 => ⟨S1x2097152, .f32⟩
  | 97 => ⟨S2097152, .f32⟩
  | 98 => ⟨S2097152x1, .f32⟩
  | 99 => ⟨S2097152x8, .f32⟩
  | 100 => ⟨S2097152x8, .f32⟩
  | 101 => ⟨S2097152x8, .f32⟩
  | 102 => ⟨S1x2097152, .f32⟩
  | 103 => ⟨S2097152, .f32⟩
  | 104 => ⟨S2097152, .f32⟩
  | 105 => ⟨S1x2097152, .i32⟩
  | 106 => ⟨S2097152, .i32⟩
  | 107 => ⟨S_, .i32⟩
  | 108 => ⟨S2097152, .i32⟩
  | 109 => ⟨S2097152, .i1⟩
  | 110 => ⟨S_, .i32⟩
  | 111 => ⟨S2097152, .i32⟩
  | 112 => ⟨S2097152, .i32⟩
  | 113 => ⟨S2097152, .i32⟩
  | 114 => ⟨S2097152x1, .i32⟩
  | 115 => ⟨S1, .i32⟩
  | 116 => ⟨S_, .i32⟩
  | 117 => ⟨S2097152x1, .i32⟩
  | 118 => ⟨S2097152x1, .i1⟩
  | 119 => ⟨S1x1, .i32⟩
  | 120 => ⟨S2097152x1, .i32⟩
  | 121 => ⟨S2097152x1, .i1⟩
  | 122 => ⟨S2097152x1, .i1⟩
  | 123 => ⟨S_, .i1⟩
  | 124 => ⟨S2097152, .i1⟩
  | 125 => ⟨S2097152x8, .f32⟩
  | 126 => ⟨S2097152x8, .i1⟩
  | 127 => ⟨S_, .f32⟩
  | _ => ⟨S8x128x128x128x1, .f32⟩

abbrev hbmTy0_2 (i : Nat) : BufTy := match i % 128 with
  | 0 => ⟨S2097152x8, .f32⟩
  | 1 => ⟨S2097152x8, .f32⟩
  | 2 => ⟨S1x2097152, .f32⟩
  | 3 => ⟨S2097152, .f32⟩
  | 4 => ⟨S2097152x1, .f32⟩
  | 5 => ⟨S2097152x8, .f32⟩
  | 6 => ⟨S2097152x8, .f32⟩
  | 7 => ⟨S2097152x8, .f32⟩
  | 8 => ⟨S1x2097152, .f32⟩
  | 9 => ⟨S2097152, .f32⟩
  | 10 => ⟨S2097152, .f32⟩
  | 11 => ⟨S1x2097152, .i32⟩
  | 12 => ⟨S2097152, .i32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i32⟩
  | 19 => ⟨S2097152, .i32⟩
  | 20 => ⟨S2097152x1, .i32⟩
  | 21 => ⟨S1, .i32⟩
  | 22 => ⟨S_, .i32⟩
  | 23 => ⟨S2097152x1, .i32⟩
  | 24 => ⟨S2097152x1, .i1⟩
  | 25 => ⟨S1x1, .i32⟩
  | 26 => ⟨S2097152x1, .i32⟩
  | 27 => ⟨S2097152x1, .i1⟩
  | 28 => ⟨S2097152x1, .i1⟩
  | 29 => ⟨S_, .i1⟩
  | 30 => ⟨S2097152, .i1⟩
  | 31 => ⟨S2097152x8, .f32⟩
  | 32 => ⟨S2097152x8, .i1⟩
  | 33 => ⟨S_, .f32⟩
  | 34 => ⟨S2097152x8, .f32⟩
  | 35 => ⟨S2097152x8, .f32⟩
  | 36 => ⟨S1x2097152, .f32⟩
  | 37 => ⟨S2097152, .f32⟩
  | 38 => ⟨S2097152x1, .f32⟩
  | 39 => ⟨S2097152x8, .f32⟩
  | 40 => ⟨S2097152x8, .f32⟩
  | 41 => ⟨S2097152x8, .f32⟩
  | 42 => ⟨S1x2097152, .f32⟩
  | 43 => ⟨S2097152, .f32⟩
  | 44 => ⟨S2097152, .f32⟩
  | 45 => ⟨S_, .f32⟩
  | 46 => ⟨S_, .f32⟩
  | 47 => ⟨S_, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S2097152x1, .f32⟩
  | 54 => ⟨S2097152x8, .f32⟩
  | 55 => ⟨S2097152x8, .f32⟩
  | 56 => ⟨S8x2097152, .f32⟩
  | 57 => ⟨S8x128x128x128x1, .f32⟩
  | _ => ⟨S8x128x128x128x1, .f32⟩

abbrev hbmTy (i : Nat) : BufTy := match i / 128 with
  | 0 => hbmTy0_0 i
  | 1 => hbmTy0_1 i
  | 2 => hbmTy0_2 i
  | _ => ⟨S8x128x128x128x1, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x1024x128, .i32⟩
  | .local _ .vmem, ⟨7, _⟩ => ⟨S8x1024x128, .i32⟩
  | .local _ .vmem, ⟨8, _⟩ => ⟨S8x1024x128, .f32⟩
  | .local _ .vmem, ⟨9, _⟩ => ⟨S8x1024x128, .f32⟩
  | _, _ => ⟨S8x128x128x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_cst : Ref sig .tc := ⟨.hbm, 119, rfl⟩
abbrev main_call2_v15 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_call3_c : Ref sig .tc := ⟨.hbm, 133, rfl⟩
abbrev main_call3_v0 : Ref sig .tc := ⟨.hbm, 134, rfl⟩
abbrev main_call3_v1 : Ref sig .tc := ⟨.hbm, 135, rfl⟩
abbrev main_call3_c_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c_1 : Ref sig .tc := ⟨.hbm, 141, rfl⟩
abbrev main_call3_c_2 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_3 : Ref sig .tc := ⟨.hbm, 149, rfl⟩
abbrev main_call3_v12 : Ref sig .tc := ⟨.hbm, 150, rfl⟩
abbrev main_call3_v13 : Ref sig .tc := ⟨.hbm, 151, rfl⟩
abbrev main_call3_v14 : Ref sig .tc := ⟨.hbm, 152, rfl⟩
abbrev main_call3_cst : Ref sig .tc := ⟨.hbm, 153, rfl⟩
abbrev main_call3_v15 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_call4_c : Ref sig .tc := ⟨.hbm, 167, rfl⟩
abbrev main_call4_v0 : Ref sig .tc := ⟨.hbm, 168, rfl⟩
abbrev main_call4_v1 : Ref sig .tc := ⟨.hbm, 169, rfl⟩
abbrev main_call4_c_0 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_c_1 : Ref sig .tc := ⟨.hbm, 175, rfl⟩
abbrev main_call4_c_2 : Ref sig .tc := ⟨.hbm, 176, rfl⟩
abbrev main_call4_v6 : Ref sig .tc := ⟨.hbm, 177, rfl⟩
abbrev main_call4_v7 : Ref sig .tc := ⟨.hbm, 178, rfl⟩
abbrev main_call4_v8 : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_call4_c_3 : Ref sig .tc := ⟨.hbm, 183, rfl⟩
abbrev main_call4_v12 : Ref sig .tc := ⟨.hbm, 184, rfl⟩
abbrev main_call4_v13 : Ref sig .tc := ⟨.hbm, 185, rfl⟩
abbrev main_call4_v14 : Ref sig .tc := ⟨.hbm, 186, rfl⟩
abbrev main_call4_cst : Ref sig .tc := ⟨.hbm, 187, rfl⟩
abbrev main_call4_v15 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_call5_c : Ref sig .tc := ⟨.hbm, 201, rfl⟩
abbrev main_call5_v0 : Ref sig .tc := ⟨.hbm, 202, rfl⟩
abbrev main_call5_v1 : Ref sig .tc := ⟨.hbm, 203, rfl⟩
abbrev main_call5_c_0 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_call5_v5 : Ref sig .tc := ⟨.hbm, 208, rfl⟩
abbrev main_call5_c_1 : Ref sig .tc := ⟨.hbm, 209, rfl⟩
abbrev main_call5_c_2 : Ref sig .tc := ⟨.hbm, 210, rfl⟩
abbrev main_call5_v6 : Ref sig .tc := ⟨.hbm, 211, rfl⟩
abbrev main_call5_v7 : Ref sig .tc := ⟨.hbm, 212, rfl⟩
abbrev main_call5_v8 : Ref sig .tc := ⟨.hbm, 213, rfl⟩
abbrev main_call5_v9 : Ref sig .tc := ⟨.hbm, 214, rfl⟩
abbrev main_call5_v10 : Ref sig .tc := ⟨.hbm, 215, rfl⟩
abbrev main_call5_v11 : Ref sig .tc := ⟨.hbm, 216, rfl⟩
abbrev main_call5_c_3 : Ref sig .tc := ⟨.hbm, 217, rfl⟩
abbrev main_call5_v12 : Ref sig .tc := ⟨.hbm, 218, rfl⟩
abbrev main_call5_v13 : Ref sig .tc := ⟨.hbm, 219, rfl⟩
abbrev main_call5_v14 : Ref sig .tc := ⟨.hbm, 220, rfl⟩
abbrev main_call5_cst : Ref sig .tc := ⟨.hbm, 221, rfl⟩
abbrev main_call5_v15 : Ref sig .tc := ⟨.hbm, 222, rfl⟩
abbrev main_v82 : Ref sig .tc := ⟨.hbm, 223, rfl⟩
abbrev main_v83 : Ref sig .tc := ⟨.hbm, 224, rfl⟩
abbrev main_v84 : Ref sig .tc := ⟨.hbm, 225, rfl⟩
abbrev main_v85 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_call6_c : Ref sig .tc := ⟨.hbm, 235, rfl⟩
abbrev main_call6_v0 : Ref sig .tc := ⟨.hbm, 236, rfl⟩
abbrev main_call6_v1 : Ref sig .tc := ⟨.hbm, 237, rfl⟩
abbrev main_call6_c_0 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_call6_v5 : Ref sig .tc := ⟨.hbm, 242, rfl⟩
abbrev main_call6_c_1 : Ref sig .tc := ⟨.hbm, 243, rfl⟩
abbrev main_call6_c_2 : Ref sig .tc := ⟨.hbm, 244, rfl⟩
abbrev main_call6_v6 : Ref sig .tc := ⟨.hbm, 245, rfl⟩
abbrev main_call6_v7 : Ref sig .tc := ⟨.hbm, 246, rfl⟩
abbrev main_call6_v8 : Ref sig .tc := ⟨.hbm, 247, rfl⟩
abbrev main_call6_v9 : Ref sig .tc := ⟨.hbm, 248, rfl⟩
abbrev main_call6_v10 : Ref sig .tc := ⟨.hbm, 249, rfl⟩
abbrev main_call6_v11 : Ref sig .tc := ⟨.hbm, 250, rfl⟩
abbrev main_call6_c_3 : Ref sig .tc := ⟨.hbm, 251, rfl⟩
abbrev main_call6_v12 : Ref sig .tc := ⟨.hbm, 252, rfl⟩
abbrev main_call6_v13 : Ref sig .tc := ⟨.hbm, 253, rfl⟩
abbrev main_call6_v14 : Ref sig .tc := ⟨.hbm, 254, rfl⟩
abbrev main_call6_cst : Ref sig .tc := ⟨.hbm, 255, rfl⟩
abbrev main_call6_v15 : Ref sig .tc := ⟨.hbm, 256, rfl⟩
abbrev main_v94 : Ref sig .tc := ⟨.hbm, 257, rfl⟩
abbrev main_v95 : Ref sig .tc := ⟨.hbm, 258, rfl⟩
abbrev main_v96 : Ref sig .tc := ⟨.hbm, 259, rfl⟩
abbrev main_v97 : Ref sig .tc := ⟨.hbm, 260, rfl⟩
abbrev main_v98 : Ref sig .tc := ⟨.hbm, 261, rfl⟩
abbrev main_v99 : Ref sig .tc := ⟨.hbm, 262, rfl⟩
abbrev main_v100 : Ref sig .tc := ⟨.hbm, 263, rfl⟩
abbrev main_v101 : Ref sig .tc := ⟨.hbm, 264, rfl⟩
abbrev main_v102 : Ref sig .tc := ⟨.hbm, 265, rfl⟩
abbrev main_v103 : Ref sig .tc := ⟨.hbm, 266, rfl⟩
abbrev main_v104 : Ref sig .tc := ⟨.hbm, 267, rfl⟩
abbrev main_v105 : Ref sig .tc := ⟨.hbm, 268, rfl⟩
abbrev main_call7_c : Ref sig .tc := ⟨.hbm, 269, rfl⟩
abbrev main_call7_v0 : Ref sig .tc := ⟨.hbm, 270, rfl⟩
abbrev main_call7_v1 : Ref sig .tc := ⟨.hbm, 271, rfl⟩
abbrev main_call7_c_0 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_call7_v5 : Ref sig .tc := ⟨.hbm, 276, rfl⟩
abbrev main_call7_c_1 : Ref sig .tc := ⟨.hbm, 277, rfl⟩
abbrev main_call7_c_2 : Ref sig .tc := ⟨.hbm, 278, rfl⟩
abbrev main_call7_v6 : Ref sig .tc := ⟨.hbm, 279, rfl⟩
abbrev main_call7_v7 : Ref sig .tc := ⟨.hbm, 280, rfl⟩
abbrev main_call7_v8 : Ref sig .tc := ⟨.hbm, 281, rfl⟩
abbrev main_call7_v9 : Ref sig .tc := ⟨.hbm, 282, rfl⟩
abbrev main_call7_v10 : Ref sig .tc := ⟨.hbm, 283, rfl⟩
abbrev main_call7_v11 : Ref sig .tc := ⟨.hbm, 284, rfl⟩
abbrev main_call7_c_3 : Ref sig .tc := ⟨.hbm, 285, rfl⟩
abbrev main_call7_v12 : Ref sig .tc := ⟨.hbm, 286, rfl⟩
abbrev main_call7_v13 : Ref sig .tc := ⟨.hbm, 287, rfl⟩
abbrev main_call7_v14 : Ref sig .tc := ⟨.hbm, 288, rfl⟩
abbrev main_call7_cst : Ref sig .tc := ⟨.hbm, 289, rfl⟩
abbrev main_call7_v15 : Ref sig .tc := ⟨.hbm, 290, rfl⟩
abbrev main_v106 : Ref sig .tc := ⟨.hbm, 291, rfl⟩
abbrev main_v107 : Ref sig .tc := ⟨.hbm, 292, rfl⟩
abbrev main_v108 : Ref sig .tc := ⟨.hbm, 293, rfl⟩
abbrev main_v109 : Ref sig .tc := ⟨.hbm, 294, rfl⟩
abbrev main_v110 : Ref sig .tc := ⟨.hbm, 295, rfl⟩
abbrev main_v111 : Ref sig .tc := ⟨.hbm, 296, rfl⟩
abbrev main_v112 : Ref sig .tc := ⟨.hbm, 297, rfl⟩
abbrev main_v113 : Ref sig .tc := ⟨.hbm, 298, rfl⟩
abbrev main_v114 : Ref sig .tc := ⟨.hbm, 299, rfl⟩
abbrev main_v115 : Ref sig .tc := ⟨.hbm, 300, rfl⟩
abbrev main_cst_1 : Ref sig .tc := ⟨.hbm, 301, rfl⟩
abbrev main_cst_2 : Ref sig .tc := ⟨.hbm, 302, rfl⟩
abbrev main_call8_v0 : Ref sig .tc := ⟨.hbm, 303, rfl⟩
abbrev main_call8_v1 : Ref sig .tc := ⟨.hbm, 304, rfl⟩
abbrev main_call8_v2 : Ref sig .tc := ⟨.hbm, 305, rfl⟩
abbrev main_call8_v3 : Ref sig .tc := ⟨.hbm, 306, rfl⟩
abbrev main_call8_v4 : Ref sig .tc := ⟨.hbm, 307, rfl⟩
abbrev main_v116 : Ref sig .tc := ⟨.hbm, 308, rfl⟩
abbrev main_v117 : Ref sig .tc := ⟨.hbm, 309, rfl⟩
abbrev main_v118 : Ref sig .tc := ⟨.hbm, 310, rfl⟩
abbrev main_v119 : Ref sig .tc := ⟨.hbm, 311, rfl⟩
abbrev main_v120 : Ref sig .tc := ⟨.hbm, 312, rfl⟩
abbrev main_v121 : Ref sig .tc := ⟨.hbm, 313, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4x2097152_S1x2097152_0_0 : S4x2097152.Slices ![0, 0] S1x2097152
  shapeCasts_S1x2097152_S2097152 : S1x2097152.ShapeCasts S2097152
  shapeCasts_S2097152_S16384x128 : S2097152.ShapeCasts S16384x128
  slices_S4x2097152_S1x2097152_1_0 : S4x2097152.Slices ![1, 0] S1x2097152
  slices_S4x2097152_S1x2097152_2_0 : S4x2097152.Slices ![2, 0] S1x2097152
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S8x1024x128_S1x1024x128_1_0_0 : ∀ a, (![1, 0, 0] : Fin 3 → Nat) a + S1x1024x128.size a ≤ S8x1024x128.size a
  inb_S8x1024x128_S1x1024x128_2_0_0 : ∀ a, (![2, 0, 0] : Fin 3 → Nat) a + S1x1024x128.size a ≤ S8x1024x128.size a
  inb_S8x1024x128_S1x1024x128_3_0_0 : ∀ a, (![3, 0, 0] : Fin 3 → Nat) a + S1x1024x128.size a ≤ S8x1024x128.size a
  inb_S8x1024x128_S1x1024x128_4_0_0 : ∀ a, (![4, 0, 0] : Fin 3 → Nat) a + S1x1024x128.size a ≤ S8x1024x128.size a
  inb_S8x1024x128_S1x1024x128_5_0_0 : ∀ a, (![5, 0, 0] : Fin 3 → Nat) a + S1x1024x128.size a ≤ S8x1024x128.size a
  inb_S8x1024x128_S1x1024x128_6_0_0 : ∀ a, (![6, 0, 0] : Fin 3 → Nat) a + S1x1024x128.size a ≤ S8x1024x128.size a
  inb_S8x1024x128_S1x1024x128_7_0_0 : ∀ a, (![7, 0, 0] : Fin 3 → Nat) a + S1x1024x128.size a ≤ S8x1024x128.size a
  shapeCasts_S8x16384x128_S8x2097152 : S8x16384x128.ShapeCasts S8x2097152
  shapeCasts_S8x128x128x128x1_S8x2097152 : S8x128x128x128x1.ShapeCasts S8x2097152
  transposes_S8x2097152_S2097152x8_1_0 : S8x2097152.Transposes [1, 0] S2097152x8
  bcast_S_S2097152x8 : S_.BroadcastsInDim S2097152x8 (![] : Fin 0 → Fin S2097152x8.rank)
  bcast_S_S2097152 : S_.BroadcastsInDim S2097152 (![] : Fin 0 → Fin S2097152.rank)
  slices_S8x2097152_S1x2097152_0_0 : S8x2097152.Slices ![0, 0] S1x2097152
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S2097152x8_0 : S2097152.BroadcastsInDim S2097152x8 (![0] : Fin 1 → Fin S2097152x8.rank)
  bcast_S2097152x1_S2097152x8_0_1 : S2097152x1.BroadcastsInDim S2097152x8 (![0, 1] : Fin 2 → Fin S2097152x8.rank)
  slices_S8x2097152_S1x2097152_1_0 : S8x2097152.Slices ![1, 0] S1x2097152
  slices_S8x2097152_S1x2097152_2_0 : S8x2097152.Slices ![2, 0] S1x2097152
  slices_S8x2097152_S1x2097152_3_0 : S8x2097152.Slices ![3, 0] S1x2097152
  slices_S8x2097152_S1x2097152_4_0 : S8x2097152.Slices ![4, 0] S1x2097152
  slices_S8x2097152_S1x2097152_5_0 : S8x2097152.Slices ![5, 0] S1x2097152
  slices_S8x2097152_S1x2097152_6_0 : S8x2097152.Slices ![6, 0] S1x2097152
  slices_S8x2097152_S1x2097152_7_0 : S8x2097152.Slices ![7, 0] S1x2097152
  transposes_S2097152x8_S8x2097152_1_0 : S2097152x8.Transposes [1, 0] S8x2097152
  shapeCasts_S8x2097152_S8x128x128x128x1 : S8x2097152.ShapeCasts S8x128x128x128x1
  dot_S4x4_S4x2097152_S4x2097152_1_0_0_1_n_n_wf : DotDims.WF S4x4 S4x2097152 S4x2097152 [1] [0] [0] [1] [] []
  gather_S2097152x8_S2097152x1_S2097152x8_1_0_n_n_0_1_18_wf : GatherDims.WF S2097152x8 S2097152x1 S2097152x8 [1] [0] [] [0] [] 1 ![1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024x128.size a ≤ S8x16384x128.size a
  hwx0_3 : ∀ i : grid0.Coords, EltTy.bits .i32 = 32 ∨ (Rect.block (s := S8x16384x128) S8x1024x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024x128.size a ≤ S8x16384x128.size a
  hwx0_4 : ∀ i : grid0.Coords, EltTy.bits .f32 = 32 ∨ (Rect.block (s := S8x16384x128) S8x1024x128.size (cc0_transform_4 i) (hinb0_4 i)).WholeWords (EltTy.packing .f32)

variable [Facts₀]

def dot_S4x4_S4x2097152_S4x2097152_1_0_0_1_n_n : DotDims S4x4 S4x2097152 S4x2097152 where
  lhsContracting := [1]
  rhsContracting := [0]
  lhsNonContracting := [0]
  rhsNonContracting := [1]
  lhsBatch := []
  rhsBatch := []
  wf := dot_S4x4_S4x2097152_S4x2097152_1_0_0_1_n_n_wf
def gather_S2097152x8_S2097152x1_S2097152x8_1_0_n_n_0_1_18 : GatherDims S2097152x8 S2097152x1 S2097152x8 where
  offsetDims := [1]
  collapsedSliceDims := [0]
  operandBatchingDims := []
  startIndicesBatchingDims := []
  startIndexMap := [0]
  indexVectorDim := 1
  sliceSizes := ![1, 8]
  wf := gather_S2097152x8_S2097152x1_S2097152x8_1_0_n_n_0_1_18_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S8x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S8x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x128x128x1 : Shape := ⟨5, ![8, 128, 128, 128, 1]⟩
abbrev S4x2097152 : Shape := ⟨2, ![4, 2097152]⟩
abbrev S4x4 : Shape := ⟨2, ![4, 4]⟩
abbrev S8x2097152 : Shape := ⟨2, ![8, 2097152]⟩
abbrev S1x2097152 : Shape := ⟨2, ![1, 2097152]⟩
abbrev S2097152 : Shape := ⟨1, ![2097152]⟩
abbrev S_ : Shape := ⟨0, ![]⟩
abbrev S2097152x1 : Shape := ⟨2, ![2097152, 1]⟩
abbrev S1 : Shape := ⟨1, ![1]⟩
abbrev S1x1 : Shape := ⟨2, ![1, 1]⟩

abbrev nBuf : Space → Nat
  | .hbm => 772
  | .vmem => 0
  | .smem => 0
  | _ => 0

abbrev hbmTy0_0 (i : Nat) : BufTy := match i % 128 with
  | 0 => ⟨S8x128x128x128x1, .f32⟩
  | 1 => ⟨S4x2097152, .f32⟩
  | 2 => ⟨S4x2097152, .f32⟩
  | 3 => ⟨S4x4, .f32⟩
  | 4 => ⟨S4x4, .f32⟩
  | 5 => ⟨S4x4, .f32⟩
  | 6 => ⟨S4x2097152, .f32⟩
  | 7 => ⟨S4x2097152, .f32⟩
  | 8 => ⟨S4x2097152, .f32⟩
  | 9 => ⟨S4x2097152, .f32⟩
  | 10 => ⟨S8x2097152, .f32⟩
  | 11 => ⟨S1x2097152, .f32⟩
  | 12 => ⟨S2097152, .f32⟩
  | 13 => ⟨S1x2097152, .f32⟩
  | 14 => ⟨S2097152, .f32⟩
  | 15 => ⟨S1x2097152, .f32⟩
  | 16 => ⟨S2097152, .f32⟩
  | 17 => ⟨S_, .f32⟩
  | 18 => ⟨S_, .i32⟩
  | 19 => ⟨S_, .f32⟩
  | 20 => ⟨S2097152, .f32⟩
  | 21 => ⟨S2097152, .f32⟩
  | 22 => ⟨S_, .f32⟩
  | 23 => ⟨S2097152, .f32⟩
  | 24 => ⟨S2097152, .f32⟩
  | 25 => ⟨S_, .f32⟩
  | 26 => ⟨S_, .i32⟩
  | 27 => ⟨S_, .f32⟩
  | 28 => ⟨S2097152, .f32⟩
  | 29 => ⟨S2097152, .f32⟩
  | 30 => ⟨S_, .f32⟩
  | 31 => ⟨S2097152, .f32⟩
  | 32 => ⟨S2097152, .f32⟩
  | 33 => ⟨S_, .f32⟩
  | 34 => ⟨S_, .i32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S2097152, .f32⟩
  | 42 => ⟨S2097152, .f32⟩
  | 43 => ⟨S2097152, .f32⟩
  | 44 => ⟨S_, .f32⟩
  | 45 => ⟨S8x2097152, .f32⟩
  | 46 => ⟨S_, .f32⟩
  | 47 => ⟨S2097152, .f32⟩
  | 48 => ⟨S_, .f32⟩
  | 49 => ⟨S2097152, .f32⟩
  | 50 => ⟨S2097152, .f32⟩
  | 51 => ⟨S_, .f32⟩
  | 52 => ⟨S_, .i32⟩
  | 53 => ⟨S_, .f32⟩
  | 54 => ⟨S2097152, .f32⟩
  | 55 => ⟨S2097152, .f32⟩
  | 56 => ⟨S_, .f32⟩
  | 57 => ⟨S2097152, .f32⟩
  | 58 => ⟨S2097152, .f32⟩
  | 59 => ⟨S_, .f32⟩
  | 60 => ⟨S2097152, .f32⟩
  | 61 => ⟨S2097152, .f32⟩
  | 62 => ⟨S_, .f32⟩
  | 63 => ⟨S_, .i32⟩
  | 64 => ⟨S_, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S_, .f32⟩
  | 71 => ⟨S2097152, .f32⟩
  | 72 => ⟨S2097152, .f32⟩
  | 73 => ⟨S_, .f32⟩
  | 74 => ⟨S_, .i32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S2097152, .f32⟩
  | 82 => ⟨S2097152, .f32⟩
  | 83 => ⟨S_, .f32⟩
  | 84 => ⟨S2097152, .f32⟩
  | 85 => ⟨S2097152, .f32⟩
  | 86 => ⟨S2097152, .f32⟩
  | 87 => ⟨S2097152, .f32⟩
  | 88 => ⟨S_, .f32⟩
  | 89 => ⟨S2097152, .f32⟩
  | 90 => ⟨S2097152, .f32⟩
  | 91 => ⟨S2097152, .f32⟩
  | 92 => ⟨S2097152, .f32⟩
  | 93 => ⟨S2097152, .f32⟩
  | 94 => ⟨S_, .f32⟩
  | 95 => ⟨S2097152, .f32⟩
  | 96 => ⟨S2097152, .f32⟩
  | 97 => ⟨S2097152, .f32⟩
  | 98 => ⟨S2097152, .i32⟩
  | 99 => ⟨S_, .i32⟩
  | 100 => ⟨S2097152, .i32⟩
  | 101 => ⟨S2097152, .i32⟩
  | 102 => ⟨S2097152, .i32⟩
  | 103 => ⟨S_, .i32⟩
  | 104 => ⟨S2097152, .i32⟩
  | 105 => ⟨S2097152, .i32⟩
  | 106 => ⟨S2097152, .i32⟩
  | 107 => ⟨S2097152, .i32⟩
  | 108 => ⟨S2097152, .i32⟩
  | 109 => ⟨S_, .i32⟩
  | 110 => ⟨S2097152, .i32⟩
  | 111 => ⟨S2097152, .i1⟩
  | 112 => ⟨S_, .i32⟩
  | 113 => ⟨S2097152, .i32⟩
  | 114 => ⟨S2097152, .i32⟩
  | 115 => ⟨S2097152, .i32⟩
  | 116 => ⟨S2097152x1, .i32⟩
  | 117 => ⟨S1, .i32⟩
  | 118 => ⟨S_, .i32⟩
  | 119 => ⟨S2097152x1, .i32⟩
  | 120 => ⟨S2097152x1, .i1⟩
  | 121 => ⟨S1x1, .i32⟩
  | 122 => ⟨S2097152x1, .i32⟩
  | 123 => ⟨S2097152x1, .i1⟩
  | 124 => ⟨S2097152x1, .i1⟩
  | 125 => ⟨S_, .i1⟩
  | 126 => ⟨S2097152, .i1⟩
  | 127 => ⟨S8x2097152, .f32⟩
  | _ => ⟨S8x128x128x128x1, .f32⟩

abbrev hbmTy0_1 (i : Nat) : BufTy := match i % 128 with
  | 0 => ⟨S8x2097152, .i1⟩
  | 1 => ⟨S_, .f32⟩
  | 2 => ⟨S8x2097152, .f32⟩
  | 3 => ⟨S8x2097152, .f32⟩
  | 4 => ⟨S1x2097152, .f32⟩
  | 5 => ⟨S8x2097152, .f32⟩
  | 6 => ⟨S8x2097152, .f32⟩
  | 7 => ⟨S8x2097152, .f32⟩
  | 8 => ⟨S2097152, .f32⟩
  | 9 => ⟨S_, .f32⟩
  | 10 => ⟨S2097152, .f32⟩
  | 11 => ⟨S2097152, .f32⟩
  | 12 => ⟨S_, .f32⟩
  | 13 => ⟨S_, .i32⟩
  | 14 => ⟨S_, .f32⟩
  | 15 => ⟨S2097152, .f32⟩
  | 16 => ⟨S2097152, .f32⟩
  | 17 => ⟨S_, .f32⟩
  | 18 => ⟨S2097152, .f32⟩
  | 19 => ⟨S2097152, .f32⟩
  | 20 => ⟨S_, .f32⟩
  | 21 => ⟨S2097152, .f32⟩
  | 22 => ⟨S2097152, .f32⟩
  | 23 => ⟨S_, .f32⟩
  | 24 => ⟨S_, .i32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S_, .i32⟩
  | 36 => ⟨S_, .f32⟩
  | 37 => ⟨S2097152, .f32⟩
  | 38 => ⟨S2097152, .f32⟩
  | 39 => ⟨S_, .f32⟩
  | 40 => ⟨S2097152, .f32⟩
  | 41 => ⟨S2097152, .f32⟩
  | 42 => ⟨S2097152, .f32⟩
  | 43 => ⟨S2097152, .f32⟩
  | 44 => ⟨S_, .f32⟩
  | 45 => ⟨S2097152, .f32⟩
  | 46 => ⟨S2097152, .f32⟩
  | 47 => ⟨S2097152, .f32⟩
  | 48 => ⟨S2097152, .f32⟩
  | 49 => ⟨S_, .f32⟩
  | 50 => ⟨S2097152, .f32⟩
  | 51 => ⟨S2097152, .f32⟩
  | 52 => ⟨S2097152, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S2097152, .f32⟩
  | 59 => ⟨S2097152, .i32⟩
  | 60 => ⟨S_, .i32⟩
  | 61 => ⟨S2097152, .i32⟩
  | 62 => ⟨S2097152, .i32⟩
  | 63 => ⟨S2097152, .i32⟩
  | 64 => ⟨S_, .i32⟩
  | 65 => ⟨S2097152, .i32⟩
  | 66 => ⟨S2097152, .i32⟩
  | 67 => ⟨S2097152, .i32⟩
  | 68 => ⟨S2097152, .i32⟩
  | 69 => ⟨S2097152, .i32⟩
  | 70 => ⟨S_, .i32⟩
  | 71 => ⟨S2097152, .i32⟩
  | 72 => ⟨S2097152, .i1⟩
  | 73 => ⟨S_, .i32⟩
  | 74 => ⟨S2097152, .i32⟩
  | 75 => ⟨S2097152, .i32⟩
  | 76 => ⟨S2097152, .i32⟩
  | 77 => ⟨S2097152x1, .i32⟩
  | 78 => ⟨S1, .i32⟩
  | 79 => ⟨S_, .i32⟩
  | 80 => ⟨S2097152x1, .i32⟩
  | 81 => ⟨S2097152x1, .i1⟩
  | 82 => ⟨S1x1, .i32⟩
  | 83 => ⟨S2097152x1, .i32⟩
  | 84 => ⟨S2097152x1, .i1⟩
  | 85 => ⟨S2097152x1, .i1⟩
  | 86 => ⟨S_, .i1⟩
  | 87 => ⟨S2097152, .i1⟩
  | 88 => ⟨S8x2097152, .f32⟩
  | 89 => ⟨S8x2097152, .i1⟩
  | 90 => ⟨S_, .f32⟩
  | 91 => ⟨S8x2097152, .f32⟩
  | 92 => ⟨S8x2097152, .f32⟩
  | 93 => ⟨S1x2097152, .f32⟩
  | 94 => ⟨S8x2097152, .f32⟩
  | 95 => ⟨S8x2097152, .f32⟩
  | 96 => ⟨S8x2097152, .f32⟩
  | 97 => ⟨S2097152, .f32⟩
  | 98 => ⟨S_, .f32⟩
  | 99 => ⟨S2097152, .f32⟩
  | 100 => ⟨S2097152, .f32⟩
  | 101 => ⟨S_, .f32⟩
  | 102 => ⟨S_, .i32⟩
  | 103 => ⟨S_, .f32⟩
  | 104 => ⟨S2097152, .f32⟩
  | 105 => ⟨S2097152, .f32⟩
  | 106 => ⟨S_, .f32⟩
  | 107 => ⟨S2097152, .f32⟩
  | 108 => ⟨S2097152, .f32⟩
  | 109 => ⟨S_, .f32⟩
  | 110 => ⟨S2097152, .f32⟩
  | 111 => ⟨S2097152, .f32⟩
  | 112 => ⟨S_, .f32⟩
  | 113 => ⟨S_, .i32⟩
  | 114 => ⟨S_, .f32⟩
  | 115 => ⟨S2097152, .f32⟩
  | 116 => ⟨S2097152, .f32⟩
  | 117 => ⟨S_, .f32⟩
  | 118 => ⟨S2097152, .f32⟩
  | 119 => ⟨S2097152, .f32⟩
  | 120 => ⟨S_, .f32⟩
  | 121 => ⟨S2097152, .f32⟩
  | 122 => ⟨S2097152, .f32⟩
  | 123 => ⟨S_, .f32⟩
  | 124 => ⟨S_, .i32⟩
  | 125 => ⟨S_, .f32⟩
  | 126 => ⟨S2097152, .f32⟩
  | 127 => ⟨S2097152, .f32⟩
  | _ => ⟨S8x128x128x128x1, .f32⟩

abbrev hbmTy0_2 (i : Nat) : BufTy := match i % 128 with
  | 0 => ⟨S_, .f32⟩
  | 1 => ⟨S2097152, .f32⟩
  | 2 => ⟨S2097152, .f32⟩
  | 3 => ⟨S2097152, .f32⟩
  | 4 => ⟨S2097152, .f32⟩
  | 5 => ⟨S_, .f32⟩
  | 6 => ⟨S2097152, .f32⟩
  | 7 => ⟨S2097152, .f32⟩
  | 8 => ⟨S2097152, .f32⟩
  | 9 => ⟨S2097152, .f32⟩
  | 10 => ⟨S_, .f32⟩
  | 11 => ⟨S2097152, .f32⟩
  | 12 => ⟨S2097152, .f32⟩
  | 13 => ⟨S2097152, .f32⟩
  | 14 => ⟨S2097152, .f32⟩
  | 15 => ⟨S2097152, .f32⟩
  | 16 => ⟨S_, .f32⟩
  | 17 => ⟨S2097152, .f32⟩
  | 18 => ⟨S2097152, .f32⟩
  | 19 => ⟨S2097152, .f32⟩
  | 20 => ⟨S2097152, .i32⟩
  | 21 => ⟨S_, .i32⟩
  | 22 => ⟨S2097152, .i32⟩
  | 23 => ⟨S2097152, .i32⟩
  | 24 => ⟨S2097152, .i32⟩
  | 25 => ⟨S_, .i32⟩
  | 26 => ⟨S2097152, .i32⟩
  | 27 => ⟨S2097152, .i32⟩
  | 28 => ⟨S2097152, .i32⟩
  | 29 => ⟨S2097152, .i32⟩
  | 30 => ⟨S2097152, .i32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S2097152x1, .i32⟩
  | 39 => ⟨S1, .i32⟩
  | 40 => ⟨S_, .i32⟩
  | 41 => ⟨S2097152x1, .i32⟩
  | 42 => ⟨S2097152x1, .i1⟩
  | 43 => ⟨S1x1, .i32⟩
  | 44 => ⟨S2097152x1, .i32⟩
  | 45 => ⟨S2097152x1, .i1⟩
  | 46 => ⟨S2097152x1, .i1⟩
  | 47 => ⟨S_, .i1⟩
  | 48 => ⟨S2097152, .i1⟩
  | 49 => ⟨S8x2097152, .f32⟩
  | 50 => ⟨S8x2097152, .i1⟩
  | 51 => ⟨S_, .f32⟩
  | 52 => ⟨S8x2097152, .f32⟩
  | 53 => ⟨S8x2097152, .f32⟩
  | 54 => ⟨S1x2097152, .f32⟩
  | 55 => ⟨S8x2097152, .f32⟩
  | 56 => ⟨S8x2097152, .f32⟩
  | 57 => ⟨S8x2097152, .f32⟩
  | 58 => ⟨S2097152, .f32⟩
  | 59 => ⟨S_, .f32⟩
  | 60 => ⟨S2097152, .f32⟩
  | 61 => ⟨S2097152, .f32⟩
  | 62 => ⟨S_, .f32⟩
  | 63 => ⟨S_, .i32⟩
  | 64 => ⟨S_, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S_, .f32⟩
  | 71 => ⟨S2097152, .f32⟩
  | 72 => ⟨S2097152, .f32⟩
  | 73 => ⟨S_, .f32⟩
  | 74 => ⟨S_, .i32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S_, .f32⟩
  | 82 => ⟨S2097152, .f32⟩
  | 83 => ⟨S2097152, .f32⟩
  | 84 => ⟨S_, .f32⟩
  | 85 => ⟨S_, .i32⟩
  | 86 => ⟨S_, .f32⟩
  | 87 => ⟨S2097152, .f32⟩
  | 88 => ⟨S2097152, .f32⟩
  | 89 => ⟨S_, .f32⟩
  | 90 => ⟨S2097152, .f32⟩
  | 91 => ⟨S2097152, .f32⟩
  | 92 => ⟨S2097152, .f32⟩
  | 93 => ⟨S2097152, .f32⟩
  | 94 => ⟨S_, .f32⟩
  | 95 => ⟨S2097152, .f32⟩
  | 96 => ⟨S2097152, .f32⟩
  | 97 => ⟨S2097152, .f32⟩
  | 98 => ⟨S2097152, .f32⟩
  | 99 => ⟨S_, .f32⟩
  | 100 => ⟨S2097152, .f32⟩
  | 101 => ⟨S2097152, .f32⟩
  | 102 => ⟨S2097152, .f32⟩
  | 103 => ⟨S2097152, .f32⟩
  | 104 => ⟨S2097152, .f32⟩
  | 105 => ⟨S_, .f32⟩
  | 106 => ⟨S2097152, .f32⟩
  | 107 => ⟨S2097152, .f32⟩
  | 108 => ⟨S2097152, .f32⟩
  | 109 => ⟨S2097152, .i32⟩
  | 110 => ⟨S_, .i32⟩
  | 111 => ⟨S2097152, .i32⟩
  | 112 => ⟨S2097152, .i32⟩
  | 113 => ⟨S2097152, .i32⟩
  | 114 => ⟨S_, .i32⟩
  | 115 => ⟨S2097152, .i32⟩
  | 116 => ⟨S2097152, .i32⟩
  | 117 => ⟨S2097152, .i32⟩
  | 118 => ⟨S2097152, .i32⟩
  | 119 => ⟨S2097152, .i32⟩
  | 120 => ⟨S_, .i32⟩
  | 121 => ⟨S2097152, .i32⟩
  | 122 => ⟨S2097152, .i1⟩
  | 123 => ⟨S_, .i32⟩
  | 124 => ⟨S2097152, .i32⟩
  | 125 => ⟨S2097152, .i32⟩
  | 126 => ⟨S2097152, .i32⟩
  | 127 => ⟨S2097152x1, .i32⟩
  | _ => ⟨S8x128x128x128x1, .f32⟩

abbrev hbmTy0_3 (i : Nat) : BufTy := match i % 128 with
  | 0 => ⟨S1, .i32⟩
  | 1 => ⟨S_, .i32⟩
  | 2 => ⟨S2097152x1, .i32⟩
  | 3 => ⟨S2097152x1, .i1⟩
  | 4 => ⟨S1x1, .i32⟩
  | 5 => ⟨S2097152x1, .i32⟩
  | 6 => ⟨S2097152x1, .i1⟩
  | 7 => ⟨S2097152x1, .i1⟩
  | 8 => ⟨S_, .i1⟩
  | 9 => ⟨S2097152, .i1⟩
  | 10 => ⟨S8x2097152, .f32⟩
  | 11 => ⟨S8x2097152, .i1⟩
  | 12 => ⟨S_, .f32⟩
  | 13 => ⟨S8x2097152, .f32⟩
  | 14 => ⟨S8x2097152, .f32⟩
  | 15 => ⟨S1x2097152, .f32⟩
  | 16 => ⟨S8x2097152, .f32⟩
  | 17 => ⟨S8x2097152, .f32⟩
  | 18 => ⟨S8x2097152, .f32⟩
  | 19 => ⟨S2097152, .f32⟩
  | 20 => ⟨S_, .f32⟩
  | 21 => ⟨S2097152, .f32⟩
  | 22 => ⟨S2097152, .f32⟩
  | 23 => ⟨S_, .f32⟩
  | 24 => ⟨S_, .i32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S_, .i32⟩
  | 36 => ⟨S_, .f32⟩
  | 37 => ⟨S2097152, .f32⟩
  | 38 => ⟨S2097152, .f32⟩
  | 39 => ⟨S_, .f32⟩
  | 40 => ⟨S2097152, .f32⟩
  | 41 => ⟨S2097152, .f32⟩
  | 42 => ⟨S_, .f32⟩
  | 43 => ⟨S2097152, .f32⟩
  | 44 => ⟨S2097152, .f32⟩
  | 45 => ⟨S_, .f32⟩
  | 46 => ⟨S_, .i32⟩
  | 47 => ⟨S_, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S2097152, .f32⟩
  | 59 => ⟨S2097152, .f32⟩
  | 60 => ⟨S_, .f32⟩
  | 61 => ⟨S2097152, .f32⟩
  | 62 => ⟨S2097152, .f32⟩
  | 63 => ⟨S2097152, .f32⟩
  | 64 => ⟨S2097152, .f32⟩
  | 65 => ⟨S2097152, .f32⟩
  | 66 => ⟨S_, .f32⟩
  | 67 => ⟨S2097152, .f32⟩
  | 68 => ⟨S2097152, .f32⟩
  | 69 => ⟨S2097152, .f32⟩
  | 70 => ⟨S2097152, .i32⟩
  | 71 => ⟨S_, .i32⟩
  | 72 => ⟨S2097152, .i32⟩
  | 73 => ⟨S2097152, .i32⟩
  | 74 => ⟨S2097152, .i32⟩
  | 75 => ⟨S_, .i32⟩
  | 76 => ⟨S2097152, .i32⟩
  | 77 => ⟨S2097152, .i32⟩
  | 78 => ⟨S2097152, .i32⟩
  | 79 => ⟨S2097152, .i32⟩
  | 80 => ⟨S2097152, .i32⟩
  | 81 => ⟨S_, .i32⟩
  | 82 => ⟨S2097152, .i32⟩
  | 83 => ⟨S2097152, .i1⟩
  | 84 => ⟨S_, .i32⟩
  | 85 => ⟨S2097152, .i32⟩
  | 86 => ⟨S2097152, .i32⟩
  | 87 => ⟨S2097152, .i32⟩
  | 88 => ⟨S2097152x1, .i32⟩
  | 89 => ⟨S1, .i32⟩
  | 90 => ⟨S_, .i32⟩
  | 91 => ⟨S2097152x1, .i32⟩
  | 92 => ⟨S2097152x1, .i1⟩
  | 93 => ⟨S1x1, .i32⟩
  | 94 => ⟨S2097152x1, .i32⟩
  | 95 => ⟨S2097152x1, .i1⟩
  | 96 => ⟨S2097152x1, .i1⟩
  | 97 => ⟨S_, .i1⟩
  | 98 => ⟨S2097152, .i1⟩
  | 99 => ⟨S8x2097152, .f32⟩
  | 100 => ⟨S8x2097152, .i1⟩
  | 101 => ⟨S_, .f32⟩
  | 102 => ⟨S8x2097152, .f32⟩
  | 103 => ⟨S8x2097152, .f32⟩
  | 104 => ⟨S1x2097152, .f32⟩
  | 105 => ⟨S8x2097152, .f32⟩
  | 106 => ⟨S8x2097152, .f32⟩
  | 107 => ⟨S8x2097152, .f32⟩
  | 108 => ⟨S2097152, .f32⟩
  | 109 => ⟨S_, .f32⟩
  | 110 => ⟨S2097152, .f32⟩
  | 111 => ⟨S2097152, .f32⟩
  | 112 => ⟨S_, .f32⟩
  | 113 => ⟨S_, .i32⟩
  | 114 => ⟨S_, .f32⟩
  | 115 => ⟨S2097152, .f32⟩
  | 116 => ⟨S2097152, .f32⟩
  | 117 => ⟨S_, .f32⟩
  | 118 => ⟨S2097152, .f32⟩
  | 119 => ⟨S2097152, .f32⟩
  | 120 => ⟨S_, .f32⟩
  | 121 => ⟨S2097152, .f32⟩
  | 122 => ⟨S2097152, .f32⟩
  | 123 => ⟨S_, .f32⟩
  | 124 => ⟨S_, .i32⟩
  | 125 => ⟨S_, .f32⟩
  | 126 => ⟨S2097152, .f32⟩
  | 127 => ⟨S2097152, .f32⟩
  | _ => ⟨S8x128x128x128x1, .f32⟩

abbrev hbmTy0_4 (i : Nat) : BufTy := match i % 128 with
  | 0 => ⟨S_, .f32⟩
  | 1 => ⟨S2097152, .f32⟩
  | 2 => ⟨S2097152, .f32⟩
  | 3 => ⟨S_, .f32⟩
  | 4 => ⟨S2097152, .f32⟩
  | 5 => ⟨S2097152, .f32⟩
  | 6 => ⟨S_, .f32⟩
  | 7 => ⟨S_, .i32⟩
  | 8 => ⟨S_, .f32⟩
  | 9 => ⟨S2097152, .f32⟩
  | 10 => ⟨S2097152, .f32⟩
  | 11 => ⟨S_, .f32⟩
  | 12 => ⟨S2097152, .f32⟩
  | 13 => ⟨S2097152, .f32⟩
  | 14 => ⟨S2097152, .f32⟩
  | 15 => ⟨S2097152, .f32⟩
  | 16 => ⟨S_, .f32⟩
  | 17 => ⟨S2097152, .f32⟩
  | 18 => ⟨S2097152, .f32⟩
  | 19 => ⟨S2097152, .f32⟩
  | 20 => ⟨S2097152, .f32⟩
  | 21 => ⟨S_, .f32⟩
  | 22 => ⟨S2097152, .f32⟩
  | 23 => ⟨S2097152, .f32⟩
  | 24 => ⟨S2097152, .f32⟩
  | 25 => ⟨S2097152, .f32⟩
  | 26 => ⟨S2097152, .f32⟩
  | 27 => ⟨S_, .f32⟩
  | 28 => ⟨S2097152, .f32⟩
  | 29 => ⟨S2097152, .f32⟩
  | 30 => ⟨S2097152, .f32⟩
  | 31 => ⟨S2097152, .i32⟩
  | 32 => ⟨S_, .i32⟩
  | 33 => ⟨S2097152, .i32⟩
  | 34 => ⟨S2097152, .i32⟩
  | 35 => ⟨S2097152, .i32⟩
  | 36 => ⟨S_, .i32⟩
  | 37 => ⟨S2097152, .i32⟩
  | 38 => ⟨S2097152, .i32⟩
  | 39 => ⟨S2097152, .i32⟩
  | 40 => ⟨S2097152, .i32⟩
  | 41 => ⟨S2097152, .i32⟩
  | 42 => ⟨S_, .i32⟩
  | 43 => ⟨S2097152, .i32⟩
  | 44 => ⟨S2097152, .i1⟩
  | 45 => ⟨S_, .i32⟩
  | 46 => ⟨S2097152, .i32⟩
  | 47 => ⟨S2097152, .i32⟩
  | 48 => ⟨S2097152, .i32⟩
  | 49 => ⟨S2097152x1, .i32⟩
  | 50 => ⟨S1, .i32⟩
  | 51 => ⟨S_, .i32⟩
  | 52 => ⟨S2097152x1, .i32⟩
  | 53 => ⟨S2097152x1, .i1⟩
  | 54 => ⟨S1x1, .i32⟩
  | 55 => ⟨S2097152x1, .i32⟩
  | 56 => ⟨S2097152x1, .i1⟩
  | 57 => ⟨S2097152x1, .i1⟩
  | 58 => ⟨S_, .i1⟩
  | 59 => ⟨S2097152, .i1⟩
  | 60 => ⟨S8x2097152, .f32⟩
  | 61 => ⟨S8x2097152, .i1⟩
  | 62 => ⟨S_, .f32⟩
  | 63 => ⟨S8x2097152, .f32⟩
  | 64 => ⟨S8x2097152, .f32⟩
  | 65 => ⟨S1x2097152, .f32⟩
  | 66 => ⟨S8x2097152, .f32⟩
  | 67 => ⟨S8x2097152, .f32⟩
  | 68 => ⟨S8x2097152, .f32⟩
  | 69 => ⟨S2097152, .f32⟩
  | 70 => ⟨S_, .f32⟩
  | 71 => ⟨S2097152, .f32⟩
  | 72 => ⟨S2097152, .f32⟩
  | 73 => ⟨S_, .f32⟩
  | 74 => ⟨S_, .i32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S_, .f32⟩
  | 82 => ⟨S2097152, .f32⟩
  | 83 => ⟨S2097152, .f32⟩
  | 84 => ⟨S_, .f32⟩
  | 85 => ⟨S_, .i32⟩
  | 86 => ⟨S_, .f32⟩
  | 87 => ⟨S2097152, .f32⟩
  | 88 => ⟨S2097152, .f32⟩
  | 89 => ⟨S_, .f32⟩
  | 90 => ⟨S2097152, .f32⟩
  | 91 => ⟨S2097152, .f32⟩
  | 92 => ⟨S_, .f32⟩
  | 93 => ⟨S2097152, .f32⟩
  | 94 => ⟨S2097152, .f32⟩
  | 95 => ⟨S_, .f32⟩
  | 96 => ⟨S_, .i32⟩
  | 97 => ⟨S_, .f32⟩
  | 98 => ⟨S2097152, .f32⟩
  | 99 => ⟨S2097152, .f32⟩
  | 100 => ⟨S_, .f32⟩
  | 101 => ⟨S2097152, .f32⟩
  | 102 => ⟨S2097152, .f32⟩
  | 103 => ⟨S2097152, .f32⟩
  | 104 => ⟨S2097152, .f32⟩
  | 105 => ⟨S_, .f32⟩
  | 106 => ⟨S2097152, .f32⟩
  | 107 => ⟨S2097152, .f32⟩
  | 108 => ⟨S2097152, .f32⟩
  | 109 => ⟨S2097152, .f32⟩
  | 110 => ⟨S_, .f32⟩
  | 111 => ⟨S2097152, .f32⟩
  | 112 => ⟨S2097152, .f32⟩
  | 113 => ⟨S2097152, .f32⟩
  | 114 => ⟨S2097152, .f32⟩
  | 115 => ⟨S2097152, .f32⟩
  | 116 => ⟨S_, .f32⟩
  | 117 => ⟨S2097152, .f32⟩
  | 118 => ⟨S2097152, .f32⟩
  | 119 => ⟨S2097152, .f32⟩
  | 120 => ⟨S2097152, .i32⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i32⟩
  | _ => ⟨S8x128x128x128x1, .f32⟩

abbrev hbmTy0_5 (i : Nat) : BufTy := match i % 128 with
  | 0 => ⟨S2097152, .i32⟩
  | 1 => ⟨S2097152, .i32⟩
  | 2 => ⟨S2097152, .i32⟩
  | 3 => ⟨S_, .i32⟩
  | 4 => ⟨S2097152, .i32⟩
  | 5 => ⟨S2097152, .i1⟩
  | 6 => ⟨S_, .i32⟩
  | 7 => ⟨S2097152, .i32⟩
  | 8 => ⟨S2097152, .i32⟩
  | 9 => ⟨S2097152, .i32⟩
  | 10 => ⟨S2097152x1, .i32⟩
  | 11 => ⟨S1, .i32⟩
  | 12 => ⟨S_, .i32⟩
  | 13 => ⟨S2097152x1, .i32⟩
  | 14 => ⟨S2097152x1, .i1⟩
  | 15 => ⟨S1x1, .i32⟩
  | 16 => ⟨S2097152x1, .i32⟩
  | 17 => ⟨S2097152x1, .i1⟩
  | 18 => ⟨S2097152x1, .i1⟩
  | 19 => ⟨S_, .i1⟩
  | 20 => ⟨S2097152, .i1⟩
  | 21 => ⟨S8x2097152, .f32⟩
  | 22 => ⟨S8x2097152, .i1⟩
  | 23 => ⟨S_, .f32⟩
  | 24 => ⟨S8x2097152, .f32⟩
  | 25 => ⟨S8x2097152, .f32⟩
  | 26 => ⟨S1x2097152, .f32⟩
  | 27 => ⟨S8x2097152, .f32⟩
  | 28 => ⟨S8x2097152, .f32⟩
  | 29 => ⟨S8x2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S_, .i32⟩
  | 36 => ⟨S_, .f32⟩
  | 37 => ⟨S2097152, .f32⟩
  | 38 => ⟨S2097152, .f32⟩
  | 39 => ⟨S_, .f32⟩
  | 40 => ⟨S2097152, .f32⟩
  | 41 => ⟨S2097152, .f32⟩
  | 42 => ⟨S_, .f32⟩
  | 43 => ⟨S2097152, .f32⟩
  | 44 => ⟨S2097152, .f32⟩
  | 45 => ⟨S_, .f32⟩
  | 46 => ⟨S_, .i32⟩
  | 47 => ⟨S_, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S_, .f32⟩
  | 54 => ⟨S2097152, .f32⟩
  | 55 => ⟨S2097152, .f32⟩
  | 56 => ⟨S_, .f32⟩
  | 57 => ⟨S_, .i32⟩
  | 58 => ⟨S_, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S2097152, .f32⟩
  | 65 => ⟨S2097152, .f32⟩
  | 66 => ⟨S_, .f32⟩
  | 67 => ⟨S2097152, .f32⟩
  | 68 => ⟨S2097152, .f32⟩
  | 69 => ⟨S2097152, .f32⟩
  | 70 => ⟨S2097152, .f32⟩
  | 71 => ⟨S_, .f32⟩
  | 72 => ⟨S2097152, .f32⟩
  | 73 => ⟨S2097152, .f32⟩
  | 74 => ⟨S2097152, .f32⟩
  | 75 => ⟨S2097152, .f32⟩
  | 76 => ⟨S2097152, .f32⟩
  | 77 => ⟨S_, .f32⟩
  | 78 => ⟨S2097152, .f32⟩
  | 79 => ⟨S2097152, .f32⟩
  | 80 => ⟨S2097152, .f32⟩
  | 81 => ⟨S2097152, .i32⟩
  | 82 => ⟨S_, .i32⟩
  | 83 => ⟨S2097152, .i32⟩
  | 84 => ⟨S2097152, .i32⟩
  | 85 => ⟨S2097152, .i32⟩
  | 86 => ⟨S_, .i32⟩
  | 87 => ⟨S2097152, .i32⟩
  | 88 => ⟨S2097152, .i32⟩
  | 89 => ⟨S2097152, .i32⟩
  | 90 => ⟨S2097152, .i32⟩
  | 91 => ⟨S2097152, .i32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S2097152x1, .i32⟩
  | 100 => ⟨S1, .i32⟩
  | 101 => ⟨S_, .i32⟩
  | 102 => ⟨S2097152x1, .i32⟩
  | 103 => ⟨S2097152x1, .i1⟩
  | 104 => ⟨S1x1, .i32⟩
  | 105 => ⟨S2097152x1, .i32⟩
  | 106 => ⟨S2097152x1, .i1⟩
  | 107 => ⟨S2097152x1, .i1⟩
  | 108 => ⟨S_, .i1⟩
  | 109 => ⟨S2097152, .i1⟩
  | 110 => ⟨S8x2097152, .f32⟩
  | 111 => ⟨S8x2097152, .i1⟩
  | 112 => ⟨S_, .f32⟩
  | 113 => ⟨S8x2097152, .f32⟩
  | 114 => ⟨S8x2097152, .f32⟩
  | 115 => ⟨S1x2097152, .f32⟩
  | 116 => ⟨S8x2097152, .f32⟩
  | 117 => ⟨S8x2097152, .f32⟩
  | 118 => ⟨S8x2097152, .f32⟩
  | 119 => ⟨S2097152, .f32⟩
  | 120 => ⟨S_, .f32⟩
  | 121 => ⟨S_, .f32⟩
  | 122 => ⟨S_, .f32⟩
  | 123 => ⟨S2097152, .f32⟩
  | 124 => ⟨S2097152, .f32⟩
  | 125 => ⟨S_, .f32⟩
  | 126 => ⟨S2097152, .f32⟩
  | 127 => ⟨S2097152, .f32⟩
  | _ => ⟨S8x128x128x128x1, .f32⟩

abbrev hbmTy0_6 (i : Nat) : BufTy := match i % 128 with
  | 0 => ⟨S1x2097152, .f32⟩
  | 1 => ⟨S8x2097152, .f32⟩
  | 2 => ⟨S8x2097152, .f32⟩
  | 3 => ⟨S8x128x128x128x1, .f32⟩
  | _ => ⟨S8x128x128x128x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x128x128x128x1, .f32⟩

abbrev bufTy : (tb : Table) → Fin (tcTables nBuf tb) → BufTy
  | .hbm, ⟨i, _⟩ => hbmTy i
  | _, _ => ⟨S8x128x128x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_cst_0 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_cst_2 : Ref sig .tc := ⟨.hbm, 33, rfl⟩
abbrev main_c_3 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_v17 : Ref sig .tc := ⟨.hbm, 45, rfl⟩
abbrev main_cst_5 : Ref sig .tc := ⟨.hbm, 46, rfl⟩
abbrev main_v18 : Ref sig .tc := ⟨.hbm, 47, rfl⟩
abbrev main_cst_6 : Ref sig .tc := ⟨.hbm, 48, rfl⟩
abbrev main_v19 : Ref sig .tc := ⟨.hbm, 49, rfl⟩
abbrev main_v20 : Ref sig .tc := ⟨.hbm, 50, rfl⟩
abbrev main_cst_7 : Ref sig .tc := ⟨.hbm, 51, rfl⟩
abbrev main_c_8 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v21 : Ref sig .tc := ⟨.hbm, 58, rfl⟩
abbrev main_cst_9 : Ref sig .tc := ⟨.hbm, 59, rfl⟩
abbrev main_v22 : Ref sig .tc := ⟨.hbm, 60, rfl⟩
abbrev main_v23 : Ref sig .tc := ⟨.hbm, 61, rfl⟩
abbrev main_cst_10 : Ref sig .tc := ⟨.hbm, 62, rfl⟩
abbrev main_c_11 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_v24 : Ref sig .tc := ⟨.hbm, 69, rfl⟩
abbrev main_cst_12 : Ref sig .tc := ⟨.hbm, 70, rfl⟩
abbrev main_v25 : Ref sig .tc := ⟨.hbm, 71, rfl⟩
abbrev main_v26 : Ref sig .tc := ⟨.hbm, 72, rfl⟩
abbrev main_cst_13 : Ref sig .tc := ⟨.hbm, 73, rfl⟩
abbrev main_c_14 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst_15 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_16 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_17 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_c_18 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_c_19 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_call6_c : Ref sig .tc := ⟨.hbm, 109, rfl⟩
abbrev main_call6_v0 : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_v5 : Ref sig .tc := ⟨.hbm, 116, rfl⟩
abbrev main_call6_c_1 : Ref sig .tc := ⟨.hbm, 117, rfl⟩
abbrev main_call6_c_2 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_call6_v10 : Ref sig .tc := ⟨.hbm, 123, rfl⟩
abbrev main_call6_v11 : Ref sig .tc := ⟨.hbm, 124, rfl⟩
abbrev main_call6_c_3 : Ref sig .tc := ⟨.hbm, 125, rfl⟩
abbrev main_call6_v12 : Ref sig .tc := ⟨.hbm, 126, rfl⟩
abbrev main_call6_v13 : Ref sig .tc := ⟨.hbm, 127, rfl⟩
abbrev main_call6_v14 : Ref sig .tc := ⟨.hbm, 128, rfl⟩
abbrev main_call6_cst : Ref sig .tc := ⟨.hbm, 129, rfl⟩
abbrev main_call6_v15 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_cst_20 : Ref sig .tc := ⟨.hbm, 137, rfl⟩
abbrev main_v57 : Ref sig .tc := ⟨.hbm, 138, rfl⟩
abbrev main_v58 : Ref sig .tc := ⟨.hbm, 139, rfl⟩
abbrev main_cst_21 : Ref sig .tc := ⟨.hbm, 140, rfl⟩
abbrev main_c_22 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_v59 : Ref sig .tc := ⟨.hbm, 147, rfl⟩
abbrev main_cst_23 : Ref sig .tc := ⟨.hbm, 148, rfl⟩
abbrev main_v60 : Ref sig .tc := ⟨.hbm, 149, rfl⟩
abbrev main_v61 : Ref sig .tc := ⟨.hbm, 150, rfl⟩
abbrev main_cst_24 : Ref sig .tc := ⟨.hbm, 151, rfl⟩
abbrev main_c_25 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_v62 : Ref sig .tc := ⟨.hbm, 158, rfl⟩
abbrev main_cst_26 : Ref sig .tc := ⟨.hbm, 159, rfl⟩
abbrev main_v63 : Ref sig .tc := ⟨.hbm, 160, rfl⟩
abbrev main_v64 : Ref sig .tc := ⟨.hbm, 161, rfl⟩
abbrev main_cst_27 : Ref sig .tc := ⟨.hbm, 162, rfl⟩
abbrev main_c_28 : Ref sig .tc := ⟨.hbm, 163, rfl⟩
abbrev main_call9_v0 : Ref sig .tc := ⟨.hbm, 164, rfl⟩
abbrev main_call9_v1 : Ref sig .tc := ⟨.hbm, 165, rfl⟩
abbrev main_call9_v2 : Ref sig .tc := ⟨.hbm, 166, rfl⟩
abbrev main_call9_v3 : Ref sig .tc := ⟨.hbm, 167, rfl⟩
abbrev main_call9_v4 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_cst_29 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_cst_30 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_cst_31 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_c_32 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_c_33 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_call10_c : Ref sig .tc := ⟨.hbm, 198, rfl⟩
abbrev main_call10_v0 : Ref sig .tc := ⟨.hbm, 199, rfl⟩
abbrev main_call10_v1 : Ref sig .tc := ⟨.hbm, 200, rfl⟩
abbrev main_call10_c_0 : Ref sig .tc := ⟨.hbm, 201, rfl⟩
abbrev main_call10_v2 : Ref sig .tc := ⟨.hbm, 202, rfl⟩
abbrev main_call10_v3 : Ref sig .tc := ⟨.hbm, 203, rfl⟩
abbrev main_call10_v4 : Ref sig .tc := ⟨.hbm, 204, rfl⟩
abbrev main_call10_v5 : Ref sig .tc := ⟨.hbm, 205, rfl⟩
abbrev main_call10_c_1 : Ref sig .tc := ⟨.hbm, 206, rfl⟩
abbrev main_call10_c_2 : Ref sig .tc := ⟨.hbm, 207, rfl⟩
abbrev main_call10_v6 : Ref sig .tc := ⟨.hbm, 208, rfl⟩
abbrev main_call10_v7 : Ref sig .tc := ⟨.hbm, 209, rfl⟩
abbrev main_call10_v8 : Ref sig .tc := ⟨.hbm, 210, rfl⟩
abbrev main_call10_v9 : Ref sig .tc := ⟨.hbm, 211, rfl⟩
abbrev main_call10_v10 : Ref sig .tc := ⟨.hbm, 212, rfl⟩
abbrev main_call10_v11 : Ref sig .tc := ⟨.hbm, 213, rfl⟩
abbrev main_call10_c_3 : Ref sig .tc := ⟨.hbm, 214, rfl⟩
abbrev main_call10_v12 : Ref sig .tc := ⟨.hbm, 215, rfl⟩
abbrev main_call10_v13 : Ref sig .tc := ⟨.hbm, 216, rfl⟩
abbrev main_call10_v14 : Ref sig .tc := ⟨.hbm, 217, rfl⟩
abbrev main_call10_cst : Ref sig .tc := ⟨.hbm, 218, rfl⟩
abbrev main_call10_v15 : Ref sig .tc := ⟨.hbm, 219, rfl⟩
abbrev main_v89 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_cst_34 : Ref sig .tc := ⟨.hbm, 226, rfl⟩
abbrev main_v95 : Ref sig .tc := ⟨.hbm, 227, rfl⟩
abbrev main_v96 : Ref sig .tc := ⟨.hbm, 228, rfl⟩
abbrev main_cst_35 : Ref sig .tc := ⟨.hbm, 229, rfl⟩
abbrev main_c_36 : Ref sig .tc := ⟨.hbm, 230, rfl⟩
abbrev main_call11_v0 : Ref sig .tc := ⟨.hbm, 231, rfl⟩
abbrev main_call11_v1 : Ref sig .tc := ⟨.hbm, 232, rfl⟩
abbrev main_call11_v2 : Ref sig .tc := ⟨.hbm, 233, rfl⟩
abbrev main_call11_v3 : Ref sig .tc := ⟨.hbm, 234, rfl⟩
abbrev main_call11_v4 : Ref sig .tc := ⟨.hbm, 235, rfl⟩
abbrev main_v97 : Ref sig .tc := ⟨.hbm, 236, rfl⟩
abbrev main_cst_37 : Ref sig .tc := ⟨.hbm, 237, rfl⟩
abbrev main_v98 : Ref sig .tc := ⟨.hbm, 238, rfl⟩
abbrev main_v99 : Ref sig .tc := ⟨.hbm, 239, rfl⟩
abbrev main_cst_38 : Ref sig .tc := ⟨.hbm, 240, rfl⟩
abbrev main_c_39 : Ref sig .tc := ⟨.hbm, 241, rfl⟩
abbrev main_call12_v0 : Ref sig .tc := ⟨.hbm, 242, rfl⟩
abbrev main_call12_v1 : Ref sig .tc := ⟨.hbm, 243, rfl⟩
abbrev main_call12_v2 : Ref sig .tc := ⟨.hbm, 244, rfl⟩
abbrev main_call12_v3 : Ref sig .tc := ⟨.hbm, 245, rfl⟩
abbrev main_call12_v4 : Ref sig .tc := ⟨.hbm, 246, rfl⟩
abbrev main_v100 : Ref sig .tc := ⟨.hbm, 247, rfl⟩
abbrev main_cst_40 : Ref sig .tc := ⟨.hbm, 248, rfl⟩
abbrev main_v101 : Ref sig .tc := ⟨.hbm, 249, rfl⟩
abbrev main_v102 : Ref sig .tc := ⟨.hbm, 250, rfl⟩
abbrev main_cst_41 : Ref sig .tc := ⟨.hbm, 251, rfl⟩
abbrev main_c_42 : Ref sig .tc := ⟨.hbm, 252, rfl⟩
abbrev main_call13_v0 : Ref sig .tc := ⟨.hbm, 253, rfl⟩
abbrev main_call13_v1 : Ref sig .tc := ⟨.hbm, 254, rfl⟩
abbrev main_call13_v2 : Ref sig .tc := ⟨.hbm, 255, rfl⟩
abbrev main_call13_v3 : Ref sig .tc := ⟨.hbm, 256, rfl⟩
abbrev main_call13_v4 : Ref sig .tc := ⟨.hbm, 257, rfl⟩
abbrev main_v103 : Ref sig .tc := ⟨.hbm, 258, rfl⟩
abbrev main_v104 : Ref sig .tc := ⟨.hbm, 259, rfl⟩
abbrev main_v105 : Ref sig .tc := ⟨.hbm, 260, rfl⟩
abbrev main_cst_43 : Ref sig .tc := ⟨.hbm, 261, rfl⟩
abbrev main_v106 : Ref sig .tc := ⟨.hbm, 262, rfl⟩
abbrev main_v107 : Ref sig .tc := ⟨.hbm, 263, rfl⟩
abbrev main_v108 : Ref sig .tc := ⟨.hbm, 264, rfl⟩
abbrev main_v109 : Ref sig .tc := ⟨.hbm, 265, rfl⟩
abbrev main_cst_44 : Ref sig .tc := ⟨.hbm, 266, rfl⟩
abbrev main_v110 : Ref sig .tc := ⟨.hbm, 267, rfl⟩
abbrev main_v111 : Ref sig .tc := ⟨.hbm, 268, rfl⟩
abbrev main_v112 : Ref sig .tc := ⟨.hbm, 269, rfl⟩
abbrev main_v113 : Ref sig .tc := ⟨.hbm, 270, rfl⟩
abbrev main_v114 : Ref sig .tc := ⟨.hbm, 271, rfl⟩
abbrev main_cst_45 : Ref sig .tc := ⟨.hbm, 272, rfl⟩
abbrev main_v115 : Ref sig .tc := ⟨.hbm, 273, rfl⟩
abbrev main_v116 : Ref sig .tc := ⟨.hbm, 274, rfl⟩
abbrev main_v117 : Ref sig .tc := ⟨.hbm, 275, rfl⟩
abbrev main_v118 : Ref sig .tc := ⟨.hbm, 276, rfl⟩
abbrev main_c_46 : Ref sig .tc := ⟨.hbm, 277, rfl⟩
abbrev main_v119 : Ref sig .tc := ⟨.hbm, 278, rfl⟩
abbrev main_v120 : Ref sig .tc := ⟨.hbm, 279, rfl⟩
abbrev main_v121 : Ref sig .tc := ⟨.hbm, 280, rfl⟩
abbrev main_c_47 : Ref sig .tc := ⟨.hbm, 281, rfl⟩
abbrev main_v122 : Ref sig .tc := ⟨.hbm, 282, rfl⟩
abbrev main_v123 : Ref sig .tc := ⟨.hbm, 283, rfl⟩
abbrev main_v124 : Ref sig .tc := ⟨.hbm, 284, rfl⟩
abbrev main_v125 : Ref sig .tc := ⟨.hbm, 285, rfl⟩
abbrev main_v126 : Ref sig .tc := ⟨.hbm, 286, rfl⟩
abbrev main_call14_c : Ref sig .tc := ⟨.hbm, 287, rfl⟩
abbrev main_call14_v0 : Ref sig .tc := ⟨.hbm, 288, rfl⟩
abbrev main_call14_v1 : Ref sig .tc := ⟨.hbm, 289, rfl⟩
abbrev main_call14_c_0 : Ref sig .tc := ⟨.hbm, 290, rfl⟩
abbrev main_call14_v2 : Ref sig .tc := ⟨.hbm, 291, rfl⟩
abbrev main_call14_v3 : Ref sig .tc := ⟨.hbm, 292, rfl⟩
abbrev main_call14_v4 : Ref sig .tc := ⟨.hbm, 293, rfl⟩
abbrev main_call14_v5 : Ref sig .tc := ⟨.hbm, 294, rfl⟩
abbrev main_call14_c_1 : Ref sig .tc := ⟨.hbm, 295, rfl⟩
abbrev main_call14_c_2 : Ref sig .tc := ⟨.hbm, 296, rfl⟩
abbrev main_call14_v6 : Ref sig .tc := ⟨.hbm, 297, rfl⟩
abbrev main_call14_v7 : Ref sig .tc := ⟨.hbm, 298, rfl⟩
abbrev main_call14_v8 : Ref sig .tc := ⟨.hbm, 299, rfl⟩
abbrev main_call14_v9 : Ref sig .tc := ⟨.hbm, 300, rfl⟩
abbrev main_call14_v10 : Ref sig .tc := ⟨.hbm, 301, rfl⟩
abbrev main_call14_v11 : Ref sig .tc := ⟨.hbm, 302, rfl⟩
abbrev main_call14_c_3 : Ref sig .tc := ⟨.hbm, 303, rfl⟩
abbrev main_call14_v12 : Ref sig .tc := ⟨.hbm, 304, rfl⟩
abbrev main_call14_v13 : Ref sig .tc := ⟨.hbm, 305, rfl⟩
abbrev main_call14_v14 : Ref sig .tc := ⟨.hbm, 306, rfl⟩
abbrev main_call14_cst : Ref sig .tc := ⟨.hbm, 307, rfl⟩
abbrev main_call14_v15 : Ref sig .tc := ⟨.hbm, 308, rfl⟩
abbrev main_v127 : Ref sig .tc := ⟨.hbm, 309, rfl⟩
abbrev main_v128 : Ref sig .tc := ⟨.hbm, 310, rfl⟩
abbrev main_v129 : Ref sig .tc := ⟨.hbm, 311, rfl⟩
abbrev main_v130 : Ref sig .tc := ⟨.hbm, 312, rfl⟩
abbrev main_v131 : Ref sig .tc := ⟨.hbm, 313, rfl⟩
abbrev main_v132 : Ref sig .tc := ⟨.hbm, 314, rfl⟩
abbrev main_cst_48 : Ref sig .tc := ⟨.hbm, 315, rfl⟩
abbrev main_v133 : Ref sig .tc := ⟨.hbm, 316, rfl⟩
abbrev main_v134 : Ref sig .tc := ⟨.hbm, 317, rfl⟩
abbrev main_cst_49 : Ref sig .tc := ⟨.hbm, 318, rfl⟩
abbrev main_c_50 : Ref sig .tc := ⟨.hbm, 319, rfl⟩
abbrev main_call15_v0 : Ref sig .tc := ⟨.hbm, 320, rfl⟩
abbrev main_call15_v1 : Ref sig .tc := ⟨.hbm, 321, rfl⟩
abbrev main_call15_v2 : Ref sig .tc := ⟨.hbm, 322, rfl⟩
abbrev main_call15_v3 : Ref sig .tc := ⟨.hbm, 323, rfl⟩
abbrev main_call15_v4 : Ref sig .tc := ⟨.hbm, 324, rfl⟩
abbrev main_v135 : Ref sig .tc := ⟨.hbm, 325, rfl⟩
abbrev main_cst_51 : Ref sig .tc := ⟨.hbm, 326, rfl⟩
abbrev main_v136 : Ref sig .tc := ⟨.hbm, 327, rfl⟩
abbrev main_v137 : Ref sig .tc := ⟨.hbm, 328, rfl⟩
abbrev main_cst_52 : Ref sig .tc := ⟨.hbm, 329, rfl⟩
abbrev main_c_53 : Ref sig .tc := ⟨.hbm, 330, rfl⟩
abbrev main_call16_v0 : Ref sig .tc := ⟨.hbm, 331, rfl⟩
abbrev main_call16_v1 : Ref sig .tc := ⟨.hbm, 332, rfl⟩
abbrev main_call16_v2 : Ref sig .tc := ⟨.hbm, 333, rfl⟩
abbrev main_call16_v3 : Ref sig .tc := ⟨.hbm, 334, rfl⟩
abbrev main_call16_v4 : Ref sig .tc := ⟨.hbm, 335, rfl⟩
abbrev main_v138 : Ref sig .tc := ⟨.hbm, 336, rfl⟩
abbrev main_cst_54 : Ref sig .tc := ⟨.hbm, 337, rfl⟩
abbrev main_v139 : Ref sig .tc := ⟨.hbm, 338, rfl⟩
abbrev main_v140 : Ref sig .tc := ⟨.hbm, 339, rfl⟩
abbrev main_cst_55 : Ref sig .tc := ⟨.hbm, 340, rfl⟩
abbrev main_c_56 : Ref sig .tc := ⟨.hbm, 341, rfl⟩
abbrev main_call17_v0 : Ref sig .tc := ⟨.hbm, 342, rfl⟩
abbrev main_call17_v1 : Ref sig .tc := ⟨.hbm, 343, rfl⟩
abbrev main_call17_v2 : Ref sig .tc := ⟨.hbm, 344, rfl⟩
abbrev main_call17_v3 : Ref sig .tc := ⟨.hbm, 345, rfl⟩
abbrev main_call17_v4 : Ref sig .tc := ⟨.hbm, 346, rfl⟩
abbrev main_v141 : Ref sig .tc := ⟨.hbm, 347, rfl⟩
abbrev main_v142 : Ref sig .tc := ⟨.hbm, 348, rfl⟩
abbrev main_v143 : Ref sig .tc := ⟨.hbm, 349, rfl⟩
abbrev main_cst_57 : Ref sig .tc := ⟨.hbm, 350, rfl⟩
abbrev main_v144 : Ref sig .tc := ⟨.hbm, 351, rfl⟩
abbrev main_v145 : Ref sig .tc := ⟨.hbm, 352, rfl⟩
abbrev main_v146 : Ref sig .tc := ⟨.hbm, 353, rfl⟩
abbrev main_v147 : Ref sig .tc := ⟨.hbm, 354, rfl⟩
abbrev main_cst_58 : Ref sig .tc := ⟨.hbm, 355, rfl⟩
abbrev main_v148 : Ref sig .tc := ⟨.hbm, 356, rfl⟩
abbrev main_v149 : Ref sig .tc := ⟨.hbm, 357, rfl⟩
abbrev main_v150 : Ref sig .tc := ⟨.hbm, 358, rfl⟩
abbrev main_v151 : Ref sig .tc := ⟨.hbm, 359, rfl⟩
abbrev main_v152 : Ref sig .tc := ⟨.hbm, 360, rfl⟩
abbrev main_cst_59 : Ref sig .tc := ⟨.hbm, 361, rfl⟩
abbrev main_v153 : Ref sig .tc := ⟨.hbm, 362, rfl⟩
abbrev main_v154 : Ref sig .tc := ⟨.hbm, 363, rfl⟩
abbrev main_v155 : Ref sig .tc := ⟨.hbm, 364, rfl⟩
abbrev main_v156 : Ref sig .tc := ⟨.hbm, 365, rfl⟩
abbrev main_c_60 : Ref sig .tc := ⟨.hbm, 366, rfl⟩
abbrev main_v157 : Ref sig .tc := ⟨.hbm, 367, rfl⟩
abbrev main_v158 : Ref sig .tc := ⟨.hbm, 368, rfl⟩
abbrev main_v159 : Ref sig .tc := ⟨.hbm, 369, rfl⟩
abbrev main_c_61 : Ref sig .tc := ⟨.hbm, 370, rfl⟩
abbrev main_v160 : Ref sig .tc := ⟨.hbm, 371, rfl⟩
abbrev main_v161 : Ref sig .tc := ⟨.hbm, 372, rfl⟩
abbrev main_v162 : Ref sig .tc := ⟨.hbm, 373, rfl⟩
abbrev main_v163 : Ref sig .tc := ⟨.hbm, 374, rfl⟩
abbrev main_v164 : Ref sig .tc := ⟨.hbm, 375, rfl⟩
abbrev main_call18_c : Ref sig .tc := ⟨.hbm, 376, rfl⟩
abbrev main_call18_v0 : Ref sig .tc := ⟨.hbm, 377, rfl⟩
abbrev main_call18_v1 : Ref sig .tc := ⟨.hbm, 378, rfl⟩
abbrev main_call18_c_0 : Ref sig .tc := ⟨.hbm, 379, rfl⟩
abbrev main_call18_v2 : Ref sig .tc := ⟨.hbm, 380, rfl⟩
abbrev main_call18_v3 : Ref sig .tc := ⟨.hbm, 381, rfl⟩
abbrev main_call18_v4 : Ref sig .tc := ⟨.hbm, 382, rfl⟩
abbrev main_call18_v5 : Ref sig .tc := ⟨.hbm, 383, rfl⟩
abbrev main_call18_c_1 : Ref sig .tc := ⟨.hbm, 384, rfl⟩
abbrev main_call18_c_2 : Ref sig .tc := ⟨.hbm, 385, rfl⟩
abbrev main_call18_v6 : Ref sig .tc := ⟨.hbm, 386, rfl⟩
abbrev main_call18_v7 : Ref sig .tc := ⟨.hbm, 387, rfl⟩
abbrev main_call18_v8 : Ref sig .tc := ⟨.hbm, 388, rfl⟩
abbrev main_call18_v9 : Ref sig .tc := ⟨.hbm, 389, rfl⟩
abbrev main_call18_v10 : Ref sig .tc := ⟨.hbm, 390, rfl⟩
abbrev main_call18_v11 : Ref sig .tc := ⟨.hbm, 391, rfl⟩
abbrev main_call18_c_3 : Ref sig .tc := ⟨.hbm, 392, rfl⟩
abbrev main_call18_v12 : Ref sig .tc := ⟨.hbm, 393, rfl⟩
abbrev main_call18_v13 : Ref sig .tc := ⟨.hbm, 394, rfl⟩
abbrev main_call18_v14 : Ref sig .tc := ⟨.hbm, 395, rfl⟩
abbrev main_call18_cst : Ref sig .tc := ⟨.hbm, 396, rfl⟩
abbrev main_call18_v15 : Ref sig .tc := ⟨.hbm, 397, rfl⟩
abbrev main_v165 : Ref sig .tc := ⟨.hbm, 398, rfl⟩
abbrev main_v166 : Ref sig .tc := ⟨.hbm, 399, rfl⟩
abbrev main_v167 : Ref sig .tc := ⟨.hbm, 400, rfl⟩
abbrev main_v168 : Ref sig .tc := ⟨.hbm, 401, rfl⟩
abbrev main_v169 : Ref sig .tc := ⟨.hbm, 402, rfl⟩
abbrev main_v170 : Ref sig .tc := ⟨.hbm, 403, rfl⟩
abbrev main_cst_62 : Ref sig .tc := ⟨.hbm, 404, rfl⟩
abbrev main_v171 : Ref sig .tc := ⟨.hbm, 405, rfl⟩
abbrev main_v172 : Ref sig .tc := ⟨.hbm, 406, rfl⟩
abbrev main_cst_63 : Ref sig .tc := ⟨.hbm, 407, rfl⟩
abbrev main_c_64 : Ref sig .tc := ⟨.hbm, 408, rfl⟩
abbrev main_call19_v0 : Ref sig .tc := ⟨.hbm, 409, rfl⟩
abbrev main_call19_v1 : Ref sig .tc := ⟨.hbm, 410, rfl⟩
abbrev main_call19_v2 : Ref sig .tc := ⟨.hbm, 411, rfl⟩
abbrev main_call19_v3 : Ref sig .tc := ⟨.hbm, 412, rfl⟩
abbrev main_call19_v4 : Ref sig .tc := ⟨.hbm, 413, rfl⟩
abbrev main_v173 : Ref sig .tc := ⟨.hbm, 414, rfl⟩
abbrev main_cst_65 : Ref sig .tc := ⟨.hbm, 415, rfl⟩
abbrev main_v174 : Ref sig .tc := ⟨.hbm, 416, rfl⟩
abbrev main_v175 : Ref sig .tc := ⟨.hbm, 417, rfl⟩
abbrev main_cst_66 : Ref sig .tc := ⟨.hbm, 418, rfl⟩
abbrev main_c_67 : Ref sig .tc := ⟨.hbm, 419, rfl⟩
abbrev main_call20_v0 : Ref sig .tc := ⟨.hbm, 420, rfl⟩
abbrev main_call20_v1 : Ref sig .tc := ⟨.hbm, 421, rfl⟩
abbrev main_call20_v2 : Ref sig .tc := ⟨.hbm, 422, rfl⟩
abbrev main_call20_v3 : Ref sig .tc := ⟨.hbm, 423, rfl⟩
abbrev main_call20_v4 : Ref sig .tc := ⟨.hbm, 424, rfl⟩
abbrev main_v176 : Ref sig .tc := ⟨.hbm, 425, rfl⟩
abbrev main_cst_68 : Ref sig .tc := ⟨.hbm, 426, rfl⟩
abbrev main_v177 : Ref sig .tc := ⟨.hbm, 427, rfl⟩
abbrev main_v178 : Ref sig .tc := ⟨.hbm, 428, rfl⟩
abbrev main_cst_69 : Ref sig .tc := ⟨.hbm, 429, rfl⟩
abbrev main_c_70 : Ref sig .tc := ⟨.hbm, 430, rfl⟩
abbrev main_call21_v0 : Ref sig .tc := ⟨.hbm, 431, rfl⟩
abbrev main_call21_v1 : Ref sig .tc := ⟨.hbm, 432, rfl⟩
abbrev main_call21_v2 : Ref sig .tc := ⟨.hbm, 433, rfl⟩
abbrev main_call21_v3 : Ref sig .tc := ⟨.hbm, 434, rfl⟩
abbrev main_call21_v4 : Ref sig .tc := ⟨.hbm, 435, rfl⟩
abbrev main_v179 : Ref sig .tc := ⟨.hbm, 436, rfl⟩
abbrev main_v180 : Ref sig .tc := ⟨.hbm, 437, rfl⟩
abbrev main_v181 : Ref sig .tc := ⟨.hbm, 438, rfl⟩
abbrev main_cst_71 : Ref sig .tc := ⟨.hbm, 439, rfl⟩
abbrev main_v182 : Ref sig .tc := ⟨.hbm, 440, rfl⟩
abbrev main_v183 : Ref sig .tc := ⟨.hbm, 441, rfl⟩
abbrev main_v184 : Ref sig .tc := ⟨.hbm, 442, rfl⟩
abbrev main_v185 : Ref sig .tc := ⟨.hbm, 443, rfl⟩
abbrev main_cst_72 : Ref sig .tc := ⟨.hbm, 444, rfl⟩
abbrev main_v186 : Ref sig .tc := ⟨.hbm, 445, rfl⟩
abbrev main_v187 : Ref sig .tc := ⟨.hbm, 446, rfl⟩
abbrev main_v188 : Ref sig .tc := ⟨.hbm, 447, rfl⟩
abbrev main_v189 : Ref sig .tc := ⟨.hbm, 448, rfl⟩
abbrev main_v190 : Ref sig .tc := ⟨.hbm, 449, rfl⟩
abbrev main_cst_73 : Ref sig .tc := ⟨.hbm, 450, rfl⟩
abbrev main_v191 : Ref sig .tc := ⟨.hbm, 451, rfl⟩
abbrev main_v192 : Ref sig .tc := ⟨.hbm, 452, rfl⟩
abbrev main_v193 : Ref sig .tc := ⟨.hbm, 453, rfl⟩
abbrev main_v194 : Ref sig .tc := ⟨.hbm, 454, rfl⟩
abbrev main_c_74 : Ref sig .tc := ⟨.hbm, 455, rfl⟩
abbrev main_v195 : Ref sig .tc := ⟨.hbm, 456, rfl⟩
abbrev main_v196 : Ref sig .tc := ⟨.hbm, 457, rfl⟩
abbrev main_v197 : Ref sig .tc := ⟨.hbm, 458, rfl⟩
abbrev main_c_75 : Ref sig .tc := ⟨.hbm, 459, rfl⟩
abbrev main_v198 : Ref sig .tc := ⟨.hbm, 460, rfl⟩
abbrev main_v199 : Ref sig .tc := ⟨.hbm, 461, rfl⟩
abbrev main_v200 : Ref sig .tc := ⟨.hbm, 462, rfl⟩
abbrev main_v201 : Ref sig .tc := ⟨.hbm, 463, rfl⟩
abbrev main_v202 : Ref sig .tc := ⟨.hbm, 464, rfl⟩
abbrev main_call22_c : Ref sig .tc := ⟨.hbm, 465, rfl⟩
abbrev main_call22_v0 : Ref sig .tc := ⟨.hbm, 466, rfl⟩
abbrev main_call22_v1 : Ref sig .tc := ⟨.hbm, 467, rfl⟩
abbrev main_call22_c_0 : Ref sig .tc := ⟨.hbm, 468, rfl⟩
abbrev main_call22_v2 : Ref sig .tc := ⟨.hbm, 469, rfl⟩
abbrev main_call22_v3 : Ref sig .tc := ⟨.hbm, 470, rfl⟩
abbrev main_call22_v4 : Ref sig .tc := ⟨.hbm, 471, rfl⟩
abbrev main_call22_v5 : Ref sig .tc := ⟨.hbm, 472, rfl⟩
abbrev main_call22_c_1 : Ref sig .tc := ⟨.hbm, 473, rfl⟩
abbrev main_call22_c_2 : Ref sig .tc := ⟨.hbm, 474, rfl⟩
abbrev main_call22_v6 : Ref sig .tc := ⟨.hbm, 475, rfl⟩
abbrev main_call22_v7 : Ref sig .tc := ⟨.hbm, 476, rfl⟩
abbrev main_call22_v8 : Ref sig .tc := ⟨.hbm, 477, rfl⟩
abbrev main_call22_v9 : Ref sig .tc := ⟨.hbm, 478, rfl⟩
abbrev main_call22_v10 : Ref sig .tc := ⟨.hbm, 479, rfl⟩
abbrev main_call22_v11 : Ref sig .tc := ⟨.hbm, 480, rfl⟩
abbrev main_call22_c_3 : Ref sig .tc := ⟨.hbm, 481, rfl⟩
abbrev main_call22_v12 : Ref sig .tc := ⟨.hbm, 482, rfl⟩
abbrev main_call22_v13 : Ref sig .tc := ⟨.hbm, 483, rfl⟩
abbrev main_call22_v14 : Ref sig .tc := ⟨.hbm, 484, rfl⟩
abbrev main_call22_cst : Ref sig .tc := ⟨.hbm, 485, rfl⟩
abbrev main_call22_v15 : Ref sig .tc := ⟨.hbm, 486, rfl⟩
abbrev main_v203 : Ref sig .tc := ⟨.hbm, 487, rfl⟩
abbrev main_v204 : Ref sig .tc := ⟨.hbm, 488, rfl⟩
abbrev main_v205 : Ref sig .tc := ⟨.hbm, 489, rfl⟩
abbrev main_v206 : Ref sig .tc := ⟨.hbm, 490, rfl⟩
abbrev main_v207 : Ref sig .tc := ⟨.hbm, 491, rfl⟩
abbrev main_v208 : Ref sig .tc := ⟨.hbm, 492, rfl⟩
abbrev main_cst_76 : Ref sig .tc := ⟨.hbm, 493, rfl⟩
abbrev main_v209 : Ref sig .tc := ⟨.hbm, 494, rfl⟩
abbrev main_v210 : Ref sig .tc := ⟨.hbm, 495, rfl⟩
abbrev main_cst_77 : Ref sig .tc := ⟨.hbm, 496, rfl⟩
abbrev main_c_78 : Ref sig .tc := ⟨.hbm, 497, rfl⟩
abbrev main_call23_v0 : Ref sig .tc := ⟨.hbm, 498, rfl⟩
abbrev main_call23_v1 : Ref sig .tc := ⟨.hbm, 499, rfl⟩
abbrev main_call23_v2 : Ref sig .tc := ⟨.hbm, 500, rfl⟩
abbrev main_call23_v3 : Ref sig .tc := ⟨.hbm, 501, rfl⟩
abbrev main_call23_v4 : Ref sig .tc := ⟨.hbm, 502, rfl⟩
abbrev main_v211 : Ref sig .tc := ⟨.hbm, 503, rfl⟩
abbrev main_cst_79 : Ref sig .tc := ⟨.hbm, 504, rfl⟩
abbrev main_v212 : Ref sig .tc := ⟨.hbm, 505, rfl⟩
abbrev main_v213 : Ref sig .tc := ⟨.hbm, 506, rfl⟩
abbrev main_cst_80 : Ref sig .tc := ⟨.hbm, 507, rfl⟩
abbrev main_c_81 : Ref sig .tc := ⟨.hbm, 508, rfl⟩
abbrev main_call24_v0 : Ref sig .tc := ⟨.hbm, 509, rfl⟩
abbrev main_call24_v1 : Ref sig .tc := ⟨.hbm, 510, rfl⟩
abbrev main_call24_v2 : Ref sig .tc := ⟨.hbm, 511, rfl⟩
abbrev main_call24_v3 : Ref sig .tc := ⟨.hbm, 512, rfl⟩
abbrev main_call24_v4 : Ref sig .tc := ⟨.hbm, 513, rfl⟩
abbrev main_v214 : Ref sig .tc := ⟨.hbm, 514, rfl⟩
abbrev main_cst_82 : Ref sig .tc := ⟨.hbm, 515, rfl⟩
abbrev main_v215 : Ref sig .tc := ⟨.hbm, 516, rfl⟩
abbrev main_v216 : Ref sig .tc := ⟨.hbm, 517, rfl⟩
abbrev main_cst_83 : Ref sig .tc := ⟨.hbm, 518, rfl⟩
abbrev main_c_84 : Ref sig .tc := ⟨.hbm, 519, rfl⟩
abbrev main_call25_v0 : Ref sig .tc := ⟨.hbm, 520, rfl⟩
abbrev main_call25_v1 : Ref sig .tc := ⟨.hbm, 521, rfl⟩
abbrev main_call25_v2 : Ref sig .tc := ⟨.hbm, 522, rfl⟩
abbrev main_call25_v3 : Ref sig .tc := ⟨.hbm, 523, rfl⟩
abbrev main_call25_v4 : Ref sig .tc := ⟨.hbm, 524, rfl⟩
abbrev main_v217 : Ref sig .tc := ⟨.hbm, 525, rfl⟩
abbrev main_v218 : Ref sig .tc := ⟨.hbm, 526, rfl⟩
abbrev main_v219 : Ref sig .tc := ⟨.hbm, 527, rfl⟩
abbrev main_cst_85 : Ref sig .tc := ⟨.hbm, 528, rfl⟩
abbrev main_v220 : Ref sig .tc := ⟨.hbm, 529, rfl⟩
abbrev main_v221 : Ref sig .tc := ⟨.hbm, 530, rfl⟩
abbrev main_v222 : Ref sig .tc := ⟨.hbm, 531, rfl⟩
abbrev main_v223 : Ref sig .tc := ⟨.hbm, 532, rfl⟩
abbrev main_cst_86 : Ref sig .tc := ⟨.hbm, 533, rfl⟩
abbrev main_v224 : Ref sig .tc := ⟨.hbm, 534, rfl⟩
abbrev main_v225 : Ref sig .tc := ⟨.hbm, 535, rfl⟩
abbrev main_v226 : Ref sig .tc := ⟨.hbm, 536, rfl⟩
abbrev main_v227 : Ref sig .tc := ⟨.hbm, 537, rfl⟩
abbrev main_v228 : Ref sig .tc := ⟨.hbm, 538, rfl⟩
abbrev main_cst_87 : Ref sig .tc := ⟨.hbm, 539, rfl⟩
abbrev main_v229 : Ref sig .tc := ⟨.hbm, 540, rfl⟩
abbrev main_v230 : Ref sig .tc := ⟨.hbm, 541, rfl⟩
abbrev main_v231 : Ref sig .tc := ⟨.hbm, 542, rfl⟩
abbrev main_v232 : Ref sig .tc := ⟨.hbm, 543, rfl⟩
abbrev main_c_88 : Ref sig .tc := ⟨.hbm, 544, rfl⟩
abbrev main_v233 : Ref sig .tc := ⟨.hbm, 545, rfl⟩
abbrev main_v234 : Ref sig .tc := ⟨.hbm, 546, rfl⟩
abbrev main_v235 : Ref sig .tc := ⟨.hbm, 547, rfl⟩
abbrev main_c_89 : Ref sig .tc := ⟨.hbm, 548, rfl⟩
abbrev main_v236 : Ref sig .tc := ⟨.hbm, 549, rfl⟩
abbrev main_v237 : Ref sig .tc := ⟨.hbm, 550, rfl⟩
abbrev main_v238 : Ref sig .tc := ⟨.hbm, 551, rfl⟩
abbrev main_v239 : Ref sig .tc := ⟨.hbm, 552, rfl⟩
abbrev main_v240 : Ref sig .tc := ⟨.hbm, 553, rfl⟩
abbrev main_call26_c : Ref sig .tc := ⟨.hbm, 554, rfl⟩
abbrev main_call26_v0 : Ref sig .tc := ⟨.hbm, 555, rfl⟩
abbrev main_call26_v1 : Ref sig .tc := ⟨.hbm, 556, rfl⟩
abbrev main_call26_c_0 : Ref sig .tc := ⟨.hbm, 557, rfl⟩
abbrev main_call26_v2 : Ref sig .tc := ⟨.hbm, 558, rfl⟩
abbrev main_call26_v3 : Ref sig .tc := ⟨.hbm, 559, rfl⟩
abbrev main_call26_v4 : Ref sig .tc := ⟨.hbm, 560, rfl⟩
abbrev main_call26_v5 : Ref sig .tc := ⟨.hbm, 561, rfl⟩
abbrev main_call26_c_1 : Ref sig .tc := ⟨.hbm, 562, rfl⟩
abbrev main_call26_c_2 : Ref sig .tc := ⟨.hbm, 563, rfl⟩
abbrev main_call26_v6 : Ref sig .tc := ⟨.hbm, 564, rfl⟩
abbrev main_call26_v7 : Ref sig .tc := ⟨.hbm, 565, rfl⟩
abbrev main_call26_v8 : Ref sig .tc := ⟨.hbm, 566, rfl⟩
abbrev main_call26_v9 : Ref sig .tc := ⟨.hbm, 567, rfl⟩
abbrev main_call26_v10 : Ref sig .tc := ⟨.hbm, 568, rfl⟩
abbrev main_call26_v11 : Ref sig .tc := ⟨.hbm, 569, rfl⟩
abbrev main_call26_c_3 : Ref sig .tc := ⟨.hbm, 570, rfl⟩
abbrev main_call26_v12 : Ref sig .tc := ⟨.hbm, 571, rfl⟩
abbrev main_call26_v13 : Ref sig .tc := ⟨.hbm, 572, rfl⟩
abbrev main_call26_v14 : Ref sig .tc := ⟨.hbm, 573, rfl⟩
abbrev main_call26_cst : Ref sig .tc := ⟨.hbm, 574, rfl⟩
abbrev main_call26_v15 : Ref sig .tc := ⟨.hbm, 575, rfl⟩
abbrev main_v241 : Ref sig .tc := ⟨.hbm, 576, rfl⟩
abbrev main_v242 : Ref sig .tc := ⟨.hbm, 577, rfl⟩
abbrev main_v243 : Ref sig .tc := ⟨.hbm, 578, rfl⟩
abbrev main_v244 : Ref sig .tc := ⟨.hbm, 579, rfl⟩
abbrev main_v245 : Ref sig .tc := ⟨.hbm, 580, rfl⟩
abbrev main_v246 : Ref sig .tc := ⟨.hbm, 581, rfl⟩
abbrev main_cst_90 : Ref sig .tc := ⟨.hbm, 582, rfl⟩
abbrev main_v247 : Ref sig .tc := ⟨.hbm, 583, rfl⟩
abbrev main_v248 : Ref sig .tc := ⟨.hbm, 584, rfl⟩
abbrev main_cst_91 : Ref sig .tc := ⟨.hbm, 585, rfl⟩
abbrev main_c_92 : Ref sig .tc := ⟨.hbm, 586, rfl⟩
abbrev main_call27_v0 : Ref sig .tc := ⟨.hbm, 587, rfl⟩
abbrev main_call27_v1 : Ref sig .tc := ⟨.hbm, 588, rfl⟩
abbrev main_call27_v2 : Ref sig .tc := ⟨.hbm, 589, rfl⟩
abbrev main_call27_v3 : Ref sig .tc := ⟨.hbm, 590, rfl⟩
abbrev main_call27_v4 : Ref sig .tc := ⟨.hbm, 591, rfl⟩
abbrev main_v249 : Ref sig .tc := ⟨.hbm, 592, rfl⟩
abbrev main_cst_93 : Ref sig .tc := ⟨.hbm, 593, rfl⟩
abbrev main_v250 : Ref sig .tc := ⟨.hbm, 594, rfl⟩
abbrev main_v251 : Ref sig .tc := ⟨.hbm, 595, rfl⟩
abbrev main_cst_94 : Ref sig .tc := ⟨.hbm, 596, rfl⟩
abbrev main_c_95 : Ref sig .tc := ⟨.hbm, 597, rfl⟩
abbrev main_call28_v0 : Ref sig .tc := ⟨.hbm, 598, rfl⟩
abbrev main_call28_v1 : Ref sig .tc := ⟨.hbm, 599, rfl⟩
abbrev main_call28_v2 : Ref sig .tc := ⟨.hbm, 600, rfl⟩
abbrev main_call28_v3 : Ref sig .tc := ⟨.hbm, 601, rfl⟩
abbrev main_call28_v4 : Ref sig .tc := ⟨.hbm, 602, rfl⟩
abbrev main_v252 : Ref sig .tc := ⟨.hbm, 603, rfl⟩
abbrev main_cst_96 : Ref sig .tc := ⟨.hbm, 604, rfl⟩
abbrev main_v253 : Ref sig .tc := ⟨.hbm, 605, rfl⟩
abbrev main_v254 : Ref sig .tc := ⟨.hbm, 606, rfl⟩
abbrev main_cst_97 : Ref sig .tc := ⟨.hbm, 607, rfl⟩
abbrev main_c_98 : Ref sig .tc := ⟨.hbm, 608, rfl⟩
abbrev main_call29_v0 : Ref sig .tc := ⟨.hbm, 609, rfl⟩
abbrev main_call29_v1 : Ref sig .tc := ⟨.hbm, 610, rfl⟩
abbrev main_call29_v2 : Ref sig .tc := ⟨.hbm, 611, rfl⟩
abbrev main_call29_v3 : Ref sig .tc := ⟨.hbm, 612, rfl⟩
abbrev main_call29_v4 : Ref sig .tc := ⟨.hbm, 613, rfl⟩
abbrev main_v255 : Ref sig .tc := ⟨.hbm, 614, rfl⟩
abbrev main_v256 : Ref sig .tc := ⟨.hbm, 615, rfl⟩
abbrev main_v257 : Ref sig .tc := ⟨.hbm, 616, rfl⟩
abbrev main_cst_99 : Ref sig .tc := ⟨.hbm, 617, rfl⟩
abbrev main_v258 : Ref sig .tc := ⟨.hbm, 618, rfl⟩
abbrev main_v259 : Ref sig .tc := ⟨.hbm, 619, rfl⟩
abbrev main_v260 : Ref sig .tc := ⟨.hbm, 620, rfl⟩
abbrev main_v261 : Ref sig .tc := ⟨.hbm, 621, rfl⟩
abbrev main_cst_100 : Ref sig .tc := ⟨.hbm, 622, rfl⟩
abbrev main_v262 : Ref sig .tc := ⟨.hbm, 623, rfl⟩
abbrev main_v263 : Ref sig .tc := ⟨.hbm, 624, rfl⟩
abbrev main_v264 : Ref sig .tc := ⟨.hbm, 625, rfl⟩
abbrev main_v265 : Ref sig .tc := ⟨.hbm, 626, rfl⟩
abbrev main_v266 : Ref sig .tc := ⟨.hbm, 627, rfl⟩
abbrev main_cst_101 : Ref sig .tc := ⟨.hbm, 628, rfl⟩
abbrev main_v267 : Ref sig .tc := ⟨.hbm, 629, rfl⟩
abbrev main_v268 : Ref sig .tc := ⟨.hbm, 630, rfl⟩
abbrev main_v269 : Ref sig .tc := ⟨.hbm, 631, rfl⟩
abbrev main_v270 : Ref sig .tc := ⟨.hbm, 632, rfl⟩
abbrev main_c_102 : Ref sig .tc := ⟨.hbm, 633, rfl⟩
abbrev main_v271 : Ref sig .tc := ⟨.hbm, 634, rfl⟩
abbrev main_v272 : Ref sig .tc := ⟨.hbm, 635, rfl⟩
abbrev main_v273 : Ref sig .tc := ⟨.hbm, 636, rfl⟩
abbrev main_c_103 : Ref sig .tc := ⟨.hbm, 637, rfl⟩
abbrev main_v274 : Ref sig .tc := ⟨.hbm, 638, rfl⟩
abbrev main_v275 : Ref sig .tc := ⟨.hbm, 639, rfl⟩
abbrev main_v276 : Ref sig .tc := ⟨.hbm, 640, rfl⟩
abbrev main_v277 : Ref sig .tc := ⟨.hbm, 641, rfl⟩
abbrev main_v278 : Ref sig .tc := ⟨.hbm, 642, rfl⟩
abbrev main_call30_c : Ref sig .tc := ⟨.hbm, 643, rfl⟩
abbrev main_call30_v0 : Ref sig .tc := ⟨.hbm, 644, rfl⟩
abbrev main_call30_v1 : Ref sig .tc := ⟨.hbm, 645, rfl⟩
abbrev main_call30_c_0 : Ref sig .tc := ⟨.hbm, 646, rfl⟩
abbrev main_call30_v2 : Ref sig .tc := ⟨.hbm, 647, rfl⟩
abbrev main_call30_v3 : Ref sig .tc := ⟨.hbm, 648, rfl⟩
abbrev main_call30_v4 : Ref sig .tc := ⟨.hbm, 649, rfl⟩
abbrev main_call30_v5 : Ref sig .tc := ⟨.hbm, 650, rfl⟩
abbrev main_call30_c_1 : Ref sig .tc := ⟨.hbm, 651, rfl⟩
abbrev main_call30_c_2 : Ref sig .tc := ⟨.hbm, 652, rfl⟩
abbrev main_call30_v6 : Ref sig .tc := ⟨.hbm, 653, rfl⟩
abbrev main_call30_v7 : Ref sig .tc := ⟨.hbm, 654, rfl⟩
abbrev main_call30_v8 : Ref sig .tc := ⟨.hbm, 655, rfl⟩
abbrev main_call30_v9 : Ref sig .tc := ⟨.hbm, 656, rfl⟩
abbrev main_call30_v10 : Ref sig .tc := ⟨.hbm, 657, rfl⟩
abbrev main_call30_v11 : Ref sig .tc := ⟨.hbm, 658, rfl⟩
abbrev main_call30_c_3 : Ref sig .tc := ⟨.hbm, 659, rfl⟩
abbrev main_call30_v12 : Ref sig .tc := ⟨.hbm, 660, rfl⟩
abbrev main_call30_v13 : Ref sig .tc := ⟨.hbm, 661, rfl⟩
abbrev main_call30_v14 : Ref sig .tc := ⟨.hbm, 662, rfl⟩
abbrev main_call30_cst : Ref sig .tc := ⟨.hbm, 663, rfl⟩
abbrev main_call30_v15 : Ref sig .tc := ⟨.hbm, 664, rfl⟩
abbrev main_v279 : Ref sig .tc := ⟨.hbm, 665, rfl⟩
abbrev main_v280 : Ref sig .tc := ⟨.hbm, 666, rfl⟩
abbrev main_v281 : Ref sig .tc := ⟨.hbm, 667, rfl⟩
abbrev main_v282 : Ref sig .tc := ⟨.hbm, 668, rfl⟩
abbrev main_v283 : Ref sig .tc := ⟨.hbm, 669, rfl⟩
abbrev main_v284 : Ref sig .tc := ⟨.hbm, 670, rfl⟩
abbrev main_cst_104 : Ref sig .tc := ⟨.hbm, 671, rfl⟩
abbrev main_v285 : Ref sig .tc := ⟨.hbm, 672, rfl⟩
abbrev main_v286 : Ref sig .tc := ⟨.hbm, 673, rfl⟩
abbrev main_cst_105 : Ref sig .tc := ⟨.hbm, 674, rfl⟩
abbrev main_c_106 : Ref sig .tc := ⟨.hbm, 675, rfl⟩
abbrev main_call31_v0 : Ref sig .tc := ⟨.hbm, 676, rfl⟩
abbrev main_call31_v1 : Ref sig .tc := ⟨.hbm, 677, rfl⟩
abbrev main_call31_v2 : Ref sig .tc := ⟨.hbm, 678, rfl⟩
abbrev main_call31_v3 : Ref sig .tc := ⟨.hbm, 679, rfl⟩
abbrev main_call31_v4 : Ref sig .tc := ⟨.hbm, 680, rfl⟩
abbrev main_v287 : Ref sig .tc := ⟨.hbm, 681, rfl⟩
abbrev main_cst_107 : Ref sig .tc := ⟨.hbm, 682, rfl⟩
abbrev main_v288 : Ref sig .tc := ⟨.hbm, 683, rfl⟩
abbrev main_v289 : Ref sig .tc := ⟨.hbm, 684, rfl⟩
abbrev main_cst_108 : Ref sig .tc := ⟨.hbm, 685, rfl⟩
abbrev main_c_109 : Ref sig .tc := ⟨.hbm, 686, rfl⟩
abbrev main_call32_v0 : Ref sig .tc := ⟨.hbm, 687, rfl⟩
abbrev main_call32_v1 : Ref sig .tc := ⟨.hbm, 688, rfl⟩
abbrev main_call32_v2 : Ref sig .tc := ⟨.hbm, 689, rfl⟩
abbrev main_call32_v3 : Ref sig .tc := ⟨.hbm, 690, rfl⟩
abbrev main_call32_v4 : Ref sig .tc := ⟨.hbm, 691, rfl⟩
abbrev main_v290 : Ref sig .tc := ⟨.hbm, 692, rfl⟩
abbrev main_cst_110 : Ref sig .tc := ⟨.hbm, 693, rfl⟩
abbrev main_v291 : Ref sig .tc := ⟨.hbm, 694, rfl⟩
abbrev main_v292 : Ref sig .tc := ⟨.hbm, 695, rfl⟩
abbrev main_cst_111 : Ref sig .tc := ⟨.hbm, 696, rfl⟩
abbrev main_c_112 : Ref sig .tc := ⟨.hbm, 697, rfl⟩
abbrev main_call33_v0 : Ref sig .tc := ⟨.hbm, 698, rfl⟩
abbrev main_call33_v1 : Ref sig .tc := ⟨.hbm, 699, rfl⟩
abbrev main_call33_v2 : Ref sig .tc := ⟨.hbm, 700, rfl⟩
abbrev main_call33_v3 : Ref sig .tc := ⟨.hbm, 701, rfl⟩
abbrev main_call33_v4 : Ref sig .tc := ⟨.hbm, 702, rfl⟩
abbrev main_v293 : Ref sig .tc := ⟨.hbm, 703, rfl⟩
abbrev main_v294 : Ref sig .tc := ⟨.hbm, 704, rfl⟩
abbrev main_v295 : Ref sig .tc := ⟨.hbm, 705, rfl⟩
abbrev main_cst_113 : Ref sig .tc := ⟨.hbm, 706, rfl⟩
abbrev main_v296 : Ref sig .tc := ⟨.hbm, 707, rfl⟩
abbrev main_v297 : Ref sig .tc := ⟨.hbm, 708, rfl⟩
abbrev main_v298 : Ref sig .tc := ⟨.hbm, 709, rfl⟩
abbrev main_v299 : Ref sig .tc := ⟨.hbm, 710, rfl⟩
abbrev main_cst_114 : Ref sig .tc := ⟨.hbm, 711, rfl⟩
abbrev main_v300 : Ref sig .tc := ⟨.hbm, 712, rfl⟩
abbrev main_v301 : Ref sig .tc := ⟨.hbm, 713, rfl⟩
abbrev main_v302 : Ref sig .tc := ⟨.hbm, 714, rfl⟩
abbrev main_v303 : Ref sig .tc := ⟨.hbm, 715, rfl⟩
abbrev main_v304 : Ref sig .tc := ⟨.hbm, 716, rfl⟩
abbrev main_cst_115 : Ref sig .tc := ⟨.hbm, 717, rfl⟩
abbrev main_v305 : Ref sig .tc := ⟨.hbm, 718, rfl⟩
abbrev main_v306 : Ref sig .tc := ⟨.hbm, 719, rfl⟩
abbrev main_v307 : Ref sig .tc := ⟨.hbm, 720, rfl⟩
abbrev main_v308 : Ref sig .tc := ⟨.hbm, 721, rfl⟩
abbrev main_c_116 : Ref sig .tc := ⟨.hbm, 722, rfl⟩
abbrev main_v309 : Ref sig .tc := ⟨.hbm, 723, rfl⟩
abbrev main_v310 : Ref sig .tc := ⟨.hbm, 724, rfl⟩
abbrev main_v311 : Ref sig .tc := ⟨.hbm, 725, rfl⟩
abbrev main_c_117 : Ref sig .tc := ⟨.hbm, 726, rfl⟩
abbrev main_v312 : Ref sig .tc := ⟨.hbm, 727, rfl⟩
abbrev main_v313 : Ref sig .tc := ⟨.hbm, 728, rfl⟩
abbrev main_v314 : Ref sig .tc := ⟨.hbm, 729, rfl⟩
abbrev main_v315 : Ref sig .tc := ⟨.hbm, 730, rfl⟩
abbrev main_v316 : Ref sig .tc := ⟨.hbm, 731, rfl⟩
abbrev main_call34_c : Ref sig .tc := ⟨.hbm, 732, rfl⟩
abbrev main_call34_v0 : Ref sig .tc := ⟨.hbm, 733, rfl⟩
abbrev main_call34_v1 : Ref sig .tc := ⟨.hbm, 734, rfl⟩
abbrev main_call34_c_0 : Ref sig .tc := ⟨.hbm, 735, rfl⟩
abbrev main_call34_v2 : Ref sig .tc := ⟨.hbm, 736, rfl⟩
abbrev main_call34_v3 : Ref sig .tc := ⟨.hbm, 737, rfl⟩
abbrev main_call34_v4 : Ref sig .tc := ⟨.hbm, 738, rfl⟩
abbrev main_call34_v5 : Ref sig .tc := ⟨.hbm, 739, rfl⟩
abbrev main_call34_c_1 : Ref sig .tc := ⟨.hbm, 740, rfl⟩
abbrev main_call34_c_2 : Ref sig .tc := ⟨.hbm, 741, rfl⟩
abbrev main_call34_v6 : Ref sig .tc := ⟨.hbm, 742, rfl⟩
abbrev main_call34_v7 : Ref sig .tc := ⟨.hbm, 743, rfl⟩
abbrev main_call34_v8 : Ref sig .tc := ⟨.hbm, 744, rfl⟩
abbrev main_call34_v9 : Ref sig .tc := ⟨.hbm, 745, rfl⟩
abbrev main_call34_v10 : Ref sig .tc := ⟨.hbm, 746, rfl⟩
abbrev main_call34_v11 : Ref sig .tc := ⟨.hbm, 747, rfl⟩
abbrev main_call34_c_3 : Ref sig .tc := ⟨.hbm, 748, rfl⟩
abbrev main_call34_v12 : Ref sig .tc := ⟨.hbm, 749, rfl⟩
abbrev main_call34_v13 : Ref sig .tc := ⟨.hbm, 750, rfl⟩
abbrev main_call34_v14 : Ref sig .tc := ⟨.hbm, 751, rfl⟩
abbrev main_call34_cst : Ref sig .tc := ⟨.hbm, 752, rfl⟩
abbrev main_call34_v15 : Ref sig .tc := ⟨.hbm, 753, rfl⟩
abbrev main_v317 : Ref sig .tc := ⟨.hbm, 754, rfl⟩
abbrev main_v318 : Ref sig .tc := ⟨.hbm, 755, rfl⟩
abbrev main_v319 : Ref sig .tc := ⟨.hbm, 756, rfl⟩
abbrev main_v320 : Ref sig .tc := ⟨.hbm, 757, rfl⟩
abbrev main_v321 : Ref sig .tc := ⟨.hbm, 758, rfl⟩
abbrev main_v322 : Ref sig .tc := ⟨.hbm, 759, rfl⟩
abbrev main_cst_118 : Ref sig .tc := ⟨.hbm, 760, rfl⟩
abbrev main_cst_119 : Ref sig .tc := ⟨.hbm, 761, rfl⟩
abbrev main_call35_v0 : Ref sig .tc := ⟨.hbm, 762, rfl⟩
abbrev main_call35_v1 : Ref sig .tc := ⟨.hbm, 763, rfl⟩
abbrev main_call35_v2 : Ref sig .tc := ⟨.hbm, 764, rfl⟩
abbrev main_call35_v3 : Ref sig .tc := ⟨.hbm, 765, rfl⟩
abbrev main_call35_v4 : Ref sig .tc := ⟨.hbm, 766, rfl⟩
abbrev main_v323 : Ref sig .tc := ⟨.hbm, 767, rfl⟩
abbrev main_v324 : Ref sig .tc := ⟨.hbm, 768, rfl⟩
abbrev main_v325 : Ref sig .tc := ⟨.hbm, 769, rfl⟩
abbrev main_v326 : Ref sig .tc := ⟨.hbm, 770, rfl⟩
abbrev main_v327 : Ref sig .tc := ⟨.hbm, 771, rfl⟩

abbrev nD : Nat := 1
abbrev τ : Topo := Topo.v7x

variable {F : FTy → Type} [FloatOps F]

class Facts₀ : Prop where
  shapeCasts_S8x128x128x128x1_S8x2097152 : S8x128x128x128x1.ShapeCasts S8x2097152
  slices_S4x2097152_S1x2097152_0_0 : S4x2097152.Slices ![0, 0] S1x2097152
  shapeCasts_S1x2097152_S2097152 : S1x2097152.ShapeCasts S2097152
  slices_S4x2097152_S1x2097152_1_0 : S4x2097152.Slices ![1, 0] S1x2097152
  slices_S4x2097152_S1x2097152_2_0 : S4x2097152.Slices ![2, 0] S1x2097152
  bcast_S_S2097152 : S_.BroadcastsInDim S2097152 (![] : Fin 0 → Fin S2097152.rank)
  bcast_S_S8x2097152 : S_.BroadcastsInDim S8x2097152 (![] : Fin 0 → Fin S8x2097152.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S8x2097152_1 : S2097152.BroadcastsInDim S8x2097152 (![1] : Fin 1 → Fin S8x2097152.rank)
  bcast_S2097152_S1x2097152_1 : S2097152.BroadcastsInDim S1x2097152 (![1] : Fin 1 → Fin S1x2097152.rank)
  bcast_S1x2097152_S8x2097152_0_1 : S1x2097152.BroadcastsInDim S8x2097152 (![0, 1] : Fin 2 → Fin S8x2097152.rank)
  shapeCasts_S8x2097152_S8x128x128x128x1 : S8x2097152.ShapeCasts S8x128x128x128x1
  dot_S4x4_S4x2097152_S4x2097152_1_0_0_1_n_n_wf : DotDims.WF S4x4 S4x2097152 S4x2097152 [1] [0] [0] [1] [] []
  gather_S8x2097152_S2097152x1_S8x2097152_0_1_n_n_1_1_81_wf : GatherDims.WF S8x2097152 S2097152x1 S8x2097152 [0] [1] [] [1] [] 1 ![8, 1]

variable [Facts₀]

def dot_S4x4_S4x2097152_S4x2097152_1_0_0_1_n_n : DotDims S4x4 S4x2097152 S4x2097152 where
  lhsContracting := [1]
  rhsContracting := [0]
  lhsNonContracting := [0]
  rhsNonContracting := [1]
  lhsBatch := []
  rhsBatch := []
  wf := dot_S4x4_S4x2097152_S4x2097152_1_0_0_1_n_n_wf
def gather_S8x2097152_S2097152x1_S8x2097152_0_1_n_n_1_1_81 : GatherDims S8x2097152 S2097152x1 S8x2097152 where
  offsetDims := [0]
  collapsedSliceDims := [1]
  operandBatchingDims := []
  startIndicesBatchingDims := []
  startIndexMap := [1]
  indexVectorDim := 1
  sliceSizes := ![8, 1]
  wf := gather_S8x2097152_S2097152x1_S8x2097152_0_1_n_n_1_1_81_wf

class Facts : Prop extends Facts₀ where

variable [Facts]
-- ==== Proof.KernelFrame.lean ====
import proofs.«133722_j65515431133592_2_alg».proof.Proof.Gen.Kernel.Launch
import proofs.«133722_j65515431133592_2_alg».proof.Proof.Gen.Kernel.Skeleton
import proofs.«133722_j65515431133592_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of the program's @main: thirteen host operations, one region on a grid of sixteen points
    (three input windows, two output windows), then nineteen stretches of host operations. The run is the
    library's frame run for a region with host lines on both sides; the body obligation is discharged by
    running the kernel body symbolically; the argument arrays are never written, so they end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host lines around the region -/

/-- The nineteen stretches of host operations after the region, in order. -/
abbrev opss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- The argument arrays. -/
def argL : List (Ref sig .tc) := [main_arg0, main_arg1, main_arg2, main_arg3, main_arg4, main_arg5]
/-- The pipeline's five arrays, then the argument arrays. -/
def keepL : List (Ref sig .tc) :=
  [main_v6, main_v9, main_v12, main_v13_0, main_v13_1, main_arg0, main_arg1, main_arg2, main_arg3, main_arg4, main_arg5]

/-- The operation writes no reference of the list. -/
def Keeps (L : List (Ref sig .tc)) (op : HloOp τ sig (Elt F)) : Prop :=
  ∀ r ∈ L, Proc.devRef (τ := τ) .tc r ∉ op.writes

/-- An operation whose one written buffer is `y`, a reference outside the list, writes none of the list. -/
theorem keeps_of_writes {L : List (Ref sig .tc)} {op : HloOp τ sig (Elt F)} (y : Ref sig .tc)
    (hw : op.writes = {Proc.devRef .tc y}) (hy : y ∉ L) : Keeps L op := by
  intro r hr h
  rw [hw, Finset.mem_singleton] at h
  have e : r = y := Proc.devRef_injective _ h
  exact hy (e ▸ hr)

variable (m : (ℓ : Loc nD τ sig) → Buf (Elt F) ℓ) (ρ : Dev nD → PrngReg)

/-- Core `c`'s buffer contents when the region is entered: after the thirteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ### No stretch allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor

/-! ### No stretch after the region writes an array of the pipeline or an argument array; the lines before it write no argument array -/

theorem hostOps0_keeps : (hostOps0 : List (HloOp τ sig (Elt F))).Forall (Keeps argL) := by
  simp only [List.Forall]; repeat' apply And.intro
  all_goals exact keeps_of_writes _ rfl (by decide)
theorem hostOps1_keeps : (hostOps1 : List (HloOp τ sig (Elt F))).Forall (Keeps keepL) := by
  simp only [List.Forall]; repeat' apply And.intro
  all_goals exact keeps_of_writes _ rfl (by decide)
theorem hostOps1_1_keeps : (hostOps1_1 : List (HloOp τ sig (Elt F))).Forall (Keeps keepL) := by
  simp only [List.Forall]; repeat' apply And.intro
  all_goals exact keeps_of_writes _ rfl (by decide)
theorem hostOps1_2_keeps : (hostOps1_2 : List (HloOp τ sig (Elt F))).Forall (Keeps keepL) := by
  simp only [List.Forall]; repeat' apply And.intro
  all_goals exact keeps_of_writes _ rfl (by decide)
theorem hostOps1_3_keeps : (hostOps1_3 : List (HloOp τ sig (Elt F))).Forall (Keeps keepL) := by
  simp only [List.Forall]; repeat' apply And.intro
  all_goals exact keeps_of_writes _ rfl (by decide)
theorem hostOps1_4_keeps : (hostOps1_4 : List (HloOp τ sig (Elt F))).Forall (Keeps keepL) := by
  simp only [List.Forall]; repeat' apply And.intro
  all_goals exact keeps_of_writes _ rfl (by decide)
theorem hostOps1_5_keeps : (hostOps1_5 : List (HloOp τ sig (Elt F))).Forall (Keeps keepL) := by
  simp only [List.Forall]; repeat' apply And.intro
  all_goals exact keeps_of_writes _ rfl (by decide)
theorem hostOps1_6_keeps : (hostOps1_6 : List (HloOp τ sig (Elt F))).Forall (Keeps keepL) := by
  simp only [List.Forall]; repeat' apply And.intro
  all_goals exact keeps_of_writes _ rfl (by decide)
theorem hostOps1_7_keeps : (hostOps1_7 : List (HloOp τ sig (Elt F))).Forall (Keeps keepL) := by
  simp only [List.Forall]; repeat' apply And.intro
  all_goals exact keeps_of_writes _ rfl (by decide)
theorem hostOps1_8_keeps : (hostOps1_8 : List (HloOp τ sig (Elt F))).Forall (Keeps keepL) := by
  simp only [List.Forall]; repeat' apply And.intro
  all_goals exact keeps_of_writes _ rfl (by decide)
theorem hostOps1_9_keeps : (hostOps1_9 : List (HloOp τ sig (Elt F))).Forall (Keeps keepL) := by
  simp only [List.Forall]; repeat' apply And.intro
  all_goals exact keeps_of_writes _ rfl (by decide)
theorem hostOps1_10_keeps : (hostOps1_10 : List (HloOp τ sig (Elt F))).Forall (Keeps keepL) := by
  simp only [List.Forall]; repeat' apply And.intro
  all_goals exact keeps_of_writes _ rfl (by decide)
theorem hostOps1_11_keeps : (hostOps1_11 : List (HloOp τ sig (Elt F))).Forall (Keeps keepL) := by
  simp only [List.Forall]; repeat' apply And.intro
  all_goals exact keeps_of_writes _ rfl (by decide)
theorem hostOps1_12_keeps : (hostOps1_12 : List (HloOp τ sig (Elt F))).Forall (Keeps keepL) := by
  simp only [List.Forall]; repeat' apply And.intro
  all_goals exact keeps_of_writes _ rfl (by decide)
theorem hostOps1_13_keeps : (hostOps1_13 : List (HloOp τ sig (Elt F))).Forall (Keeps keepL) := by
  simp only [List.Forall]; repeat' apply And.intro
  all_goals exact keeps_of_writes _ rfl (by decide)
theorem hostOps1_14_keeps : (hostOps1_14 : List (HloOp τ sig (Elt F))).Forall (Keeps keepL) := by
  simp only [List.Forall]; repeat' apply And.intro
  all_goals exact keeps_of_writes _ rfl (by decide)
theorem hostOps1_15_keeps : (hostOps1_15 : List (HloOp τ sig (Elt F))).Forall (Keeps keepL) := by
  simp only [List.Forall]; repeat' apply And.intro
  all_goals exact keeps_of_writes _ rfl (by decide)
theorem hostOps1_16_keeps : (hostOps1_16 : List (HloOp τ sig (Elt F))).Forall (Keeps keepL) := by
  simp only [List.Forall]; repeat' apply And.intro
  all_goals exact keeps_of_writes _ rfl (by decide)
theorem hostOps1_17_keeps : (hostOps1_17 : List (HloOp τ sig (Elt F))).Forall (Keeps keepL) := by
  simp only [List.Forall]; repeat' apply And.intro
  all_goals exact keeps_of_writes _ rfl (by decide)
theorem hostOps1_18_keeps : (hostOps1_18 : List (HloOp τ sig (Elt F))).Forall (Keeps keepL) := by
  simp only [List.Forall]; repeat' apply And.intro
  all_goals exact keeps_of_writes _ rfl (by decide)

/-- The stretches after the region, each operation within the TensorCore's references. -/
theorem opss_sub : (opss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub⟩
theorem opss_fresh : (opss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh⟩
theorem opss_keeps : (opss : List (List (HloOp τ sig (Elt F)))).Forall fun ops => ops.Forall (Keeps keepL) :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps⟩

/-- @main around the region: the host lines before it, the region, the nineteen stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [hostOps0] opss (by simp only [List.Forall]; exact hostOps0_sub)
    (by simp only [List.Forall]; exact hostOps0_fresh) main_chain

/-- The lines after the region touch the pipeline's arrays and the bypassing buffers only. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp opss_sub ops hops) op hop)
/-- They allocate nothing. -/
theorem sfx_fresh : ∀ ops ∈ (opss : List (List (HloOp τ sig (Elt F)))), ∀ op ∈ ops, op.fresh = ∅ :=
  fun ops hops op hop => List.forall_iff_forall_mem.mp (List.forall_iff_forall_mem.mp opss_fresh ops hops) op hop
/-- Each writes none of the pipeline's arrays nor an argument array. -/
theorem sfx_keepL : ∀ ops ∈ (opss : List (List (HloOp τ sig (Elt F)))), ∀ op ∈ ops, Keeps keepL op :=
  fun ops hops op hop => List.forall_iff_forall_mem.mp (List.forall_iff_forall_mem.mp opss_keeps ops hops) op hop
/-- The pipeline's arrays are among the kept references. -/
theorem arr_mem_keepL : ∀ w : Fin 5, Pipeline.arrRef spec0 w ∈ keepL := by decide
/-- And write no array of the pipeline. -/
theorem sfx_keeps : ∀ ops ∈ (opss : List (List (HloOp τ sig (Elt F)))), ∀ op ∈ ops,
    ∀ w, Proc.devRef .tc (Pipeline.arrRef spec0 w) ∉ op.writes :=
  fun ops hops op hop w => sfx_keepL ops hops op hop _ (arr_mem_keepL w)

/-- No host operation before the region writes an argument array: the region finds each as launched. -/
theorem V_arg (c : Dev nD) (r : Ref sig .tc) (hr : r ∈ argL) : V m c r = m ((c : Thread nD τ).loc r) :=
  StableHlo.after_of_forall_not_mem (b := Proc.devRef .tc r) _ _ (fun op hop => by
    rw [List.flatten_cons, List.flatten_nil, List.append_nil] at hop
    exact List.forall_iff_forall_mem.mp hostOps0_keeps op hop r hr)

/-- No host operation after the region writes an argument array, and none is an array of the pipeline: each ends as launched. -/
theorem W_arg (dats : (p : Fin _) → (c : Dev nD) → Dat τ (Elt F) Unit ℕ (UR sig nD τ) ℕ (cfgs p) c) (c : Dev nD)
    (r : Ref sig .tc) (hr : r ∈ argL) (hk : r ∈ keepL) (hne : ∀ w, Pipeline.arrRef spec0 w ≠ r) :
    Pipeline.afterTail₀ cfgs dats 0 (V0 m) opss c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact sfx_keepL ops hops op hop' r hk),
    Pipeline.withArrays_of_ne _ c (V0 m c) _ r hne]
  exact V_arg m c r hr

theorem W_main_arg0 (dats : (p : Fin _) → (c : Dev nD) → Dat τ (Elt F) Unit ℕ (UR sig nD τ) ℕ (cfgs p) c) (c : Dev nD) :
    Pipeline.afterTail₀ cfgs dats 0 (V0 m) opss c main_arg0 = m ((c : Thread nD τ).loc main_arg0) :=
  W_arg m dats c main_arg0 (by decide) (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) opss c main_arg1 = m ((c : Thread nD τ).loc main_arg1) :=
  W_arg m dats c main_arg1 (by decide) (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) opss c main_arg2 = m ((c : Thread nD τ).loc main_arg2) :=
  W_arg m dats c main_arg2 (by decide) (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) opss c main_arg3 = m ((c : Thread nD τ).loc main_arg3) :=
  W_arg m dats c main_arg3 (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) opss c main_arg4 = m ((c : Thread nD τ).loc main_arg4) :=
  W_arg m dats c main_arg4 (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) opss c main_arg5 = m ((c : Thread nD τ).loc main_arg5) :=
  W_arg m dats c main_arg5 (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the six argument arrays (none is an array of the pipeline, none is
    written after the region), the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) opss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body's accesses -/

/-- The whole block of an input buffer. -/
abbrev rIn : Rect S1024x128 := Rect.unit (s := S1024x128) ![0, 0] S1024x128.size inb_S1024x128_S1024x128_0_0
/-- Slab 0 of an output buffer. -/
abbrev rOut0 : Rect S8x1024x128 := Rect.unit (s := S8x1024x128) ![0, 0, 0] S1x1024x128.size inb_S8x1024x128_S1x1024x128_0_0_0
/-- Slab 1 of an output buffer. -/
abbrev rOut1 : Rect S8x1024x128 := Rect.unit (s := S8x1024x128) ![1, 0, 0] S1x1024x128.size inb_S8x1024x128_S1x1024x128_1_0_0
/-- Slab 2 of an output buffer. -/
abbrev rOut2 : Rect S8x1024x128 := Rect.unit (s := S8x1024x128) ![2, 0, 0] S1x1024x128.size inb_S8x1024x128_S1x1024x128_2_0_0
/-- Slab 3 of an output buffer. -/
abbrev rOut3 : Rect S8x1024x128 := Rect.unit (s := S8x1024x128) ![3, 0, 0] S1x1024x128.size inb_S8x1024x128_S1x1024x128_3_0_0
/-- Slab 4 of an output buffer. -/
abbrev rOut4 : Rect S8x1024x128 := Rect.unit (s := S8x1024x128) ![4, 0, 0] S1x1024x128.size inb_S8x1024x128_S1x1024x128_4_0_0
/-- Slab 5 of an output buffer. -/
abbrev rOut5 : Rect S8x1024x128 := Rect.unit (s := S8x1024x128) ![5, 0, 0] S1x1024x128.size inb_S8x1024x128_S1x1024x128_5_0_0
/-- Slab 6 of an output buffer. -/
abbrev rOut6 : Rect S8x1024x128 := Rect.unit (s := S8x1024x128) ![6, 0, 0] S1x1024x128.size inb_S8x1024x128_S1x1024x128_6_0_0
/-- Slab 7 of an output buffer. -/
abbrev rOut7 : Rect S8x1024x128 := Rect.unit (s := S8x1024x128) ![7, 0, 0] S1x1024x128.size inb_S8x1024x128_S1x1024x128_7_0_0

/-! ## The values the body computes from the three input blocks

Named after the kernel's own values: `bN` is the body's value `%N` as a function of the input block(s) it is computed
from, through the payloads of the skeleton. `x0`, `x1`, `x2` are the three input blocks. -/

section Values
variable (x0 x1 x2 : Vec F S1024x128 .f32)

def b9 : FVec F S1024x128 .f32 := k0_pay7 (View.ld x0 rIn)
def b13 : FVec F S1024x128 .f32 := k0_pay8 (View.ld x1 rIn)
def b17 : FVec F S1024x128 .f32 := k0_pay9 (View.ld x2 rIn)
def b18 : FVec F S1024x128 .f32 := k0_pay10 (View.ld x0 rIn)
def b19 : FVec F S1024x128 .f32 := k0_pay11 (View.ld x1 rIn)
def b20 : FVec F S1024x128 .f32 := k0_pay12 (View.ld x2 rIn)
def b26 : FVec F S1024x128 .f32 := k0_pay13 (View.ld x0 rIn)
def b32 : FVec F S1024x128 .f32 := k0_pay14 (View.ld x1 rIn)
def b36 : FVec F S1024x128 .f32 := k0_pay15 (View.ld x2 rIn)
def b73 : FVec F S1024x128 .f32 := k0_pay20 (b18 x0)
def b77 : FVec F S1024x128 .f32 := k0_pay21 (b19 x1)
def b118 : FVec F S1024x128 .f32 := k0_pay27 (b18 x0)
def b161 : FVec F S1x1024x128 .f32 :=
  k0_pay33 (b9 x0) (b13 x1) (b17 x2) (b19 x1) (b20 x2) (b118 x0) (k0_pay28 (F := F))
def b193 : FVec F S1024x128 .f32 := k0_pay37 (b9 x0) (b13 x1) (b17 x2) (b18 x0) (b19 x1) (b20 x2)
def b202 : IVec S1024x128 32 := k0_pay38 (b18 x0) (b19 x1) (b20 x2)
def b240 : FVec F S1024x128 .f32 := k0_pay44 (b9 x0) (b13 x1) (b17 x2) (b18 x0) (b19 x1) (b20 x2)
def b242 : IVec S1024x128 32 := k0_pay45 (b19 x1)
def b243 : IVec S1024x128 32 := k0_pay46 (b20 x2)
def b245 : IVec S1024x128 32 := k0_pay47 (b18 x0)
def b261 : FVec F S1024x128 .f32 := k0_pay50 (b18 x0)
def b267 : FVec F S1024x128 .f32 := k0_pay51 (b19 x1)
def b273 : FVec F S1024x128 .f32 := k0_pay52 (b20 x2)
def b282 : FVec F S1024x128 .f32 := k0_pay53 (b9 x0) (b13 x1) (b18 x0) (b19 x1)
def b284 : FVec F S1024x128 .f32 := k0_pay54 (b17 x2) (b20 x2)
def b308 : FVec F S1024x128 .f32 := k0_pay57 (b18 x0)
def b314 : FVec F S1024x128 .f32 := k0_pay58 (b19 x1)
def b320 : FVec F S1024x128 .f32 := k0_pay59 (b20 x2)
def b324 : FVec F S1024x128 .f32 := k0_pay60 (b9 x0) (b18 x0)
def b355 : FVec F S1024x128 .f32 := k0_pay63 (b18 x0)
def b361 : FVec F S1024x128 .f32 := k0_pay64 (b19 x1)
def b363 : FVec F S1024x128 .f32 := k0_pay65 (b20 x2)
/-- The three scalar constants the last parts bind: 1, 0 and 127. -/
def cOne : F .f32 := Scalar.ofBits .f32 0x3F800000#32
def cZero : F .f32 := Scalar.ofBits .f32 0x00000000#32
def c127 : F .f32 := Scalar.ofBits .f32 0x42FE0000#32

/-! ## What the body leaves in each output window's buffer -/

/-- The index output's buffer after the body, from the input blocks: its eight slab stores as pieces, LAST FIRST. -/
def out0_3 : Vec F S8x1024x128 .i32 :=
  View.canon [
    ⟨rOut7, k0_pay2 (b355 x0) (b361 x1) (b363 x2) (cZero (F := F)) (c127 (F := F))⟩,
    ⟨rOut6, k0_pay61 (b308 x0) (b314 x1) (b320 x2)⟩,
    ⟨rOut5, k0_pay55 (b261 x0) (b267 x1) (b273 x2)⟩,
    ⟨rOut4, k0_pay48 (b242 x1) (b243 x2) (b245 x0)⟩,
    ⟨rOut3, k0_pay39 (b202 x0 x1 x2)⟩,
    ⟨rOut2, k0_pay32 (b19 x1) (b20 x2) (b118 x0) (k0_pay28 (F := F))⟩,
    ⟨rOut1, k0_pay25 (b20 x2) (b73 x0) (b77 x1) (k0_pay22 (F := F))⟩,
    ⟨rOut0, k0_pay18 (b26 x0) (b32 x1) (b36 x2) (k0_pay16 (F := F))⟩]

/-- The weight output's buffer after the body, from the input blocks: its eight slab stores as pieces, LAST FIRST. -/
def out0_4 : Vec F S8x1024x128 .f32 :=
  View.canon [
    ⟨rOut7, k0_pay3 (b9 x0) (b13 x1) (b17 x2) (b355 x0) (b361 x1) (b363 x2) (cZero (F := F)) (c127 (F := F))⟩,
    ⟨rOut6, k0_pay62 (b13 x1) (b17 x2) (b314 x1) (b320 x2) (b324 x0)⟩,
    ⟨rOut5, k0_pay56 (b282 x0 x1) (b284 x2) (cOne (F := F))⟩,
    ⟨rOut4, k0_pay49 (b240 x0 x1 x2)⟩,
    ⟨rOut3, k0_pay40 (b193 x0 x1 x2)⟩,
    ⟨rOut2, b161 x0 x1 x2⟩,
    ⟨rOut1, k0_pay26 (b9 x0) (b13 x1) (b17 x2) (b20 x2) (b73 x0) (b77 x1) (k0_pay22 (F := F))⟩,
    ⟨rOut0, k0_pay19 (b9 x0) (b13 x1) (b17 x2) (b26 x0) (b32 x1) (b36 x2) (k0_pay16 (F := F))⟩]

end Values

/-- Eight slab pieces tile an output buffer (checked by evaluation), so they cover it. -/
theorem cover_slabs {e : EltTy} (p7 p6 p5 p4 p3 p2 p1 p0 : S1x1024x128.Idx → Elt F e) :
    ∀ y : S8x1024x128.Idx, ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] :
      List (View.Piece (Elt F) S8x1024x128 e)), y ∈ pc.1.set :=
  View.cover_of_tiled _ S1x1024x128.size (by rfl)

/-! ## The body's triple -/

set_option maxHeartbeats 4000000 in
/-- The kernel body on whole staging memrefs, the inputs' at read contents `x0`, `x1`, `x2` and the outputs' at anything,
    runs to the continuation holding the inputs' as they were and the outputs' at `out0_3` and `out0_4` of the inputs':
    the printed functions are their skeletons, which the symbolic executor runs through every part call (the loads of
    the output buffers are dead: their values are used by no store). -/
theorem sound_kernel (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S8x1024x128 .i32) (harg4 : arg4.IsWhole)
    (arg5 : Memref sig .tc .vmem S8x1024x128 .f32) (harg5 : arg5.IsWhole)
    (x0 x1 x2 : Vec F S1024x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__idxw_kernel i arg1 harg1 arg2 harg2 arg3 harg3 arg4 harg4 arg5 harg5) K := by
  simp only [cc0__idxw_kernel_eq_skeleton]; unfold cc0__idxw_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_slabs _ _ _ _ _ _ _ _)
  · iexists _; isplitr
    swap; · iexact H4
    ipureintro
    exact View.read_writes_eq_canon _ _ _ (cover_slabs _ _ _ _ _ _ _ _)

/-! ## The pipeline's proof data -/

/-- The proof data of the one pipeline on core `c`: the arrays as the region finds them; after the body at point `t` each
    input's buffer at its block and each output's at `out0_3` / `out0_4` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) :
    (dats m 0 c).after 4 t = out0_4 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- THE FRAME: the program's frame claim at any `F`: the run terminates, nothing faults, and the six argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Hand

end
-- ==== Proof.KernelIdealFrame.lean ====
import proofs.«133722_j65515431133592_2_alg».proof.Proof.Gen.KernelIdeal.Launch
import proofs.«133722_j65515431133592_2_alg».proof.Proof.Gen.KernelIdeal.Skeleton
import proofs.«133722_j65515431133592_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of the program's @main: thirteen host operations, one region on a grid of sixteen points
    (three input windows, two output windows), then nineteen stretches of host operations. The run is the
    library's frame run for a region with host lines on both sides; the body obligation is discharged by
    running the kernel body symbolically; the argument arrays are never written, so they end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host lines around the region -/

/-- The nineteen stretches of host operations after the region, in order. -/
abbrev opss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- The argument arrays. -/
def argL : List (Ref sig .tc) := [main_arg0, main_arg1, main_arg2, main_arg3, main_arg4, main_arg5]
/-- The pipeline's five arrays, then the argument arrays. -/
def keepL : List (Ref sig .tc) :=
  [main_v6, main_v9, main_v12, main_v13_0, main_v13_1, main_arg0, main_arg1, main_arg2, main_arg3, main_arg4, main_arg5]

/-- The operation writes no reference of the list. -/
def Keeps (L : List (Ref sig .tc)) (op : HloOp τ sig (Elt F)) : Prop :=
  ∀ r ∈ L, Proc.devRef (τ := τ) .tc r ∉ op.writes

/-- An operation whose one written buffer is `y`, a reference outside the list, writes none of the list. -/
theorem keeps_of_writes {L : List (Ref sig .tc)} {op : HloOp τ sig (Elt F)} (y : Ref sig .tc)
    (hw : op.writes = {Proc.devRef .tc y}) (hy : y ∉ L) : Keeps L op := by
  intro r hr h
  rw [hw, Finset.mem_singleton] at h
  have e : r = y := Proc.devRef_injective _ h
  exact hy (e ▸ hr)

variable (m : (ℓ : Loc nD τ sig) → Buf (Elt F) ℓ) (ρ : Dev nD → PrngReg)

/-- Core `c`'s buffer contents when the region is entered: after the thirteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ### No stretch allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor

/-! ### No stretch after the region writes an array of the pipeline or an argument array; the lines before it write no argument array -/

theorem hostOps0_keeps : (hostOps0 : List (HloOp τ sig (Elt F))).Forall (Keeps argL) := by
  simp only [List.Forall]; repeat' apply And.intro
  all_goals exact keeps_of_writes _ rfl (by decide)
theorem hostOps1_keeps : (hostOps1 : List (HloOp τ sig (Elt F))).Forall (Keeps keepL) := by
  simp only [List.Forall]; repeat' apply And.intro
  all_goals exact keeps_of_writes _ rfl (by decide)
theorem hostOps1_1_keeps : (hostOps1_1 : List (HloOp τ sig (Elt F))).Forall (Keeps keepL) := by
  simp only [List.Forall]; repeat' apply And.intro
  all_goals exact keeps_of_writes _ rfl (by decide)
theorem hostOps1_2_keeps : (hostOps1_2 : List (HloOp τ sig (Elt F))).Forall (Keeps keepL) := by
  simp only [List.Forall]; repeat' apply And.intro
  all_goals exact keeps_of_writes _ rfl (by decide)
theorem hostOps1_3_keeps : (hostOps1_3 : List (HloOp τ sig (Elt F))).Forall (Keeps keepL) := by
  simp only [List.Forall]; repeat' apply And.intro
  all_goals exact keeps_of_writes _ rfl (by decide)
theorem hostOps1_4_keeps : (hostOps1_4 : List (HloOp τ sig (Elt F))).Forall (Keeps keepL) := by
  simp only [List.Forall]; repeat' apply And.intro
  all_goals exact keeps_of_writes _ rfl (by decide)
theorem hostOps1_5_keeps : (hostOps1_5 : List (HloOp τ sig (Elt F))).Forall (Keeps keepL) := by
  simp only [List.Forall]; repeat' apply And.intro
  all_goals exact keeps_of_writes _ rfl (by decide)
theorem hostOps1_6_keeps : (hostOps1_6 : List (HloOp τ sig (Elt F))).Forall (Keeps keepL) := by
  simp only [List.Forall]; repeat' apply And.intro
  all_goals exact keeps_of_writes _ rfl (by decide)
theorem hostOps1_7_keeps : (hostOps1_7 : List (HloOp τ sig (Elt F))).Forall (Keeps keepL) := by
  simp only [List.Forall]; repeat' apply And.intro
  all_goals exact keeps_of_writes _ rfl (by decide)
theorem hostOps1_8_keeps : (hostOps1_8 : List (HloOp τ sig (Elt F))).Forall (Keeps keepL) := by
  simp only [List.Forall]; repeat' apply And.intro
  all_goals exact keeps_of_writes _ rfl (by decide)
theorem hostOps1_9_keeps : (hostOps1_9 : List (HloOp τ sig (Elt F))).Forall (Keeps keepL) := by
  simp only [List.Forall]; repeat' apply And.intro
  all_goals exact keeps_of_writes _ rfl (by decide)
theorem hostOps1_10_keeps : (hostOps1_10 : List (HloOp τ sig (Elt F))).Forall (Keeps keepL) := by
  simp only [List.Forall]; repeat' apply And.intro
  all_goals exact keeps_of_writes _ rfl (by decide)
theorem hostOps1_11_keeps : (hostOps1_11 : List (HloOp τ sig (Elt F))).Forall (Keeps keepL) := by
  simp only [List.Forall]; repeat' apply And.intro
  all_goals exact keeps_of_writes _ rfl (by decide)
theorem hostOps1_12_keeps : (hostOps1_12 : List (HloOp τ sig (Elt F))).Forall (Keeps keepL) := by
  simp only [List.Forall]; repeat' apply And.intro
  all_goals exact keeps_of_writes _ rfl (by decide)
theorem hostOps1_13_keeps : (hostOps1_13 : List (HloOp τ sig (Elt F))).Forall (Keeps keepL) := by
  simp only [List.Forall]; repeat' apply And.intro
  all_goals exact keeps_of_writes _ rfl (by decide)
theorem hostOps1_14_keeps : (hostOps1_14 : List (HloOp τ sig (Elt F))).Forall (Keeps keepL) := by
  simp only [List.Forall]; repeat' apply And.intro
  all_goals exact keeps_of_writes _ rfl (by decide)
theorem hostOps1_15_keeps : (hostOps1_15 : List (HloOp τ sig (Elt F))).Forall (Keeps keepL) := by
  simp only [List.Forall]; repeat' apply And.intro
  all_goals exact keeps_of_writes _ rfl (by decide)
theorem hostOps1_16_keeps : (hostOps1_16 : List (HloOp τ sig (Elt F))).Forall (Keeps keepL) := by
  simp only [List.Forall]; repeat' apply And.intro
  all_goals exact keeps_of_writes _ rfl (by decide)
theorem hostOps1_17_keeps : (hostOps1_17 : List (HloOp τ sig (Elt F))).Forall (Keeps keepL) := by
  simp only [List.Forall]; repeat' apply And.intro
  all_goals exact keeps_of_writes _ rfl (by decide)
theorem hostOps1_18_keeps : (hostOps1_18 : List (HloOp τ sig (Elt F))).Forall (Keeps keepL) := by
  simp only [List.Forall]; repeat' apply And.intro
  all_goals exact keeps_of_writes _ rfl (by decide)

/-- The stretches after the region, each operation within the TensorCore's references. -/
theorem opss_sub : (opss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub⟩
theorem opss_fresh : (opss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh⟩
theorem opss_keeps : (opss : List (List (HloOp τ sig (Elt F)))).Forall fun ops => ops.Forall (Keeps keepL) :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps⟩

/-- @main around the region: the host lines before it, the region, the nineteen stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [hostOps0] opss (by simp only [List.Forall]; exact hostOps0_sub)
    (by simp only [List.Forall]; exact hostOps0_fresh) main_chain

/-- The lines after the region touch the pipeline's arrays and the bypassing buffers only. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp opss_sub ops hops) op hop)
/-- They allocate nothing. -/
theorem sfx_fresh : ∀ ops ∈ (opss : List (List (HloOp τ sig (Elt F)))), ∀ op ∈ ops, op.fresh = ∅ :=
  fun ops hops op hop => List.forall_iff_forall_mem.mp (List.forall_iff_forall_mem.mp opss_fresh ops hops) op hop
/-- Each writes none of the pipeline's arrays nor an argument array. -/
theorem sfx_keepL : ∀ ops ∈ (opss : List (List (HloOp τ sig (Elt F)))), ∀ op ∈ ops, Keeps keepL op :=
  fun ops hops op hop => List.forall_iff_forall_mem.mp (List.forall_iff_forall_mem.mp opss_keeps ops hops) op hop
/-- The pipeline's arrays are among the kept references. -/
theorem arr_mem_keepL : ∀ w : Fin 5, Pipeline.arrRef spec0 w ∈ keepL := by decide
/-- And write no array of the pipeline. -/
theorem sfx_keeps : ∀ ops ∈ (opss : List (List (HloOp τ sig (Elt F)))), ∀ op ∈ ops,
    ∀ w, Proc.devRef .tc (Pipeline.arrRef spec0 w) ∉ op.writes :=
  fun ops hops op hop w => sfx_keepL ops hops op hop _ (arr_mem_keepL w)

/-- No host operation before the region writes an argument array: the region finds each as launched. -/
theorem V_arg (c : Dev nD) (r : Ref sig .tc) (hr : r ∈ argL) : V m c r = m ((c : Thread nD τ).loc r) :=
  StableHlo.after_of_forall_not_mem (b := Proc.devRef .tc r) _ _ (fun op hop => by
    rw [List.flatten_cons, List.flatten_nil, List.append_nil] at hop
    exact List.forall_iff_forall_mem.mp hostOps0_keeps op hop r hr)

/-- No host operation after the region writes an argument array, and none is an array of the pipeline: each ends as launched. -/
theorem W_arg (dats : (p : Fin _) → (c : Dev nD) → Dat τ (Elt F) Unit ℕ (UR sig nD τ) ℕ (cfgs p) c) (c : Dev nD)
    (r : Ref sig .tc) (hr : r ∈ argL) (hk : r ∈ keepL) (hne : ∀ w, Pipeline.arrRef spec0 w ≠ r) :
    Pipeline.afterTail₀ cfgs dats 0 (V0 m) opss c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact sfx_keepL ops hops op hop' r hk),
    Pipeline.withArrays_of_ne _ c (V0 m c) _ r hne]
  exact V_arg m c r hr

theorem W_main_arg0 (dats : (p : Fin _) → (c : Dev nD) → Dat τ (Elt F) Unit ℕ (UR sig nD τ) ℕ (cfgs p) c) (c : Dev nD) :
    Pipeline.afterTail₀ cfgs dats 0 (V0 m) opss c main_arg0 = m ((c : Thread nD τ).loc main_arg0) :=
  W_arg m dats c main_arg0 (by decide) (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) opss c main_arg1 = m ((c : Thread nD τ).loc main_arg1) :=
  W_arg m dats c main_arg1 (by decide) (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) opss c main_arg2 = m ((c : Thread nD τ).loc main_arg2) :=
  W_arg m dats c main_arg2 (by decide) (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) opss c main_arg3 = m ((c : Thread nD τ).loc main_arg3) :=
  W_arg m dats c main_arg3 (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) opss c main_arg4 = m ((c : Thread nD τ).loc main_arg4) :=
  W_arg m dats c main_arg4 (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) opss c main_arg5 = m ((c : Thread nD τ).loc main_arg5) :=
  W_arg m dats c main_arg5 (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the six argument arrays (none is an array of the pipeline, none is
    written after the region), the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) opss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body's accesses -/

/-- The whole block of an input buffer. -/
abbrev rIn : Rect S1024x128 := Rect.unit (s := S1024x128) ![0, 0] S1024x128.size inb_S1024x128_S1024x128_0_0
/-- Slab 0 of an output buffer. -/
abbrev rOut0 : Rect S8x1024x128 := Rect.unit (s := S8x1024x128) ![0, 0, 0] S1x1024x128.size inb_S8x1024x128_S1x1024x128_0_0_0
/-- Slab 1 of an output buffer. -/
abbrev rOut1 : Rect S8x1024x128 := Rect.unit (s := S8x1024x128) ![1, 0, 0] S1x1024x128.size inb_S8x1024x128_S1x1024x128_1_0_0
/-- Slab 2 of an output buffer. -/
abbrev rOut2 : Rect S8x1024x128 := Rect.unit (s := S8x1024x128) ![2, 0, 0] S1x1024x128.size inb_S8x1024x128_S1x1024x128_2_0_0
/-- Slab 3 of an output buffer. -/
abbrev rOut3 : Rect S8x1024x128 := Rect.unit (s := S8x1024x128) ![3, 0, 0] S1x1024x128.size inb_S8x1024x128_S1x1024x128_3_0_0
/-- Slab 4 of an output buffer. -/
abbrev rOut4 : Rect S8x1024x128 := Rect.unit (s := S8x1024x128) ![4, 0, 0] S1x1024x128.size inb_S8x1024x128_S1x1024x128_4_0_0
/-- Slab 5 of an output buffer. -/
abbrev rOut5 : Rect S8x1024x128 := Rect.unit (s := S8x1024x128) ![5, 0, 0] S1x1024x128.size inb_S8x1024x128_S1x1024x128_5_0_0
/-- Slab 6 of an output buffer. -/
abbrev rOut6 : Rect S8x1024x128 := Rect.unit (s := S8x1024x128) ![6, 0, 0] S1x1024x128.size inb_S8x1024x128_S1x1024x128_6_0_0
/-- Slab 7 of an output buffer. -/
abbrev rOut7 : Rect S8x1024x128 := Rect.unit (s := S8x1024x128) ![7, 0, 0] S1x1024x128.size inb_S8x1024x128_S1x1024x128_7_0_0

/-! ## The values the body computes from the three input blocks

Named after the kernel's own values: `bN` is the body's value `%N` as a function of the input block(s) it is computed
from, through the payloads of the skeleton. `x0`, `x1`, `x2` are the three input blocks. -/

section Values
variable (x0 x1 x2 : Vec F S1024x128 .f32)

def b9 : FVec F S1024x128 .f32 := k0_pay7 (View.ld x0 rIn)
def b13 : FVec F S1024x128 .f32 := k0_pay8 (View.ld x1 rIn)
def b17 : FVec F S1024x128 .f32 := k0_pay9 (View.ld x2 rIn)
def b18 : FVec F S1024x128 .f32 := k0_pay10 (View.ld x0 rIn)
def b19 : FVec F S1024x128 .f32 := k0_pay11 (View.ld x1 rIn)
def b20 : FVec F S1024x128 .f32 := k0_pay12 (View.ld x2 rIn)
def b26 : FVec F S1024x128 .f32 := k0_pay13 (View.ld x0 rIn)
def b32 : FVec F S1024x128 .f32 := k0_pay14 (View.ld x1 rIn)
def b36 : FVec F S1024x128 .f32 := k0_pay15 (View.ld x2 rIn)
def b73 : FVec F S1024x128 .f32 := k0_pay20 (b18 x0)
def b77 : FVec F S1024x128 .f32 := k0_pay21 (b19 x1)
def b118 : FVec F S1024x128 .f32 := k0_pay27 (b18 x0)
def b161 : FVec F S1x1024x128 .f32 :=
  k0_pay33 (b9 x0) (b13 x1) (b17 x2) (b19 x1) (b20 x2) (b118 x0) (k0_pay28 (F := F))
def b193 : FVec F S1024x128 .f32 := k0_pay37 (b9 x0) (b13 x1) (b17 x2) (b18 x0) (b19 x1) (b20 x2)
def b202 : IVec S1024x128 32 := k0_pay38 (b18 x0) (b19 x1) (b20 x2)
def b240 : FVec F S1024x128 .f32 := k0_pay44 (b9 x0) (b13 x1) (b17 x2) (b18 x0) (b19 x1) (b20 x2)
def b242 : IVec S1024x128 32 := k0_pay45 (b19 x1)
def b243 : IVec S1024x128 32 := k0_pay46 (b20 x2)
def b245 : IVec S1024x128 32 := k0_pay47 (b18 x0)
def b261 : FVec F S1024x128 .f32 := k0_pay50 (b18 x0)
def b267 : FVec F S1024x128 .f32 := k0_pay51 (b19 x1)
def b273 : FVec F S1024x128 .f32 := k0_pay52 (b20 x2)
def b282 : FVec F S1024x128 .f32 := k0_pay53 (b9 x0) (b13 x1) (b18 x0) (b19 x1)
def b284 : FVec F S1024x128 .f32 := k0_pay54 (b17 x2) (b20 x2)
def b308 : FVec F S1024x128 .f32 := k0_pay57 (b18 x0)
def b314 : FVec F S1024x128 .f32 := k0_pay58 (b19 x1)
def b320 : FVec F S1024x128 .f32 := k0_pay59 (b20 x2)
def b324 : FVec F S1024x128 .f32 := k0_pay60 (b9 x0) (b18 x0)
def b355 : FVec F S1024x128 .f32 := k0_pay63 (b18 x0)
def b361 : FVec F S1024x128 .f32 := k0_pay64 (b19 x1)
def b363 : FVec F S1024x128 .f32 := k0_pay65 (b20 x2)
/-- The three scalar constants the last parts bind: 1, 0 and 127. -/
def cOne : F .f32 := Scalar.ofBits .f32 0x3F800000#32
def cZero : F .f32 := Scalar.ofBits .f32 0x00000000#32
def c127 : F .f32 := Scalar.ofBits .f32 0x42FE0000#32

/-! ## What the body leaves in each output window's buffer -/

/-- The index output's buffer after the body, from the input blocks: its eight slab stores as pieces, LAST FIRST. -/
def out0_3 : Vec F S8x1024x128 .i32 :=
  View.canon [
    ⟨rOut7, k0_pay2 (b355 x0) (b361 x1) (b363 x2) (cZero (F := F)) (c127 (F := F))⟩,
    ⟨rOut6, k0_pay61 (b308 x0) (b314 x1) (b320 x2)⟩,
    ⟨rOut5, k0_pay55 (b261 x0) (b267 x1) (b273 x2)⟩,
    ⟨rOut4, k0_pay48 (b242 x1) (b243 x2) (b245 x0)⟩,
    ⟨rOut3, k0_pay39 (b202 x0 x1 x2)⟩,
    ⟨rOut2, k0_pay32 (b19 x1) (b20 x2) (b118 x0) (k0_pay28 (F := F))⟩,
    ⟨rOut1, k0_pay25 (b20 x2) (b73 x0) (b77 x1) (k0_pay22 (F := F))⟩,
    ⟨rOut0, k0_pay18 (b26 x0) (b32 x1) (b36 x2) (k0_pay16 (F := F))⟩]

/-- The weight output's buffer after the body, from the input blocks: its eight slab stores as pieces, LAST FIRST. -/
def out0_4 : Vec F S8x1024x128 .f32 :=
  View.canon [
    ⟨rOut7, k0_pay3 (b9 x0) (b13 x1) (b17 x2) (b355 x0) (b361 x1) (b363 x2) (cZero (F := F)) (c127 (F := F))⟩,
    ⟨rOut6, k0_pay62 (b13 x1) (b17 x2) (b314 x1) (b320 x2) (b324 x0)⟩,
    ⟨rOut5, k0_pay56 (b282 x0 x1) (b284 x2) (cOne (F := F))⟩,
    ⟨rOut4, k0_pay49 (b240 x0 x1 x2)⟩,
    ⟨rOut3, k0_pay40 (b193 x0 x1 x2)⟩,
    ⟨rOut2, b161 x0 x1 x2⟩,
    ⟨rOut1, k0_pay26 (b9 x0) (b13 x1) (b17 x2) (b20 x2) (b73 x0) (b77 x1) (k0_pay22 (F := F))⟩,
    ⟨rOut0, k0_pay19 (b9 x0) (b13 x1) (b17 x2) (b26 x0) (b32 x1) (b36 x2) (k0_pay16 (F := F))⟩]

end Values

/-- Eight slab pieces tile an output buffer (checked by evaluation), so they cover it. -/
theorem cover_slabs {e : EltTy} (p7 p6 p5 p4 p3 p2 p1 p0 : S1x1024x128.Idx → Elt F e) :
    ∀ y : S8x1024x128.Idx, ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] :
      List (View.Piece (Elt F) S8x1024x128 e)), y ∈ pc.1.set :=
  View.cover_of_tiled _ S1x1024x128.size (by rfl)

/-! ## The body's triple -/

set_option maxHeartbeats 4000000 in
/-- The kernel body on whole staging memrefs, the inputs' at read contents `x0`, `x1`, `x2` and the outputs' at anything,
    runs to the continuation holding the inputs' as they were and the outputs' at `out0_3` and `out0_4` of the inputs':
    the printed functions are their skeletons, which the symbolic executor runs through every part call (the loads of
    the output buffers are dead: their values are used by no store). -/
theorem sound_kernel (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S8x1024x128 .i32) (harg4 : arg4.IsWhole)
    (arg5 : Memref sig .tc .vmem S8x1024x128 .f32) (harg5 : arg5.IsWhole)
    (x0 x1 x2 : Vec F S1024x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__idxw_kernel i arg1 harg1 arg2 harg2 arg3 harg3 arg4 harg4 arg5 harg5) K := by
  simp only [cc0__idxw_kernel_eq_skeleton]; unfold cc0__idxw_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_slabs _ _ _ _ _ _ _ _)
  · iexists _; isplitr
    swap; · iexact H4
    ipureintro
    exact View.read_writes_eq_canon _ _ _ (cover_slabs _ _ _ _ _ _ _ _)

/-! ## The pipeline's proof data -/

/-- The proof data of the one pipeline on core `c`: the arrays as the region finds them; after the body at point `t` each
    input's buffer at its block and each output's at `out0_3` / `out0_4` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) :
    (dats m 0 c).after 4 t = out0_4 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- THE FRAME: the program's frame claim at any `F`: the run terminates, nothing faults, and the six argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Hand

end
-- ==== Proof.Spec.lean ====
/-
  The warp-and-resample layer, index by index.

  A point's three warped coordinates a, b, c (the rows 0, 1, 2 of p = T (S (R points) + ct) at that point) determine
  eight trilinear corners. Corner (di, dj, dk), each offset the word of 0.0 or of 1.0, has the coordinates
  clip (floor a + di), clip (floor b + dj), clip (floor c + dk), clip to [0, 127]; its weight is
  (1 - |clip a - i|) (1 - |clip b - j|) (1 - |clip c - k|) and its voxel index the 32-bit word i * 16384 + j * 128 + k
  of the coordinates converted to integers. This module states those two functions once, on vectors of any shape
  (the form a kernel block and a host vector both have) and on scalars (the form an index-by-index comparison uses),
  for any float instance, and that the vector forms are the scalar forms at every index.
-/
import Idealize.ShloMosaic.PureOps
import Idealize.ShloMosaic.Lib.ValueIdx

noncomputable section

namespace Cert.Warp

open Idealize.ShloMosaic

variable {F : FTy → Type} [FloatOps F]

/-! ## On scalars -/

/-- The word of 0.0, the lower bound of a coordinate. -/
abbrev loW : BitVec 32 := 0x00000000#32
/-- The word of 127.0, the upper bound of a coordinate. -/
abbrev hiW : BitVec 32 := 0x42FE0000#32
/-- The word of 1.0. -/
abbrev oneW : BitVec 32 := 0x3F800000#32

/-- A coordinate clipped to [0, 127]: min 127 (max 0 x). -/
def clipS (x : F .f32) : F .f32 :=
  FloatOps.minimumf (Scalar.ofBits .f32 hiW) (FloatOps.maximumf (Scalar.ofBits .f32 loW) x)

/-- A corner's coordinate: clip (floor x + d). -/
def cornS (d : BitVec 32) (x : F .f32) : F .f32 :=
  clipS (FloatOps.addf (FloatOps.floor x) (Scalar.ofBits .f32 d))

/-- One axis' factor of a corner's weight: 1 - |clip x - corner|. -/
def facS (d : BitVec 32) (x : F .f32) : F .f32 :=
  FloatOps.subf (Scalar.ofBits .f32 oneW) (FloatOps.absf (FloatOps.subf (clipS x) (cornS d x)))

/-- A corner's weight. -/
def wgtS (di dj dk : BitVec 32) (a b c : F .f32) : F .f32 :=
  FloatOps.mulf (FloatOps.mulf (facS di a) (facS dj b)) (facS dk c)

/-- A corner's voxel index. -/
def idxS (di dj dk : BitVec 32) (a b c : F .f32) : BitVec 32 :=
  IntOp.addi (IntOp.addi (IntOp.muli (FloatOps.fptosi 32 (cornS di a)) 16384#32)
    (IntOp.muli (FloatOps.fptosi 32 (cornS dj b)) 128#32)) (FloatOps.fptosi 32 (cornS dk c))

/-! ## On vectors of any shape -/

variable (S : Shape)

def clipV (x : FVec F S .f32) : FVec F S .f32 :=
  minimumf (broadcast S (Scalar.ofBits .f32 hiW)) (maximumf (broadcast S (Scalar.ofBits .f32 loW)) x)

def cornV (d : BitVec 32) (x : FVec F S .f32) : FVec F S .f32 :=
  clipV S (addf (floor x) (broadcast S (Scalar.ofBits .f32 d)))

def facV (d : BitVec 32) (x : FVec F S .f32) : FVec F S .f32 :=
  subf (broadcast S (Scalar.ofBits .f32 oneW)) (absf (subf (clipV S x) (cornV S d x)))

def wgtV (di dj dk : BitVec 32) (a b c : FVec F S .f32) : FVec F S .f32 :=
  mulf (mulf (facV S di a) (facV S dj b)) (facV S dk c)

def idxV (di dj dk : BitVec 32) (a b c : FVec F S .f32) : IVec S 32 :=
  addi (addi (muli (fptosi 32 (cornV S di a)) (broadcast S 16384#32))
    (muli (fptosi 32 (cornV S dj b)) (broadcast S 128#32))) (fptosi 32 (cornV S dk c))

theorem wgtV_apply (di dj dk : BitVec 32) (a b c : FVec F S .f32) (j : S.Idx) :
    wgtV S di dj dk a b c j = wgtS di dj dk (a j) (b j) (c j) := rfl

theorem idxV_apply (di dj dk : BitVec 32) (a b c : FVec F S .f32) (j : S.Idx) :
    idxV S di dj dk a b c j = idxS di dj dk (a j) (b j) (c j) := rfl

/-- The corner offsets of corner number c = 4 dk + 2 dj + di, as words. -/
def offI (c : Nat) : BitVec 32 := if c % 2 = 1 then oneW else loW
def offJ (c : Nat) : BitVec 32 := if (c / 2) % 2 = 1 then oneW else loW
def offK (c : Nat) : BitVec 32 := if (c / 4) % 2 = 1 then oneW else loW

/-! ## The two arrays the kernel's region leaves, as functions of the three coordinate arrays

Slab c of the [8, 16384, 128] index array holds corner c's voxel index of the point at (row, lane), slab c of the weight
array its weight; corner c has the offsets (offI c, offJ c, offK c). -/

open Idealize.ShloMosaic.ValueIdx in
def idxArr (a b c : FVec F ⟨2, ![16384, 128]⟩ .f32) : IVec ⟨3, ![8, 16384, 128]⟩ 32 :=
  fun q => idxS (offI (q 0).val) (offJ (q 0).val) (offK (q 0).val) (a (ix2 (q 1) (q 2))) (b (ix2 (q 1) (q 2))) (c (ix2 (q 1) (q 2)))

open Idealize.ShloMosaic.ValueIdx in
def wgtArr (a b c : FVec F ⟨2, ![16384, 128]⟩ .f32) : FVec F ⟨3, ![8, 16384, 128]⟩ .f32 :=
  fun q => wgtS (offI (q 0).val) (offJ (q 0).val) (offK (q 0).val) (a (ix2 (q 1) (q 2))) (b (ix2 (q 1) (q 2))) (c (ix2 (q 1) (q 2)))

/-! ## The resampled volume

N = 2097152 points. From the volume flattened to [8, N] (one row per batch entry) and the three coordinate vectors,
entry (b, n) of the result is the sum over the corners c = 0 … 7, added in that order onto zero, of corner c's weight at
n times the volume's row b read at corner c's index at n, over the sum of the weights (added in the same order onto
zero) clipped to [1e-8, 8]. Reading a row at an index word is jnp.take's: a negative word has N added; a word
then outside [0, N - 1] reads the NaN word, any other the entry at the word (read signed, clamped into the row). -/

section Resample
open Idealize.ShloMosaic.ValueIdx

/-- The index words as the [N, 1] column a gather is given, negative words wrapped by N. -/
def wrapCol (idx : IVec ⟨1, ![2097152]⟩ 32) : IVec ⟨2, ![2097152, 1]⟩ 32 :=
  broadcastInDim ⟨2, ![2097152, 1]⟩ ![0] (by decide)
    (select (cmpi .slt idx (broadcastInDim ⟨1, ![2097152]⟩ ![] (by decide) (constantI ⟨0, ![]⟩ 32 0#32)))
      (addi idx (broadcastInDim ⟨1, ![2097152]⟩ ![] (by decide) (constantI ⟨0, ![]⟩ 32 2097152#32))) idx)

/-- One bit per point: the wrapped word is a position of the row, 0 ≤ w ≤ N - 1. -/
def inRange (col : IVec ⟨2, ![2097152, 1]⟩ 32) : IVec ⟨1, ![2097152]⟩ 1 :=
  Host.reduce IntOp.andi
    (andi (cmpi .sge col (broadcastInDim ⟨2, ![2097152, 1]⟩ ![] (by decide) (constantI ⟨0, ![]⟩ 32 0#32)))
      (cmpi .sle col (broadcastInDim ⟨2, ![2097152, 1]⟩ ![0, 1] (by decide)
        (broadcastInDim ⟨2, ![1, 1]⟩ ![1] (by decide) (constantI ⟨1, ![1]⟩ 32 2097151#32)))))
    (constantI ⟨0, ![]⟩ 1 1#1) (by decide : (⟨2, ![2097152, 1]⟩ : Shape).ReducesTo [1] ⟨1, ![2097152]⟩) (by decide)

/-- The position a wrapped word reads: the word read signed, clamped into [0, N - 1]. -/
def posOf (col : IVec ⟨2, ![2097152, 1]⟩ 32) (n : Fin 2097152) : Fin 2097152 :=
  ⟨min (col (ix2 n 0)).toInt.toNat (2097152 - 1), by omega⟩

/-- Row b of the flattened volume read at point n's index word. -/
def takeS (xf : FVec F ⟨2, ![8, 2097152]⟩ .f32) (idx : IVec ⟨1, ![2097152]⟩ 32) (b : Fin 8) (n : Fin 2097152) : F .f32 :=
  Scalar.select (inRange (wrapCol idx) (ix1 n)) (xf (ix2 b (posOf (wrapCol idx) n))) (FloatOps.ofBits .f32 0x7FC00000#32)

/-- Corner c's term at (b, n): weight times the volume read at the corner's index. -/
def termS (xf : FVec F ⟨2, ![8, 2097152]⟩ .f32) (pi pj pk : FVec F ⟨1, ![2097152]⟩ .f32) (c : Nat) (b : Fin 8) (n : Fin 2097152) : F .f32 :=
  FloatOps.mulf (wgtV ⟨1, ![2097152]⟩ (offI c) (offJ c) (offK c) pi pj pk (ix1 n))
    (takeS xf (idxV ⟨1, ![2097152]⟩ (offI c) (offJ c) (offK c) pi pj pk) b n)

/-- Corner c's weight at n. -/
def wS (pi pj pk : FVec F ⟨1, ![2097152]⟩ .f32) (c : Nat) (n : Fin 2097152) : F .f32 :=
  wgtV ⟨1, ![2097152]⟩ (offI c) (offJ c) (offK c) pi pj pk (ix1 n)

/-- The weight total clipped to [1e-8, 8]: min 8 (max 1e-8 w). -/
def clipTotS (w : F .f32) : F .f32 :=
  FloatOps.minimumf (FloatOps.ofBits .f32 0x41000000#32) (FloatOps.maximumf (FloatOps.ofBits .f32 0x322BCC77#32) w)

/-- The resampled volume, flattened to [8, N]. -/
def resample (xf : FVec F ⟨2, ![8, 2097152]⟩ .f32) (pi pj pk : FVec F ⟨1, ![2097152]⟩ .f32) : FVec F ⟨2, ![8, 2097152]⟩ .f32 :=
  fun q =>
    let t := termS xf pi pj pk
    let w := wS pi pj pk
    let z : F .f32 := FloatOps.ofBits .f32 0x00000000#32
    FloatOps.hostDivf
      (FloatOps.addf (FloatOps.addf (FloatOps.addf (FloatOps.addf (FloatOps.addf (FloatOps.addf (FloatOps.addf (FloatOps.addf z
        (t 0 (q 0) (q 1))) (t 1 (q 0) (q 1))) (t 2 (q 0) (q 1))) (t 3 (q 0) (q 1))) (t 4 (q 0) (q 1))) (t 5 (q 0) (q 1))) (t 6 (q 0) (q 1))) (t 7 (q 0) (q 1)))
      (clipTotS (FloatOps.addf (FloatOps.addf (FloatOps.addf (FloatOps.addf (FloatOps.addf (FloatOps.addf (FloatOps.addf (FloatOps.addf z
        (w 0 (q 1))) (w 1 (q 1))) (w 2 (q 1))) (w 3 (q 1))) (w 4 (q 1))) (w 5 (q 1))) (w 6 (q 1))) (w 7 (q 1))))

/-- The warped homogeneous coordinates p = T (S (R points) + ct), [4, N]. -/
def warpP (prec : Option ContractPrecision) (R S T : FVec F ⟨2, ![4, 4]⟩ .f32) (pts ct : FVec F ⟨2, ![4, 2097152]⟩ .f32) :
    FVec F ⟨2, ![4, 2097152]⟩ .f32 :=
  Host.dotGeneral (DotDims.plain 4 4 2097152) prec T
    (addf (Host.dotGeneral (DotDims.plain 4 4 2097152) prec S (Host.dotGeneral (DotDims.plain 4 4 2097152) prec R pts)) ct)

/-- Row k of p as a vector of N. -/
def rowP (k : Nat) (h : (⟨2, ![4, 2097152]⟩ : Shape).Slices ![k, 0] ⟨2, ![1, 2097152]⟩) (p : FVec F ⟨2, ![4, 2097152]⟩ .f32) :
    FVec F ⟨1, ![2097152]⟩ .f32 :=
  shapeCast ⟨1, ![2097152]⟩ (extractStridedSlice ⟨2, ![1, 2097152]⟩ ![k, 0] p h) (by decide)

/-- THE LAYER: the volume x [8,128,128,128,1] resampled at the warped points. -/
def layer (x : FVec F ⟨5, ![8, 128, 128, 128, 1]⟩ .f32) (pts ct : FVec F ⟨2, ![4, 2097152]⟩ .f32) (R S T : FVec F ⟨2, ![4, 4]⟩ .f32) :
    FVec F ⟨5, ![8, 128, 128, 128, 1]⟩ .f32 :=
  shapeCast ⟨5, ![8, 128, 128, 128, 1]⟩
    (resample (shapeCast ⟨2, ![8, 2097152]⟩ x (by decide))
      (rowP 0 (by decide) (warpP none R S T pts ct)) (rowP 1 (by decide) (warpP none R S T pts ct)) (rowP 2 (by decide) (warpP none R S T pts ct)))
    (by decide)

end Resample

end Cert.Warp

end
-- ==== Proof.KernelArrays.lean ====
import proofs.«133722_j65515431133592_2_alg».proof.Proof.KernelIdealFrame
import proofs.«133722_j65515431133592_2_alg».proof.Proof.Spec
import Idealize.ShloMosaic.Lib.Pipeline.Value

/-! The two arrays the region leaves, in closed form: slab by slab, each stored payload is the vector form of one
    trilinear corner's index or weight of the three input blocks; read index by index, the buffer the body leaves is the
    scalar form at the block's coordinates; block by block over the sixteen points, the array is the closed form of the
    three coordinate arrays. -/

set_option maxRecDepth 16384

noncomputable section

namespace Cert.KernelIdeal.Hand

open Cert.KernelIdeal Cert.KernelIdeal.Gen Cert.Warp
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The stored payloads are the corners' vector forms -/

/-- A load of a whole input block reads the block. -/
theorem ld_rIn (X : Vec F S1024x128 .f32) : View.ld X rIn = X :=
  View.ld_unit_zero (by funext a; fin_cases a <;> rfl) _ X

section Payloads
variable (x0 x1 x2 : Vec F S1024x128 .f32)

theorem payI_0 : (k0_pay18 (b26 x0) (b32 x1) (b36 x2) (k0_pay16 (F := F)) : Vec F S1x1024x128 .i32)
    = shapeCast S1x1024x128 (idxV S1024x128 loW loW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_0 : (k0_pay19 (b9 x0) (b13 x1) (b17 x2) (b26 x0) (b32 x1) (b36 x2) (k0_pay16 (F := F)) : Vec F S1x1024x128 .f32)
    = shapeCast S1x1024x128 (wgtV S1024x128 loW loW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payI_1 : (k0_pay25 (b20 x2) (b73 x0) (b77 x1) (k0_pay22 (F := F)) : Vec F S1x1024x128 .i32)
    = shapeCast S1x1024x128 (idxV S1024x128 oneW loW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_1 : (k0_pay26 (b9 x0) (b13 x1) (b17 x2) (b20 x2) (b73 x0) (b77 x1) (k0_pay22 (F := F)) : Vec F S1x1024x128 .f32)
    = shapeCast S1x1024x128 (wgtV S1024x128 oneW loW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payI_2 : (k0_pay32 (b19 x1) (b20 x2) (b118 x0) (k0_pay28 (F := F)) : Vec F S1x1024x128 .i32)
    = shapeCast S1x1024x128 (idxV S1024x128 loW oneW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_2 : (b161 x0 x1 x2 : Vec F S1x1024x128 .f32)
    = shapeCast S1x1024x128 (wgtV S1024x128 loW oneW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payI_3 : (k0_pay39 (b202 x0 x1 x2) : Vec F S1x1024x128 .i32)
    = shapeCast S1x1024x128 (idxV S1024x128 oneW oneW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_3 : (k0_pay40 (b193 x0 x1 x2) : Vec F S1x1024x128 .f32)
    = shapeCast S1x1024x128 (wgtV S1024x128 oneW oneW loW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payI_4 : (k0_pay48 (b242 x1) (b243 x2) (b245 x0) : Vec F S1x1024x128 .i32)
    = shapeCast S1x1024x128 (idxV S1024x128 loW loW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_4 : (k0_pay49 (b240 x0 x1 x2) : Vec F S1x1024x128 .f32)
    = shapeCast S1x1024x128 (wgtV S1024x128 loW loW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payI_5 : (k0_pay55 (b261 x0) (b267 x1) (b273 x2) : Vec F S1x1024x128 .i32)
    = shapeCast S1x1024x128 (idxV S1024x128 oneW loW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_5 : (k0_pay56 (b282 x0 x1) (b284 x2) (cOne (F := F)) : Vec F S1x1024x128 .f32)
    = shapeCast S1x1024x128 (wgtV S1024x128 oneW loW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payI_6 : (k0_pay61 (b308 x0) (b314 x1) (b320 x2) : Vec F S1x1024x128 .i32)
    = shapeCast S1x1024x128 (idxV S1024x128 loW oneW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_6 : (k0_pay62 (b13 x1) (b17 x2) (b314 x1) (b320 x2) (b324 x0) : Vec F S1x1024x128 .f32)
    = shapeCast S1x1024x128 (wgtV S1024x128 loW oneW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payI_7 : (k0_pay2 (b355 x0) (b361 x1) (b363 x2) (cZero (F := F)) (c127 (F := F)) : Vec F S1x1024x128 .i32)
    = shapeCast S1x1024x128 (idxV S1024x128 oneW oneW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl
theorem payW_7 : (k0_pay3 (b9 x0) (b13 x1) (b17 x2) (b355 x0) (b361 x1) (b363 x2) (cZero (F := F)) (c127 (F := F)) : Vec F S1x1024x128 .f32)
    = shapeCast S1x1024x128 (wgtV S1024x128 oneW oneW oneW x0 x1 x2) shapeCasts_S1024x128_S1x1024x128 := by
  simp only [b9, b13, b17, b18, b19, b20, b26, b32, b36, b73, b77, b118, b161, b193, b202, b240, b242, b243, b245, b261, b267, b273, b282, b284, b308, b314, b320, b324, b355, b361, b363, cOne, cZero, c127, ld_rIn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self]
  rfl

end Payloads

/-! ## The buffer the body leaves, index by index -/

/-- A slab's payload — a vector over the block's rows and lanes, cast to one slab — read at an index of the slab: the
    vector at the index's row and lane; and the index's leading coordinate is the slab's number. -/
theorem slab_apply {α : Type} (K : Nat) (inb : ∀ a, (![K, 0, 0] : Fin 3 → Nat) a + S1x1024x128.size a ≤ S8x1024x128.size a)
    (v : S1024x128.Idx → α) (G : S1024x128.Idx → BitVec 32 → BitVec 32 → BitVec 32 → α)
    (dI dJ dK : BitVec 32) (hI : offI K = dI) (hJ : offJ K = dJ) (hK : offK K = dK)
    (hv : ∀ j, v j = G j dI dJ dK)
    (x : (Rect.unit (s := S8x1024x128) ![K, 0, 0] S1x1024x128.size inb).shape.Idx) :
    shapeCast S1x1024x128 v shapeCasts_S1024x128_S1x1024x128 x
      = G (ix2 ((Rect.unit (s := S8x1024x128) ![K, 0, 0] S1x1024x128.size inb).emb x 1) ((Rect.unit (s := S8x1024x128) ![K, 0, 0] S1x1024x128.size inb).emb x 2))
          (offI ((Rect.unit (s := S8x1024x128) ![K, 0, 0] S1x1024x128.size inb).emb x 0).val)
          (offJ ((Rect.unit (s := S8x1024x128) ![K, 0, 0] S1x1024x128.size inb).emb x 0).val)
          (offK ((Rect.unit (s := S8x1024x128) ![K, 0, 0] S1x1024x128.size inb).emb x 0).val) := by
  have hx0 : ((x 0 : Fin _) : Nat) < 1 := (x 0).isLt
  have hq0 : ((Rect.unit (s := S8x1024x128) ![K, 0, 0] S1x1024x128.size inb).emb x 0).val = K := by
    rw [Rect.emb_apply]
    show K + 1 * (x 0).val = K
    omega
  have hj : (fun a : Fin 2 => x a.succ) = ix2 ((Rect.unit (s := S8x1024x128) ![K, 0, 0] S1x1024x128.size inb).emb x 1) ((Rect.unit (s := S8x1024x128) ![K, 0, 0] S1x1024x128.size inb).emb x 2) := by
    funext a
    apply Fin.ext
    match a with
    | ⟨0, _⟩ => show (x 1).val = 0 + 1 * (x 1).val; omega
    | ⟨1, _⟩ => show (x 2).val = 0 + 1 * (x 2).val; omega
  have e1 : offI ((Rect.unit (s := S8x1024x128) ![K, 0, 0] S1x1024x128.size inb).emb x 0).val = dI := by rw [hq0]; exact hI
  have e2 : offJ ((Rect.unit (s := S8x1024x128) ![K, 0, 0] S1x1024x128.size inb).emb x 0).val = dJ := by rw [hq0]; exact hJ
  have e3 : offK ((Rect.unit (s := S8x1024x128) ![K, 0, 0] S1x1024x128.size inb).emb x 0).val = dK := by rw [hq0]; exact hK
  refine (shapeCast_addUnit_apply ![1024, 128] v shapeCasts_S1024x128_S1x1024x128 x).trans ?_
  refine (hv _).trans ?_
  refine (congrArg (fun j => G j dI dJ dK) hj).trans ?_
  rw [e1, e2, e3]
  rfl

section Read
variable (x0 x1 x2 : Vec F S1024x128 .f32)

/-- The index buffer the body leaves, at an index: the voxel index of the corner the slab names, of the three
    coordinates at the index's row and lane. -/
theorem out0_3_eq (q : S8x1024x128.Idx) :
    out0_3 x0 x1 x2 q = idxS (offI (q 0).val) (offJ (q 0).val) (offK (q 0).val) (x0 (ix2 (q 1) (q 2))) (x1 (ix2 (q 1) (q 2))) (x2 (ix2 (q 1) (q 2))) := by
  unfold out0_3
  refine View.canon_apply_of_pieces (Val := Elt F) (e := .i32)
    (fun q : S8x1024x128.Idx => idxS (offI (q 0).val) (offJ (q 0).val) (offK (q 0).val) (x0 (ix2 (q 1) (q 2))) (x1 (ix2 (q 1) (q 2))) (x2 (ix2 (q 1) (q 2))))
    _ ?_ q (cover_slabs _ _ _ _ _ _ _ _ q)
  intro p hp
  simp only [List.mem_cons, List.mem_nil_iff, or_false] at hp
  rcases hp with rfl | rfl | rfl | rfl | rfl | rfl | rfl | rfl
  · intro x
    rw [payI_7]
    exact slab_apply 7 inb_S8x1024x128_S1x1024x128_7_0_0 _ (fun j dI dJ dK => idxS dI dJ dK (x0 j) (x1 j) (x2 j)) oneW oneW oneW rfl rfl rfl (fun j => rfl) x
  · intro x
    rw [payI_6]
    exact slab_apply 6 inb_S8x1024x128_S1x1024x128_6_0_0 _ (fun j dI dJ dK => idxS dI dJ dK (x0 j) (x1 j) (x2 j)) loW oneW oneW rfl rfl rfl (fun j => rfl) x
  · intro x
    rw [payI_5]
    exact slab_apply 5 inb_S8x1024x128_S1x1024x128_5_0_0 _ (fun j dI dJ dK => idxS dI dJ dK (x0 j) (x1 j) (x2 j)) oneW loW oneW rfl rfl rfl (fun j => rfl) x
  · intro x
    rw [payI_4]
    exact slab_apply 4 inb_S8x1024x128_S1x1024x128_4_0_0 _ (fun j dI dJ dK => idxS dI dJ dK (x0 j) (x1 j) (x2 j)) loW loW oneW rfl rfl rfl (fun j => rfl) x
  · intro x
    rw [payI_3]
    exact slab_apply 3 inb_S8x1024x128_S1x1024x128_3_0_0 _ (fun j dI dJ dK => idxS dI dJ dK (x0 j) (x1 j) (x2 j)) oneW oneW loW rfl rfl rfl (fun j => rfl) x
  · intro x
    rw [payI_2]
    exact slab_apply 2 inb_S8x1024x128_S1x1024x128_2_0_0 _ (fun j dI dJ dK => idxS dI dJ dK (x0 j) (x1 j) (x2 j)) loW oneW loW rfl rfl rfl (fun j => rfl) x
  · intro x
    rw [payI_1]
    exact slab_apply 1 inb_S8x1024x128_S1x1024x128_1_0_0 _ (fun j dI dJ dK => idxS dI dJ dK (x0 j) (x1 j) (x2 j)) oneW loW loW rfl rfl rfl (fun j => rfl) x
  · intro x
    rw [payI_0]
    exact slab_apply 0 inb_S8x1024x128_S1x1024x128_0_0_0 _ (fun j dI dJ dK => idxS dI dJ dK (x0 j) (x1 j) (x2 j)) loW loW loW rfl rfl rfl (fun j => rfl) x

/-- The weight buffer the body leaves, at an index: the weight of the corner the slab names. -/
theorem out0_4_eq (q : S8x1024x128.Idx) :
    out0_4 x0 x1 x2 q = wgtS (offI (q 0).val) (offJ (q 0).val) (offK (q 0).val) (x0 (ix2 (q 1) (q 2))) (x1 (ix2 (q 1) (q 2))) (x2 (ix2 (q 1) (q 2))) := by
  unfold out0_4
  refine View.canon_apply_of_pieces (Val := Elt F) (e := .f32)
    (fun q : S8x1024x128.Idx => wgtS (offI (q 0).val) (offJ (q 0).val) (offK (q 0).val) (x0 (ix2 (q 1) (q 2))) (x1 (ix2 (q 1) (q 2))) (x2 (ix2 (q 1) (q 2))))
    _ ?_ q (cover_slabs _ _ _ _ _ _ _ _ q)
  intro p hp
  simp only [List.mem_cons, List.mem_nil_iff, or_false] at hp
  rcases hp with rfl | rfl | rfl | rfl | rfl | rfl | rfl | rfl
  · intro x
    rw [payW_7]
    exact slab_apply 7 inb_S8x1024x128_S1x1024x128_7_0_0 _ (fun j dI dJ dK => wgtS dI dJ dK (x0 j) (x1 j) (x2 j)) oneW oneW oneW rfl rfl rfl (fun j => rfl) x
  · intro x
    rw [payW_6]
    exact slab_apply 6 inb_S8x1024x128_S1x1024x128_6_0_0 _ (fun j dI dJ dK => wgtS dI dJ dK (x0 j) (x1 j) (x2 j)) loW oneW oneW rfl rfl rfl (fun j => rfl) x
  · intro x
    rw [payW_5]
    exact slab_apply 5 inb_S8x1024x128_S1x1024x128_5_0_0 _ (fun j dI dJ dK => wgtS dI dJ dK (x0 j) (x1 j) (x2 j)) oneW loW oneW rfl rfl rfl (fun j => rfl) x
  · intro x
    rw [payW_4]
    exact slab_apply 4 inb_S8x1024x128_S1x1024x128_4_0_0 _ (fun j dI dJ dK => wgtS dI dJ dK (x0 j) (x1 j) (x2 j)) loW loW oneW rfl rfl rfl (fun j => rfl) x
  · intro x
    rw [payW_3]
    exact slab_apply 3 inb_S8x1024x128_S1x1024x128_3_0_0 _ (fun j dI dJ dK => wgtS dI dJ dK (x0 j) (x1 j) (x2 j)) oneW oneW loW rfl rfl rfl (fun j => rfl) x
  · intro x
    rw [payW_2]
    exact slab_apply 2 inb_S8x1024x128_S1x1024x128_2_0_0 _ (fun j dI dJ dK => wgtS dI dJ dK (x0 j) (x1 j) (x2 j)) loW oneW loW rfl rfl rfl (fun j => rfl) x
  · intro x
    rw [payW_1]
    exact slab_apply 1 inb_S8x1024x128_S1x1024x128_1_0_0 _ (fun j dI dJ dK => wgtS dI dJ dK (x0 j) (x1 j) (x2 j)) oneW loW loW rfl rfl rfl (fun j => rfl) x
  · intro x
    rw [payW_0]
    exact slab_apply 0 inb_S8x1024x128_S1x1024x128_0_0_0 _ (fun j dI dJ dK => wgtS dI dJ dK (x0 j) (x1 j) (x2 j)) loW loW loW rfl rfl rfl (fun j => rfl) x

end Read

/-! ## The two arrays after the sixteen points -/

/-- The printed index maps, decided over the grid: at point `t` each input window sits at block (t, 0) of its array and
    each output window at block (0, t, 0). -/
theorem idx_facts : ∀ t : Fin cfg0.N,
    win0_0.index t (0 : Fin 2) = win0_3.index t (1 : Fin 3) ∧ win0_0.index t (1 : Fin 2) = 0
    ∧ win0_1.index t (0 : Fin 2) = win0_3.index t (1 : Fin 3) ∧ win0_1.index t (1 : Fin 2) = 0
    ∧ win0_2.index t (0 : Fin 2) = win0_3.index t (1 : Fin 3) ∧ win0_2.index t (1 : Fin 2) = 0
    ∧ win0_3.index t (0 : Fin 3) = 0 ∧ win0_3.index t (2 : Fin 3) = 0
    ∧ win0_4.index t (0 : Fin 3) = 0 ∧ win0_4.index t (1 : Fin 3) = win0_3.index t (1 : Fin 3) ∧ win0_4.index t (2 : Fin 3) = 0
    ∧ win0_3.index t (1 : Fin 3) ≤ 15 :=
  (by decide +kernel : ∀ t : Fin grid0.N, _)

/-- Every row block of an output array is some point's. -/
theorem idx_onto : ∀ q : Fin 16, ∃ t : Fin cfg0.N, win0_3.index t (1 : Fin 3) = q.val :=
  (by decide +kernel : ∀ q : Fin 16, ∃ t : Fin grid0.N, win0_3.index t (1 : Fin 3) = q.val)

section Blocks
variable (A0 A1 A2 : Vec F S16384x128 .f32)

/-- What point `t` writes back into the index array is block `t` of the closed form of the three coordinate arrays, for
    ANY three arrays the input windows read. -/
theorem flushed_core3 (t : Fin cfg0.N) :
    (cfg0.win 3).cut (grid0.coords t)
        (out0_3 (((cfg0.win 0).blk t).view.read (Elt F) A0) (((cfg0.win 1).blk t).view.read (Elt F) A1) (((cfg0.win 2).blk t).view.read (Elt F) A2))
      = ((cfg0.win 3).blk t).view.read (Elt F) (idxArr A0 A1 A2) := by
  obtain ⟨e00, e01, e10, e11, e20, e21, e30, e32, e40, e41, e42, hle⟩ := idx_facts t
  funext y
  refine (out0_3_eq _ _ _ _).trans ?_
  have h0 : ((((cfg0.win 3).blk t).view.emb y) 0).val = (y 0).val := by
    show win0_3.index t (0 : Fin 3) * 8 + 1 * (y 0).val = (y 0).val
    omega
  have hk0 : ((cfg0.win 0).blk t).view.emb (ix2 (y 1) (y 2) : S1024x128.Idx) = (ix2 ((((cfg0.win 3).blk t).view.emb y) 1) ((((cfg0.win 3).blk t).view.emb y) 2) : S16384x128.Idx) := by
    funext a; apply Fin.ext
    match a with
    | ⟨0, _⟩ => show win0_0.index t (0 : Fin 2) * 1024 + 1 * (y 1).val = win0_3.index t (1 : Fin 3) * 1024 + 1 * (y 1).val; omega
    | ⟨1, _⟩ => show win0_0.index t (1 : Fin 2) * 128 + 1 * (y 2).val = win0_3.index t (2 : Fin 3) * 128 + 1 * (y 2).val; omega
  have hk1 : ((cfg0.win 1).blk t).view.emb (ix2 (y 1) (y 2) : S1024x128.Idx) = (ix2 ((((cfg0.win 3).blk t).view.emb y) 1) ((((cfg0.win 3).blk t).view.emb y) 2) : S16384x128.Idx) := by
    funext a; apply Fin.ext
    match a with
    | ⟨0, _⟩ => show win0_1.index t (0 : Fin 2) * 1024 + 1 * (y 1).val = win0_3.index t (1 : Fin 3) * 1024 + 1 * (y 1).val; omega
    | ⟨1, _⟩ => show win0_1.index t (1 : Fin 2) * 128 + 1 * (y 2).val = win0_3.index t (2 : Fin 3) * 128 + 1 * (y 2).val; omega
  have hk2 : ((cfg0.win 2).blk t).view.emb (ix2 (y 1) (y 2) : S1024x128.Idx) = (ix2 ((((cfg0.win 3).blk t).view.emb y) 1) ((((cfg0.win 3).blk t).view.emb y) 2) : S16384x128.Idx) := by
    funext a; apply Fin.ext
    match a with
    | ⟨0, _⟩ => show win0_2.index t (0 : Fin 2) * 1024 + 1 * (y 1).val = win0_3.index t (1 : Fin 3) * 1024 + 1 * (y 1).val; omega
    | ⟨1, _⟩ => show win0_2.index t (1 : Fin 2) * 128 + 1 * (y 2).val = win0_3.index t (2 : Fin 3) * 128 + 1 * (y 2).val; omega
  show idxS (offI (y 0).val) (offJ (y 0).val) (offK (y 0).val)
      (A0 (((cfg0.win 0).blk t).view.emb (ix2 (y 1) (y 2) : S1024x128.Idx)))
      (A1 (((cfg0.win 1).blk t).view.emb (ix2 (y 1) (y 2) : S1024x128.Idx)))
      (A2 (((cfg0.win 2).blk t).view.emb (ix2 (y 1) (y 2) : S1024x128.Idx)))
    = idxS (offI ((((cfg0.win 3).blk t).view.emb y) 0).val) (offJ ((((cfg0.win 3).blk t).view.emb y) 0).val) (offK ((((cfg0.win 3).blk t).view.emb y) 0).val)
      (A0 (ix2 ((((cfg0.win 3).blk t).view.emb y) 1) ((((cfg0.win 3).blk t).view.emb y) 2) : S16384x128.Idx))
      (A1 (ix2 ((((cfg0.win 3).blk t).view.emb y) 1) ((((cfg0.win 3).blk t).view.emb y) 2) : S16384x128.Idx))
      (A2 (ix2 ((((cfg0.win 3).blk t).view.emb y) 1) ((((cfg0.win 3).blk t).view.emb y) 2) : S16384x128.Idx))
  rw [hk0, hk1, hk2, h0]

/-- What point `t` writes back into the weight array is block `t` of the closed form of the three coordinate arrays, for
    ANY three arrays the input windows read. -/
theorem flushed_core4 (t : Fin cfg0.N) :
    (cfg0.win 4).cut (grid0.coords t)
        (out0_4 (((cfg0.win 0).blk t).view.read (Elt F) A0) (((cfg0.win 1).blk t).view.read (Elt F) A1) (((cfg0.win 2).blk t).view.read (Elt F) A2))
      = ((cfg0.win 4).blk t).view.read (Elt F) (wgtArr A0 A1 A2) := by
  obtain ⟨e00, e01, e10, e11, e20, e21, e30, e32, e40, e41, e42, hle⟩ := idx_facts t
  funext y
  refine (out0_4_eq _ _ _ _).trans ?_
  have h0 : ((((cfg0.win 4).blk t).view.emb y) 0).val = (y 0).val := by
    show win0_4.index t (0 : Fin 3) * 8 + 1 * (y 0).val = (y 0).val
    omega
  have hk0 : ((cfg0.win 0).blk t).view.emb (ix2 (y 1) (y 2) : S1024x128.Idx) = (ix2 ((((cfg0.win 4).blk t).view.emb y) 1) ((((cfg0.win 4).blk t).view.emb y) 2) : S16384x128.Idx) := by
    funext a; apply Fin.ext
    match a with
    | ⟨0, _⟩ => show win0_0.index t (0 : Fin 2) * 1024 + 1 * (y 1).val = win0_4.index t (1 : Fin 3) * 1024 + 1 * (y 1).val; omega
    | ⟨1, _⟩ => show win0_0.index t (1 : Fin 2) * 128 + 1 * (y 2).val = win0_4.index t (2 : Fin 3) * 128 + 1 * (y 2).val; omega
  have hk1 : ((cfg0.win 1).blk t).view.emb (ix2 (y 1) (y 2) : S1024x128.Idx) = (ix2 ((((cfg0.win 4).blk t).view.emb y) 1) ((((cfg0.win 4).blk t).view.emb y) 2) : S16384x128.Idx) := by
    funext a; apply Fin.ext
    match a with
    | ⟨0, _⟩ => show win0_1.index t (0 : Fin 2) * 1024 + 1 * (y 1).val = win0_4.index t (1 : Fin 3) * 1024 + 1 * (y 1).val; omega
    | ⟨1, _⟩ => show win0_1.index t (1 : Fin 2) * 128 + 1 * (y 2).val = win0_4.index t (2 : Fin 3) * 128 + 1 * (y 2).val; omega
  have hk2 : ((cfg0.win 2).blk t).view.emb (ix2 (y 1) (y 2) : S1024x128.Idx) = (ix2 ((((cfg0.win 4).blk t).view.emb y) 1) ((((cfg0.win 4).blk t).view.emb y) 2) : S16384x128.Idx) := by
    funext a; apply Fin.ext
    match a with
    | ⟨0, _⟩ => show win0_2.index t (0 : Fin 2) * 1024 + 1 * (y 1).val = win0_4.index t (1 : Fin 3) * 1024 + 1 * (y 1).val; omega
    | ⟨1, _⟩ => show win0_2.index t (1 : Fin 2) * 128 + 1 * (y 2).val = win0_4.index t (2 : Fin 3) * 128 + 1 * (y 2).val; omega
  show wgtS (offI (y 0).val) (offJ (y 0).val) (offK (y 0).val)
      (A0 (((cfg0.win 0).blk t).view.emb (ix2 (y 1) (y 2) : S1024x128.Idx)))
      (A1 (((cfg0.win 1).blk t).view.emb (ix2 (y 1) (y 2) : S1024x128.Idx)))
      (A2 (((cfg0.win 2).blk t).view.emb (ix2 (y 1) (y 2) : S1024x128.Idx)))
    = wgtS (offI ((((cfg0.win 4).blk t).view.emb y) 0).val) (offJ ((((cfg0.win 4).blk t).view.emb y) 0).val) (offK ((((cfg0.win 4).blk t).view.emb y) 0).val)
      (A0 (ix2 ((((cfg0.win 4).blk t).view.emb y) 1) ((((cfg0.win 4).blk t).view.emb y) 2) : S16384x128.Idx))
      (A1 (ix2 ((((cfg0.win 4).blk t).view.emb y) 1) ((((cfg0.win 4).blk t).view.emb y) 2) : S16384x128.Idx))
      (A2 (ix2 ((((cfg0.win 4).blk t).view.emb y) 1) ((((cfg0.win 4).blk t).view.emb y) 2) : S16384x128.Idx))
  rw [hk0, hk1, hk2, h0]

end Blocks

/-- An index of the array is in point `t`'s block iff each coordinate is in the block's range on its axis. -/
theorem mem_blk3 (t : Fin cfg0.N) (i : S8x16384x128.Idx) :
    i ∈ ((cfg0.win 3).blk t).view.set ↔ ∀ a : Fin 3, win0_3.index t a * S8x1024x128.size a ≤ (i a).val ∧ (i a).val < win0_3.index t a * S8x1024x128.size a + S8x1024x128.size a := by
  show i ∈ ((View.whole main_v13_0).slice (win0_3.rect t)).set ↔ _
  rw [View.set_slice_whole, Rect.mem_set_unit]
  exact Iff.rfl

/-- Every index of the array is in some point's block: the point of the index's row block, row / 1024. -/
theorem cover3 (i : S8x16384x128.Idx) : ∃ t : Fin cfg0.N, (cfg0.win 3).flush t = true ∧ i ∈ ((cfg0.win 3).blk t).view.set := by
  have hi0 : (i 0).val < 8 := (i 0).isLt
  have hi1 : (i 1).val < 16384 := (i 1).isLt
  have hi2 : (i 2).val < 128 := (i 2).isLt
  obtain ⟨t, ht⟩ := idx_onto ⟨(i 1).val / 1024, by omega⟩
  have ht' : win0_3.index t (1 : Fin 3) = (i 1).val / 1024 := ht
  obtain ⟨e00, e01, e10, e11, e20, e21, e30, e32, e40, e41, e42, hle⟩ := idx_facts t
  refine ⟨t, flush0_3 t, ?_⟩
  rw [mem_blk3]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- An index of the array is in point `t`'s block iff each coordinate is in the block's range on its axis. -/
theorem mem_blk4 (t : Fin cfg0.N) (i : S8x16384x128.Idx) :
    i ∈ ((cfg0.win 4).blk t).view.set ↔ ∀ a : Fin 3, win0_4.index t a * S8x1024x128.size a ≤ (i a).val ∧ (i a).val < win0_4.index t a * S8x1024x128.size a + S8x1024x128.size a := by
  show i ∈ ((View.whole main_v13_1).slice (win0_4.rect t)).set ↔ _
  rw [View.set_slice_whole, Rect.mem_set_unit]
  exact Iff.rfl

/-- Every index of the array is in some point's block: the point of the index's row block, row / 1024. -/
theorem cover4 (i : S8x16384x128.Idx) : ∃ t : Fin cfg0.N, (cfg0.win 4).flush t = true ∧ i ∈ ((cfg0.win 4).blk t).view.set := by
  have hi0 : (i 0).val < 8 := (i 0).isLt
  have hi1 : (i 1).val < 16384 := (i 1).isLt
  have hi2 : (i 2).val < 128 := (i 2).isLt
  obtain ⟨t, ht⟩ := idx_onto ⟨(i 1).val / 1024, by omega⟩
  have ht' : win0_3.index t (1 : Fin 3) = (i 1).val / 1024 := ht
  obtain ⟨e00, e01, e10, e11, e20, e21, e30, e32, e40, e41, e42, hle⟩ := idx_facts t
  refine ⟨t, flush0_4 t, ?_⟩
  rw [mem_blk4]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

variable (m : (ℓ : Loc nD τ sig) → Buf (Elt F) ℓ)

/-- What point `t` writes back into the index array: block `t` of the closed form of the three coordinate arrays as the
    region finds them. -/
theorem flushed3_eq (c : Dev nD) (t : Fin cfg0.N) :
    (dats m 0 c).flushed 3 t = ((cfg0.win 3).blk t).view.read (Elt F) (idxArr (V m c main_v6) (V m c main_v9) (V m c main_v12)) := by
  show (cfg0.win 3).cut (grid0.coords t) ((dats m 0 c).after 3 t) = _
  rw [after0_3]
  exact flushed_core3 (V m c main_v6) (V m c main_v9) (V m c main_v12) t

/-- What point `t` writes back into the weight array. -/
theorem flushed4_eq (c : Dev nD) (t : Fin cfg0.N) :
    (dats m 0 c).flushed 4 t = ((cfg0.win 4).blk t).view.read (Elt F) (wgtArr (V m c main_v6) (V m c main_v9) (V m c main_v12)) := by
  show (cfg0.win 4).cut (grid0.coords t) ((dats m 0 c).after 4 t) = _
  rw [after0_4]
  exact flushed_core4 (V m c main_v6) (V m c main_v9) (V m c main_v12) t

/-- THE INDEX ARRAY after the region: slab by slab, each corner's voxel index of the three coordinate arrays. -/
theorem arrI (c : Dev nD) : (dats m 0 c).arrAt 3 cfg0.N = idxArr (V m c main_v6) (V m c main_v9) (V m c main_v12) :=
  (dats m 0 c).arrAt_eq_of_cover 3 _ (fun t _ => flushed3_eq m c t) cover3

/-- THE WEIGHT ARRAY after the region: slab by slab, each corner's weight. -/
theorem arrW (c : Dev nD) : (dats m 0 c).arrAt 4 cfg0.N = wgtArr (V m c main_v6) (V m c main_v9) (V m c main_v12) :=
  (dats m 0 c).arrAt_eq_of_cover 4 _ (fun t _ => flushed4_eq m c t) cover4

end Cert.KernelIdeal.Hand

end
-- ==== Proof.KernelTail.lean ====
/-
  The host lines after the kernel's region, as one function of what they read.

  The region leaves two [8, 16384, 128] arrays: the corner indices (32-bit words) and the corner weights. The lines
  after it flatten both to [8, N] (N = 2097152 points), transpose the volume x, flattened to [8, N], into a table
  of N rows of 8, and for each corner c = 0 … 7 take row c of the indices, gather the table's rows at those
  indices (negative indices wrapped, out-of-range rows masked to the NaN word), scale each gathered row by the
  corner's weight and add it to a running [N, 8] total, the weight to a running [N] total; at the end the first
  total is divided by the second clipped to [1e-8, 8], transposed back to [8, N] and reshaped to the volume's
  shape. `tailOut` is that composition, spelled with the program's own operations; `tail_eq` says the fold of
  the 293 lines over ANY buffer contents ends with the result buffer at `tailOut` of the three buffers read.
-/
import proofs.«133722_j65515431133592_2_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- Row `c` of an [8, N] array of words, as a vector of N. -/
def rowOfI (c : Nat) (h : S8x2097152.Slices ![c, 0] S1x2097152) (A : IVec S8x2097152 32) : IVec S2097152 32 :=
  shapeCast S2097152 (extractStridedSlice S1x2097152 ![c, 0] A h) shapeCasts_S1x2097152_S2097152

/-- Row `c` of an [8, N] array of floats, as a vector of N. -/
def rowOfF (c : Nat) (h : S8x2097152.Slices ![c, 0] S1x2097152) (A : FVec F S8x2097152 .f32) : FVec F S2097152 .f32 :=
  shapeCast S2097152 (extractStridedSlice S1x2097152 ![c, 0] A h) shapeCasts_S1x2097152_S2097152

/-- A vector of N spread over the 8 columns of an [N, 8] array. -/
def spread8 (w : FVec F S2097152 .f32) : FVec F S2097152x8 .f32 :=
  broadcastInDim S2097152x8 ![0, 1] bcast_S2097152x1_S2097152x8_0_1
    (broadcastInDim S2097152x1 ![0] bcast_S2097152_S2097152x1_0 w)

/-- The index column a take gathers by: a negative index has N added. -/
def wrapCol (idx : IVec S2097152 32) : IVec S2097152x1 32 :=
  broadcastInDim S2097152x1 ![0] bcast_S2097152_S2097152x1_0
    (select (cmpi .slt idx (broadcastInDim S2097152 ![] bcast_S_S2097152 (constantI S_ 32 0#32)))
      (addi idx (broadcastInDim S2097152 ![] bcast_S_S2097152 (constantI S_ 32 2097152#32))) idx)

/-- Which wrapped indices are rows of the table: 0 ≤ i ≤ N - 1, as one bit per point. -/
def inRange (col : IVec S2097152x1 32) : IVec S2097152 1 :=
  Host.reduce IntOp.andi
    (andi (cmpi .sge col (broadcastInDim S2097152x1 ![] bcast_S_S2097152x1 (constantI S_ 32 0#32)))
      (cmpi .sle col (broadcastInDim S2097152x1 ![0, 1] bcast_S1x1_S2097152x1_0_1
        (broadcastInDim S1x1 ![1] bcast_S1_S1x1_1 (constantI S1 32 2097151#32)))))
    (constantI S_ 1 1#1) reducesTo_S2097152x1_S2097152_d1 h_S_

/-- The rows of the [N, 8] table at N indices: jnp.take along axis 0 in its fill mode. -/
def takeRows (xT : FVec F S2097152x8 .f32) (idx : IVec S2097152 32) : FVec F S2097152x8 .f32 :=
  select (broadcastInDim S2097152x8 ![0] bcast_S2097152_S2097152x8_0 (inRange (wrapCol idx)))
    (Host.gather gather_S2097152x8_S2097152x1_S2097152x8_1_0_n_n_0_1_18 xT (wrapCol idx))
    (broadcastInDim S2097152x8 ![] bcast_S_S2097152x8 (constant S_ .f32 0x7FC00000#32))

/-- One corner added to the running totals. -/
def blendV (xT : FVec F S2097152x8 .f32) (idx : IVec S2097152 32) (w : FVec F S2097152 .f32)
    (vals : FVec F S2097152x8 .f32) : FVec F S2097152x8 .f32 :=
  addf vals (mulf (spread8 w) (takeRows xT idx))

/-- The weight total clipped to [1e-8, 8]. -/
def clipTot (wtot : FVec F S2097152 .f32) : FVec F S2097152 .f32 :=
  minimumf (broadcastInDim S2097152 ![] bcast_S_S2097152 (id (constant S_ .f32 0x41000000#32)))
    (maximumf (broadcastInDim S2097152 ![] bcast_S_S2097152 (id (constant S_ .f32 0x322BCC77#32))) wtot)

/-- The blended total over the weight total, as the volume. -/
def finishV (vals : FVec F S2097152x8 .f32) (wtot : FVec F S2097152 .f32) : FVec F S8x128x128x128x1 .f32 :=
  shapeCast S8x128x128x128x1
    (transpose S8x2097152 [1, 0] (Host.divf vals (spread8 (clipTot wtot))) transposes_S2097152x8_S8x2097152_1_0)
    shapeCasts_S8x2097152_S8x128x128x128x1

/-- The zero [N, 8] and [N] totals the sums start from. -/
def zero8 : FVec F S2097152x8 .f32 := broadcastInDim S2097152x8 ![] bcast_S_S2097152x8 (constant S_ .f32 0x00000000#32)
def zero1 : FVec F S2097152 .f32 := broadcastInDim S2097152 ![] bcast_S_S2097152 (constant S_ .f32 0x00000000#32)

/-- The lines after the region, composed: from the two arrays the region leaves and the volume. -/
def tailOut (I : IVec S8x16384x128 32) (W : FVec F S8x16384x128 .f32) (x : FVec F S8x128x128x128x1 .f32) :
    FVec F S8x128x128x128x1 .f32 :=
  let I2 : IVec S8x2097152 32 := shapeCast S8x2097152 I shapeCasts_S8x16384x128_S8x2097152
  let W2 : FVec F S8x2097152 .f32 := shapeCast S8x2097152 W shapeCasts_S8x16384x128_S8x2097152
  let xT : FVec F S2097152x8 .f32 :=
    transpose S2097152x8 [1, 0] (shapeCast S8x2097152 x shapeCasts_S8x128x128x128x1_S8x2097152) transposes_S8x2097152_S2097152x8_1_0
  let i0 := rowOfI 0 slices_S8x2097152_S1x2097152_0_0 I2
  let i1 := rowOfI 1 slices_S8x2097152_S1x2097152_1_0 I2
  let i2 := rowOfI 2 slices_S8x2097152_S1x2097152_2_0 I2
  let i3 := rowOfI 3 slices_S8x2097152_S1x2097152_3_0 I2
  let i4 := rowOfI 4 slices_S8x2097152_S1x2097152_4_0 I2
  let i5 := rowOfI 5 slices_S8x2097152_S1x2097152_5_0 I2
  let i6 := rowOfI 6 slices_S8x2097152_S1x2097152_6_0 I2
  let i7 := rowOfI 7 slices_S8x2097152_S1x2097152_7_0 I2
  let w0 := rowOfF 0 slices_S8x2097152_S1x2097152_0_0 W2
  let w1 := rowOfF 1 slices_S8x2097152_S1x2097152_1_0 W2
  let w2 := rowOfF 2 slices_S8x2097152_S1x2097152_2_0 W2
  let w3 := rowOfF 3 slices_S8x2097152_S1x2097152_3_0 W2
  let w4 := rowOfF 4 slices_S8x2097152_S1x2097152_4_0 W2
  let w5 := rowOfF 5 slices_S8x2097152_S1x2097152_5_0 W2
  let w6 := rowOfF 6 slices_S8x2097152_S1x2097152_6_0 W2
  let w7 := rowOfF 7 slices_S8x2097152_S1x2097152_7_0 W2
  finishV
    (blendV xT i7 w7 (blendV xT i6 w6 (blendV xT i5 w5 (blendV xT i4 w4 (blendV xT i3 w3 (blendV xT i2 w2
      (blendV xT i1 w1 (blendV xT i0 w0 zero8))))))))
    (addf (addf (addf (addf (addf (addf (addf (addf zero1 w0) w1) w2) w3) w4) w5) w6) w7)

end Cert.KernelIdeal.Hand

end
-- ==== Proof.KernelHead.lean ====
/-
  The host lines before the kernel's region: the warped coordinates.

  p = T (S (R points) + ct) is three matrix products and one addition on [4, N] arrays; rows 0, 1, 2 of p, each cut out,
  flattened to [N] and folded to [16384, 128], are the three arrays the region's input windows stage.
-/
import proofs.«133722_j65515431133592_2_alg».proof.Proof.Gen.KernelIdeal.Launch
import proofs.«133722_j65515431133592_2_alg».proof.Proof.Spec
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The warped coordinates, in the program's spelling. -/
def kWarp (R S T : FVec F S4x4 .f32) (pts ct : FVec F S4x2097152 .f32) : FVec F S4x2097152 .f32 :=
  Host.dotGeneral dot_S4x4_S4x2097152_S4x2097152_1_0_0_1_n_n (some .fp32) T
    (addf (Host.dotGeneral dot_S4x4_S4x2097152_S4x2097152_1_0_0_1_n_n (some .fp32) S
      (Host.dotGeneral dot_S4x4_S4x2097152_S4x2097152_1_0_0_1_n_n (some .fp32) R pts)) ct)

/-- Row k of p folded to [16384, 128]. -/
def kFold (k : Nat) (h : S4x2097152.Slices ![k, 0] S1x2097152) (p : FVec F S4x2097152 .f32) : FVec F S16384x128 .f32 :=
  shapeCast S16384x128 (shapeCast S2097152 (extractStridedSlice S1x2097152 ![k, 0] p h) shapeCasts_S1x2097152_S2097152)
    shapeCasts_S2097152_S16384x128

/-- The thirteen lines before the region, over any contents: the three staged arrays. -/
theorem head_eq (V : Valuation τ sig (Elt F)) :
    after hostOps0 V (Proc.devRef .tc main_v6)
        = kFold 0 slices_S4x2097152_S1x2097152_0_0 (kWarp (V (Proc.devRef .tc main_arg3)) (V (Proc.devRef .tc main_arg4)) (V (Proc.devRef .tc main_arg5)) (V (Proc.devRef .tc main_arg1)) (V (Proc.devRef .tc main_arg2)))
      ∧ after hostOps0 V (Proc.devRef .tc main_v9)
        = kFold 1 slices_S4x2097152_S1x2097152_1_0 (kWarp (V (Proc.devRef .tc main_arg3)) (V (Proc.devRef .tc main_arg4)) (V (Proc.devRef .tc main_arg5)) (V (Proc.devRef .tc main_arg1)) (V (Proc.devRef .tc main_arg2)))
      ∧ after hostOps0 V (Proc.devRef .tc main_v12)
        = kFold 2 slices_S4x2097152_S1x2097152_2_0 (kWarp (V (Proc.devRef .tc main_arg3)) (V (Proc.devRef .tc main_arg4)) (V (Proc.devRef .tc main_arg5)) (V (Proc.devRef .tc main_arg1)) (V (Proc.devRef .tc main_arg2))) := by
  refine ⟨?_, ?_, ?_⟩ <;> (simp only [hostOps0]; after_results_simp) <;> rfl

/-- At the extended reals the products' precision attribute chooses nothing: the program's p is the layer's. -/
theorem kWarp_eq (R S T : FVec Ideal S4x4 .f32) (pts ct : FVec Ideal S4x2097152 .f32) :
    kWarp R S T pts ct = Cert.Warp.warpP none R S T pts ct := rfl

/-- A folded row is the layer's row, folded. -/
theorem kFold_eq (k : Nat) (h : S4x2097152.Slices ![k, 0] S1x2097152) (p : FVec F S4x2097152 .f32) :
    kFold k h p = shapeCast S16384x128 (Cert.Warp.rowP k h p) shapeCasts_S2097152_S16384x128 := rfl

end Cert.KernelIdeal.Hand

end
-- ==== Proof.KernelValue.lean ====
import proofs.«133722_j65515431133592_2_alg».proof.Proof.KernelArrays
import proofs.«133722_j65515431133592_2_alg».proof.Proof.KernelTail
import proofs.«133722_j65515431133592_2_alg».proof.Proof.KernelHead
import Idealize.ShloMosaic.Lib.Pipeline.Value

/-! The kernel's program, run: what its result buffer holds, from the argument arrays. -/

set_option maxRecDepth 16384

noncomputable section

namespace Cert.KernelIdeal.Hand

open Cert.KernelIdeal Cert.KernelIdeal.Gen Cert.Warp
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The run of the kernel's program, read at its result -/

variable (m : (ℓ : Loc nD τ sig) → Buf (Elt F) ℓ) (ρ : Dev nD → PrngReg)

/-- The warped coordinates of core `c`'s argument arrays. -/
abbrev kP (c : Dev nD) : FVec F S4x2097152 .f32 :=
  kWarp (m ((c.tc : Thread nD τ).loc main_arg3)) (m ((c.tc : Thread nD τ).loc main_arg4)) (m ((c.tc : Thread nD τ).loc main_arg5))
    (m ((c.tc : Thread nD τ).loc main_arg1)) (m ((c.tc : Thread nD τ).loc main_arg2))

/-- The three arrays the region's input windows stage are the three folded rows of the warped coordinates. -/
theorem V_v6 (c : Dev nD) : V m c main_v6 = kFold 0 slices_S4x2097152_S1x2097152_0_0 (kP m c) := by
  show StableHlo.after (List.flatten [hostOps0]) (fun b => m (c, b)) (Proc.devRef .tc main_v6) = _
  rw [List.flatten_cons, List.flatten_nil, List.append_nil]
  exact (head_eq (fun b => m (c, b))).1
theorem V_v9 (c : Dev nD) : V m c main_v9 = kFold 1 slices_S4x2097152_S1x2097152_1_0 (kP m c) := by
  show StableHlo.after (List.flatten [hostOps0]) (fun b => m (c, b)) (Proc.devRef .tc main_v9) = _
  rw [List.flatten_cons, List.flatten_nil, List.append_nil]
  exact (head_eq (fun b => m (c, b))).2.1
theorem V_v12 (c : Dev nD) : V m c main_v12 = kFold 2 slices_S4x2097152_S1x2097152_2_0 (kP m c) := by
  show StableHlo.after (List.flatten [hostOps0]) (fun b => m (c, b)) (Proc.devRef .tc main_v12) = _
  rw [List.flatten_cons, List.flatten_nil, List.append_nil]
  exact (head_eq (fun b => m (c, b))).2.2

section Tail
variable (htail : ∀ V : Valuation τ sig (Elt F), StableHlo.after (List.flatten opss) V (Proc.devRef .tc main_v121)
    = tailOut (V (Proc.devRef .tc main_v13_0)) (V (Proc.devRef .tc main_v13_1)) (V (Proc.devRef .tc main_arg0)))
include htail

/-- The result buffer after the lines that follow the region: their composition, of the two arrays the region leaves in
    closed form and the volume as launched. -/
theorem tail_v121 (c : Dev nD) :
    Pipeline.afterTail₀ cfgs (dats m) 0 (V0 m) opss c main_v121
      = tailOut (idxArr (V m c main_v6) (V m c main_v9) (V m c main_v12)) (wgtArr (V m c main_v6) (V m c main_v9) (V m c main_v12))
          (m ((c.tc : Thread nD τ).loc main_arg0)) := by
  have h3 : (Pipeline.withArrays spec0 c (V0 m c) (fun w => (dats m 0 c).arrAt w cfg0.N) (Proc.devRef .tc main_v13_0) : IVec S8x16384x128 32)
      = idxArr (V m c main_v6) (V m c main_v9) (V m c main_v12) :=
    (Pipeline.withArrays_arr spec0 launch0.win.arr_inj c (V0 m c) _ 3).trans (arrI m c)
  have h4 : (Pipeline.withArrays spec0 c (V0 m c) (fun w => (dats m 0 c).arrAt w cfg0.N) (Proc.devRef .tc main_v13_1) : FVec F S8x16384x128 .f32)
      = wgtArr (V m c main_v6) (V m c main_v9) (V m c main_v12) :=
    (Pipeline.withArrays_arr spec0 launch0.win.arr_inj c (V0 m c) _ 4).trans (arrW m c)
  have h0 : (Pipeline.withArrays spec0 c (V0 m c) (fun w => (dats m 0 c).arrAt w cfg0.N) (Proc.devRef .tc main_arg0) : FVec F S8x128x128x128x1 .f32)
      = m ((c.tc : Thread nD τ).loc main_arg0) :=
    (Pipeline.withArrays_of_ne spec0 c (V0 m c) _ main_arg0 (by decide)).trans (V_arg m c main_arg0 (by decide))
  unfold Pipeline.afterTail₀
  refine (htail _).trans ?_
  exact congr (congr (congrArg tailOut h3) h4) h0

/-- THE RUN, read at the result: every weakly fair execution terminates, and the result buffer holds the composition of
    the lines after the region, of each corner's indices and weights of the warped coordinates and of the volume; the
    argument arrays end as launched. -/
theorem kernel_run : θ_run defs (onTc (τ := τ) (main (F := F))) ⟨m, fun _ => 0, ρ⟩ (fun r => ∀ c : Dev nD,
      r.2.mem ((c.tc : Thread nD τ).loc main_v121)
        = tailOut (idxArr (kFold 0 slices_S4x2097152_S1x2097152_0_0 (kP m c)) (kFold 1 slices_S4x2097152_S1x2097152_1_0 (kP m c)) (kFold 2 slices_S4x2097152_S1x2097152_2_0 (kP m c)))
            (wgtArr (kFold 0 slices_S4x2097152_S1x2097152_0_0 (kP m c)) (kFold 1 slices_S4x2097152_S1x2097152_1_0 (kP m c)) (kFold 2 slices_S4x2097152_S1x2097152_2_0 (kP m c)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(((h c).2 main_v121 (Pipeline.mem_restRefs_of main_v121 (by decide) (by decide))).trans (tail_v121 m htail c)).trans
        (by rw [V_v6, V_v9, V_v12]),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

/-- The same run with the three staged arrays left as the region finds them. -/
theorem kernel_run_V : θ_run defs (onTc (τ := τ) (main (F := F))) ⟨m, fun _ => 0, ρ⟩ (fun r => ∀ c : Dev nD,
      r.2.mem ((c.tc : Thread nD τ).loc main_v121)
        = tailOut (idxArr (V m c main_v6) (V m c main_v9) (V m c main_v12)) (wgtArr (V m c main_v6) (V m c main_v9) (V m c main_v12))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v121 (Pipeline.mem_restRefs_of main_v121 (by decide) (by decide))).trans (tail_v121 m htail c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Tail

end Cert.KernelIdeal.Hand

end
-- ==== Proof.LibAfterAppend.lean ====
/-
  Running a line of host operations in two parts: the buffer contents after the operations `l₁ ++ l₂` are the contents after
  `l₂`, started from the contents after `l₁`. (The contents after a line are the fold of each operation's result over the
  contents before it, so this is the fold of an appended list.)
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.KernelTailRun.lean ====
import proofs.«133722_j65515431133592_2_alg».proof.Proof.KernelTail
import proofs.«133722_j65515431133592_2_alg».proof.Proof.LibAfterAppend

/-! The 293 lines after the kernel's region, evaluated: stretch by stretch over arbitrary buffer contents, then composed.
    The outlined functions' operations are stated at the tensor values' types and carried to the buffers' types and back;
    carried there and back a value is itself, which is all the evaluation needs of them. -/

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- Contents carried to a typed reference's buffer type and back are the contents. -/
theorem ofBuf_toBuf {sg : RefSig} {T : BufTy} {Val : EltTy → Type} (x : StableHlo.TRef sg T) (v : T.Contents Val) :
    x.ofBuf (x.toBuf v) = v := by
  obtain ⟨r, h, h2, h3⟩ := x
  subst h
  rfl

/-! ### The first stretch: the flattened arrays, the table, the zero totals, row 0 of the indices -/

attribute [local irreducible] Host.reduce Host.gather in
set_option maxRecDepth 8192 in
theorem first_v14 (V : Valuation τ sig (Elt F)) : after hostOps1 V (Proc.devRef .tc main_v14)
    = shapeCast S8x2097152 (V (Proc.devRef .tc main_v13_0)) shapeCasts_S8x16384x128_S8x2097152 := by
  simp only [hostOps1]; after_results_simp
  all_goals (try simp only [ofBuf_toBuf])
  all_goals rfl
attribute [local irreducible] Host.reduce Host.gather in
set_option maxRecDepth 8192 in
theorem first_v15 (V : Valuation τ sig (Elt F)) : after hostOps1 V (Proc.devRef .tc main_v15)
    = shapeCast S8x2097152 (V (Proc.devRef .tc main_v13_1)) shapeCasts_S8x16384x128_S8x2097152 := by
  simp only [hostOps1]; after_results_simp
  all_goals (try simp only [ofBuf_toBuf])
  all_goals rfl
attribute [local irreducible] Host.reduce Host.gather in
set_option maxRecDepth 8192 in
theorem first_v17 (V : Valuation τ sig (Elt F)) : after hostOps1 V (Proc.devRef .tc main_v17)
    = transpose S2097152x8 [1, 0] (shapeCast S8x2097152 (V (Proc.devRef .tc main_arg0)) shapeCasts_S8x128x128x128x1_S8x2097152) transposes_S8x2097152_S2097152x8_1_0 := by
  simp only [hostOps1]; after_results_simp
  all_goals (try simp only [ofBuf_toBuf])
  all_goals rfl
attribute [local irreducible] Host.reduce Host.gather in
set_option maxRecDepth 8192 in
theorem first_v18 (V : Valuation τ sig (Elt F)) : after hostOps1 V (Proc.devRef .tc main_v18) = zero8 := by
  simp only [hostOps1]; after_results_simp
  all_goals (try simp only [ofBuf_toBuf])
  all_goals rfl
attribute [local irreducible] Host.reduce Host.gather in
set_option maxRecDepth 8192 in
theorem first_v19 (V : Valuation τ sig (Elt F)) : after hostOps1 V (Proc.devRef .tc main_v19) = zero1 := by
  simp only [hostOps1]; after_results_simp
  all_goals (try simp only [ofBuf_toBuf])
  all_goals rfl
attribute [local irreducible] Host.reduce Host.gather in
set_option maxRecDepth 8192 in
theorem first_v21 (V : Valuation τ sig (Elt F)) : after hostOps1 V (Proc.devRef .tc main_v21)
    = rowOfI 0 slices_S8x2097152_S1x2097152_0_0 (shapeCast S8x2097152 (V (Proc.devRef .tc main_v13_0)) shapeCasts_S8x16384x128_S8x2097152) := by
  simp only [hostOps1]; after_results_simp
  all_goals (try simp only [ofBuf_toBuf])
  all_goals rfl

/-! ### Corner 0: its take, then the two additions and the next corner's row of indices, over any contents -/

attribute [local irreducible] Host.reduce Host.gather in
set_option maxRecDepth 8192 in
theorem corner0_vals (V : Valuation τ sig (Elt F)) : after hostOps1_2 (after hostOps1_1 V) (Proc.devRef .tc main_v28)
    = blendV (V (Proc.devRef .tc main_v17)) (V (Proc.devRef .tc main_v21)) (rowOfF 0 slices_S8x2097152_S1x2097152_0_0 (V (Proc.devRef .tc main_v15))) (V (Proc.devRef .tc main_v18)) := by
  simp only [hostOps1_1, hostOps1_2]; after_results_simp
  all_goals (try simp only [ofBuf_toBuf])
  all_goals rfl
attribute [local irreducible] Host.reduce Host.gather in
set_option maxRecDepth 8192 in
theorem corner0_wtot (V : Valuation τ sig (Elt F)) : after hostOps1_2 (after hostOps1_1 V) (Proc.devRef .tc main_v31)
    = addf (V (Proc.devRef .tc main_v19)) (rowOfF 0 slices_S8x2097152_S1x2097152_0_0 (V (Proc.devRef .tc main_v15))) := by
  simp only [hostOps1_1, hostOps1_2]; after_results_simp
  all_goals (try simp only [ofBuf_toBuf])
  all_goals rfl
attribute [local irreducible] Host.reduce Host.gather in
set_option maxRecDepth 8192 in
theorem corner0_idx (V : Valuation τ sig (Elt F)) : after hostOps1_2 (after hostOps1_1 V) (Proc.devRef .tc main_v33)
    = rowOfI 1 slices_S8x2097152_S1x2097152_1_0 (V (Proc.devRef .tc main_v14)) := by
  simp only [hostOps1_1, hostOps1_2]; after_results_simp
  all_goals (try simp only [ofBuf_toBuf])
  all_goals rfl
attribute [local irreducible] Host.reduce Host.gather in
set_option maxRecDepth 8192 in
theorem corner0_v14 (V : Valuation τ sig (Elt F)) : after hostOps1_2 (after hostOps1_1 V) (Proc.devRef .tc main_v14) = V (Proc.devRef .tc main_v14) := by
  simp only [hostOps1_1, hostOps1_2]; after_results_simp
  all_goals (try simp only [ofBuf_toBuf])
  all_goals rfl
attribute [local irreducible] Host.reduce Host.gather in
set_option maxRecDepth 8192 in
theorem corner0_v15 (V : Valuation τ sig (Elt F)) : after hostOps1_2 (after hostOps1_1 V) (Proc.devRef .tc main_v15) = V (Proc.devRef .tc main_v15) := by
  simp only [hostOps1_1, hostOps1_2]; after_results_simp
  all_goals (try simp only [ofBuf_toBuf])
  all_goals rfl
attribute [local irreducible] Host.reduce Host.gather in
set_option maxRecDepth 8192 in
theorem corner0_v17 (V : Valuation τ sig (Elt F)) : after hostOps1_2 (after hostOps1_1 V) (Proc.devRef .tc main_v17) = V (Proc.devRef .tc main_v17) := by
  simp only [hostOps1_1, hostOps1_2]; after_results_simp
  all_goals (try simp only [ofBuf_toBuf])
  all_goals rfl

/-! ### Corner 1: its take, then the two additions and the next corner's row of indices, over any contents -/

attribute [local irreducible] Host.reduce Host.gather in
set_option maxRecDepth 8192 in
theorem corner1_vals (V : Valuation τ sig (Elt F)) : after hostOps1_4 (after hostOps1_3 V) (Proc.devRef .tc main_v40)
    = blendV (V (Proc.devRef .tc main_v17)) (V (Proc.devRef .tc main_v33)) (rowOfF 1 slices_S8x2097152_S1x2097152_1_0 (V (Proc.devRef .tc main_v15))) (V (Proc.devRef .tc main_v28)) := by
  simp only [hostOps1_3, hostOps1_4]; after_results_simp
  all_goals (try simp only [ofBuf_toBuf])
  all_goals rfl
attribute [local irreducible] Host.reduce Host.gather in
set_option maxRecDepth 8192 in
theorem corner1_wtot (V : Valuation τ sig (Elt F)) : after hostOps1_4 (after hostOps1_3 V) (Proc.devRef .tc main_v43)
    = addf (V (Proc.devRef .tc main_v31)) (rowOfF 1 slices_S8x2097152_S1x2097152_1_0 (V (Proc.devRef .tc main_v15))) := by
  simp only [hostOps1_3, hostOps1_4]; after_results_simp
  all_goals (try simp only [ofBuf_toBuf])
  all_goals rfl
attribute [local irreducible] Host.reduce Host.gather in
set_option maxRecDepth 8192 in
theorem corner1_idx (V : Valuation τ sig (Elt F)) : after hostOps1_4 (after hostOps1_3 V) (Proc.devRef .tc main_v45)
    = rowOfI 2 slices_S8x2097152_S1x2097152_2_0 (V (Proc.devRef .tc main_v14)) := by
  simp only [hostOps1_3, hostOps1_4]; after_results_simp
  all_goals (try simp only [ofBuf_toBuf])
  all_goals rfl
attribute [local irreducible] Host.reduce Host.gather in
set_option maxRecDepth 8192 in
theorem corner1_v14 (V : Valuation τ sig (Elt F)) : after hostOps1_4 (after hostOps1_3 V) (Proc.devRef .tc main_v14) = V (Proc.devRef .tc main_v14) := by
  simp only [hostOps1_3, hostOps1_4]; after_results_simp
  all_goals (try simp only [ofBuf_toBuf])
  all_goals rfl
attribute [local irreducible] Host.reduce Host.gather in
set_option maxRecDepth 8192 in
theorem corner1_v15 (V : Valuation τ sig (Elt F)) : after hostOps1_4 (after hostOps1_3 V) (Proc.devRef .tc main_v15) = V (Proc.devRef .tc main_v15) := by
  simp only [hostOps1_3, hostOps1_4]; after_results_simp
  all_goals (try simp only [ofBuf_toBuf])
  all_goals rfl
attribute [local irreducible] Host.reduce Host.gather in
set_option maxRecDepth 8192 in
theorem corner1_v17 (V : Valuation τ sig (Elt F)) : after hostOps1_4 (after hostOps1_3 V) (Proc.devRef .tc main_v17) = V (Proc.devRef .tc main_v17) := by
  simp only [hostOps1_3, hostOps1_4]; after_results_simp
  all_goals (try simp only [ofBuf_toBuf])
  all_goals rfl

/-! ### Corner 2: its take, then the two additions and the next corner's row of indices, over any contents -/

attribute [local irreducible] Host.reduce Host.gather in
set_option maxRecDepth 8192 in
theorem corner2_vals (V : Valuation τ sig (Elt F)) : after hostOps1_6 (after hostOps1_5 V) (Proc.devRef .tc main_v52)
    = blendV (V (Proc.devRef .tc main_v17)) (V (Proc.devRef .tc main_v45)) (rowOfF 2 slices_S8x2097152_S1x2097152_2_0 (V (Proc.devRef .tc main_v15))) (V (Proc.devRef .tc main_v40)) := by
  simp only [hostOps1_5, hostOps1_6]; after_results_simp
  all_goals (try simp only [ofBuf_toBuf])
  all_goals rfl
attribute [local irreducible] Host.reduce Host.gather in
set_option maxRecDepth 8192 in
theorem corner2_wtot (V : Valuation τ sig (Elt F)) : after hostOps1_6 (after hostOps1_5 V) (Proc.devRef .tc main_v55)
    = addf (V (Proc.devRef .tc main_v43)) (rowOfF 2 slices_S8x2097152_S1x2097152_2_0 (V (Proc.devRef .tc main_v15))) := by
  simp only [hostOps1_5, hostOps1_6]; after_results_simp
  all_goals (try simp only [ofBuf_toBuf])
  all_goals rfl
attribute [local irreducible] Host.reduce Host.gather in
set_option maxRecDepth 8192 in
theorem corner2_idx (V : Valuation τ sig (Elt F)) : after hostOps1_6 (after hostOps1_5 V) (Proc.devRef .tc main_v57)
    = rowOfI 3 slices_S8x2097152_S1x2097152_3_0 (V (Proc.devRef .tc main_v14)) := by
  simp only [hostOps1_5, hostOps1_6]; after_results_simp
  all_goals (try simp only [ofBuf_toBuf])
  all_goals rfl
attribute [local irreducible] Host.reduce Host.gather in
set_option maxRecDepth 8192 in
theorem corner2_v14 (V : Valuation τ sig (Elt F)) : after hostOps1_6 (after hostOps1_5 V) (Proc.devRef .tc main_v14) = V (Proc.devRef .tc main_v14) := by
  simp only [hostOps1_5, hostOps1_6]; after_results_simp
  all_goals (try simp only [ofBuf_toBuf])
  all_goals rfl
attribute [local irreducible] Host.reduce Host.gather in
set_option maxRecDepth 8192 in
theorem corner2_v15 (V : Valuation τ sig (Elt F)) : after hostOps1_6 (after hostOps1_5 V) (Proc.devRef .tc main_v15) = V (Proc.devRef .tc main_v15) := by
  simp only [hostOps1_5, hostOps1_6]; after_results_simp
  all_goals (try simp only [ofBuf_toBuf])
  all_goals rfl
attribute [local irreducible] Host.reduce Host.gather in
set_option maxRecDepth 8192 in
theorem corner2_v17 (V : Valuation τ sig (Elt F)) : after hostOps1_6 (after hostOps1_5 V) (Proc.devRef .tc main_v17) = V (Proc.devRef .tc main_v17) := by
  simp only [hostOps1_5, hostOps1_6]; after_results_simp
  all_goals (try simp only [ofBuf_toBuf])
  all_goals rfl

/-! ### Corner 3: its take, then the two additions and the next corner's row of indices, over any contents -/

attribute [local irreducible] Host.reduce Host.gather in
set_option maxRecDepth 8192 in
theorem corner3_vals (V : Valuation τ sig (Elt F)) : after hostOps1_8 (after hostOps1_7 V) (Proc.devRef .tc main_v64)
    = blendV (V (Proc.devRef .tc main_v17)) (V (Proc.devRef .tc main_v57)) (rowOfF 3 slices_S8x2097152_S1x2097152_3_0 (V (Proc.devRef .tc main_v15))) (V (Proc.devRef .tc main_v52)) := by
  simp only [hostOps1_7, hostOps1_8]; after_results_simp
  all_goals (try simp only [ofBuf_toBuf])
  all_goals rfl
attribute [local irreducible] Host.reduce Host.gather in
set_option maxRecDepth 8192 in
theorem corner3_wtot (V : Valuation τ sig (Elt F)) : after hostOps1_8 (after hostOps1_7 V) (Proc.devRef .tc main_v67)
    = addf (V (Proc.devRef .tc main_v55)) (rowOfF 3 slices_S8x2097152_S1x2097152_3_0 (V (Proc.devRef .tc main_v15))) := by
  simp only [hostOps1_7, hostOps1_8]; after_results_simp
  all_goals (try simp only [ofBuf_toBuf])
  all_goals rfl
attribute [local irreducible] Host.reduce Host.gather in
set_option maxRecDepth 8192 in
theorem corner3_idx (V : Valuation τ sig (Elt F)) : after hostOps1_8 (after hostOps1_7 V) (Proc.devRef .tc main_v69)
    = rowOfI 4 slices_S8x2097152_S1x2097152_4_0 (V (Proc.devRef .tc main_v14)) := by
  simp only [hostOps1_7, hostOps1_8]; after_results_simp
  all_goals (try simp only [ofBuf_toBuf])
  all_goals rfl
attribute [local irreducible] Host.reduce Host.gather in
set_option maxRecDepth 8192 in
theorem corner3_v14 (V : Valuation τ sig (Elt F)) : after hostOps1_8 (after hostOps1_7 V) (Proc.devRef .tc main_v14) = V (Proc.devRef .tc main_v14) := by
  simp only [hostOps1_7, hostOps1_8]; after_results_simp
  all_goals (try simp only [ofBuf_toBuf])
  all_goals rfl
attribute [local irreducible] Host.reduce Host.gather in
set_option maxRecDepth 8192 in
theorem corner3_v15 (V : Valuation τ sig (Elt F)) : after hostOps1_8 (after hostOps1_7 V) (Proc.devRef .tc main_v15) = V (Proc.devRef .tc main_v15) := by
  simp only [hostOps1_7, hostOps1_8]; after_results_simp
  all_goals (try simp only [ofBuf_toBuf])
  all_goals rfl
attribute [local irreducible] Host.reduce Host.gather in
set_option maxRecDepth 8192 in
theorem corner3_v17 (V : Valuation τ sig (Elt F)) : after hostOps1_8 (after hostOps1_7 V) (Proc.devRef .tc main_v17) = V (Proc.devRef .tc main_v17) := by
  simp only [hostOps1_7, hostOps1_8]; after_results_simp
  all_goals (try simp only [ofBuf_toBuf])
  all_goals rfl

/-! ### Corner 4: its take, then the two additions and the next corner's row of indices, over any contents -/

attribute [local irreducible] Host.reduce Host.gather in
set_option maxRecDepth 8192 in
theorem corner4_vals (V : Valuation τ sig (Elt F)) : after hostOps1_10 (after hostOps1_9 V) (Proc.devRef .tc main_v76)
    = blendV (V (Proc.devRef .tc main_v17)) (V (Proc.devRef .tc main_v69)) (rowOfF 4 slices_S8x2097152_S1x2097152_4_0 (V (Proc.devRef .tc main_v15))) (V (Proc.devRef .tc main_v64)) := by
  simp only [hostOps1_9, hostOps1_10]; after_results_simp
  all_goals (try simp only [ofBuf_toBuf])
  all_goals rfl
attribute [local irreducible] Host.reduce Host.gather in
set_option maxRecDepth 8192 in
theorem corner4_wtot (V : Valuation τ sig (Elt F)) : after hostOps1_10 (after hostOps1_9 V) (Proc.devRef .tc main_v79)
    = addf (V (Proc.devRef .tc main_v67)) (rowOfF 4 slices_S8x2097152_S1x2097152_4_0 (V (Proc.devRef .tc main_v15))) := by
  simp only [hostOps1_9, hostOps1_10]; after_results_simp
  all_goals (try simp only [ofBuf_toBuf])
  all_goals rfl
attribute [local irreducible] Host.reduce Host.gather in
set_option maxRecDepth 8192 in
theorem corner4_idx (V : Valuation τ sig (Elt F)) : after hostOps1_10 (after hostOps1_9 V) (Proc.devRef .tc main_v81)
    = rowOfI 5 slices_S8x2097152_S1x2097152_5_0 (V (Proc.devRef .tc main_v14)) := by
  simp only [hostOps1_9, hostOps1_10]; after_results_simp
  all_goals (try simp only [ofBuf_toBuf])
  all_goals rfl
attribute [local irreducible] Host.reduce Host.gather in
set_option maxRecDepth 8192 in
theorem corner4_v14 (V : Valuation τ sig (Elt F)) : after hostOps1_10 (after hostOps1_9 V) (Proc.devRef .tc main_v14) = V (Proc.devRef .tc main_v14) := by
  simp only [hostOps1_9, hostOps1_10]; after_results_simp
  all_goals (try simp only [ofBuf_toBuf])
  all_goals rfl
attribute [local irreducible] Host.reduce Host.gather in
set_option maxRecDepth 8192 in
theorem corner4_v15 (V : Valuation τ sig (Elt F)) : after hostOps1_10 (after hostOps1_9 V) (Proc.devRef .tc main_v15) = V (Proc.devRef .tc main_v15) := by
  simp only [hostOps1_9, hostOps1_10]; after_results_simp
  all_goals (try simp only [ofBuf_toBuf])
  all_goals rfl
attribute [local irreducible] Host.reduce Host.gather in
set_option maxRecDepth 8192 in
theorem corner4_v17 (V : Valuation τ sig (Elt F)) : after hostOps1_10 (after hostOps1_9 V) (Proc.devRef .tc main_v17) = V (Proc.devRef .tc main_v17) := by
  simp only [hostOps1_9, hostOps1_10]; after_results_simp
  all_goals (try simp only [ofBuf_toBuf])
  all_goals rfl

/-! ### Corner 5: its take, then the two additions and the next corner's row of indices, over any contents -/

attribute [local irreducible] Host.reduce Host.gather in
set_option maxRecDepth 8192 in
theorem corner5_vals (V : Valuation τ sig (Elt F)) : after hostOps1_12 (after hostOps1_11 V) (Proc.devRef .tc main_v88)
    = blendV (V (Proc.devRef .tc main_v17)) (V (Proc.devRef .tc main_v81)) (rowOfF 5 slices_S8x2097152_S1x2097152_5_0 (V (Proc.devRef .tc main_v15))) (V (Proc.devRef .tc main_v76)) := by
  simp only [hostOps1_11, hostOps1_12]; after_results_simp
  all_goals (try simp only [ofBuf_toBuf])
  all_goals rfl
attribute [local irreducible] Host.reduce Host.gather in
set_option maxRecDepth 8192 in
theorem corner5_wtot (V : Valuation τ sig (Elt F)) : after hostOps1_12 (after hostOps1_11 V) (Proc.devRef .tc main_v91)
    = addf (V (Proc.devRef .tc main_v79)) (rowOfF 5 slices_S8x2097152_S1x2097152_5_0 (V (Proc.devRef .tc main_v15))) := by
  simp only [hostOps1_11, hostOps1_12]; after_results_simp
  all_goals (try simp only [ofBuf_toBuf])
  all_goals rfl
attribute [local irreducible] Host.reduce Host.gather in
set_option maxRecDepth 8192 in
theorem corner5_idx (V : Valuation τ sig (Elt F)) : after hostOps1_12 (after hostOps1_11 V) (Proc.devRef .tc main_v93)
    = rowOfI 6 slices_S8x2097152_S1x2097152_6_0 (V (Proc.devRef .tc main_v14)) := by
  simp only [hostOps1_11, hostOps1_12]; after_results_simp
  all_goals (try simp only [ofBuf_toBuf])
  all_goals rfl
attribute [local irreducible] Host.reduce Host.gather in
set_option maxRecDepth 8192 in
theorem corner5_v14 (V : Valuation τ sig (Elt F)) : after hostOps1_12 (after hostOps1_11 V) (Proc.devRef .tc main_v14) = V (Proc.devRef .tc main_v14) := by
  simp only [hostOps1_11, hostOps1_12]; after_results_simp
  all_goals (try simp only [ofBuf_toBuf])
  all_goals rfl
attribute [local irreducible] Host.reduce Host.gather in
set_option maxRecDepth 8192 in
theorem corner5_v15 (V : Valuation τ sig (Elt F)) : after hostOps1_12 (after hostOps1_11 V) (Proc.devRef .tc main_v15) = V (Proc.devRef .tc main_v15) := by
  simp only [hostOps1_11, hostOps1_12]; after_results_simp
  all_goals (try simp only [ofBuf_toBuf])
  all_goals rfl
attribute [local irreducible] Host.reduce Host.gather in
set_option maxRecDepth 8192 in
theorem corner5_v17 (V : Valuation τ sig (Elt F)) : after hostOps1_12 (after hostOps1_11 V) (Proc.devRef .tc main_v17) = V (Proc.devRef .tc main_v17) := by
  simp only [hostOps1_11, hostOps1_12]; after_results_simp
  all_goals (try simp only [ofBuf_toBuf])
  all_goals rfl

/-! ### Corner 6: its take, then the two additions and the next corner's row of indices, over any contents -/

attribute [local irreducible] Host.reduce Host.gather in
set_option maxRecDepth 8192 in
theorem corner6_vals (V : Valuation τ sig (Elt F)) : after hostOps1_14 (after hostOps1_13 V) (Proc.devRef .tc main_v100)
    = blendV (V (Proc.devRef .tc main_v17)) (V (Proc.devRef .tc main_v93)) (rowOfF 6 slices_S8x2097152_S1x2097152_6_0 (V (Proc.devRef .tc main_v15))) (V (Proc.devRef .tc main_v88)) := by
  simp only [hostOps1_13, hostOps1_14]; after_results_simp
  all_goals (try simp only [ofBuf_toBuf])
  all_goals rfl
attribute [local irreducible] Host.reduce Host.gather in
set_option maxRecDepth 8192 in
theorem corner6_wtot (V : Valuation τ sig (Elt F)) : after hostOps1_14 (after hostOps1_13 V) (Proc.devRef .tc main_v103)
    = addf (V (Proc.devRef .tc main_v91)) (rowOfF 6 slices_S8x2097152_S1x2097152_6_0 (V (Proc.devRef .tc main_v15))) := by
  simp only [hostOps1_13, hostOps1_14]; after_results_simp
  all_goals (try simp only [ofBuf_toBuf])
  all_goals rfl
attribute [local irreducible] Host.reduce Host.gather in
set_option maxRecDepth 8192 in
theorem corner6_idx (V : Valuation τ sig (Elt F)) : after hostOps1_14 (after hostOps1_13 V) (Proc.devRef .tc main_v105)
    = rowOfI 7 slices_S8x2097152_S1x2097152_7_0 (V (Proc.devRef .tc main_v14)) := by
  simp only [hostOps1_13, hostOps1_14]; after_results_simp
  all_goals (try simp only [ofBuf_toBuf])
  all_goals rfl
attribute [local irreducible] Host.reduce Host.gather in
set_option maxRecDepth 8192 in
theorem corner6_v14 (V : Valuation τ sig (Elt F)) : after hostOps1_14 (after hostOps1_13 V) (Proc.devRef .tc main_v14) = V (Proc.devRef .tc main_v14) := by
  simp only [hostOps1_13, hostOps1_14]; after_results_simp
  all_goals (try simp only [ofBuf_toBuf])
  all_goals rfl
attribute [local irreducible] Host.reduce Host.gather in
set_option maxRecDepth 8192 in
theorem corner6_v15 (V : Valuation τ sig (Elt F)) : after hostOps1_14 (after hostOps1_13 V) (Proc.devRef .tc main_v15) = V (Proc.devRef .tc main_v15) := by
  simp only [hostOps1_13, hostOps1_14]; after_results_simp
  all_goals (try simp only [ofBuf_toBuf])
  all_goals rfl
attribute [local irreducible] Host.reduce Host.gather in
set_option maxRecDepth 8192 in
theorem corner6_v17 (V : Valuation τ sig (Elt F)) : after hostOps1_14 (after hostOps1_13 V) (Proc.devRef .tc main_v17) = V (Proc.devRef .tc main_v17) := by
  simp only [hostOps1_13, hostOps1_14]; after_results_simp
  all_goals (try simp only [ofBuf_toBuf])
  all_goals rfl

/-! ### The last corner's lines and what follows them: the result buffer -/

attribute [local irreducible] Host.reduce Host.gather in
set_option maxRecDepth 8192 in
theorem last_eq (V : Valuation τ sig (Elt F)) :
    after hostOps1_18 (after hostOps1_17 (after hostOps1_16 (after hostOps1_15 V))) (Proc.devRef .tc main_v121)
      = finishV (blendV (V (Proc.devRef .tc main_v17)) (V (Proc.devRef .tc main_v105)) (rowOfF 7 slices_S8x2097152_S1x2097152_7_0 (V (Proc.devRef .tc main_v15))) (V (Proc.devRef .tc main_v100)))
          (addf (V (Proc.devRef .tc main_v103)) (rowOfF 7 slices_S8x2097152_S1x2097152_7_0 (V (Proc.devRef .tc main_v15)))) := by
  simp only [hostOps1_15, hostOps1_16, hostOps1_17, hostOps1_18]; after_results_simp
  all_goals (try simp only [ofBuf_toBuf])
  all_goals rfl

/-! ## The lines, composed -/

/-- THE LINES AFTER THE REGION, over any buffer contents: the result buffer ends at their composition of the two arrays
    the region leaves and the volume. -/
theorem tail_eq (V : Valuation τ sig (Elt F)) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]) V (Proc.devRef .tc main_v121)
      = tailOut (V (Proc.devRef .tc main_v13_0)) (V (Proc.devRef .tc main_v13_1)) (V (Proc.devRef .tc main_arg0)) := by
  simp only [List.flatten_cons, List.flatten_nil, List.append_nil, after_append]
  rw [last_eq]
  rw [corner6_v17, corner6_idx, corner6_v15, corner6_vals, corner6_wtot]
  rw [corner5_v17, corner5_v14, corner5_v15, corner5_idx, corner5_vals, corner5_wtot]
  rw [corner4_v17, corner4_v14, corner4_v15, corner4_idx, corner4_vals, corner4_wtot]
  rw [corner3_v17, corner3_v14, corner3_v15, corner3_idx, corner3_vals, corner3_wtot]
  rw [corner2_v17, corner2_v14, corner2_v15, corner2_idx, corner2_vals, corner2_wtot]
  rw [corner1_v17, corner1_v14, corner1_v15, corner1_idx, corner1_vals, corner1_wtot]
  rw [corner0_v17, corner0_v14, corner0_v15, corner0_idx, corner0_vals, corner0_wtot]
  rw [first_v17, first_v14, first_v15, first_v21, first_v18, first_v19]
  rfl

end Cert.KernelIdeal.Hand

end
-- ==== Proof.KernelFinal.lean ====
import proofs.«133722_j65515431133592_2_alg».proof.Proof.KernelValue
import proofs.«133722_j65515431133592_2_alg».proof.Proof.KernelTailRun

/-! The kernel's program, run, with the lines after the region evaluated: what its result buffer holds, from the argument
    arrays alone. -/

noncomputable section

namespace Cert.KernelIdeal.Hand

open Cert.KernelIdeal Cert.KernelIdeal.Gen Cert.Warp
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- THE RUN of the kernel's program, read at its result: every weakly fair execution terminates; the result buffer holds
    the composition of the lines after the region, of each corner's indices and weights of the warped coordinates and of
    the volume; the argument arrays end as launched. -/
theorem kernel_run_final : θ_run defs (onTc (τ := τ) (main (F := F))) ⟨m, fun _ => 0, ρ⟩ (fun r => ∀ c : Dev nD,
      r.2.mem ((c.tc : Thread nD τ).loc main_v121)
        = tailOut (idxArr (kFold 0 slices_S4x2097152_S1x2097152_0_0 (kP m c)) (kFold 1 slices_S4x2097152_S1x2097152_1_0 (kP m c)) (kFold 2 slices_S4x2097152_S1x2097152_2_0 (kP m c)))
            (wgtArr (kFold 0 slices_S4x2097152_S1x2097152_0_0 (kP m c)) (kFold 1 slices_S4x2097152_S1x2097152_1_0 (kP m c)) (kFold 2 slices_S4x2097152_S1x2097152_2_0 (kP m c)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  kernel_run m ρ tail_eq

end Cert.KernelIdeal.Hand

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.KernelRows.lean ====
import proofs.«133722_j65515431133592_2_alg».proof.Proof.KernelTail
import proofs.«133722_j65515431133592_2_alg».proof.Proof.Spec
import Idealize.ShloMosaic.Lib.Pipeline.Value

/-! A row of a flattened array the region leaves, as the corner's vector form of the three flat coordinate vectors. -/

set_option maxRecDepth 16384

noncomputable section

namespace Cert.KernelIdeal.Hand

open Cert.KernelIdeal Cert.KernelIdeal.Gen Cert.Warp
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## A row of a flattened array the region leaves -/

/-- Row `c` of the flattened index array the region leaves, when the three coordinate arrays are flat vectors folded to
    [16384, 128]: corner `c`'s vector form of the three flat vectors — point `n` sits at (c, n / 128, n % 128) of the
    [8, 16384, 128] array and at (n / 128, n % 128) of a folded coordinate array. -/
theorem rowI_eq (c : Nat) (hc : c < 8) (h : S8x2097152.Slices ![c, 0] S1x2097152) (pi pj pk : FVec F S2097152 .f32) :
    rowOfI c h (shapeCast S8x2097152 (idxArr (shapeCast S16384x128 pi shapeCasts_S2097152_S16384x128)
        (shapeCast S16384x128 pj shapeCasts_S2097152_S16384x128) (shapeCast S16384x128 pk shapeCasts_S2097152_S16384x128))
        shapeCasts_S8x16384x128_S8x2097152)
      = idxV S2097152 (offI c) (offJ c) (offK c) pi pj pk := by
  funext n
  obtain ⟨n0, rfl⟩ : ∃ n0 : Fin 2097152, n = ix1 n0 := ⟨n 0, eq_ix1 n⟩
  have hn : n0.val < 2097152 := n0.isLt
  unfold rowOfI
  refine (shapeCast_apply _ _ (ix1 n0) (ix2 (0 : Fin 1) n0) ?_).trans ?_
  · rw [Shape.rowMajor_val_two, Shape.rowMajor_val_one]
    show 0 * 2097152 + n0.val = n0.val
    omega
  refine (extractStridedSlice_apply ![c, 0] _ h (ix2 (0 : Fin 1) n0) (ix2 (⟨c, hc⟩ : Fin 8) n0) ?_).trans ?_
  · intro a
    match a with
    | ⟨0, _⟩ => show c = c + 0; omega
    | ⟨1, _⟩ => show n0.val = 0 + n0.val; omega
  refine (shapeCast_apply _ _ (ix2 (⟨c, hc⟩ : Fin 8) n0)
    (ix3 (⟨c, hc⟩ : Fin 8) (⟨n0.val / 128, by omega⟩ : Fin 16384) (⟨n0.val % 128, by omega⟩ : Fin 128)) ?_).trans ?_
  · rw [Shape.rowMajor_val_three, Shape.rowMajor_val_two]
    show (c * 16384 + n0.val / 128) * 128 + n0.val % 128 = c * 2097152 + n0.val
    omega
  have hfold : ∀ p : FVec F S2097152 .f32,
      shapeCast S16384x128 p shapeCasts_S2097152_S16384x128 (ix2 (⟨n0.val / 128, by omega⟩ : Fin 16384) (⟨n0.val % 128, by omega⟩ : Fin 128)) = p (ix1 n0) := fun p =>
    shapeCast_apply p _ _ (ix1 n0) (by
      rw [Shape.rowMajor_val_one, Shape.rowMajor_val_two]
      show n0.val = n0.val / 128 * 128 + n0.val % 128
      omega)
  show idxS (offI c) (offJ c) (offK c)
      (shapeCast S16384x128 pi shapeCasts_S2097152_S16384x128 (ix2 (⟨n0.val / 128, by omega⟩ : Fin 16384) (⟨n0.val % 128, by omega⟩ : Fin 128)))
      (shapeCast S16384x128 pj shapeCasts_S2097152_S16384x128 (ix2 (⟨n0.val / 128, by omega⟩ : Fin 16384) (⟨n0.val % 128, by omega⟩ : Fin 128)))
      (shapeCast S16384x128 pk shapeCasts_S2097152_S16384x128 (ix2 (⟨n0.val / 128, by omega⟩ : Fin 16384) (⟨n0.val % 128, by omega⟩ : Fin 128)))
    = idxS (offI c) (offJ c) (offK c) (pi (ix1 n0)) (pj (ix1 n0)) (pk (ix1 n0))
  rw [hfold pi, hfold pj, hfold pk]

/-- Row `c` of the flattened weight array the region leaves, when the three coordinate arrays are flat vectors folded to
    [16384, 128]: corner `c`'s vector form of the three flat vectors — point `n` sits at (c, n / 128, n % 128) of the
    [8, 16384, 128] array and at (n / 128, n % 128) of a folded coordinate array. -/
theorem rowW_eq (c : Nat) (hc : c < 8) (h : S8x2097152.Slices ![c, 0] S1x2097152) (pi pj pk : FVec F S2097152 .f32) :
    rowOfF c h (shapeCast S8x2097152 (wgtArr (shapeCast S16384x128 pi shapeCasts_S2097152_S16384x128)
        (shapeCast S16384x128 pj shapeCasts_S2097152_S16384x128) (shapeCast S16384x128 pk shapeCasts_S2097152_S16384x128))
        shapeCasts_S8x16384x128_S8x2097152)
      = wgtV S2097152 (offI c) (offJ c) (offK c) pi pj pk := by
  funext n
  obtain ⟨n0, rfl⟩ : ∃ n0 : Fin 2097152, n = ix1 n0 := ⟨n 0, eq_ix1 n⟩
  have hn : n0.val < 2097152 := n0.isLt
  unfold rowOfF
  refine (shapeCast_apply _ _ (ix1 n0) (ix2 (0 : Fin 1) n0) ?_).trans ?_
  · rw [Shape.rowMajor_val_two, Shape.rowMajor_val_one]
    show 0 * 2097152 + n0.val = n0.val
    omega
  refine (extractStridedSlice_apply ![c, 0] _ h (ix2 (0 : Fin 1) n0) (ix2 (⟨c, hc⟩ : Fin 8) n0) ?_).trans ?_
  · intro a
    match a with
    | ⟨0, _⟩ => show c = c + 0; omega
    | ⟨1, _⟩ => show n0.val = 0 + n0.val; omega
  refine (shapeCast_apply _ _ (ix2 (⟨c, hc⟩ : Fin 8) n0)
    (ix3 (⟨c, hc⟩ : Fin 8) (⟨n0.val / 128, by omega⟩ : Fin 16384) (⟨n0.val % 128, by omega⟩ : Fin 128)) ?_).trans ?_
  · rw [Shape.rowMajor_val_three, Shape.rowMajor_val_two]
    show (c * 16384 + n0.val / 128) * 128 + n0.val % 128 = c * 2097152 + n0.val
    omega
  have hfold : ∀ p : FVec F S2097152 .f32,
      shapeCast S16384x128 p shapeCasts_S2097152_S16384x128 (ix2 (⟨n0.val / 128, by omega⟩ : Fin 16384) (⟨n0.val % 128, by omega⟩ : Fin 128)) = p (ix1 n0) := fun p =>
    shapeCast_apply p _ _ (ix1 n0) (by
      rw [Shape.rowMajor_val_one, Shape.rowMajor_val_two]
      show n0.val = n0.val / 128 * 128 + n0.val % 128
      omega)
  show wgtS (offI c) (offJ c) (offK c)
      (shapeCast S16384x128 pi shapeCasts_S2097152_S16384x128 (ix2 (⟨n0.val / 128, by omega⟩ : Fin 16384) (⟨n0.val % 128, by omega⟩ : Fin 128)))
      (shapeCast S16384x128 pj shapeCasts_S2097152_S16384x128 (ix2 (⟨n0.val / 128, by omega⟩ : Fin 16384) (⟨n0.val % 128, by omega⟩ : Fin 128)))
      (shapeCast S16384x128 pk shapeCasts_S2097152_S16384x128 (ix2 (⟨n0.val / 128, by omega⟩ : Fin 16384) (⟨n0.val % 128, by omega⟩ : Fin 128)))
    = wgtS (offI c) (offJ c) (offK c) (pi (ix1 n0)) (pj (ix1 n0)) (pk (ix1 n0))
  rw [hfold pi, hfold pj, hfold pk]

end Cert.KernelIdeal.Hand

end
-- ==== Proof.KernelMath.lean ====
/-
  The lines after the region, read at an index: they compute the resampled volume.

  Entry (n, b) of the running [N, 8] total is the total before plus corner's weight at n times row b of the volume read at
  the corner's index at n (the table is the volume transposed, so a gathered row at column b is the volume's row b at the
  gathered position); the weight total at n grows by the weight at n; the quotient, transposed back, is the layer's
  [8, N] array entry by entry.
-/
import proofs.«133722_j65515431133592_2_alg».proof.Proof.KernelTail
import proofs.«133722_j65515431133592_2_alg».proof.Proof.Spec
import proofs.«133722_j65515431133592_2_alg».proof.Proof.LibGatherRows
import proofs.«133722_j65515431133592_2_alg».proof.Proof.KernelRows
import Idealize.ShloMosaic.Lib.ValueLayout

noncomputable section

namespace Cert.KernelIdeal.Hand

open Cert.KernelIdeal Cert.KernelIdeal.Gen Idealize.ShloMosaic Idealize.ShloMosaic.ValueIdx

variable {F : FTy → Type} [FloatOps F]

/-- A vector spread over the columns reads, at (n, b), its entry n. -/
theorem spread8_apply (w : FVec F S2097152 .f32) (n : Fin 2097152) (b : Fin 8) : spread8 w (ix2 n b) = w (ix1 n) := by
  unfold spread8
  refine (broadcastInDim_apply _ _ _ (ix2 n b) (ix2 n (0 : Fin 1)) fun a => ?_).trans
    (broadcastInDim_apply _ _ _ (ix2 n (0 : Fin 1)) (ix1 n) fun a => ?_)
  · match a with
    | ⟨0, _⟩ => rfl
    | ⟨1, _⟩ => rfl
  · match a with
    | ⟨0, _⟩ => rfl

/-- The in-range bit spread over the columns reads, at (n, b), the bit of point n. -/
theorem mask_apply (v : IVec S2097152 1) (n : Fin 2097152) (b : Fin 8) :
    broadcastInDim S2097152x8 ![0] bcast_S2097152_S2097152x8_0 v (ix2 n b) = v (ix1 n) :=
  broadcastInDim_apply _ _ _ (ix2 n b) (ix1 n) fun a => match a with | ⟨0, _⟩ => rfl

/-- A scalar spread over a whole array reads that scalar everywhere. -/
theorem splat8_apply (v : FVec F S_ .f32) (j : S2097152x8.Idx) :
    broadcastInDim S2097152x8 ![] bcast_S_S2097152x8 v j = v ix0 :=
  broadcastInDim_apply _ _ _ j ix0 fun a => a.elim0

theorem splat1_apply (v : FVec F S_ .f32) (j : S2097152.Idx) :
    broadcastInDim S2097152 ![] bcast_S_S2097152 v j = v ix0 :=
  broadcastInDim_apply _ _ _ j ix0 fun a => a.elim0

/-- The index column and the in-range bits are the layer's (the same operations; the shape evidence is a proof). -/
theorem wrapCol_eq (idx : IVec S2097152 32) : wrapCol idx = Cert.Warp.wrapCol idx := rfl
theorem inRange_eq (col : IVec S2097152x1 32) : inRange col = Cert.Warp.inRange col := by
  have hlo : (broadcastInDim S2097152x1 ![] bcast_S_S2097152x1 (constantI S_ 32 0#32) : IVec S2097152x1 32)
      = broadcastInDim ⟨2, ![2097152, 1]⟩ ![] (by decide) (constantI ⟨0, ![]⟩ 32 0#32) := rfl
  have hhi : (broadcastInDim S2097152x1 ![0, 1] bcast_S1x1_S2097152x1_0_1
        (broadcastInDim S1x1 ![1] bcast_S1_S1x1_1 (constantI S1 32 2097151#32)) : IVec S2097152x1 32)
      = broadcastInDim ⟨2, ![2097152, 1]⟩ ![0, 1] (by decide)
          (broadcastInDim ⟨2, ![1, 1]⟩ ![1] (by decide) (constantI ⟨1, ![1]⟩ 32 2097151#32)) := rfl
  unfold inRange Cert.Warp.inRange
  rw [hlo, hhi]

/-- A gathered row of the transposed volume, at column b, is the volume's row b at the gathered position. -/
theorem gather_apply (xf : FVec F S8x2097152 .f32) (col : IVec S2097152x1 32) (n : Fin 2097152) (b : Fin 8) :
    Host.gather gather_S2097152x8_S2097152x1_S2097152x8_1_0_n_n_0_1_18
        (transpose S2097152x8 [1, 0] xf transposes_S8x2097152_S2097152x8_1_0) col (ix2 n b)
      = xf (ix2 b (Cert.Warp.posOf col n)) :=
  (Cert.Moe.gather_rows_apply (A := 2097152) (C := 8) (M := 2097152) (by decide) _ _ col n b).trans
    (transpose_ix2_apply xf _ _ b)

/-- THE TAKE AT (n, b): of the transposed volume, the layer's read of row b at point n's word. -/
theorem takeRows_apply (xf : FVec F S8x2097152 .f32) (idx : IVec S2097152 32) (n : Fin 2097152) (b : Fin 8) :
    takeRows (transpose S2097152x8 [1, 0] xf transposes_S8x2097152_S2097152x8_1_0) idx (ix2 n b)
      = Cert.Warp.takeS xf idx b n := by
  unfold takeRows Cert.Warp.takeS
  rw [select_apply, mask_apply, splat8_apply, inRange_eq, wrapCol_eq, gather_apply]
  rfl

/-- One corner added, at (n, b). -/
theorem blendV_apply (xf : FVec F S8x2097152 .f32) (idx : IVec S2097152 32) (w : FVec F S2097152 .f32)
    (vals : FVec F S2097152x8 .f32) (n : Fin 2097152) (b : Fin 8) :
    blendV (transpose S2097152x8 [1, 0] xf transposes_S8x2097152_S2097152x8_1_0) idx w vals (ix2 n b)
      = FloatOps.addf (vals (ix2 n b)) (FloatOps.mulf (w (ix1 n)) (Cert.Warp.takeS xf idx b n)) := by
  show FloatOps.addf (vals (ix2 n b)) (FloatOps.mulf (spread8 w (ix2 n b)) (takeRows _ idx (ix2 n b))) = _
  rw [spread8_apply, takeRows_apply]

theorem zero8_apply (j : S2097152x8.Idx) : zero8 (F := F) j = FloatOps.ofBits .f32 0x00000000#32 := splat8_apply _ j
theorem zero1_apply (j : S2097152.Idx) : zero1 (F := F) j = FloatOps.ofBits .f32 0x00000000#32 := splat1_apply _ j

/-- The clipped weight total at n. -/
theorem clipTot_apply (w : FVec F S2097152 .f32) (n : Fin 2097152) : clipTot w (ix1 n) = Cert.Warp.clipTotS (w (ix1 n)) := by
  show FloatOps.minimumf (broadcastInDim S2097152 ![] bcast_S_S2097152 (id (constant S_ .f32 0x41000000#32)) (ix1 n))
      (FloatOps.maximumf (broadcastInDim S2097152 ![] bcast_S_S2097152 (id (constant S_ .f32 0x322BCC77#32)) (ix1 n)) (w (ix1 n))) = _
  rw [splat1_apply, splat1_apply]
  rfl

/-- The pointwise operations at an index, at any instance. -/
theorem addf_at {s : Shape} (a b : FVec F s .f32) (j : s.Idx) : addf a b j = FloatOps.addf (a j) (b j) := rfl
theorem hdivf_at {s : Shape} (a b : FVec F s .f32) (j : s.Idx) : Host.divf a b j = FloatOps.hostDivf (a j) (b j) := rfl

set_option maxRecDepth 65536 in
/-- THE LINES AFTER THE REGION COMPUTE THE LAYER: from the two arrays of corner indices and weights of the folded
    coordinate vectors, the result is the resampled volume. -/
theorem tail_layer (pi pj pk : FVec F S2097152 .f32) (x : FVec F S8x128x128x128x1 .f32) :
    tailOut
        (Cert.Warp.idxArr (shapeCast S16384x128 pi shapeCasts_S2097152_S16384x128)
          (shapeCast S16384x128 pj shapeCasts_S2097152_S16384x128) (shapeCast S16384x128 pk shapeCasts_S2097152_S16384x128))
        (Cert.Warp.wgtArr (shapeCast S16384x128 pi shapeCasts_S2097152_S16384x128)
          (shapeCast S16384x128 pj shapeCasts_S2097152_S16384x128) (shapeCast S16384x128 pk shapeCasts_S2097152_S16384x128)) x
      = shapeCast S8x128x128x128x1
          (Cert.Warp.resample (shapeCast S8x2097152 x shapeCasts_S8x128x128x128x1_S8x2097152) pi pj pk)
          shapeCasts_S8x2097152_S8x128x128x128x1 := by
  unfold tailOut
  simp only [rowI_eq 0 (by decide), rowI_eq 1 (by decide), rowI_eq 2 (by decide), rowI_eq 3 (by decide),
    rowI_eq 4 (by decide), rowI_eq 5 (by decide), rowI_eq 6 (by decide), rowI_eq 7 (by decide),
    rowW_eq 0 (by decide), rowW_eq 1 (by decide), rowW_eq 2 (by decide), rowW_eq 3 (by decide),
    rowW_eq 4 (by decide), rowW_eq 5 (by decide), rowW_eq 6 (by decide), rowW_eq 7 (by decide)]
  unfold finishV
  refine congrArg (fun A => shapeCast S8x128x128x128x1 A shapeCasts_S8x2097152_S8x128x128x128x1) ?_
  funext q
  obtain ⟨b, n, rfl⟩ : ∃ (b : Fin 8) (n : Fin 2097152), q = ix2 b n := ⟨q 0, q 1, eq_ix2 q⟩
  rw [transpose_ix2_apply]
  simp only [hdivf_at, addf_at, spread8_apply, clipTot_apply, zero1_apply]
  rw [blendV_apply, blendV_apply, blendV_apply, blendV_apply, blendV_apply, blendV_apply, blendV_apply, blendV_apply, zero8_apply]
  rfl

end Cert.KernelIdeal.Hand

end
-- ==== Proof.KernelLayer.lean ====
/-
  At the extended reals the kernel's program computes the layer.

  The run leaves the result buffer at the lines after the region applied to the two arrays the region wrote, which are the
  corner indices and weights of the three folded rows of p; those lines compute the resampled volume; and the program's p,
  products at the highest precision, is the layer's p, since at the extended reals a precision chooses nothing.
-/
import proofs.«133722_j65515431133592_2_alg».proof.Proof.KernelValue
import proofs.«133722_j65515431133592_2_alg».proof.Proof.KernelMath

noncomputable section

namespace Cert.KernelIdeal.Hand

open Cert.KernelIdeal Cert.KernelIdeal.Gen Idealize.ShloMosaic Idealize.ShloMosaic.TcCoe Idealize.SL.Sem

set_option maxRecDepth 65536 in
/-- The result buffer's contents after the run, as the layer of the six argument arrays. -/
theorem kernel_layer (m : (ℓ : Loc nD τ sig) → Buf (Elt Ideal) ℓ) (c : Dev nD) :
    tailOut
        (Cert.Warp.idxArr (kFold 0 slices_S4x2097152_S1x2097152_0_0 (kP m c)) (kFold 1 slices_S4x2097152_S1x2097152_1_0 (kP m c))
          (kFold 2 slices_S4x2097152_S1x2097152_2_0 (kP m c)))
        (Cert.Warp.wgtArr (kFold 0 slices_S4x2097152_S1x2097152_0_0 (kP m c)) (kFold 1 slices_S4x2097152_S1x2097152_1_0 (kP m c))
          (kFold 2 slices_S4x2097152_S1x2097152_2_0 (kP m c)))
        (m ((c.tc : Thread nD τ).loc main_arg0))
      = Cert.Warp.layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  simp only [kFold_eq]
  rw [tail_layer]
  rfl

end Cert.KernelIdeal.Hand

end
-- ==== Proof.RefOps.lean ====
/-
  The host operations of the reference program's @main, in order, as lists: each line (hlo rfl op (fun _ => .ret ⟨⟩)) of the
  printed program is the list item op, and each call of an outlined function is the callee's operations over that call's
  record of buffers, its arguments the call's operands (a callee's own call likewise). The lists are cut where the printed
  windows end and where the program's phases end: pre* the 27 statements before the first corner, kC* corner C
  (52 statements each, C = 0 .. 7), post* the statements after the last corner.
-/
import proofs.«133722_j65515431133592_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 1 … 27 of @main: 42 operations. -/
abbrev prea : List (HloOp τ sig (Elt F)) :=
  [ StableHlo.binary main_arg3 main_arg1 main_v0 ((fun l r => Host.dotGeneral dot_S4x4_S4x2097152_S4x2097152_1_0_0_1_n_n none l r) : (⟨S4x4, .f32⟩ : BufTy).Contents (Elt F) → (⟨S4x2097152, .f32⟩ : BufTy).Contents (Elt F) → (⟨S4x2097152, .f32⟩ : BufTy).Contents (Elt F)),
    StableHlo.binary main_arg4 main_v0 main_v1 ((fun l r => Host.dotGeneral dot_S4x4_S4x2097152_S4x2097152_1_0_0_1_n_n none l r) : (⟨S4x4, .f32⟩ : BufTy).Contents (Elt F) → (⟨S4x2097152, .f32⟩ : BufTy).Contents (Elt F) → (⟨S4x2097152, .f32⟩ : BufTy).Contents (Elt F)),
    StableHlo.binary main_v1 main_arg2 main_v2 (addf : (⟨S4x2097152, .f32⟩ : BufTy).Contents (Elt F) → (⟨S4x2097152, .f32⟩ : BufTy).Contents (Elt F) → (⟨S4x2097152, .f32⟩ : BufTy).Contents (Elt F)),
    StableHlo.binary main_arg5 main_v2 main_v3 ((fun l r => Host.dotGeneral dot_S4x4_S4x2097152_S4x2097152_1_0_0_1_n_n none l r) : (⟨S4x4, .f32⟩ : BufTy).Contents (Elt F) → (⟨S4x2097152, .f32⟩ : BufTy).Contents (Elt F) → (⟨S4x2097152, .f32⟩ : BufTy).Contents (Elt F)),
    StableHlo.reshape main_arg0 main_v4 rfl shapeCasts_S8x128x128x128x1_S8x2097152,
    StableHlo.unary main_v3 main_v5 ((extractStridedSlice S1x2097152 ![0, 0] · slices_S4x2097152_S1x2097152_0_0) : (⟨S4x2097152, .f32⟩ : BufTy).Contents (Elt F) → (⟨S1x2097152, .f32⟩ : BufTy).Contents (Elt F)),
    StableHlo.reshape main_v5 main_v6 rfl shapeCasts_S1x2097152_S2097152,
    StableHlo.unary main_v3 main_v7 ((extractStridedSlice S1x2097152 ![1, 0] · slices_S4x2097152_S1x2097152_1_0) : (⟨S4x2097152, .f32⟩ : BufTy).Contents (Elt F) → (⟨S1x2097152, .f32⟩ : BufTy).Contents (Elt F)),
    StableHlo.reshape main_v7 main_v8 rfl shapeCasts_S1x2097152_S2097152,
    StableHlo.unary main_v3 main_v9 ((extractStridedSlice S1x2097152 ![2, 0] · slices_S4x2097152_S1x2097152_2_0) : (⟨S4x2097152, .f32⟩ : BufTy).Contents (Elt F) → (⟨S1x2097152, .f32⟩ : BufTy).Contents (Elt F)),
    StableHlo.reshape main_v9 main_v10 rfl shapeCasts_S1x2097152_S2097152,
    StableHlo.nullary main_cst (constant S_ .f32 0x00000000#32),
    StableHlo.nullary main_c (constantI S_ 32 127#32),
    StableHlo.TRef.unary (.of main_cst : StableHlo.TRef sig ⟨S_, .f32⟩) main_call0.v0 id,
    StableHlo.TRef.unary main_call0.v0 main_call0.v1 (broadcastInDim S2097152 ![] bcast_S_S2097152),
    StableHlo.TRef.binary main_call0.v1 (.of main_v6 : StableHlo.TRef sig ⟨S2097152, .f32⟩) main_call0.v2 maximumf,
    StableHlo.TRef.unary (.of main_c : StableHlo.TRef sig ⟨S_, .i32⟩) main_call0.v3 (sitofp .f32),
    StableHlo.TRef.unary main_call0.v3 main_call0.v4 (broadcastInDim S2097152 ![] bcast_S_S2097152),
    StableHlo.TRef.binary main_call0.v4 main_call0.v2 main_call0.v5 minimumf,
    StableHlo.nullary main_cst_0 (constant S_ .f32 0x00000000#32),
    StableHlo.nullary main_c_1 (constantI S_ 32 127#32),
    StableHlo.TRef.unary (.of main_cst_0 : StableHlo.TRef sig ⟨S_, .f32⟩) main_call1.v0 id,
    StableHlo.TRef.unary main_call1.v0 main_call1.v1 (broadcastInDim S2097152 ![] bcast_S_S2097152),
    StableHlo.TRef.binary main_call1.v1 (.of main_v8 : StableHlo.TRef sig ⟨S2097152, .f32⟩) main_call1.v2 maximumf,
    StableHlo.TRef.unary (.of main_c_1 : StableHlo.TRef sig ⟨S_, .i32⟩) main_call1.v3 (sitofp .f32),
    StableHlo.TRef.unary main_call1.v3 main_call1.v4 (broadcastInDim S2097152 ![] bcast_S_S2097152),
    StableHlo.TRef.binary main_call1.v4 main_call1.v2 main_call1.v5 minimumf,
    StableHlo.nullary main_cst_2 (constant S_ .f32 0x00000000#32),
    StableHlo.nullary main_c_3 (constantI S_ 32 127#32),
    StableHlo.TRef.unary (.of main_cst_2 : StableHlo.TRef sig ⟨S_, .f32⟩) main_call2.v0 id,
    StableHlo.TRef.unary main_call2.v0 main_call2.v1 (broadcastInDim S2097152 ![] bcast_S_S2097152),
    StableHlo.TRef.binary main_call2.v1 (.of main_v10 : StableHlo.TRef sig ⟨S2097152, .f32⟩) main_call2.v2 maximumf,
    StableHlo.TRef.unary (.of main_c_3 : StableHlo.TRef sig ⟨S_, .i32⟩) main_call2.v3 (sitofp .f32),
    StableHlo.TRef.unary main_call2.v3 main_call2.v4 (broadcastInDim S2097152 ![] bcast_S_S2097152),
    StableHlo.TRef.binary main_call2.v4 main_call2.v2 main_call2.v5 minimumf,
    StableHlo.unary main_v6 main_v14 (Host.floor : (⟨S2097152, .f32⟩ : BufTy).Contents (Elt F) → (⟨S2097152, .f32⟩ : BufTy).Contents (Elt F)),
    StableHlo.unary main_v8 main_v15 (Host.floor : (⟨S2097152, .f32⟩ : BufTy).Contents (Elt F) → (⟨S2097152, .f32⟩ : BufTy).Contents (Elt F)),
    StableHlo.unary main_v10 main_v16 (Host.floor : (⟨S2097152, .f32⟩ : BufTy).Contents (Elt F) → (⟨S2097152, .f32⟩ : BufTy).Contents (Elt F)),
    StableHlo.nullary main_cst_4 (constant S_ .f32 0x00000000#32),
    StableHlo.unary main_cst_4 main_v17 (broadcastInDim S8x2097152 ![] bcast_S_S8x2097152 : (⟨S_, .f32⟩ : BufTy).Contents (Elt F) → (⟨S8x2097152, .f32⟩ : BufTy).Contents (Elt F)),
    StableHlo.nullary main_cst_5 (constant S_ .f32 0x00000000#32),
    StableHlo.unary main_cst_5 main_v18 (broadcastInDim S2097152 ![] bcast_S_S2097152 : (⟨S_, .f32⟩ : BufTy).Contents (Elt F) → (⟨S2097152, .f32⟩ : BufTy).Contents (Elt F)) ]

/-- Statements 28 … 60 of @main: 48 operations. -/
abbrev k0a : List (HloOp τ sig (Elt F)) :=
  [ StableHlo.nullary main_cst_6 (constant S_ .f32 0x00000000#32),
    StableHlo.unary main_cst_6 main_v19 (broadcastInDim S2097152 ![] bcast_S_S2097152 : (⟨S_, .f32⟩ : BufTy).Contents (Elt F) → (⟨S2097152, .f32⟩ : BufTy).Contents (Elt F)),
    StableHlo.binary main_v14 main_v19 main_v20 (addf : (⟨S2097152, .f32⟩ : BufTy).Contents (Elt F) → (⟨S2097152, .f32⟩ : BufTy).Contents (Elt F) → (⟨S2097152, .f32⟩ : BufTy).Contents (Elt F)),
    StableHlo.nullary main_cst_7 (constant S_ .f32 0x00000000#32),
    StableHlo.nullary main_c_8 (constantI S_ 32 127#32),
    StableHlo.TRef.unary (.of main_cst_7 : StableHlo.TRef sig ⟨S_, .f32⟩) main_call3.v0 id,
    StableHlo.TRef.unary main_call3.v0 main_call3.v1 (broadcastInDim S2097152 ![] bcast_S_S2097152),
    StableHlo.TRef.binary main_call3.v1 (.of main_v20 : StableHlo.TRef sig ⟨S2097152, .f32⟩) main_call3.v2 maximumf,
    StableHlo.TRef.unary (.of main_c_8 : StableHlo.TRef sig ⟨S_, .i32⟩) main_call3.v3 (sitofp .f32),
    StableHlo.TRef.unary main_call3.v3 main_call3.v4 (broadcastInDim S2097152 ![] bcast_S_S2097152),
    StableHlo.TRef.binary main_call3.v4 main_call3.v2 main_call3.v5 minimumf,
    StableHlo.nullary main_cst_9 (constant S_ .f32 0x00000000#32),
    StableHlo.unary main_cst_9 main_v22 (broadcastInDim S2097152 ![] bcast_S_S2097152 : (⟨S_, .f32⟩ : BufTy).Contents (Elt F) → (⟨S2097152, .f32⟩ : BufTy).Contents (Elt F)),
    StableHlo.binary main_v15 main_v22 main_v23 (addf : (⟨S2097152, .f32⟩ : BufTy).Contents (Elt F) → (⟨S2097152, .f32⟩ : BufTy).Contents (Elt F) → (⟨S2097152, .f32⟩ : BufTy).Contents (Elt F)),
    StableHlo.nullary main_cst_10 (constant S_ .f32 0x00000000#32),
    StableHlo.nullary main_c_11 (constantI S_ 32 127#32),
    StableHlo.TRef.unary (.of main_cst_10 : StableHlo.TRef sig ⟨S_, .f32⟩) main_call4.v0 id,
    StableHlo.TRef.unary main_call4.v0 main_call4.v1 (broadcastInDim S2097152 ![] bcast_S_S2097152),
    StableHlo.TRef.binary main_call4.v1 (.of main_v23 : StableHlo.TRef sig ⟨S2097152, .f32⟩) main_call4.v2 maximumf,
    StableHlo.TRef.unary (.of main_c_11 : StableHlo.TRef sig ⟨S_, .i32⟩) main_call4.v3 (sitofp .f32),
    StableHlo.TRef.unary main_call4.v3 main_call4.v4 (broadcastInDim S2097152 ![] bcast_S_S2097152),
    StableHlo.TRef.binary main_call4.v4 main_call4.v2 main_call4.v5 minimumf,
    StableHlo.nullary main_cst_12 (constant S_ .f32 0x00000000#32),
    StableHlo.unary main_cst_12 main_v25 (broadcastInDim S2097152 ![] bcast_S_S2097152 : (⟨S_, .f32⟩ : BufTy).Contents (Elt F) → (⟨S2097152, .f32⟩ : BufTy).Contents (Elt F)),
    StableHlo.binary main_v16 main_v25 main_v26 (addf : (⟨S2097152, .f32⟩ : BufTy).Contents (Elt F) → (⟨S2097152, .f32⟩ : BufTy).Contents (Elt F) → (⟨S2097152, .f32⟩ : BufTy).Contents (Elt F)),
    StableHlo.nullary main_cst_13 (constant S_ .f32 0x00000000#32),
    StableHlo.nullary main_c_14 (constantI S_ 32 127#32),
    StableHlo.TRef.unary (.of main_cst_13 : StableHlo.TRef sig ⟨S_, .f32⟩) main_call5.v0 id,
    StableHlo.TRef.unary main_call5.v0 main_call5.v1 (broadcastInDim S2097152 ![] bcast_S_S2097152),
    StableHlo.TRef.binary main_call5.v1 (.of main_v26 : StableHlo.TRef sig ⟨S2097152, .f32⟩) main_call5.v2 maximumf,
    StableHlo.TRef.unary (.of main_c_14 : StableHlo.TRef sig ⟨S_, .i32⟩) main_call5.v3 (sitofp .f32),
    StableHlo.TRef.unary main_call5.v3 main_call5.v4 (broadcastInDim S2097152 ![] bcast_S_S2097152),
    StableHlo.TRef.binary main_call5.v4 main_call5.v2 main_call5.v5 minimumf,
    StableHlo.binary main_v11 main_v21 main_v28 (subf : (⟨S2097152, .f32⟩ : BufTy).Contents (Elt F) → (⟨S2097152, .f32⟩ : BufTy).Contents (Elt F) → (⟨S2097152, .f32⟩ : BufTy).Contents (Elt F)),
    StableHlo.unary main_v28 main_v29 (Host.absf : (⟨S2097152, .f32⟩ : BufTy).Contents (Elt F) → (⟨S2097152, .f32⟩ : BufTy).Contents (Elt F)),
    StableHlo.nullary main_cst_15 (constant S_ .f32 0x3F800000#32),
    StableHlo.unary main_cst_15 main_v30 (broadcastInDim S2097152 ![] bcast_S_S2097152 : (⟨S_, .f32⟩ : BufTy).Contents (Elt F) → (⟨S2097152, .f32⟩ : BufTy).Contents (Elt F)),
    StableHlo.binary main_v30 main_v29 main_v31 (subf : (⟨S2097152, .f32⟩ : BufTy).Contents (Elt F) → (⟨S2097152, .f32⟩ : BufTy).Contents (Elt F) → (⟨S2097152, .f32⟩ : BufTy).Contents (Elt F)),
    StableHlo.binary main_v12 main_v24 main_v32 (subf : (⟨S2097152, .f32⟩ : BufTy).Contents (Elt F) → (⟨S2097152, .f32⟩ : BufTy).Contents (Elt F) → (⟨S2097152, .f32⟩ : BufTy).Contents (Elt F)),
    StableHlo.unary main_v32 main_v33 (Host.absf : (⟨S2097152, .f32⟩ : BufTy).Contents (Elt F) → (⟨S2097152, .f32⟩ : BufTy).Contents (Elt F)),
    StableHlo.nullary main_cst_16 (constant S_ .f32 0x3F800000#32),
    StableHlo.unary main_cst_16 main_v34 (broadcastInDim S2097152 ![] bcast_S_S2097152 : (⟨S_, .f32⟩ : BufTy).Contents (Elt F) → (⟨S2097152, .f32⟩ : BufTy).Contents (Elt F)),
    StableHlo.binary main_v34 main_v33 main_v35 (subf : (⟨S2097152, .f32⟩ : BufTy).Contents (Elt F) → (⟨S2097152, .f32⟩ : BufTy).Contents (Elt F) → (⟨S2097152, .f32⟩ : BufTy).Contents (Elt F)),
    StableHlo.binary main_v31 main_v35 main_v36 (mulf : (⟨S2097152, .f32⟩ : BufTy).Contents (Elt F) → (⟨S2097152, .f32⟩ : BufTy).Contents (Elt F) → (⟨S2097152, .f32⟩ : BufTy).Contents (Elt F)),
    StableHlo.binary main_v13 main_v27 main_v37 (subf : (⟨S2097152, .f32⟩ : BufTy).Contents (Elt F) → (⟨S2097152, .f32⟩ : BufTy).Contents (Elt F) → (⟨S2097152, .f32⟩ : BufTy).Contents (Elt F)),
    StableHlo.unary main_v37 main_v38 (Host.absf : (⟨S2097152, .f32⟩ : BufTy).Contents (Elt F) → (⟨S2097152, .f32⟩ : BufTy).Contents (Elt F)),
    StableHlo.nullary main_cst_17 (constant S_ .f32 0x3F800000#32),
    StableHlo.unary main_cst_17 main_v39 (broadcastInDim S2097152 ![] bcast_S_S2097152 : (⟨S_, .f32⟩ : BufTy).Contents (Elt F) → (⟨S2097152, .f32⟩ : BufTy).Contents (Elt F)) ]

/-- Statements 61 … 79 of @main: 41 operations. -/
abbrev k0b : List (HloOp τ sig (Elt F)) :=
  [ StableHlo.binary main_v39 main_v38 main_v40 (subf : (⟨S2097152, .f32⟩ : BufTy).Contents (Elt F) → (⟨S2097152, .f32⟩ : BufTy).Contents (Elt F) → (⟨S2097152, .f32⟩ : BufTy).Contents (Elt F)),
    StableHlo.binary main_v36 main_v40 main_v41 (mulf : (⟨S2097152, .f32⟩ : BufTy).Contents (Elt F) → (⟨S2097152, .f32⟩ : BufTy).Contents (Elt F) → (⟨S2097152, .f32⟩ : BufTy).Contents (Elt F)),
    StableHlo.unary main_v21 main_v42 (fptosi 32 : (⟨S2097152, .f32⟩ : BufTy).Contents (Elt F) → (⟨S2097152, .i32⟩ : BufTy).Contents (Elt F)),
    StableHlo.nullary main_c_18 (constantI S_ 32 16384#32),
    StableHlo.unary main_c_18 main_v43 (broadcastInDim S2097152 ![] bcast_S_S2097152 : (⟨S_, .i32⟩ : BufTy).Contents (Elt F) → (⟨S2097152, .i32⟩ : BufTy).Contents (Elt F)),
    StableHlo.binary main_v42 main_v43 main_v44 (muli : (⟨S2097152, .i32⟩ : BufTy).Contents (Elt F) → (⟨S2097152, .i32⟩ : BufTy).Contents (Elt F) → (⟨S2097152, .i32⟩ : BufTy).Contents (Elt F)),
    StableHlo.unary main_v24 main_v45 (fptosi 32 : (⟨S2097152, .f32⟩ : BufTy).Contents (Elt F) → (⟨S2097152, .i32⟩ : BufTy).Contents (Elt F)),
    StableHlo.nullary main_c_19 (constantI S_ 32 128#32),
    StableHlo.unary main_c_19 main_v46 (broadcastInDim S2097152 ![] bcast_S_S2097152 : (⟨S_, .i32⟩ : BufTy).Contents (Elt F) → (⟨S2097152, .i32⟩ : BufTy).Contents (Elt F)),
    StableHlo.binary main_v45 main_v46 main_v47 (muli : (⟨S2097152, .i32⟩ : BufTy).Contents (Elt F) → (⟨S2097152, .i32⟩ : BufTy).Contents (Elt F) → (⟨S2097152, .i32⟩ : BufTy).Contents (Elt F)),
    StableHlo.binary main_v44 main_v47 main_v48 (addi : (⟨S2097152, .i32⟩ : BufTy).Contents (Elt F) → (⟨S2097152, .i32⟩ : BufTy).Contents (Elt F) → (⟨S2097152, .i32⟩ : BufTy).Contents (Elt F)),
    StableHlo.unary main_v27 main_v49 (fptosi 32 : (⟨S2097152, .f32⟩ : BufTy).Contents (Elt F) → (⟨S2097152, .i32⟩ : BufTy).Contents (Elt F)),
    StableHlo.binary main_v48 main_v49 main_v50 (addi : (⟨S2097152, .i32⟩ : BufTy).Contents (Elt F) → (⟨S2097152, .i32⟩ : BufTy).Contents (Elt F) → (⟨S2097152, .i32⟩ : BufTy).Contents (Elt F)),
    StableHlo.TRef.nullary main_call6.c (constantI S_ 32 0#32),
    StableHlo.TRef.unary main_call6.c main_call6.v0 (broadcastInDim S2097152 ![] bcast_S_S2097152),
    StableHlo.TRef.binary (.of main_v50 : StableHlo.TRef sig ⟨S2097152, .i32⟩) main_call6.v0 main_call6.v1 (cmpi .slt),
    StableHlo.TRef.nullary main_call6.c_0 (constantI S_ 32 2097152#32),
    StableHlo.TRef.unary main_call6.c_0 main_call6.v2 (broadcastInDim S2097152 ![] bcast_S_S2097152),
    StableHlo.TRef.binary (.of main_v50 : StableHlo.TRef sig ⟨S2097152, .i32⟩) main_call6.v2 main_call6.v3 addi,
    StableHlo.TRef.ternary main_call6.v1 main_call6.v3 (.of main_v50 : StableHlo.TRef sig ⟨S2097152, .i32⟩) main_call6.call0.v0 select,
    StableHlo.TRef.unary main_call6.call0.v0 main_call6.v5 (broadcastInDim S2097152x1 ![0] bcast_S2097152_S2097152x1_0),
    StableHlo.TRef.nullary main_call6.c_1 (constantI S1 32 2097151#32),
    StableHlo.TRef.nullary main_call6.c_2 (constantI S_ 32 0#32),
    StableHlo.TRef.unary main_call6.c_2 main_call6.v6 (broadcastInDim S2097152x1 ![] bcast_S_S2097152x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S2097152x1 ![0, 1] bcast_S1x1_S2097152x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S2097152x1_S2097152_d1 h_S_),
    StableHlo.TRef.binary (.of main_v4 : StableHlo.TRef sig ⟨S8x2097152, .f32⟩) main_call6.v5 main_call6.v13 (fun x i => Host.gather gather_S8x2097152_S2097152x1_S8x2097152_0_1_n_n_1_1_81 x i),
    StableHlo.TRef.unary main_call6.v12 main_call6.v14 (broadcastInDim S8x2097152 ![1] bcast_S2097152_S8x2097152_1),
    StableHlo.TRef.nullary main_call6.cst (constant S_ .f32 0x7FC00000#32),
    StableHlo.TRef.unary main_call6.cst main_call6.v15 (broadcastInDim S8x2097152 ![] bcast_S_S8x2097152),
    StableHlo.TRef.ternary main_call6.v14 main_call6.v13 main_call6.v15 main_call6.v16 select,
    StableHlo.unary main_v41 main_v52 (broadcastInDim S1x2097152 ![1] bcast_S2097152_S1x2097152_1 : (⟨S2097152, .f32⟩ : BufTy).Contents (Elt F) → (⟨S1x2097152, .f32⟩ : BufTy).Contents (Elt F)),
    StableHlo.unary main_v52 main_v53 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v53 main_v51 main_v54 (mulf : (⟨S8x2097152, .f32⟩ : BufTy).Contents (Elt F) → (⟨S8x2097152, .f32⟩ : BufTy).Contents (Elt F) → (⟨S8x2097152, .f32⟩ : BufTy).Contents (Elt F)),
    StableHlo.binary main_v17 main_v54 main_v55 (addf : (⟨S8x2097152, .f32⟩ : BufTy).Contents (Elt F) → (⟨S8x2097152, .f32⟩ : BufTy).Contents (Elt F) → (⟨S8x2097152, .f32⟩ : BufTy).Contents (Elt F)),
    StableHlo.binary main_v18 main_v41 main_v56 (addf : (⟨S2097152, .f32⟩ : BufTy).Contents (Elt F) → (⟨S2097152, .f32⟩ : BufTy).Contents (Elt F) → (⟨S2097152, .f32⟩ : BufTy).Contents (Elt F)) ]

/-- Statements 80 … 120 of @main: 56 operations. -/
abbrev k1a : List (HloOp τ sig (Elt F)) :=
  [ StableHlo.nullary main_cst_20 (constant S_ .f32 0x3F800000#32),
    StableHlo.unary main_cst_20 main_v57 (broadcastInDim S2097152 ![] bcast_S_S2097152 : (⟨S_, .f32⟩ : BufTy).Contents (Elt F) → (⟨S2097152, .f32⟩ : BufTy).Contents (Elt F)),
    StableHlo.binary main_v14 main_v57 main_v58 (addf : (⟨S2097152, .f32⟩ : BufTy).Contents (Elt F) → (⟨S2097152, .f32⟩ : BufTy).Contents (Elt F) → (⟨S2097152, .f32⟩ : BufTy).Contents (Elt F)),
    StableHlo.nullary main_cst_21 (constant S_ .f32 0x00000000#32),
    StableHlo.nullary main_c_22 (constantI S_ 32 127#32),
    StableHlo.TRef.unary (.of main_cst_21 : StableHlo.TRef sig ⟨S_, .f32⟩) main_call7.v0 id,
    StableHlo.TRef.unary main_call7.v0 main_call7.v1 (broadcastInDim S2097152 ![] bcast_S_S2097152),
    StableHlo.TRef.binary main_call7.v1 (.of main_v58 : StableHlo.TRef sig ⟨S2097152, .f32⟩) main_call7.v2 maximumf,
    StableHlo.TRef.unary (.of main_c_22 : StableHlo.TRef sig ⟨S_, .i32⟩) main_call7.v3 (sitofp .f32),
    StableHlo.TRef.unary main_call7.v3 main_call7.v4 (broadcastInDim S2097152 ![] bcast_S_S2097152),
    StableHlo.TRef.binary main_call7.v4 main_call7.v2 main_call7.v5 minimumf,
    StableHlo.nullary main_cst_23 (constant S_ .f32 0x00000000#32),
    StableHlo.unary main_cst_23 main_v60 (broadcastInDim S2097152 ![] bcast_S_S2097152 : (⟨S_, .f32⟩ : BufTy).Contents (Elt F) → (⟨S2097152, .f32⟩ : BufTy).Contents (Elt F)),
    StableHlo.binary main_v15 main_v60 main_v61 (addf : (⟨S2097152, .f32⟩ : BufTy).Contents (Elt F) → (⟨S2097152, .f32⟩ : BufTy).Contents (Elt F) → (⟨S2097152, .f32⟩ : BufTy).Contents (Elt F)),
    StableHlo.nullary main_cst_24 (constant S_ .f32 0x00000000#32),
    StableHlo.nullary main_c_25 (constantI S_ 32 127#32),
    StableHlo.TRef.unary (.of main_cst_24 : StableHlo.TRef sig ⟨S_, .f32⟩) main_call8.v0 id,
    StableHlo.TRef.unary main_call8.v0 main_call8.v1 (broadcastInDim S2097152 ![] bcast_S_S2097152),
    StableHlo.TRef.binary main_call8.v1 (.of main_v61 : StableHlo.TRef sig ⟨S2097152, .f32⟩) main_call8.v2 maximumf,
    StableHlo.TRef.unary (.of main_c_25 : StableHlo.TRef sig ⟨S_, .i32⟩) main_call8.v3 (sitofp .f32),
    StableHlo.TRef.unary main_call8.v3 main_call8.v4 (broadcastInDim S2097152 ![] bcast_S_S2097152),
    StableHlo.TRef.binary main_call8.v4 main_call8.v2 main_call8.v5 minimumf,
    StableHlo.nullary main_cst_26 (constant S_ .f32 0x00000000#32),
    StableHlo.unary main_cst_26 main_v63 (broadcastInDim S2097152 ![] bcast_S_S2097152 : (⟨S_, .f32⟩ : BufTy).Contents (Elt F) → (⟨S2097152, .f32⟩ : BufTy).Contents (Elt F)),
    StableHlo.binary main_v16 main_v63 main_v64 (addf : (⟨S2097152, .f32⟩ : BufTy).Contents (Elt F) → (⟨S2097152, .f32⟩ : BufTy).Contents (Elt F) → (⟨S2097152, .f32⟩ : BufTy).Contents (Elt F)),
    StableHlo.nullary main_cst_27 (constant S_ .f32 0x00000000#32),
    StableHlo.nullary main_c_28 (constantI S_ 32 127#32),
    StableHlo.TRef.unary (.of main_cst_27 : StableHlo.TRef sig ⟨S_, .f32⟩) main_call9.v0 id,
    StableHlo.TRef.unary main_call9.v0 main_call9.v1 (broadcastInDim S2097152 ![] bcast_S_S2097152),
    StableHlo.TRef.binary main_call9.v1 (.of main_v64 : StableHlo.TRef sig ⟨S2097152, .f32⟩) main_call9.v2 maximumf,
    StableHlo.TRef.unary (.of main_c_28 : StableHlo.TRef sig ⟨S_, .i32⟩) main_call9.v3 (sitofp .f32),
    StableHlo.TRef.unary main_call9.v3 main_call9.v4 (broadcastInDim S2097152 ![] bcast_S_S2097152),
    StableHlo.TRef.binary main_call9.v4 main_call9.v2 main_call9.v5 minimumf,
    StableHlo.binary main_v11 main_v59 main_v66 (subf : (⟨S2097152, .f32⟩ : BufTy).Contents (Elt F) → (⟨S2097152, .f32⟩ : BufTy).Contents (Elt F) → (⟨S2097152, .f32⟩ : BufTy).Contents (Elt F)),
    StableHlo.unary main_v66 main_v67 (Host.absf : (⟨S2097152, .f32⟩ : BufTy).Contents (Elt F) → (⟨S2097152, .f32⟩ : BufTy).Contents (Elt F)),
    StableHlo.nullary main_cst_29 (constant S_ .f32 0x3F800000#32),
    StableHlo.unary main_cst_29 main_v68 (broadcastInDim S2097152 ![] bcast_S_S2097152 : (⟨S_, .f32⟩ : BufTy).Contents (Elt F) → (⟨S2097152, .f32⟩ : BufTy).Contents (Elt F)),
    StableHlo.binary main_v68 main_v67 main_v69 (subf : (⟨S2097152, .f32⟩ : BufTy).Contents (Elt F) → (⟨S2097152, .f32⟩ : BufTy).Contents (Elt F) → (⟨S2097152, .f32⟩ : BufTy).Contents (Elt F)),
    StableHlo.binary main_v12 main_v62 main_v70 (subf : (⟨S2097152, .f32⟩ : BufTy).Contents (Elt F) → (⟨S2097152, .f32⟩ : BufTy).Contents (Elt F) → (⟨S2097152, .f32⟩ : BufTy).Contents (Elt F)),
    StableHlo.unary main_v70 main_v71 (Host.absf : (⟨S2097152, .f32⟩ : BufTy).Contents (Elt F) → (⟨S2097152, .f32⟩ : BufTy).Contents (Elt F)),
    StableHlo.nullary main_cst_30 (constant S_ .f32 0x3F800000#32),
    StableHlo.unary main_cst_30 main_v72 (broadcastInDim S2097152 ![] bcast_S_S2097152 : (⟨S_, .f32⟩ : BufTy).Contents (Elt F) → (⟨S2097152, .f32⟩ : BufTy).Contents (Elt F)),
    StableHlo.binary main_v72 main_v71 main_v73 (subf : (⟨S2097152, .f32⟩ : BufTy).Contents (Elt F) → (⟨S2097152, .f32⟩ : BufTy).Contents (Elt F) → (⟨S2097152, .f32⟩ : BufTy).Contents (Elt F)),
    StableHlo.binary main_v69 main_v73 main_v74 (mulf : (⟨S2097152, .f32⟩ : BufTy).Contents (Elt F) → (⟨S2097152, .f32⟩ : BufTy).Contents (Elt F) → (⟨S2097152, .f32⟩ : BufTy).Contents (Elt F)),
    StableHlo.binary main_v13 main_v65 main_v75 (subf : (⟨S2097152, .f32⟩ : BufTy).Contents (Elt F) → (⟨S2097152, .f32⟩ : BufTy).Contents (Elt F) → (⟨S2097152, .f32⟩ : BufTy).Contents (Elt F)),
    StableHlo.unary main_v75 main_v76 (Host.absf : (⟨S2097152, .f32⟩ : BufTy).Contents (Elt F) → (⟨S2097152, .f32⟩ : BufTy).Contents (Elt F)),
    StableHlo.nullary main_cst_31 (constant S_ .f32 0x3F800000#32),
    StableHlo.unary main_cst_31 main_v77 (broadcastInDim S2097152 ![] bcast_S_S2097152 : (⟨S_, .f32⟩ : BufTy).Contents (Elt F) → (⟨S2097152, .f32⟩ : BufTy).Contents (Elt F)),
    StableHlo.binary main_v77 main_v76 main_v78 (subf : (⟨S2097152, .f32⟩ : BufTy).Contents (Elt F) → (⟨S2097152, .f32⟩ : BufTy).Contents (Elt F) → (⟨S2097152, .f32⟩ : BufTy).Contents (Elt F)),
    StableHlo.binary main_v74 main_v78 main_v79 (mulf : (⟨S2097152, .f32⟩ : BufTy).Contents (Elt F) → (⟨S2097152, .f32⟩ : BufTy).Contents (Elt F) → (⟨S2097152, .f32⟩ : BufTy).Contents (Elt F)),
    StableHlo.unary main_v59 main_v80 (fptosi 32 : (⟨S2097152, .f32⟩ : BufTy).Contents (Elt F) → (⟨S2097152, .i32⟩ : BufTy).Contents (Elt F)),
    StableHlo.nullary main_c_32 (constantI S_ 32 16384#32),
    StableHlo.unary main_c_32 main_v81 (broadcastInDim S2097152 ![] bcast_S_S2097152 : (⟨S_, .i32⟩ : BufTy).Contents (Elt F) → (⟨S2097152, .i32⟩ : BufTy).Contents (Elt F)),
    StableHlo.binary main_v80 main_v81 main_v82 (muli : (⟨S2097152, .i32⟩ : BufTy).Contents (Elt F) → (⟨S2097152, .i32⟩ : BufTy).Contents (Elt F) → (⟨S2097152, .i32⟩ : BufTy).Contents (Elt F)),
    StableHlo.unary main_v62 main_v83 (fptosi 32 : (⟨S2097152, .f32⟩ : BufTy).Contents (Elt F) → (⟨S2097152, .i32⟩ : BufTy).Contents (Elt F)),
    StableHlo.nullary main_c_33 (constantI S_ 32 128#32) ]

/-- Statements 121 … 131 of @main: 33 operations. -/
abbrev k1b : List (HloOp τ sig (Elt F)) :=
  [ StableHlo.unary main_c_33 main_v84 (broadcastInDim S2097152 ![] bcast_S_S2097152 : (⟨S_, .i32⟩ : BufTy).Contents (Elt F) → (⟨S2097152, .i32⟩ : BufTy).Contents (Elt F)),
    StableHlo.binary main_v83 main_v84 main_v85 (muli : (⟨S2097152, .i32⟩ : BufTy).Contents (Elt F) → (⟨S2097152, .i32⟩ : BufTy).Contents (Elt F) → (⟨S2097152, .i32⟩ : BufTy).Contents (Elt F)),
    StableHlo.binary main_v82 main_v85 main_v86 (addi : (⟨S2097152, .i32⟩ : BufTy).Contents (Elt F) → (⟨S2097152, .i32⟩ : BufTy).Contents (Elt F) → (⟨S2097152, .i32⟩ : BufTy).Contents (Elt F)),
    StableHlo.unary main_v65 main_v87 (fptosi 32 : (⟨S2097152, .f32⟩ : BufTy).Contents (Elt F) → (⟨S2097152, .i32⟩ : BufTy).Contents (Elt F)),
    StableHlo.binary main_v86 main_v87 main_v88 (addi : (⟨S2097152, .i32⟩ : BufTy).Contents (Elt F) → (⟨S2097152, .i32⟩ : BufTy).Contents (Elt F) → (⟨S2097152, .i32⟩ : BufTy).Contents (Elt F)),
    StableHlo.TRef.nullary main_call10.c (constantI S_ 32 0#32),
    StableHlo.TRef.unary main_call10.c main_call10.v0 (broadcastInDim S2097152 ![] bcast_S_S2097152),
    StableHlo.TRef.binary (.of main_v88 : StableHlo.TRef sig ⟨S2097152, .i32⟩) main_call10.v0 main_call10.v1 (cmpi .slt),
    StableHlo.TRef.nullary main_call10.c_0 (constantI S_ 32 2097152#32),
    StableHlo.TRef.unary main_call10.c_0 main_call10.v2 (broadcastInDim S2097152 ![] bcast_S_S2097152),
    StableHlo.TRef.binary (.of main_v88 : StableHlo.TRef sig ⟨S2097152, .i32⟩) main_call10.v2 main_call10.v3 addi,
    StableHlo.TRef.ternary main_call10.v1 main_call10.v3 (.of main_v88 : StableHlo.TRef sig ⟨S2097152, .i32⟩) main_call10.call0.v0 select,
    StableHlo.TRef.unary main_call10.call0.v0 main_call10.v5 (broadcastInDim S2097152x1 ![0] bcast_S2097152_S2097152x1_0),
    StableHlo.TRef.nullary main_call10.c_1 (constantI S1 32 2097151#32),
    StableHlo.TRef.nullary main_call10.c_2 (constantI S_ 32 0#32),
    StableHlo.TRef.unary main_call10.c_2 main_call10.v6 (broadcastInDim S2097152x1 ![] bcast_S_S2097152x1),
    StableHlo.TRef.binary main_call10.v5 main_call10.v6 main_call10.v7 (cmpi .sge),
    StableHlo.TRef.unary main_call10.c_1 main_call10.v8 (broadcastInDim S1x1 ![1] bcast_S1_S1x1_1),
    StableHlo.TRef.unary main_call10.v8 main_call10.v9 (broadcastInDim S2097152x1 ![0, 1] bcast_S1x1_S2097152x1_0_1),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S2097152x1_S2097152_d1 h_S_),
    StableHlo.TRef.binary (.of main_v4 : StableHlo.TRef sig ⟨S8x2097152, .f32⟩) main_call10.v5 main_call10.v13 (fun x i => Host.gather gather_S8x2097152_S2097152x1_S8x2097152_0_1_n_n_1_1_81 x i),
    StableHlo.TRef.unary main_call10.v12 main_call10.v14 (broadcastInDim S8x2097152 ![1] bcast_S2097152_S8x2097152_1),
    StableHlo.TRef.nullary main_call10.cst (constant S_ .f32 0x7FC00000#32),
    StableHlo.TRef.unary main_call10.cst main_call10.v15 (broadcastInDim S8x2097152 ![] bcast_S_S8x2097152),
    StableHlo.TRef.ternary main_call10.v14 main_call10.v13 main_call10.v15 main_call10.v16 select,
    StableHlo.unary main_v79 main_v90 (broadcastInDim S1x2097152 ![1] bcast_S2097152_S1x2097152_1 : (⟨S2097152, .f32⟩ : BufTy).Contents (Elt F) → (⟨S1x2097152, .f32⟩ : BufTy).Contents (Elt F)),
    StableHlo.unary main_v90 main_v91 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v91 main_v89 main_v92 (mulf : (⟨S8x2097152, .f32⟩ : BufTy).Contents (Elt F) → (⟨S8x2097152, .f32⟩ : BufTy).Contents (Elt F) → (⟨S8x2097152, .f32⟩ : BufTy).Contents (Elt F)),
    StableHlo.binary main_v55 main_v92 main_v93 (addf : (⟨S8x2097152, .f32⟩ : BufTy).Contents (Elt F) → (⟨S8x2097152, .f32⟩ : BufTy).Contents (Elt F) → (⟨S8x2097152, .f32⟩ : BufTy).Contents (Elt F)),
    StableHlo.binary main_v56 main_v79 main_v94 (addf : (⟨S2097152, .f32⟩ : BufTy).Contents (Elt F) → (⟨S2097152, .f32⟩ : BufTy).Contents (Elt F) → (⟨S2097152, .f32⟩ : BufTy).Contents (Elt F)) ]

/-- Statements 132 … 180 of @main: 86 operations. -/
abbrev k2a : List (HloOp τ sig (Elt F)) :=
  [ StableHlo.nullary main_cst_34 (constant S_ .f32 0x00000000#32),
    StableHlo.unary main_cst_34 main_v95 (broadcastInDim S2097152 ![] bcast_S_S2097152 : (⟨S_, .f32⟩ : BufTy).Contents (Elt F) → (⟨S2097152, .f32⟩ : BufTy).Contents (Elt F)),
    StableHlo.binary main_v14 main_v95 main_v96 (addf : (⟨S2097152, .f32⟩ : BufTy).Contents (Elt F) → (⟨S2097152, .f32⟩ : BufTy).Contents (Elt F) → (⟨S2097152, .f32⟩ : BufTy).Contents (Elt F)),
    StableHlo.nullary main_cst_35 (constant S_ .f32 0x00000000#32),
    StableHlo.nullary main_c_36 (constantI S_ 32 127#32),
    StableHlo.TRef.unary (.of main_cst_35 : StableHlo.TRef sig ⟨S_, .f32⟩) main_call11.v0 id,
    StableHlo.TRef.unary main_call11.v0 main_call11.v1 (broadcastInDim S2097152 ![] bcast_S_S2097152),
    StableHlo.TRef.binary main_call11.v1 (.of main_v96 : StableHlo.TRef sig ⟨S2097152, .f32⟩) main_call11.v2 maximumf,
    StableHlo.TRef.unary (.of main_c_36 : StableHlo.TRef sig ⟨S_, .i32⟩) main_call11.v3 (sitofp .f32),
    StableHlo.TRef.unary main_call11.v3 main_call11.v4 (broadcastInDim S2097152 ![] bcast_S_S2097152),
    StableHlo.TRef.binary main_call11.v4 main_call11.v2 main_call11.v5 minimumf,
    StableHlo.nullary main_cst_37 (constant S_ .f32 0x3F800000#32),
    StableHlo.unary main_cst_37 main_v98 (broadcastInDim S2097152 ![] bcast_S_S2097152 : (⟨S_, .f32⟩ : BufTy).Contents (Elt F) → (⟨S2097152, .f32⟩ : BufTy).Contents (Elt F)),
    StableHlo.binary main_v15 main_v98 main_v99 (addf : (⟨S2097152, .f32⟩ : BufTy).Contents (Elt F) → (⟨S2097152, .f32⟩ : BufTy).Contents (Elt F) → (⟨S2097152, .f32⟩ : BufTy).Contents (Elt F)),
    StableHlo.nullary main_cst_38 (constant S_ .f32 0x00000000#32),
    StableHlo.nullary main_c_39 (constantI S_ 32 127#32),
    StableHlo.TRef.unary (.of main_cst_38 : StableHlo.TRef sig ⟨S_, .f32⟩) main_call12.v0 id,
    StableHlo.TRef.unary main_call12.v0 main_call12.v1 (broadcastInDim S2097152 ![] bcast_S_S2097152),
    StableHlo.TRef.binary main_call12.v1 (.of main_v99 : StableHlo.TRef sig ⟨S2097152, .f32⟩) main_call12.v2 maximumf,
    StableHlo.TRef.unary (.of main_c_39 : StableHlo.TRef sig ⟨S_, .i32⟩) main_call12.v3 (sitofp .f32),
    StableHlo.TRef.unary main_call12.v3 main_call12.v4 (broadcastInDim S2097152 ![] bcast_S_S2097152),
    StableHlo.TRef.binary main_call12.v4 main_call12.v2 main_call12.v5 minimumf,
    StableHlo.nullary main_cst_40 (constant S_ .f32 0x00000000#32),
    StableHlo.unary main_cst_40 main_v101 (broadcastInDim S2097152 ![] bcast_S_S2097152 : (⟨S_, .f32⟩ : BufTy).Contents (Elt F) → (⟨S2097152, .f32⟩ : BufTy).Contents (Elt F)),
    StableHlo.binary main_v16 main_v101 main_v102 (addf : (⟨S2097152, .f32⟩ : BufTy).Contents (Elt F) → (⟨S2097152, .f32⟩ : BufTy).Contents (Elt F) → (⟨S2097152, .f32⟩ : BufTy).Contents (Elt F)),
    StableHlo.nullary main_cst_41 (constant S_ .f32 0x00000000#32),
    StableHlo.nullary main_c_42 (constantI S_ 32 127#32),
    StableHlo.TRef.unary (.of main_cst_41 : StableHlo.TRef sig ⟨S_, .f32⟩) main_call13.v0 id,
    StableHlo.TRef.unary main_call13.v0 main_call13.v1 (broadcastInDim S2097152 ![] bcast_S_S2097152),
    StableHlo.TRef.binary main_call13.v1 (.of main_v102 : StableHlo.TRef sig ⟨S2097152, .f32⟩) main_call13.v2 maximumf,
    StableHlo.TRef.unary (.of main_c_42 : StableHlo.TRef sig ⟨S_, .i32⟩) main_call13.v3 (sitofp .f32),
    StableHlo.TRef.unary main_call13.v3 main_call13.v4 (broadcastInDim S2097152 ![] bcast_S_S2097152),
    StableHlo.TRef.binary main_call13.v4 main_call13.v2 main_call13.v5 minimumf,
    StableHlo.binary main_v11 main_v97 main_v104 (subf : (⟨S2097152, .f32⟩ : BufTy).Contents (Elt F) → (⟨S2097152, .f32⟩ : BufTy).Contents (Elt F) → (⟨S2097152, .f32⟩ : BufTy).Contents (Elt F)),
    StableHlo.unary main_v104 main_v105 (Host.absf : (⟨S2097152, .f32⟩ : BufTy).Contents (Elt F) → (⟨S2097152, .f32⟩ : BufTy).Contents (Elt F)),
    StableHlo.nullary main_cst_43 (constant S_ .f32 0x3F800000#32),
    StableHlo.unary main_cst_43 main_v106 (broadcastInDim S2097152 ![] bcast_S_S2097152 : (⟨S_, .f32⟩ : BufTy).Contents (Elt F) → (⟨S2097152, .f32⟩ : BufTy).Contents (Elt F)),
    StableHlo.binary main_v106 main_v105 main_v107 (subf : (⟨S2097152, .f32⟩ : BufTy).Contents (Elt F) → (⟨S2097152, .f32⟩ : BufTy).Contents (Elt F) → (⟨S2097152, .f32⟩ : BufTy).Contents (Elt F)),
    StableHlo.binary main_v12 main_v100 main_v108 (subf : (⟨S2097152, .f32⟩ : BufTy).Contents (Elt F) → (⟨S2097152, .f32⟩ : BufTy).Contents (Elt F) → (⟨S2097152, .f32⟩ : BufTy).Contents (Elt F)),
    StableHlo.unary main_v108 main_v109 (Host.absf : (⟨S2097152, .f32⟩ : BufTy).Contents (Elt F) → (⟨S2097152, .f32⟩ : BufTy).Contents (Elt F)),
    StableHlo.nullary main_cst_44 (constant S_ .f32 0x3F800000#32),
    StableHlo.unary main_cst_44 main_v110 (broadcastInDim S2097152 ![] bcast_S_S2097152 : (⟨S_, .f32⟩ : BufTy).Contents (Elt F) → (⟨S2097152, .f32⟩ : BufTy).Contents (Elt F)),
    StableHlo.binary main_v110 main_v109 main_v111 (subf : (⟨S2097152, .f32⟩ : BufTy).Contents (Elt F) → (⟨S2097152, .f32⟩ : BufTy).Contents (Elt F) → (⟨S2097152, .f32⟩ : BufTy).Contents (Elt F)),
    StableHlo.binary main_v107 main_v111 main_v112 (mulf : (⟨S2097152, .f32⟩ : BufTy).Contents (Elt F) → (⟨S2097152, .f32⟩ : BufTy).Contents (Elt F) → (⟨S2097152, .f32⟩ : BufTy).Contents (Elt F)),
    StableHlo.binary main_v13 main_v103 main_v113 (subf : (⟨S2097152, .f32⟩ : BufTy).Contents (Elt F) → (⟨S2097152, .f32⟩ : BufTy).Contents (Elt F) → (⟨S2097152, .f32⟩ : BufTy).Contents (Elt F)),
    StableHlo.unary main_v113 main_v114 (Host.absf : (⟨S2097152, .f32⟩ : BufTy).Contents (Elt F) → (⟨S2097152, .f32⟩ : BufTy).Contents (Elt F)),
    StableHlo.nullary main_cst_45 (constant S_ .f32 0x3F800000#32),
    StableHlo.unary main_cst_45 main_v115 (broadcastInDim S2097152 ![] bcast_S_S2097152 : (⟨S_, .f32⟩ : BufTy).Contents (Elt F) → (⟨S2097152, .f32⟩ : BufTy).Contents (Elt F)),
    StableHlo.binary main_v115 main_v114 main_v116 (subf : (⟨S2097152, .f32⟩ : BufTy).Contents (Elt F) → (⟨S2097152, .f32⟩ : BufTy).Contents (Elt F) → (⟨S2097152, .f32⟩ : BufTy).Contents (Elt F)),
    StableHlo.binary main_v112 main_v116 main_v117 (mulf : (⟨S2097152, .f32⟩ : BufTy).Contents (Elt F) → (⟨S2097152, .f32⟩ : BufTy).Contents (Elt F) → (⟨S2097152, .f32⟩ : BufTy).Contents (Elt F)),
    StableHlo.unary main_v97 main_v118 (fptosi 32 : (⟨S2097152, .f32⟩ : BufTy).Contents (Elt F) → (⟨S2097152, .i32⟩ : BufTy).Contents (Elt F)),
    StableHlo.nullary main_c_46 (constantI S_ 32 16384#32),
    StableHlo.unary main_c_46 main_v119 (broadcastInDim S2097152 ![] bcast_S_S2097152 : (⟨S_, .i32⟩ : BufTy).Contents (Elt F) → (⟨S2097152, .i32⟩ : BufTy).Contents (Elt F)),
    StableHlo.binary main_v118 main_v119 main_v120 (muli : (⟨S2097152, .i32⟩ : BufTy).Contents (Elt F) → (⟨S2097152, .i32⟩ : BufTy).Contents (Elt F) → (⟨S2097152, .i32⟩ : BufTy).Contents (Elt F)),
    StableHlo.unary main_v100 main_v121 (fptosi 32 : (⟨S2097152, .f32⟩ : BufTy).Contents (Elt F) → (⟨S2097152, .i32⟩ : BufTy).Contents (Elt F)),
    StableHlo.nullary main_c_47 (constantI S_ 32 128#32),
    StableHlo.unary main_c_47 main_v122 (broadcastInDim S2097152 ![] bcast_S_S2097152 : (⟨S_, .i32⟩ : BufTy).Contents (Elt F) → (⟨S2097152, .i32⟩ : BufTy).Contents (Elt F)),
    StableHlo.binary main_v121 main_v122 main_v123 (muli : (⟨S2097152, .i32⟩ : BufTy).Contents (Elt F) → (⟨S2097152, .i32⟩ : BufTy).Contents (Elt F) → (⟨S2097152, .i32⟩ : BufTy).Contents (Elt F)),
    StableHlo.binary main_v120 main_v123 main_v124 (addi : (⟨S2097152, .i32⟩ : BufTy).Contents (Elt F) → (⟨S2097152, .i32⟩ : BufTy).Contents (Elt F) → (⟨S2097152, .i32⟩ : BufTy).Contents (Elt F)),
    StableHlo.unary main_v103 main_v125 (fptosi 32 : (⟨S2097152, .f32⟩ : BufTy).Contents (Elt F) → (⟨S2097152, .i32⟩ : BufTy).Contents (Elt F)),
    StableHlo.binary main_v124 main_v125 main_v126 (addi : (⟨S2097152, .i32⟩ : BufTy).Contents (Elt F) → (⟨S2097152, .i32⟩ : BufTy).Contents (Elt F) → (⟨S2097152, .i32⟩ : BufTy).Contents (Elt F)),
    StableHlo.TRef.nullary main_call14.c (constantI S_ 32 0#32),
    StableHlo.TRef.unary main_call14.c main_call14.v0 (broadcastInDim S2097152 ![] bcast_S_S2097152),
    StableHlo.TRef.binary (.of main_v126 : StableHlo.TRef sig ⟨S2097152, .i32⟩) main_call14.v0 main_call14.v1 (cmpi .slt),
    StableHlo.TRef.nullary main_call14.c_0 (constantI S_ 32 2097152#32),
    StableHlo.TRef.unary main_call14.c_0 main_call14.v2 (broadcastInDim S2097152 ![] bcast_S_S2097152),
    StableHlo.TRef.binary (.of main_v126 : StableHlo.TRef sig ⟨S2097152, .i32⟩) main_call14.v2 main_call14.v3 addi,
    StableHlo.TRef.ternary main_call14.v1 main_call14.v3 (.of main_v126 : StableHlo.TRef sig ⟨S2097152, .i32⟩) main_call14.call0.v0 select,
    StableHlo.TRef.unary main_call14.call0.v0 main_call14.v5 (broadcastInDim S2097152x1 ![0] bcast_S2097152_S2097152x1_0),
    StableHlo.TRef.nullary main_call14.c_1 (constantI S1 32 2097151#32),
    StableHlo.TRef.nullary main_call14.c_2 (constantI S_ 32 0#32),
    StableHlo.TRef.unary main_call14.c_2 main_call14.v6 (broadcastInDim S2097152x1 ![] bcast_S_S2097152x1),
    StableHlo.TRef.binary main_call14.v5 main_call14.v6 main_call14.v7 (cmpi .sge),
    StableHlo.TRef.unary main_call14.c_1 main_call14.v8 (broadcastInDim S1x1 ![1] bcast_S1_S1x1_1),
    StableHlo.TRef.unary main_call14.v8 main_call14.v9 (broadcastInDim S2097152x1 ![0, 1] bcast_S1x1_S2097152x1_0_1),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S2097152x1_S2097152_d1 h_S_),
    StableHlo.TRef.binary (.of main_v4 : StableHlo.TRef sig ⟨S8x2097152, .f32⟩) main_call14.v5 main_call14.v13 (fun x i => Host.gather gather_S8x2097152_S2097152x1_S8x2097152_0_1_n_n_1_1_81 x i),
    StableHlo.TRef.unary main_call14.v12 main_call14.v14 (broadcastInDim S8x2097152 ![1] bcast_S2097152_S8x2097152_1),
    StableHlo.TRef.nullary main_call14.cst (constant S_ .f32 0x7FC00000#32),
    StableHlo.TRef.unary main_call14.cst main_call14.v15 (broadcastInDim S8x2097152 ![] bcast_S_S8x2097152),
    StableHlo.TRef.ternary main_call14.v14 main_call14.v13 main_call14.v15 main_call14.v16 select,
    StableHlo.unary main_v117 main_v128 (broadcastInDim S1x2097152 ![1] bcast_S2097152_S1x2097152_1 : (⟨S2097152, .f32⟩ : BufTy).Contents (Elt F) → (⟨S1x2097152, .f32⟩ : BufTy).Contents (Elt F)),
    StableHlo.unary main_v128 main_v129 (broadcastInDim S8x2097152 ![0, 1] bcast_S1x2097152_S8x2097152_0_1 : (⟨S1x2097152, .f32⟩ : BufTy).Contents (Elt F) → (⟨S8x2097152, .f32⟩ : BufTy).Contents (Elt F)) ]

/-- Statements 181 … 183 of @main: 3 operations. -/
abbrev k2b : List (HloOp τ sig (Elt F)) :=
  [ StableHlo.binary main_v129 main_v127 main_v130 (mulf : (⟨S8x2097152, .f32⟩ : BufTy).Contents (Elt F) → (⟨S8x2097152, .f32⟩ : BufTy).Contents (Elt F) → (⟨S8x2097152, .f32⟩ : BufTy).Contents (Elt F)),
    StableHlo.binary main_v93 main_v130 main_v131 (addf : (⟨S8x2097152, .f32⟩ : BufTy).Contents (Elt F) → (⟨S8x2097152, .f32⟩ : BufTy).Contents (Elt F) → (⟨S8x2097152, .f32⟩ : BufTy).Contents (Elt F)),
    StableHlo.binary main_v94 main_v117 main_v132 (addf : (⟨S2097152, .f32⟩ : BufTy).Contents (Elt F) → (⟨S2097152, .f32⟩ : BufTy).Contents (Elt F) → (⟨S2097152, .f32⟩ : BufTy).Contents (Elt F)) ]

/-- Statements 184 … 235 of @main: 89 operations. -/
abbrev k3a : List (HloOp τ sig (Elt F)) :=
  [ StableHlo.nullary main_cst_48 (constant S_ .f32 0x3F800000#32),
    StableHlo.unary main_cst_48 main_v133 (broadcastInDim S2097152 ![] bcast_S_S2097152 : (⟨S_, .f32⟩ : BufTy).Contents (Elt F) → (⟨S2097152, .f32⟩ : BufTy).Contents (Elt F)),
    StableHlo.binary main_v14 main_v133 main_v134 (addf : (⟨S2097152, .f32⟩ : BufTy).Contents (Elt F) → (⟨S2097152, .f32⟩ : BufTy).Contents (Elt F) → (⟨S2097152, .f32⟩ : BufTy).Contents (Elt F)),
    StableHlo.nullary main_cst_49 (constant S_ .f32 0x00000000#32),
    StableHlo.nullary main_c_50 (constantI S_ 32 127#32),
    StableHlo.TRef.unary (.of main_cst_49 : StableHlo.TRef sig ⟨S_, .f32⟩) main_call15.v0 id,
    StableHlo.TRef.unary main_call15.v0 main_call15.v1 (broadcastInDim S2097152 ![] bcast_S_S2097152),
    StableHlo.TRef.binary main_call15.v1 (.of main_v134 : StableHlo.TRef sig ⟨S2097152, .f32⟩) main_call15.v2 maximumf,
    StableHlo.TRef.unary (.of main_c_50 : StableHlo.TRef sig ⟨S_, .i32⟩) main_call15.v3 (sitofp .f32),
    StableHlo.TRef.unary main_call15.v3 main_call15.v4 (broadcastInDim S2097152 ![] bcast_S_S2097152),
    StableHlo.TRef.binary main_call15.v4 main_call15.v2 main_call15.v5 minimumf,
    StableHlo.nullary main_cst_51 (constant S_ .f32 0x3F800000#32),
    StableHlo.unary main_cst_51 main_v136 (broadcastInDim S2097152 ![] bcast_S_S2097152 : (⟨S_, .f32⟩ : BufTy).Contents (Elt F) → (⟨S2097152, .f32⟩ : BufTy).Contents (Elt F)),
    StableHlo.binary main_v15 main_v136 main_v137 (addf : (⟨S2097152, .f32⟩ : BufTy).Contents (Elt F) → (⟨S2097152, .f32⟩ : BufTy).Contents (Elt F) → (⟨S2097152, .f32⟩ : BufTy).Contents (Elt F)),
    StableHlo.nullary main_cst_52 (constant S_ .f32 0x00000000#32),
    StableHlo.nullary main_c_53 (constantI S_ 32 127#32),
    StableHlo.TRef.unary (.of main_cst_52 : StableHlo.TRef sig ⟨S_, .f32⟩) main_call16.v0 id,
    StableHlo.TRef.unary main_call16.v0 main_call16.v1 (broadcastInDim S2097152 ![] bcast_S_S2097152),
    StableHlo.TRef.binary main_call16.v1 (.of main_v137 : StableHlo.TRef sig ⟨S2097152, .f32⟩) main_call16.v2 maximumf,
    StableHlo.TRef.unary (.of main_c_53 : StableHlo.TRef sig ⟨S_, .i32⟩) main_call16.v3 (sitofp .f32),
    StableHlo.TRef.unary main_call16.v3 main_call16.v4 (broadcastInDim S2097152 ![] bcast_S_S2097152),
    StableHlo.TRef.binary main_call16.v4 main_call16.v2 main_call16.v5 minimumf,
    StableHlo.nullary main_cst_54 (constant S_ .f32 0x00000000#32),
    StableHlo.unary main_cst_54 main_v139 (broadcastInDim S2097152 ![] bcast_S_S2097152 : (⟨S_, .f32⟩ : BufTy).Contents (Elt F) → (⟨S2097152, .f32⟩ : BufTy).Contents (Elt F)),
    StableHlo.binary main_v16 main_v139 main_v140 (addf : (⟨S2097152, .f32⟩ : BufTy).Contents (Elt F) → (⟨S2097152, .f32⟩ : BufTy).Contents (Elt F) → (⟨S2097152, .f32⟩ : BufTy).Contents (Elt F)),
    StableHlo.nullary main_cst_55 (constant S_ .f32 0x00000000#32),
    StableHlo.nullary main_c_56 (constantI S_ 32 127#32),
    StableHlo.TRef.unary (.of main_cst_55 : StableHlo.TRef sig ⟨S_, .f32⟩) main_call17.v0 id,
    StableHlo.TRef.unary main_call17.v0 main_call17.v1 (broadcastInDim S2097152 ![] bcast_S_S2097152),
    StableHlo.TRef.binary main_call17.v1 (.of main_v140 : StableHlo.TRef sig ⟨S2097152, .f32⟩) main_call17.v2 maximumf,
    StableHlo.TRef.unary (.of main_c_56 : StableHlo.TRef sig ⟨S_, .i32⟩) main_call17.v3 (sitofp .f32),
    StableHlo.TRef.unary main_call17.v3 main_call17.v4 (broadcastInDim S2097152 ![] bcast_S_S2097152),
    StableHlo.TRef.binary main_call17.v4 main_call17.v2 main_call17.v5 minimumf,
    StableHlo.binary main_v11 main_v135 main_v142 (subf : (⟨S2097152, .f32⟩ : BufTy).Contents (Elt F) → (⟨S2097152, .f32⟩ : BufTy).Contents (Elt F) → (⟨S2097152, .f32⟩ : BufTy).Contents (Elt F)),
    StableHlo.unary main_v142 main_v143 (Host.absf : (⟨S2097152, .f32⟩ : BufTy).Contents (Elt F) → (⟨S2097152, .f32⟩ : BufTy).Contents (Elt F)),
    StableHlo.nullary main_cst_57 (constant S_ .f32 0x3F800000#32),
    StableHlo.unary main_cst_57 main_v144 (broadcastInDim S2097152 ![] bcast_S_S2097152 : (⟨S_, .f32⟩ : BufTy).Contents (Elt F) → (⟨S2097152, .f32⟩ : BufTy).Contents (Elt F)),
    StableHlo.binary main_v144 main_v143 main_v145 (subf : (⟨S2097152, .f32⟩ : BufTy).Contents (Elt F) → (⟨S2097152, .f32⟩ : BufTy).Contents (Elt F) → (⟨S2097152, .f32⟩ : BufTy).Contents (Elt F)),
    StableHlo.binary main_v12 main_v138 main_v146 (subf : (⟨S2097152, .f32⟩ : BufTy).Contents (Elt F) → (⟨S2097152, .f32⟩ : BufTy).Contents (Elt F) → (⟨S2097152, .f32⟩ : BufTy).Contents (Elt F)),
    StableHlo.unary main_v146 main_v147 (Host.absf : (⟨S2097152, .f32⟩ : BufTy).Contents (Elt F) → (⟨S2097152, .f32⟩ : BufTy).Contents (Elt F)),
    StableHlo.nullary main_cst_58 (constant S_ .f32 0x3F800000#32),
    StableHlo.unary main_cst_58 main_v148 (broadcastInDim S2097152 ![] bcast_S_S2097152 : (⟨S_, .f32⟩ : BufTy).Contents (Elt F) → (⟨S2097152, .f32⟩ : BufTy).Contents (Elt F)),
    StableHlo.binary main_v148 main_v147 main_v149 (subf : (⟨S2097152, .f32⟩ : BufTy).Contents (Elt F) → (⟨S2097152, .f32⟩ : BufTy).Contents (Elt F) → (⟨S2097152, .f32⟩ : BufTy).Contents (Elt F)),
    StableHlo.binary main_v145 main_v149 main_v150 (mulf : (⟨S2097152, .f32⟩ : BufTy).Contents (Elt F) → (⟨S2097152, .f32⟩ : BufTy).Contents (Elt F) → (⟨S2097152, .f32⟩ : BufTy).Contents (Elt F)),
    StableHlo.binary main_v13 main_v141 main_v151 (subf : (⟨S2097152, .f32⟩ : BufTy).Contents (Elt F) → (⟨S2097152, .f32⟩ : BufTy).Contents (Elt F) → (⟨S2097152, .f32⟩ : BufTy).Contents (Elt F)),
    StableHlo.unary main_v151 main_v152 (Host.absf : (⟨S2097152, .f32⟩ : BufTy).Contents (Elt F) → (⟨S2097152, .f32⟩ : BufTy).Contents (Elt F)),
    StableHlo.nullary main_cst_59 (constant S_ .f32 0x3F800000#32),
    StableHlo.unary main_cst_59 main_v153 (broadcastInDim S2097152 ![] bcast_S_S2097152 : (⟨S_, .f32⟩ : BufTy).Contents (Elt F) → (⟨S2097152, .f32⟩ : BufTy).Contents (Elt F)),
    StableHlo.binary main_v153 main_v152 main_v154 (subf : (⟨S2097152, .f32⟩ : BufTy).Contents (Elt F) → (⟨S2097152, .f32⟩ : BufTy).Contents (Elt F) → (⟨S2097152, .f32⟩ : BufTy).Contents (Elt F)),
    StableHlo.binary main_v150 main_v154 main_v155 (mulf : (⟨S2097152, .f32⟩ : BufTy).Contents (Elt F) → (⟨S2097152, .f32⟩ : BufTy).Contents (Elt F) → (⟨S2097152, .f32⟩ : BufTy).Contents (Elt F)),
    StableHlo.unary main_v135 main_v156 (fptosi 32 : (⟨S2097152, .f32⟩ : BufTy).Contents (Elt F) → (⟨S2097152, .i32⟩ : BufTy).Contents (Elt F)),
    StableHlo.nullary main_c_60 (constantI S_ 32 16384#32),
    StableHlo.unary main_c_60 main_v157 (broadcastInDim S2097152 ![] bcast_S_S2097152 : (⟨S_, .i32⟩ : BufTy).Contents (Elt F) → (⟨S2097152, .i32⟩ : BufTy).Contents (Elt F)),
    StableHlo.binary main_v156 main_v157 main_v158 (muli : (⟨S2097152, .i32⟩ : BufTy).Contents (Elt F) → (⟨S2097152, .i32⟩ : BufTy).Contents (Elt F) → (⟨S2097152, .i32⟩ : BufTy).Contents (Elt F)),
    StableHlo.unary main_v138 main_v159 (fptosi 32 : (⟨S2097152, .f32⟩ : BufTy).Contents (Elt F) → (⟨S2097152, .i32⟩ : BufTy).Contents (Elt F)),
    StableHlo.nullary main_c_61 (constantI S_ 32 128#32),
    StableHlo.unary main_c_61 main_v160 (broadcastInDim S2097152 ![] bcast_S_S2097152 : (⟨S_, .i32⟩ : BufTy).Contents (Elt F) → (⟨S2097152, .i32⟩ : BufTy).Contents (Elt F)),
    StableHlo.binary main_v159 main_v160 main_v161 (muli : (⟨S2097152, .i32⟩ : BufTy).Contents (Elt F) → (⟨S2097152, .i32⟩ : BufTy).Contents (Elt F) → (⟨S2097152, .i32⟩ : BufTy).Contents (Elt F)),
    StableHlo.binary main_v158 main_v161 main_v162 (addi : (⟨S2097152, .i32⟩ : BufTy).Contents (Elt F) → (⟨S2097152, .i32⟩ : BufTy).Contents (Elt F) → (⟨S2097152, .i32⟩ : BufTy).Contents (Elt F)),
    StableHlo.unary main_v141 main_v163 (fptosi 32 : (⟨S2097152, .f32⟩ : BufTy).Contents (Elt F) → (⟨S2097152, .i32⟩ : BufTy).Contents (Elt F)),
    StableHlo.binary main_v162 main_v163 main_v164 (addi : (⟨S2097152, .i32⟩ : BufTy).Contents (Elt F) → (⟨S2097152, .i32⟩ : BufTy).Contents (Elt F) → (⟨S2097152, .i32⟩ : BufTy).Contents (Elt F)),
    StableHlo.TRef.nullary main_call18.c (constantI S_ 32 0#32),
    StableHlo.TRef.unary main_call18.c main_call18.v0 (broadcastInDim S2097152 ![] bcast_S_S2097152),
    StableHlo.TRef.binary (.of main_v164 : StableHlo.TRef sig ⟨S2097152, .i32⟩) main_call18.v0 main_call18.v1 (cmpi .slt),
    StableHlo.TRef.nullary main_call18.c_0 (constantI S_ 32 2097152#32),
    StableHlo.TRef.unary main_call18.c_0 main_call18.v2 (broadcastInDim S2097152 ![] bcast_S_S2097152),
    StableHlo.TRef.binary (.of main_v164 : StableHlo.TRef sig ⟨S2097152, .i32⟩) main_call18.v2 main_call18.v3 addi,
    StableHlo.TRef.ternary main_call18.v1 main_call18.v3 (.of main_v164 : StableHlo.TRef sig ⟨S2097152, .i32⟩) main_call18.call0.v0 select,
    StableHlo.TRef.unary main_call18.call0.v0 main_call18.v5 (broadcastInDim S2097152x1 ![0] bcast_S2097152_S2097152x1_0),
    StableHlo.TRef.nullary main_call18.c_1 (constantI S1 32 2097151#32),
    StableHlo.TRef.nullary main_call18.c_2 (constantI S_ 32 0#32),
    StableHlo.TRef.unary main_call18.c_2 main_call18.v6 (broadcastInDim S2097152x1 ![] bcast_S_S2097152x1),
    StableHlo.TRef.binary main_call18.v5 main_call18.v6 main_call18.v7 (cmpi .sge),
    StableHlo.TRef.unary main_call18.c_1 main_call18.v8 (broadcastInDim S1x1 ![1] bcast_S1_S1x1_1),
    StableHlo.TRef.unary main_call18.v8 main_call18.v9 (broadcastInDim S2097152x1 ![0, 1] bcast_S1x1_S2097152x1_0_1),
    StableHlo.TRef.binary main_call18.v5 main_call18.v9 main_call18.v10 (cmpi .sle),
    StableHlo.TRef.binary main_call18.v7 main_call18.v10 main_call18.v11 andi,
    StableHlo.TRef.nullary main_call18.c_3 (constantI S_ 1 1#1),
    StableHlo.TRef.binary main_call18.v11 main_call18.c_3 main_call18.v12 (fun x v => Host.reduce IntOp.andi x v reducesTo_S2097152x1_S2097152_d1 h_S_),
    StableHlo.TRef.binary (.of main_v4 : StableHlo.TRef sig ⟨S8x2097152, .f32⟩) main_call18.v5 main_call18.v13 (fun x i => Host.gather gather_S8x2097152_S2097152x1_S8x2097152_0_1_n_n_1_1_81 x i),
    StableHlo.TRef.unary main_call18.v12 main_call18.v14 (broadcastInDim S8x2097152 ![1] bcast_S2097152_S8x2097152_1),
    StableHlo.TRef.nullary main_call18.cst (constant S_ .f32 0x7FC00000#32),
    StableHlo.TRef.unary main_call18.cst main_call18.v15 (broadcastInDim S8x2097152 ![] bcast_S_S8x2097152),
    StableHlo.TRef.ternary main_call18.v14 main_call18.v13 main_call18.v15 main_call18.v16 select,
    StableHlo.unary main_v155 main_v166 (broadcastInDim S1x2097152 ![1] bcast_S2097152_S1x2097152_1 : (⟨S2097152, .f32⟩ : BufTy).Contents (Elt F) → (⟨S1x2097152, .f32⟩ : BufTy).Contents (Elt F)),
    StableHlo.unary main_v166 main_v167 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v167 main_v165 main_v168 (mulf : (⟨S8x2097152, .f32⟩ : BufTy).Contents (Elt F) → (⟨S8x2097152, .f32⟩ : BufTy).Contents (Elt F) → (⟨S8x2097152, .f32⟩ : BufTy).Contents (Elt F)),
    StableHlo.binary main_v131 main_v168 main_v169 (addf : (⟨S8x2097152, .f32⟩ : BufTy).Contents (Elt F) → (⟨S8x2097152, .f32⟩ : BufTy).Contents (Elt F) → (⟨S8x2097152, .f32⟩ : BufTy).Contents (Elt F)),
    StableHlo.binary main_v132 main_v155 main_v170 (addf : (⟨S2097152, .f32⟩ : BufTy).Contents (Elt F) → (⟨S2097152, .f32⟩ : BufTy).Contents (Elt F) → (⟨S2097152, .f32⟩ : BufTy).Contents (Elt F)) ]

/-- Statements 236 … 240 of @main: 5 operations. -/
abbrev k4a : List (HloOp τ sig (Elt F)) :=
  [ StableHlo.nullary main_cst_62 (constant S_ .f32 0x00000000#32),
    StableHlo.unary main_cst_62 main_v171 (broadcastInDim S2097152 ![] bcast_S_S2097152 : (⟨S_, .f32⟩ : BufTy).Contents (Elt F) → (⟨S2097152, .f32⟩ : BufTy).Contents (Elt F)),
    StableHlo.binary main_v14 main_v171 main_v172 (addf : (⟨S2097152, .f32⟩ : BufTy).Contents (Elt F) → (⟨S2097152, .f32⟩ : BufTy).Contents (Elt F) → (⟨S2097152, .f32⟩ : BufTy).Contents (Elt F)),
    StableHlo.nullary main_cst_63 (constant S_ .f32 0x00000000#32),
    StableHlo.nullary main_c_64 (constantI S_ 32 127#32) ]

/-- Statements 241 … 287 of @main: 84 operations. -/
abbrev k4b : List (HloOp τ sig (Elt F)) :=
  [ StableHlo.TRef.unary (.of main_cst_63 : StableHlo.TRef sig ⟨S_, .f32⟩) main_call19.v0 id,
    StableHlo.TRef.unary main_call19.v0 main_call19.v1 (broadcastInDim S2097152 ![] bcast_S_S2097152),
    StableHlo.TRef.binary main_call19.v1 (.of main_v172 : StableHlo.TRef sig ⟨S2097152, .f32⟩) main_call19.v2 maximumf,
    StableHlo.TRef.unary (.of main_c_64 : StableHlo.TRef sig ⟨S_, .i32⟩) main_call19.v3 (sitofp .f32),
    StableHlo.TRef.unary main_call19.v3 main_call19.v4 (broadcastInDim S2097152 ![] bcast_S_S2097152),
    StableHlo.TRef.binary main_call19.v4 main_call19.v2 main_call19.v5 minimumf,
    StableHlo.nullary main_cst_65 (constant S_ .f32 0x00000000#32),
    StableHlo.unary main_cst_65 main_v174 (broadcastInDim S2097152 ![] bcast_S_S2097152 : (⟨S_, .f32⟩ : BufTy).Contents (Elt F) → (⟨S2097152, .f32⟩ : BufTy).Contents (Elt F)),
    StableHlo.binary main_v15 main_v174 main_v175 (addf : (⟨S2097152, .f32⟩ : BufTy).Contents (Elt F) → (⟨S2097152, .f32⟩ : BufTy).Contents (Elt F) → (⟨S2097152, .f32⟩ : BufTy).Contents (Elt F)),
    StableHlo.nullary main_cst_66 (constant S_ .f32 0x00000000#32),
    StableHlo.nullary main_c_67 (constantI S_ 32 127#32),
    StableHlo.TRef.unary (.of main_cst_66 : StableHlo.TRef sig ⟨S_, .f32⟩) main_call20.v0 id,
    StableHlo.TRef.unary main_call20.v0 main_call20.v1 (broadcastInDim S2097152 ![] bcast_S_S2097152),
    StableHlo.TRef.binary main_call20.v1 (.of main_v175 : StableHlo.TRef sig ⟨S2097152, .f32⟩) main_call20.v2 maximumf,
    StableHlo.TRef.unary (.of main_c_67 : StableHlo.TRef sig ⟨S_, .i32⟩) main_call20.v3 (sitofp .f32),
    StableHlo.TRef.unary main_call20.v3 main_call20.v4 (broadcastInDim S2097152 ![] bcast_S_S2097152),
    StableHlo.TRef.binary main_call20.v4 main_call20.v2 main_call20.v5 minimumf,
    StableHlo.nullary main_cst_68 (constant S_ .f32 0x3F800000#32),
    StableHlo.unary main_cst_68 main_v177 (broadcastInDim S2097152 ![] bcast_S_S2097152 : (⟨S_, .f32⟩ : BufTy).Contents (Elt F) → (⟨S2097152, .f32⟩ : BufTy).Contents (Elt F)),
    StableHlo.binary main_v16 main_v177 main_v178 (addf : (⟨S2097152, .f32⟩ : BufTy).Contents (Elt F) → (⟨S2097152, .f32⟩ : BufTy).Contents (Elt F) → (⟨S2097152, .f32⟩ : BufTy).Contents (Elt F)),
    StableHlo.nullary main_cst_69 (constant S_ .f32 0x00000000#32),
    StableHlo.nullary main_c_70 (constantI S_ 32 127#32),
    StableHlo.TRef.unary (.of main_cst_69 : StableHlo.TRef sig ⟨S_, .f32⟩) main_call21.v0 id,
    StableHlo.TRef.unary main_call21.v0 main_call21.v1 (broadcastInDim S2097152 ![] bcast_S_S2097152),
    StableHlo.TRef.binary main_call21.v1 (.of main_v178 : StableHlo.TRef sig ⟨S2097152, .f32⟩) main_call21.v2 maximumf,
    StableHlo.TRef.unary (.of main_c_70 : StableHlo.TRef sig ⟨S_, .i32⟩) main_call21.v3 (sitofp .f32),
    StableHlo.TRef.unary main_call21.v3 main_call21.v4 (broadcastInDim S2097152 ![] bcast_S_S2097152),
    StableHlo.TRef.binary main_call21.v4 main_call21.v2 main_call21.v5 minimumf,
    StableHlo.binary main_v11 main_v173 main_v180 (subf : (⟨S2097152, .f32⟩ : BufTy).Contents (Elt F) → (⟨S2097152, .f32⟩ : BufTy).Contents (Elt F) → (⟨S2097152, .f32⟩ : BufTy).Contents (Elt F)),
    StableHlo.unary main_v180 main_v181 (Host.absf : (⟨S2097152, .f32⟩ : BufTy).Contents (Elt F) → (⟨S2097152, .f32⟩ : BufTy).Contents (Elt F)),
    StableHlo.nullary main_cst_71 (constant S_ .f32 0x3F800000#32),
    StableHlo.unary main_cst_71 main_v182 (broadcastInDim S2097152 ![] bcast_S_S2097152 : (⟨S_, .f32⟩ : BufTy).Contents (Elt F) → (⟨S2097152, .f32⟩ : BufTy).Contents (Elt F)),
    StableHlo.binary main_v182 main_v181 main_v183 (subf : (⟨S2097152, .f32⟩ : BufTy).Contents (Elt F) → (⟨S2097152, .f32⟩ : BufTy).Contents (Elt F) → (⟨S2097152, .f32⟩ : BufTy).Contents (Elt F)),
    StableHlo.binary main_v12 main_v176 main_v184 (subf : (⟨S2097152, .f32⟩ : BufTy).Contents (Elt F) → (⟨S2097152, .f32⟩ : BufTy).Contents (Elt F) → (⟨S2097152, .f32⟩ : BufTy).Contents (Elt F)),
    StableHlo.unary main_v184 main_v185 (Host.absf : (⟨S2097152, .f32⟩ : BufTy).Contents (Elt F) → (⟨S2097152, .f32⟩ : BufTy).Contents (Elt F)),
    StableHlo.nullary main_cst_72 (constant S_ .f32 0x3F800000#32),
    StableHlo.unary main_cst_72 main_v186 (broadcastInDim S2097152 ![] bcast_S_S2097152 : (⟨S_, .f32⟩ : BufTy).Contents (Elt F) → (⟨S2097152, .f32⟩ : BufTy).Contents (Elt F)),
    StableHlo.binary main_v186 main_v185 main_v187 (subf : (⟨S2097152, .f32⟩ : BufTy).Contents (Elt F) → (⟨S2097152, .f32⟩ : BufTy).Contents (Elt F) → (⟨S2097152, .f32⟩ : BufTy).Contents (Elt F)),
    StableHlo.binary main_v183 main_v187 main_v188 (mulf : (⟨S2097152, .f32⟩ : BufTy).Contents (Elt F) → (⟨S2097152, .f32⟩ : BufTy).Contents (Elt F) → (⟨S2097152, .f32⟩ : BufTy).Contents (Elt F)),
    StableHlo.binary main_v13 main_v179 main_v189 (subf : (⟨S2097152, .f32⟩ : BufTy).Contents (Elt F) → (⟨S2097152, .f32⟩ : BufTy).Contents (Elt F) → (⟨S2097152, .f32⟩ : BufTy).Contents (Elt F)),
    StableHlo.unary main_v189 main_v190 (Host.absf : (⟨S2097152, .f32⟩ : BufTy).Contents (Elt F) → (⟨S2097152, .f32⟩ : BufTy).Contents (Elt F)),
    StableHlo.nullary main_cst_73 (constant S_ .f32 0x3F800000#32),
    StableHlo.unary main_cst_73 main_v191 (broadcastInDim S2097152 ![] bcast_S_S2097152 : (⟨S_, .f32⟩ : BufTy).Contents (Elt F) → (⟨S2097152, .f32⟩ : BufTy).Contents (Elt F)),
    StableHlo.binary main_v191 main_v190 main_v192 (subf : (⟨S2097152, .f32⟩ : BufTy).Contents (Elt F) → (⟨S2097152, .f32⟩ : BufTy).Contents (Elt F) → (⟨S2097152, .f32⟩ : BufTy).Contents (Elt F)),
    StableHlo.binary main_v188 main_v192 main_v193 (mulf : (⟨S2097152, .f32⟩ : BufTy).Contents (Elt F) → (⟨S2097152, .f32⟩ : BufTy).Contents (Elt F) → (⟨S2097152, .f32⟩ : BufTy).Contents (Elt F)),
    StableHlo.unary main_v173 main_v194 (fptosi 32 : (⟨S2097152, .f32⟩ : BufTy).Contents (Elt F) → (⟨S2097152, .i32⟩ : BufTy).Contents (Elt F)),
    StableHlo.nullary main_c_74 (constantI S_ 32 16384#32),
    StableHlo.unary main_c_74 main_v195 (broadcastInDim S2097152 ![] bcast_S_S2097152 : (⟨S_, .i32⟩ : BufTy).Contents (Elt F) → (⟨S2097152, .i32⟩ : BufTy).Contents (Elt F)),
    StableHlo.binary main_v194 main_v195 main_v196 (muli : (⟨S2097152, .i32⟩ : BufTy).Contents (Elt F) → (⟨S2097152, .i32⟩ : BufTy).Contents (Elt F) → (⟨S2097152, .i32⟩ : BufTy).Contents (Elt F)),
    StableHlo.unary main_v176 main_v197 (fptosi 32 : (⟨S2097152, .f32⟩ : BufTy).Contents (Elt F) → (⟨S2097152, .i32⟩ : BufTy).Contents (Elt F)),
    StableHlo.nullary main_c_75 (constantI S_ 32 128#32),
    StableHlo.unary main_c_75 main_v198 (broadcastInDim S2097152 ![] bcast_S_S2097152 : (⟨S_, .i32⟩ : BufTy).Contents (Elt F) → (⟨S2097152, .i32⟩ : BufTy).Contents (Elt F)),
    StableHlo.binary main_v197 main_v198 main_v199 (muli : (⟨S2097152, .i32⟩ : BufTy).Contents (Elt F) → (⟨S2097152, .i32⟩ : BufTy).Contents (Elt F) → (⟨S2097152, .i32⟩ : BufTy).Contents (Elt F)),
    StableHlo.binary main_v196 main_v199 main_v200 (addi : (⟨S2097152, .i32⟩ : BufTy).Contents (Elt F) → (⟨S2097152, .i32⟩ : BufTy).Contents (Elt F) → (⟨S2097152, .i32⟩ : BufTy).Contents (Elt F)),
    StableHlo.unary main_v179 main_v201 (fptosi 32 : (⟨S2097152, .f32⟩ : BufTy).Contents (Elt F) → (⟨S2097152, .i32⟩ : BufTy).Contents (Elt F)),
    StableHlo.binary main_v200 main_v201 main_v202 (addi : (⟨S2097152, .i32⟩ : BufTy).Contents (Elt F) → (⟨S2097152, .i32⟩ : BufTy).Contents (Elt F) → (⟨S2097152, .i32⟩ : BufTy).Contents (Elt F)),
    StableHlo.TRef.nullary main_call22.c (constantI S_ 32 0#32),
    StableHlo.TRef.unary main_call22.c main_call22.v0 (broadcastInDim S2097152 ![] bcast_S_S2097152),
    StableHlo.TRef.binary (.of main_v202 : StableHlo.TRef sig ⟨S2097152, .i32⟩) main_call22.v0 main_call22.v1 (cmpi .slt),
    StableHlo.TRef.nullary main_call22.c_0 (constantI S_ 32 2097152#32),
    StableHlo.TRef.unary main_call22.c_0 main_call22.v2 (broadcastInDim S2097152 ![] bcast_S_S2097152),
    StableHlo.TRef.binary (.of main_v202 : StableHlo.TRef sig ⟨S2097152, .i32⟩) main_call22.v2 main_call22.v3 addi,
    StableHlo.TRef.ternary main_call22.v1 main_call22.v3 (.of main_v202 : StableHlo.TRef sig ⟨S2097152, .i32⟩) main_call22.call0.v0 select,
    StableHlo.TRef.unary main_call22.call0.v0 main_call22.v5 (broadcastInDim S2097152x1 ![0] bcast_S2097152_S2097152x1_0),
    StableHlo.TRef.nullary main_call22.c_1 (constantI S1 32 2097151#32),
    StableHlo.TRef.nullary main_call22.c_2 (constantI S_ 32 0#32),
    StableHlo.TRef.unary main_call22.c_2 main_call22.v6 (broadcastInDim S2097152x1 ![] bcast_S_S2097152x1),
    StableHlo.TRef.binary main_call22.v5 main_call22.v6 main_call22.v7 (cmpi .sge),
    StableHlo.TRef.unary main_call22.c_1 main_call22.v8 (broadcastInDim S1x1 ![1] bcast_S1_S1x1_1),
    StableHlo.TRef.unary main_call22.v8 main_call22.v9 (broadcastInDim S2097152x1 ![0, 1] bcast_S1x1_S2097152x1_0_1),
    StableHlo.TRef.binary main_call22.v5 main_call22.v9 main_call22.v10 (cmpi .sle),
    StableHlo.TRef.binary main_call22.v7 main_call22.v10 main_call22.v11 andi,
    StableHlo.TRef.nullary main_call22.c_3 (constantI S_ 1 1#1),
    StableHlo.TRef.binary main_call22.v11 main_call22.c_3 main_call22.v12 (fun x v => Host.reduce IntOp.andi x v reducesTo_S2097152x1_S2097152_d1 h_S_),
    StableHlo.TRef.binary (.of main_v4 : StableHlo.TRef sig ⟨S8x2097152, .f32⟩) main_call22.v5 main_call22.v13 (fun x i => Host.gather gather_S8x2097152_S2097152x1_S8x2097152_0_1_n_n_1_1_81 x i),
    StableHlo.TRef.unary main_call22.v12 main_call22.v14 (broadcastInDim S8x2097152 ![1] bcast_S2097152_S8x2097152_1),
    StableHlo.TRef.nullary main_call22.cst (constant S_ .f32 0x7FC00000#32),
    StableHlo.TRef.unary main_call22.cst main_call22.v15 (broadcastInDim S8x2097152 ![] bcast_S_S8x2097152),
    StableHlo.TRef.ternary main_call22.v14 main_call22.v13 main_call22.v15 main_call22.v16 select,
    StableHlo.unary main_v193 main_v204 (broadcastInDim S1x2097152 ![1] bcast_S2097152_S1x2097152_1 : (⟨S2097152, .f32⟩ : BufTy).Contents (Elt F) → (⟨S1x2097152, .f32⟩ : BufTy).Contents (Elt F)),
    StableHlo.unary main_v204 main_v205 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v205 main_v203 main_v206 (mulf : (⟨S8x2097152, .f32⟩ : BufTy).Contents (Elt F) → (⟨S8x2097152, .f32⟩ : BufTy).Contents (Elt F) → (⟨S8x2097152, .f32⟩ : BufTy).Contents (Elt F)),
    StableHlo.binary main_v169 main_v206 main_v207 (addf : (⟨S8x2097152, .f32⟩ : BufTy).Contents (Elt F) → (⟨S8x2097152, .f32⟩ : BufTy).Contents (Elt F) → (⟨S8x2097152, .f32⟩ : BufTy).Contents (Elt F)),
    StableHlo.binary main_v170 main_v193 main_v208 (addf : (⟨S2097152, .f32⟩ : BufTy).Contents (Elt F) → (⟨S2097152, .f32⟩ : BufTy).Contents (Elt F) → (⟨S2097152, .f32⟩ : BufTy).Contents (Elt F)) ]

/-- Statements 288 … 300 of @main: 23 operations. -/
abbrev k5a : List (HloOp τ sig (Elt F)) :=
  [ StableHlo.nullary main_cst_76 (constant S_ .f32 0x3F800000#32),
    StableHlo.unary main_cst_76 main_v209 (broadcastInDim S2097152 ![] bcast_S_S2097152 : (⟨S_, .f32⟩ : BufTy).Contents (Elt F) → (⟨S2097152, .f32⟩ : BufTy).Contents (Elt F)),
    StableHlo.binary main_v14 main_v209 main_v210 (addf : (⟨S2097152, .f32⟩ : BufTy).Contents (Elt F) → (⟨S2097152, .f32⟩ : BufTy).Contents (Elt F) → (⟨S2097152, .f32⟩ : BufTy).Contents (Elt F)),
    StableHlo.nullary main_cst_77 (constant S_ .f32 0x00000000#32),
    StableHlo.nullary main_c_78 (constantI S_ 32 127#32),
    StableHlo.TRef.unary (.of main_cst_77 : StableHlo.TRef sig ⟨S_, .f32⟩) main_call23.v0 id,
    StableHlo.TRef.unary main_call23.v0 main_call23.v1 (broadcastInDim S2097152 ![] bcast_S_S2097152),
    StableHlo.TRef.binary main_call23.v1 (.of main_v210 : StableHlo.TRef sig ⟨S2097152, .f32⟩) main_call23.v2 maximumf,
    StableHlo.TRef.unary (.of main_c_78 : StableHlo.TRef sig ⟨S_, .i32⟩) main_call23.v3 (sitofp .f32),
    StableHlo.TRef.unary main_call23.v3 main_call23.v4 (broadcastInDim S2097152 ![] bcast_S_S2097152),
    StableHlo.TRef.binary main_call23.v4 main_call23.v2 main_call23.v5 minimumf,
    StableHlo.nullary main_cst_79 (constant S_ .f32 0x00000000#32),
    StableHlo.unary main_cst_79 main_v212 (broadcastInDim S2097152 ![] bcast_S_S2097152 : (⟨S_, .f32⟩ : BufTy).Contents (Elt F) → (⟨S2097152, .f32⟩ : BufTy).Contents (Elt F)),
    StableHlo.binary main_v15 main_v212 main_v213 (addf : (⟨S2097152, .f32⟩ : BufTy).Contents (Elt F) → (⟨S2097152, .f32⟩ : BufTy).Contents (Elt F) → (⟨S2097152, .f32⟩ : BufTy).Contents (Elt F)),
    StableHlo.nullary main_cst_80 (constant S_ .f32 0x00000000#32),
    StableHlo.nullary main_c_81 (constantI S_ 32 127#32),
    StableHlo.TRef.unary (.of main_cst_80 : StableHlo.TRef sig ⟨S_, .f32⟩) main_call24.v0 id,
    StableHlo.TRef.unary main_call24.v0 main_call24.v1 (broadcastInDim S2097152 ![] bcast_S_S2097152),
    StableHlo.TRef.binary main_call24.v1 (.of main_v213 : StableHlo.TRef sig ⟨S2097152, .f32⟩) main_call24.v2 maximumf,
    StableHlo.TRef.unary (.of main_c_81 : StableHlo.TRef sig ⟨S_, .i32⟩) main_call24.v3 (sitofp .f32),
    StableHlo.TRef.unary main_call24.v3 main_call24.v4 (broadcastInDim S2097152 ![] bcast_S_S2097152),
    StableHlo.TRef.binary main_call24.v4 main_call24.v2 main_call24.v5 minimumf,
    StableHlo.nullary main_cst_82 (constant S_ .f32 0x3F800000#32) ]

/-- Statements 301 … 339 of @main: 66 operations. -/
abbrev k5b : List (HloOp τ sig (Elt F)) :=
  [ StableHlo.unary main_cst_82 main_v215 (broadcastInDim S2097152 ![] bcast_S_S2097152 : (⟨S_, .f32⟩ : BufTy).Contents (Elt F) → (⟨S2097152, .f32⟩ : BufTy).Contents (Elt F)),
    StableHlo.binary main_v16 main_v215 main_v216 (addf : (⟨S2097152, .f32⟩ : BufTy).Contents (Elt F) → (⟨S2097152, .f32⟩ : BufTy).Contents (Elt F) → (⟨S2097152, .f32⟩ : BufTy).Contents (Elt F)),
    StableHlo.nullary main_cst_83 (constant S_ .f32 0x00000000#32),
    StableHlo.nullary main_c_84 (constantI S_ 32 127#32),
    StableHlo.TRef.unary (.of main_cst_83 : StableHlo.TRef sig ⟨S_, .f32⟩) main_call25.v0 id,
    StableHlo.TRef.unary main_call25.v0 main_call25.v1 (broadcastInDim S2097152 ![] bcast_S_S2097152),
    StableHlo.TRef.binary main_call25.v1 (.of main_v216 : StableHlo.TRef sig ⟨S2097152, .f32⟩) main_call25.v2 maximumf,
    StableHlo.TRef.unary (.of main_c_84 : StableHlo.TRef sig ⟨S_, .i32⟩) main_call25.v3 (sitofp .f32),
    StableHlo.TRef.unary main_call25.v3 main_call25.v4 (broadcastInDim S2097152 ![] bcast_S_S2097152),
    StableHlo.TRef.binary main_call25.v4 main_call25.v2 main_call25.v5 minimumf,
    StableHlo.binary main_v11 main_v211 main_v218 (subf : (⟨S2097152, .f32⟩ : BufTy).Contents (Elt F) → (⟨S2097152, .f32⟩ : BufTy).Contents (Elt F) → (⟨S2097152, .f32⟩ : BufTy).Contents (Elt F)),
    StableHlo.unary main_v218 main_v219 (Host.absf : (⟨S2097152, .f32⟩ : BufTy).Contents (Elt F) → (⟨S2097152, .f32⟩ : BufTy).Contents (Elt F)),
    StableHlo.nullary main_cst_85 (constant S_ .f32 0x3F800000#32),
    StableHlo.unary main_cst_85 main_v220 (broadcastInDim S2097152 ![] bcast_S_S2097152 : (⟨S_, .f32⟩ : BufTy).Contents (Elt F) → (⟨S2097152, .f32⟩ : BufTy).Contents (Elt F)),
    StableHlo.binary main_v220 main_v219 main_v221 (subf : (⟨S2097152, .f32⟩ : BufTy).Contents (Elt F) → (⟨S2097152, .f32⟩ : BufTy).Contents (Elt F) → (⟨S2097152, .f32⟩ : BufTy).Contents (Elt F)),
    StableHlo.binary main_v12 main_v214 main_v222 (subf : (⟨S2097152, .f32⟩ : BufTy).Contents (Elt F) → (⟨S2097152, .f32⟩ : BufTy).Contents (Elt F) → (⟨S2097152, .f32⟩ : BufTy).Contents (Elt F)),
    StableHlo.unary main_v222 main_v223 (Host.absf : (⟨S2097152, .f32⟩ : BufTy).Contents (Elt F) → (⟨S2097152, .f32⟩ : BufTy).Contents (Elt F)),
    StableHlo.nullary main_cst_86 (constant S_ .f32 0x3F800000#32),
    StableHlo.unary main_cst_86 main_v224 (broadcastInDim S2097152 ![] bcast_S_S2097152 : (⟨S_, .f32⟩ : BufTy).Contents (Elt F) → (⟨S2097152, .f32⟩ : BufTy).Contents (Elt F)),
    StableHlo.binary main_v224 main_v223 main_v225 (subf : (⟨S2097152, .f32⟩ : BufTy).Contents (Elt F) → (⟨S2097152, .f32⟩ : BufTy).Contents (Elt F) → (⟨S2097152, .f32⟩ : BufTy).Contents (Elt F)),
    StableHlo.binary main_v221 main_v225 main_v226 (mulf : (⟨S2097152, .f32⟩ : BufTy).Contents (Elt F) → (⟨S2097152, .f32⟩ : BufTy).Contents (Elt F) → (⟨S2097152, .f32⟩ : BufTy).Contents (Elt F)),
    StableHlo.binary main_v13 main_v217 main_v227 (subf : (⟨S2097152, .f32⟩ : BufTy).Contents (Elt F) → (⟨S2097152, .f32⟩ : BufTy).Contents (Elt F) → (⟨S2097152, .f32⟩ : BufTy).Contents (Elt F)),
    StableHlo.unary main_v227 main_v228 (Host.absf : (⟨S2097152, .f32⟩ : BufTy).Contents (Elt F) → (⟨S2097152, .f32⟩ : BufTy).Contents (Elt F)),
    StableHlo.nullary main_cst_87 (constant S_ .f32 0x3F800000#32),
    StableHlo.unary main_cst_87 main_v229 (broadcastInDim S2097152 ![] bcast_S_S2097152 : (⟨S_, .f32⟩ : BufTy).Contents (Elt F) → (⟨S2097152, .f32⟩ : BufTy).Contents (Elt F)),
    StableHlo.binary main_v229 main_v228 main_v230 (subf : (⟨S2097152, .f32⟩ : BufTy).Contents (Elt F) → (⟨S2097152, .f32⟩ : BufTy).Contents (Elt F) → (⟨S2097152, .f32⟩ : BufTy).Contents (Elt F)),
    StableHlo.binary main_v226 main_v230 main_v231 (mulf : (⟨S2097152, .f32⟩ : BufTy).Contents (Elt F) → (⟨S2097152, .f32⟩ : BufTy).Contents (Elt F) → (⟨S2097152, .f32⟩ : BufTy).Contents (Elt F)),
    StableHlo.unary main_v211 main_v232 (fptosi 32 : (⟨S2097152, .f32⟩ : BufTy).Contents (Elt F) → (⟨S2097152, .i32⟩ : BufTy).Contents (Elt F)),
    StableHlo.nullary main_c_88 (constantI S_ 32 16384#32),
    StableHlo.unary main_c_88 main_v233 (broadcastInDim S2097152 ![] bcast_S_S2097152 : (⟨S_, .i32⟩ : BufTy).Contents (Elt F) → (⟨S2097152, .i32⟩ : BufTy).Contents (Elt F)),
    StableHlo.binary main_v232 main_v233 main_v234 (muli : (⟨S2097152, .i32⟩ : BufTy).Contents (Elt F) → (⟨S2097152, .i32⟩ : BufTy).Contents (Elt F) → (⟨S2097152, .i32⟩ : BufTy).Contents (Elt F)),
    StableHlo.unary main_v214 main_v235 (fptosi 32 : (⟨S2097152, .f32⟩ : BufTy).Contents (Elt F) → (⟨S2097152, .i32⟩ : BufTy).Contents (Elt F)),
    StableHlo.nullary main_c_89 (constantI S_ 32 128#32),
    StableHlo.unary main_c_89 main_v236 (broadcastInDim S2097152 ![] bcast_S_S2097152 : (⟨S_, .i32⟩ : BufTy).Contents (Elt F) → (⟨S2097152, .i32⟩ : BufTy).Contents (Elt F)),
    StableHlo.binary main_v235 main_v236 main_v237 (muli : (⟨S2097152, .i32⟩ : BufTy).Contents (Elt F) → (⟨S2097152, .i32⟩ : BufTy).Contents (Elt F) → (⟨S2097152, .i32⟩ : BufTy).Contents (Elt F)),
    StableHlo.binary main_v234 main_v237 main_v238 (addi : (⟨S2097152, .i32⟩ : BufTy).Contents (Elt F) → (⟨S2097152, .i32⟩ : BufTy).Contents (Elt F) → (⟨S2097152, .i32⟩ : BufTy).Contents (Elt F)),
    StableHlo.unary main_v217 main_v239 (fptosi 32 : (⟨S2097152, .f32⟩ : BufTy).Contents (Elt F) → (⟨S2097152, .i32⟩ : BufTy).Contents (Elt F)),
    StableHlo.binary main_v238 main_v239 main_v240 (addi : (⟨S2097152, .i32⟩ : BufTy).Contents (Elt F) → (⟨S2097152, .i32⟩ : BufTy).Contents (Elt F) → (⟨S2097152, .i32⟩ : BufTy).Contents (Elt F)),
    StableHlo.TRef.nullary main_call26.c (constantI S_ 32 0#32),
    StableHlo.TRef.unary main_call26.c main_call26.v0 (broadcastInDim S2097152 ![] bcast_S_S2097152),
    StableHlo.TRef.binary (.of main_v240 : StableHlo.TRef sig ⟨S2097152, .i32⟩) main_call26.v0 main_call26.v1 (cmpi .slt),
    StableHlo.TRef.nullary main_call26.c_0 (constantI S_ 32 2097152#32),
    StableHlo.TRef.unary main_call26.c_0 main_call26.v2 (broadcastInDim S2097152 ![] bcast_S_S2097152),
    StableHlo.TRef.binary (.of main_v240 : StableHlo.TRef sig ⟨S2097152, .i32⟩) main_call26.v2 main_call26.v3 addi,
    StableHlo.TRef.ternary main_call26.v1 main_call26.v3 (.of main_v240 : StableHlo.TRef sig ⟨S2097152, .i32⟩) main_call26.call0.v0 select,
    StableHlo.TRef.unary main_call26.call0.v0 main_call26.v5 (broadcastInDim S2097152x1 ![0] bcast_S2097152_S2097152x1_0),
    StableHlo.TRef.nullary main_call26.c_1 (constantI S1 32 2097151#32),
    StableHlo.TRef.nullary main_call26.c_2 (constantI S_ 32 0#32),
    StableHlo.TRef.unary main_call26.c_2 main_call26.v6 (broadcastInDim S2097152x1 ![] bcast_S_S2097152x1),
    StableHlo.TRef.binary main_call26.v5 main_call26.v6 main_call26.v7 (cmpi .sge),
    StableHlo.TRef.unary main_call26.c_1 main_call26.v8 (broadcastInDim S1x1 ![1] bcast_S1_S1x1_1),
    StableHlo.TRef.unary main_call26.v8 main_call26.v9 (broadcastInDim S2097152x1 ![0, 1] bcast_S1x1_S2097152x1_0_1),
    StableHlo.TRef.binary main_call26.v5 main_call26.v9 main_call26.v10 (cmpi .sle),
    StableHlo.TRef.binary main_call26.v7 main_call26.v10 main_call26.v11 andi,
    StableHlo.TRef.nullary main_call26.c_3 (constantI S_ 1 1#1),
    StableHlo.TRef.binary main_call26.v11 main_call26.c_3 main_call26.v12 (fun x v => Host.reduce IntOp.andi x v reducesTo_S2097152x1_S2097152_d1 h_S_),
    StableHlo.TRef.binary (.of main_v4 : StableHlo.TRef sig ⟨S8x2097152, .f32⟩) main_call26.v5 main_call26.v13 (fun x i => Host.gather gather_S8x2097152_S2097152x1_S8x2097152_0_1_n_n_1_1_81 x i),
    StableHlo.TRef.unary main_call26.v12 main_call26.v14 (broadcastInDim S8x2097152 ![1] bcast_S2097152_S8x2097152_1),
    StableHlo.TRef.nullary main_call26.cst (constant S_ .f32 0x7FC00000#32),
    StableHlo.TRef.unary main_call26.cst main_call26.v15 (broadcastInDim S8x2097152 ![] bcast_S_S8x2097152),
    StableHlo.TRef.ternary main_call26.v14 main_call26.v13 main_call26.v15 main_call26.v16 select,
    StableHlo.unary main_v231 main_v242 (broadcastInDim S1x2097152 ![1] bcast_S2097152_S1x2097152_1 : (⟨S2097152, .f32⟩ : BufTy).Contents (Elt F) → (⟨S1x2097152, .f32⟩ : BufTy).Contents (Elt F)),
    StableHlo.unary main_v242 main_v243 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v243 main_v241 main_v244 (mulf : (⟨S8x2097152, .f32⟩ : BufTy).Contents (Elt F) → (⟨S8x2097152, .f32⟩ : BufTy).Contents (Elt F) → (⟨S8x2097152, .f32⟩ : BufTy).Contents (Elt F)),
    StableHlo.binary main_v207 main_v244 main_v245 (addf : (⟨S8x2097152, .f32⟩ : BufTy).Contents (Elt F) → (⟨S8x2097152, .f32⟩ : BufTy).Contents (Elt F) → (⟨S8x2097152, .f32⟩ : BufTy).Contents (Elt F)),
    StableHlo.binary main_v208 main_v231 main_v246 (addf : (⟨S2097152, .f32⟩ : BufTy).Contents (Elt F) → (⟨S2097152, .f32⟩ : BufTy).Contents (Elt F) → (⟨S2097152, .f32⟩ : BufTy).Contents (Elt F)) ]

/-- Statements 340 … 360 of @main: 36 operations. -/
abbrev k6a : List (HloOp τ sig (Elt F)) :=
  [ StableHlo.nullary main_cst_90 (constant S_ .f32 0x00000000#32),
    StableHlo.unary main_cst_90 main_v247 (broadcastInDim S2097152 ![] bcast_S_S2097152 : (⟨S_, .f32⟩ : BufTy).Contents (Elt F) → (⟨S2097152, .f32⟩ : BufTy).Contents (Elt F)),
    StableHlo.binary main_v14 main_v247 main_v248 (addf : (⟨S2097152, .f32⟩ : BufTy).Contents (Elt F) → (⟨S2097152, .f32⟩ : BufTy).Contents (Elt F) → (⟨S2097152, .f32⟩ : BufTy).Contents (Elt F)),
    StableHlo.nullary main_cst_91 (constant S_ .f32 0x00000000#32),
    StableHlo.nullary main_c_92 (constantI S_ 32 127#32),
    StableHlo.TRef.unary (.of main_cst_91 : StableHlo.TRef sig ⟨S_, .f32⟩) main_call27.v0 id,
    StableHlo.TRef.unary main_call27.v0 main_call27.v1 (broadcastInDim S2097152 ![] bcast_S_S2097152),
    StableHlo.TRef.binary main_call27.v1 (.of main_v248 : StableHlo.TRef sig ⟨S2097152, .f32⟩) main_call27.v2 maximumf,
    StableHlo.TRef.unary (.of main_c_92 : StableHlo.TRef sig ⟨S_, .i32⟩) main_call27.v3 (sitofp .f32),
    StableHlo.TRef.unary main_call27.v3 main_call27.v4 (broadcastInDim S2097152 ![] bcast_S_S2097152),
    StableHlo.TRef.binary main_call27.v4 main_call27.v2 main_call27.v5 minimumf,
    StableHlo.nullary main_cst_93 (constant S_ .f32 0x3F800000#32),
    StableHlo.unary main_cst_93 main_v250 (broadcastInDim S2097152 ![] bcast_S_S2097152 : (⟨S_, .f32⟩ : BufTy).Contents (Elt F) → (⟨S2097152, .f32⟩ : BufTy).Contents (Elt F)),
    StableHlo.binary main_v15 main_v250 main_v251 (addf : (⟨S2097152, .f32⟩ : BufTy).Contents (Elt F) → (⟨S2097152, .f32⟩ : BufTy).Contents (Elt F) → (⟨S2097152, .f32⟩ : BufTy).Contents (Elt F)),
    StableHlo.nullary main_cst_94 (constant S_ .f32 0x00000000#32),
    StableHlo.nullary main_c_95 (constantI S_ 32 127#32),
    StableHlo.TRef.unary (.of main_cst_94 : StableHlo.TRef sig ⟨S_, .f32⟩) main_call28.v0 id,
    StableHlo.TRef.unary main_call28.v0 main_call28.v1 (broadcastInDim S2097152 ![] bcast_S_S2097152),
    StableHlo.TRef.binary main_call28.v1 (.of main_v251 : StableHlo.TRef sig ⟨S2097152, .f32⟩) main_call28.v2 maximumf,
    StableHlo.TRef.unary (.of main_c_95 : StableHlo.TRef sig ⟨S_, .i32⟩) main_call28.v3 (sitofp .f32),
    StableHlo.TRef.unary main_call28.v3 main_call28.v4 (broadcastInDim S2097152 ![] bcast_S_S2097152),
    StableHlo.TRef.binary main_call28.v4 main_call28.v2 main_call28.v5 minimumf,
    StableHlo.nullary main_cst_96 (constant S_ .f32 0x3F800000#32),
    StableHlo.unary main_cst_96 main_v253 (broadcastInDim S2097152 ![] bcast_S_S2097152 : (⟨S_, .f32⟩ : BufTy).Contents (Elt F) → (⟨S2097152, .f32⟩ : BufTy).Contents (Elt F)),
    StableHlo.binary main_v16 main_v253 main_v254 (addf : (⟨S2097152, .f32⟩ : BufTy).Contents (Elt F) → (⟨S2097152, .f32⟩ : BufTy).Contents (Elt F) → (⟨S2097152, .f32⟩ : BufTy).Contents (Elt F)),
    StableHlo.nullary main_cst_97 (constant S_ .f32 0x00000000#32),
    StableHlo.nullary main_c_98 (constantI S_ 32 127#32),
    StableHlo.TRef.unary (.of main_cst_97 : StableHlo.TRef sig ⟨S_, .f32⟩) main_call29.v0 id,
    StableHlo.TRef.unary main_call29.v0 main_call29.v1 (broadcastInDim S2097152 ![] bcast_S_S2097152),
    StableHlo.TRef.binary main_call29.v1 (.of main_v254 : StableHlo.TRef sig ⟨S2097152, .f32⟩) main_call29.v2 maximumf,
    StableHlo.TRef.unary (.of main_c_98 : StableHlo.TRef sig ⟨S_, .i32⟩) main_call29.v3 (sitofp .f32),
    StableHlo.TRef.unary main_call29.v3 main_call29.v4 (broadcastInDim S2097152 ![] bcast_S_S2097152),
    StableHlo.TRef.binary main_call29.v4 main_call29.v2 main_call29.v5 minimumf,
    StableHlo.binary main_v11 main_v249 main_v256 (subf : (⟨S2097152, .f32⟩ : BufTy).Contents (Elt F) → (⟨S2097152, .f32⟩ : BufTy).Contents (Elt F) → (⟨S2097152, .f32⟩ : BufTy).Contents (Elt F)),
    StableHlo.unary main_v256 main_v257 (Host.absf : (⟨S2097152, .f32⟩ : BufTy).Contents (Elt F) → (⟨S2097152, .f32⟩ : BufTy).Contents (Elt F)),
    StableHlo.nullary main_cst_99 (constant S_ .f32 0x3F800000#32) ]

/-- Statements 361 … 391 of @main: 53 operations. -/
abbrev k6b : List (HloOp τ sig (Elt F)) :=
  [ StableHlo.unary main_cst_99 main_v258 (broadcastInDim S2097152 ![] bcast_S_S2097152 : (⟨S_, .f32⟩ : BufTy).Contents (Elt F) → (⟨S2097152, .f32⟩ : BufTy).Contents (Elt F)),
    StableHlo.binary main_v258 main_v257 main_v259 (subf : (⟨S2097152, .f32⟩ : BufTy).Contents (Elt F) → (⟨S2097152, .f32⟩ : BufTy).Contents (Elt F) → (⟨S2097152, .f32⟩ : BufTy).Contents (Elt F)),
    StableHlo.binary main_v12 main_v252 main_v260 (subf : (⟨S2097152, .f32⟩ : BufTy).Contents (Elt F) → (⟨S2097152, .f32⟩ : BufTy).Contents (Elt F) → (⟨S2097152, .f32⟩ : BufTy).Contents (Elt F)),
    StableHlo.unary main_v260 main_v261 (Host.absf : (⟨S2097152, .f32⟩ : BufTy).Contents (Elt F) → (⟨S2097152, .f32⟩ : BufTy).Contents (Elt F)),
    StableHlo.nullary main_cst_100 (constant S_ .f32 0x3F800000#32),
    StableHlo.unary main_cst_100 main_v262 (broadcastInDim S2097152 ![] bcast_S_S2097152 : (⟨S_, .f32⟩ : BufTy).Contents (Elt F) → (⟨S2097152, .f32⟩ : BufTy).Contents (Elt F)),
    StableHlo.binary main_v262 main_v261 main_v263 (subf : (⟨S2097152, .f32⟩ : BufTy).Contents (Elt F) → (⟨S2097152, .f32⟩ : BufTy).Contents (Elt F) → (⟨S2097152, .f32⟩ : BufTy).Contents (Elt F)),
    StableHlo.binary main_v259 main_v263 main_v264 (mulf : (⟨S2097152, .f32⟩ : BufTy).Contents (Elt F) → (⟨S2097152, .f32⟩ : BufTy).Contents (Elt F) → (⟨S2097152, .f32⟩ : BufTy).Contents (Elt F)),
    StableHlo.binary main_v13 main_v255 main_v265 (subf : (⟨S2097152, .f32⟩ : BufTy).Contents (Elt F) → (⟨S2097152, .f32⟩ : BufTy).Contents (Elt F) → (⟨S2097152, .f32⟩ : BufTy).Contents (Elt F)),
    StableHlo.unary main_v265 main_v266 (Host.absf : (⟨S2097152, .f32⟩ : BufTy).Contents (Elt F) → (⟨S2097152, .f32⟩ : BufTy).Contents (Elt F)),
    StableHlo.nullary main_cst_101 (constant S_ .f32 0x3F800000#32),
    StableHlo.unary main_cst_101 main_v267 (broadcastInDim S2097152 ![] bcast_S_S2097152 : (⟨S_, .f32⟩ : BufTy).Contents (Elt F) → (⟨S2097152, .f32⟩ : BufTy).Contents (Elt F)),
    StableHlo.binary main_v267 main_v266 main_v268 (subf : (⟨S2097152, .f32⟩ : BufTy).Contents (Elt F) → (⟨S2097152, .f32⟩ : BufTy).Contents (Elt F) → (⟨S2097152, .f32⟩ : BufTy).Contents (Elt F)),
    StableHlo.binary main_v264 main_v268 main_v269 (mulf : (⟨S2097152, .f32⟩ : BufTy).Contents (Elt F) → (⟨S2097152, .f32⟩ : BufTy).Contents (Elt F) → (⟨S2097152, .f32⟩ : BufTy).Contents (Elt F)),
    StableHlo.unary main_v249 main_v270 (fptosi 32 : (⟨S2097152, .f32⟩ : BufTy).Contents (Elt F) → (⟨S2097152, .i32⟩ : BufTy).Contents (Elt F)),
    StableHlo.nullary main_c_102 (constantI S_ 32 16384#32),
    StableHlo.unary main_c_102 main_v271 (broadcastInDim S2097152 ![] bcast_S_S2097152 : (⟨S_, .i32⟩ : BufTy).Contents (Elt F) → (⟨S2097152, .i32⟩ : BufTy).Contents (Elt F)),
    StableHlo.binary main_v270 main_v271 main_v272 (muli : (⟨S2097152, .i32⟩ : BufTy).Contents (Elt F) → (⟨S2097152, .i32⟩ : BufTy).Contents (Elt F) → (⟨S2097152, .i32⟩ : BufTy).Contents (Elt F)),
    StableHlo.unary main_v252 main_v273 (fptosi 32 : (⟨S2097152, .f32⟩ : BufTy).Contents (Elt F) → (⟨S2097152, .i32⟩ : BufTy).Contents (Elt F)),
    StableHlo.nullary main_c_103 (constantI S_ 32 128#32),
    StableHlo.unary main_c_103 main_v274 (broadcastInDim S2097152 ![] bcast_S_S2097152 : (⟨S_, .i32⟩ : BufTy).Contents (Elt F) → (⟨S2097152, .i32⟩ : BufTy).Contents (Elt F)),
    StableHlo.binary main_v273 main_v274 main_v275 (muli : (⟨S2097152, .i32⟩ : BufTy).Contents (Elt F) → (⟨S2097152, .i32⟩ : BufTy).Contents (Elt F) → (⟨S2097152, .i32⟩ : BufTy).Contents (Elt F)),
    StableHlo.binary main_v272 main_v275 main_v276 (addi : (⟨S2097152, .i32⟩ : BufTy).Contents (Elt F) → (⟨S2097152, .i32⟩ : BufTy).Contents (Elt F) → (⟨S2097152, .i32⟩ : BufTy).Contents (Elt F)),
    StableHlo.unary main_v255 main_v277 (fptosi 32 : (⟨S2097152, .f32⟩ : BufTy).Contents (Elt F) → (⟨S2097152, .i32⟩ : BufTy).Contents (Elt F)),
    StableHlo.binary main_v276 main_v277 main_v278 (addi : (⟨S2097152, .i32⟩ : BufTy).Contents (Elt F) → (⟨S2097152, .i32⟩ : BufTy).Contents (Elt F) → (⟨S2097152, .i32⟩ : BufTy).Contents (Elt F)),
    StableHlo.TRef.nullary main_call30.c (constantI S_ 32 0#32),
    StableHlo.TRef.unary main_call30.c main_call30.v0 (broadcastInDim S2097152 ![] bcast_S_S2097152),
    StableHlo.TRef.binary (.of main_v278 : StableHlo.TRef sig ⟨S2097152, .i32⟩) main_call30.v0 main_call30.v1 (cmpi .slt),
    StableHlo.TRef.nullary main_call30.c_0 (constantI S_ 32 2097152#32),
    StableHlo.TRef.unary main_call30.c_0 main_call30.v2 (broadcastInDim S2097152 ![] bcast_S_S2097152),
    StableHlo.TRef.binary (.of main_v278 : StableHlo.TRef sig ⟨S2097152, .i32⟩) main_call30.v2 main_call30.v3 addi,
    StableHlo.TRef.ternary main_call30.v1 main_call30.v3 (.of main_v278 : StableHlo.TRef sig ⟨S2097152, .i32⟩) main_call30.call0.v0 select,
    StableHlo.TRef.unary main_call30.call0.v0 main_call30.v5 (broadcastInDim S2097152x1 ![0] bcast_S2097152_S2097152x1_0),
    StableHlo.TRef.nullary main_call30.c_1 (constantI S1 32 2097151#32),
    StableHlo.TRef.nullary main_call30.c_2 (constantI S_ 32 0#32),
    StableHlo.TRef.unary main_call30.c_2 main_call30.v6 (broadcastInDim S2097152x1 ![] bcast_S_S2097152x1),
    StableHlo.TRef.binary main_call30.v5 main_call30.v6 main_call30.v7 (cmpi .sge),
    StableHlo.TRef.unary main_call30.c_1 main_call30.v8 (broadcastInDim S1x1 ![1] bcast_S1_S1x1_1),
    StableHlo.TRef.unary main_call30.v8 main_call30.v9 (broadcastInDim S2097152x1 ![0, 1] bcast_S1x1_S2097152x1_0_1),
    StableHlo.TRef.binary main_call30.v5 main_call30.v9 main_call30.v10 (cmpi .sle),
    StableHlo.TRef.binary main_call30.v7 main_call30.v10 main_call30.v11 andi,
    StableHlo.TRef.nullary main_call30.c_3 (constantI S_ 1 1#1),
    StableHlo.TRef.binary main_call30.v11 main_call30.c_3 main_call30.v12 (fun x v => Host.reduce IntOp.andi x v reducesTo_S2097152x1_S2097152_d1 h_S_),
    StableHlo.TRef.binary (.of main_v4 : StableHlo.TRef sig ⟨S8x2097152, .f32⟩) main_call30.v5 main_call30.v13 (fun x i => Host.gather gather_S8x2097152_S2097152x1_S8x2097152_0_1_n_n_1_1_81 x i),
    StableHlo.TRef.unary main_call30.v12 main_call30.v14 (broadcastInDim S8x2097152 ![1] bcast_S2097152_S8x2097152_1),
    StableHlo.TRef.nullary main_call30.cst (constant S_ .f32 0x7FC00000#32),
    StableHlo.TRef.unary main_call30.cst main_call30.v15 (broadcastInDim S8x2097152 ![] bcast_S_S8x2097152),
    StableHlo.TRef.ternary main_call30.v14 main_call30.v13 main_call30.v15 main_call30.v16 select,
    StableHlo.unary main_v269 main_v280 (broadcastInDim S1x2097152 ![1] bcast_S2097152_S1x2097152_1 : (⟨S2097152, .f32⟩ : BufTy).Contents (Elt F) → (⟨S1x2097152, .f32⟩ : BufTy).Contents (Elt F)),
    StableHlo.unary main_v280 main_v281 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v281 main_v279 main_v282 (mulf : (⟨S8x2097152, .f32⟩ : BufTy).Contents (Elt F) → (⟨S8x2097152, .f32⟩ : BufTy).Contents (Elt F) → (⟨S8x2097152, .f32⟩ : BufTy).Contents (Elt F)),
    StableHlo.binary main_v245 main_v282 main_v283 (addf : (⟨S8x2097152, .f32⟩ : BufTy).Contents (Elt F) → (⟨S8x2097152, .f32⟩ : BufTy).Contents (Elt F) → (⟨S8x2097152, .f32⟩ : BufTy).Contents (Elt F)),
    StableHlo.binary main_v246 main_v269 main_v284 (addf : (⟨S2097152, .f32⟩ : BufTy).Contents (Elt F) → (⟨S2097152, .f32⟩ : BufTy).Contents (Elt F) → (⟨S2097152, .f32⟩ : BufTy).Contents (Elt F)) ]

/-- Statements 392 … 420 of @main: 44 operations. -/
abbrev k7a : List (HloOp τ sig (Elt F)) :=
  [ StableHlo.nullary main_cst_104 (constant S_ .f32 0x3F800000#32),
    StableHlo.unary main_cst_104 main_v285 (broadcastInDim S2097152 ![] bcast_S_S2097152 : (⟨S_, .f32⟩ : BufTy).Contents (Elt F) → (⟨S2097152, .f32⟩ : BufTy).Contents (Elt F)),
    StableHlo.binary main_v14 main_v285 main_v286 (addf : (⟨S2097152, .f32⟩ : BufTy).Contents (Elt F) → (⟨S2097152, .f32⟩ : BufTy).Contents (Elt F) → (⟨S2097152, .f32⟩ : BufTy).Contents (Elt F)),
    StableHlo.nullary main_cst_105 (constant S_ .f32 0x00000000#32),
    StableHlo.nullary main_c_106 (constantI S_ 32 127#32),
    StableHlo.TRef.unary (.of main_cst_105 : StableHlo.TRef sig ⟨S_, .f32⟩) main_call31.v0 id,
    StableHlo.TRef.unary main_call31.v0 main_call31.v1 (broadcastInDim S2097152 ![] bcast_S_S2097152),
    StableHlo.TRef.binary main_call31.v1 (.of main_v286 : StableHlo.TRef sig ⟨S2097152, .f32⟩) main_call31.v2 maximumf,
    StableHlo.TRef.unary (.of main_c_106 : StableHlo.TRef sig ⟨S_, .i32⟩) main_call31.v3 (sitofp .f32),
    StableHlo.TRef.unary main_call31.v3 main_call31.v4 (broadcastInDim S2097152 ![] bcast_S_S2097152),
    StableHlo.TRef.binary main_call31.v4 main_call31.v2 main_call31.v5 minimumf,
    StableHlo.nullary main_cst_107 (constant S_ .f32 0x3F800000#32),
    StableHlo.unary main_cst_107 main_v288 (broadcastInDim S2097152 ![] bcast_S_S2097152 : (⟨S_, .f32⟩ : BufTy).Contents (Elt F) → (⟨S2097152, .f32⟩ : BufTy).Contents (Elt F)),
    StableHlo.binary main_v15 main_v288 main_v289 (addf : (⟨S2097152, .f32⟩ : BufTy).Contents (Elt F) → (⟨S2097152, .f32⟩ : BufTy).Contents (Elt F) → (⟨S2097152, .f32⟩ : BufTy).Contents (Elt F)),
    StableHlo.nullary main_cst_108 (constant S_ .f32 0x00000000#32),
    StableHlo.nullary main_c_109 (constantI S_ 32 127#32),
    StableHlo.TRef.unary (.of main_cst_108 : StableHlo.TRef sig ⟨S_, .f32⟩) main_call32.v0 id,
    StableHlo.TRef.unary main_call32.v0 main_call32.v1 (broadcastInDim S2097152 ![] bcast_S_S2097152),
    StableHlo.TRef.binary main_call32.v1 (.of main_v289 : StableHlo.TRef sig ⟨S2097152, .f32⟩) main_call32.v2 maximumf,
    StableHlo.TRef.unary (.of main_c_109 : StableHlo.TRef sig ⟨S_, .i32⟩) main_call32.v3 (sitofp .f32),
    StableHlo.TRef.unary main_call32.v3 main_call32.v4 (broadcastInDim S2097152 ![] bcast_S_S2097152),
    StableHlo.TRef.binary main_call32.v4 main_call32.v2 main_call32.v5 minimumf,
    StableHlo.nullary main_cst_110 (constant S_ .f32 0x3F800000#32),
    StableHlo.unary main_cst_110 main_v291 (broadcastInDim S2097152 ![] bcast_S_S2097152 : (⟨S_, .f32⟩ : BufTy).Contents (Elt F) → (⟨S2097152, .f32⟩ : BufTy).Contents (Elt F)),
    StableHlo.binary main_v16 main_v291 main_v292 (addf : (⟨S2097152, .f32⟩ : BufTy).Contents (Elt F) → (⟨S2097152, .f32⟩ : BufTy).Contents (Elt F) → (⟨S2097152, .f32⟩ : BufTy).Contents (Elt F)),
    StableHlo.nullary main_cst_111 (constant S_ .f32 0x00000000#32),
    StableHlo.nullary main_c_112 (constantI S_ 32 127#32),
    StableHlo.TRef.unary (.of main_cst_111 : StableHlo.TRef sig ⟨S_, .f32⟩) main_call33.v0 id,
    StableHlo.TRef.unary main_call33.v0 main_call33.v1 (broadcastInDim S2097152 ![] bcast_S_S2097152),
    StableHlo.TRef.binary main_call33.v1 (.of main_v292 : StableHlo.TRef sig ⟨S2097152, .f32⟩) main_call33.v2 maximumf,
    StableHlo.TRef.unary (.of main_c_112 : StableHlo.TRef sig ⟨S_, .i32⟩) main_call33.v3 (sitofp .f32),
    StableHlo.TRef.unary main_call33.v3 main_call33.v4 (broadcastInDim S2097152 ![] bcast_S_S2097152),
    StableHlo.TRef.binary main_call33.v4 main_call33.v2 main_call33.v5 minimumf,
    StableHlo.binary main_v11 main_v287 main_v294 (subf : (⟨S2097152, .f32⟩ : BufTy).Contents (Elt F) → (⟨S2097152, .f32⟩ : BufTy).Contents (Elt F) → (⟨S2097152, .f32⟩ : BufTy).Contents (Elt F)),
    StableHlo.unary main_v294 main_v295 (Host.absf : (⟨S2097152, .f32⟩ : BufTy).Contents (Elt F) → (⟨S2097152, .f32⟩ : BufTy).Contents (Elt F)),
    StableHlo.nullary main_cst_113 (constant S_ .f32 0x3F800000#32),
    StableHlo.unary main_cst_113 main_v296 (broadcastInDim S2097152 ![] bcast_S_S2097152 : (⟨S_, .f32⟩ : BufTy).Contents (Elt F) → (⟨S2097152, .f32⟩ : BufTy).Contents (Elt F)),
    StableHlo.binary main_v296 main_v295 main_v297 (subf : (⟨S2097152, .f32⟩ : BufTy).Contents (Elt F) → (⟨S2097152, .f32⟩ : BufTy).Contents (Elt F) → (⟨S2097152, .f32⟩ : BufTy).Contents (Elt F)),
    StableHlo.binary main_v12 main_v290 main_v298 (subf : (⟨S2097152, .f32⟩ : BufTy).Contents (Elt F) → (⟨S2097152, .f32⟩ : BufTy).Contents (Elt F) → (⟨S2097152, .f32⟩ : BufTy).Contents (Elt F)),
    StableHlo.unary main_v298 main_v299 (Host.absf : (⟨S2097152, .f32⟩ : BufTy).Contents (Elt F) → (⟨S2097152, .f32⟩ : BufTy).Contents (Elt F)),
    StableHlo.nullary main_cst_114 (constant S_ .f32 0x3F800000#32),
    StableHlo.unary main_cst_114 main_v300 (broadcastInDim S2097152 ![] bcast_S_S2097152 : (⟨S_, .f32⟩ : BufTy).Contents (Elt F) → (⟨S2097152, .f32⟩ : BufTy).Contents (Elt F)),
    StableHlo.binary main_v300 main_v299 main_v301 (subf : (⟨S2097152, .f32⟩ : BufTy).Contents (Elt F) → (⟨S2097152, .f32⟩ : BufTy).Contents (Elt F) → (⟨S2097152, .f32⟩ : BufTy).Contents (Elt F)),
    StableHlo.binary main_v297 main_v301 main_v302 (mulf : (⟨S2097152, .f32⟩ : BufTy).Contents (Elt F) → (⟨S2097152, .f32⟩ : BufTy).Contents (Elt F) → (⟨S2097152, .f32⟩ : BufTy).Contents (Elt F)) ]

/-- Statements 421 … 443 of @main: 45 operations. -/
abbrev k7b : List (HloOp τ sig (Elt F)) :=
  [ StableHlo.binary main_v13 main_v293 main_v303 (subf : (⟨S2097152, .f32⟩ : BufTy).Contents (Elt F) → (⟨S2097152, .f32⟩ : BufTy).Contents (Elt F) → (⟨S2097152, .f32⟩ : BufTy).Contents (Elt F)),
    StableHlo.unary main_v303 main_v304 (Host.absf : (⟨S2097152, .f32⟩ : BufTy).Contents (Elt F) → (⟨S2097152, .f32⟩ : BufTy).Contents (Elt F)),
    StableHlo.nullary main_cst_115 (constant S_ .f32 0x3F800000#32),
    StableHlo.unary main_cst_115 main_v305 (broadcastInDim S2097152 ![] bcast_S_S2097152 : (⟨S_, .f32⟩ : BufTy).Contents (Elt F) → (⟨S2097152, .f32⟩ : BufTy).Contents (Elt F)),
    StableHlo.binary main_v305 main_v304 main_v306 (subf : (⟨S2097152, .f32⟩ : BufTy).Contents (Elt F) → (⟨S2097152, .f32⟩ : BufTy).Contents (Elt F) → (⟨S2097152, .f32⟩ : BufTy).Contents (Elt F)),
    StableHlo.binary main_v302 main_v306 main_v307 (mulf : (⟨S2097152, .f32⟩ : BufTy).Contents (Elt F) → (⟨S2097152, .f32⟩ : BufTy).Contents (Elt F) → (⟨S2097152, .f32⟩ : BufTy).Contents (Elt F)),
    StableHlo.unary main_v287 main_v308 (fptosi 32 : (⟨S2097152, .f32⟩ : BufTy).Contents (Elt F) → (⟨S2097152, .i32⟩ : BufTy).Contents (Elt F)),
    StableHlo.nullary main_c_116 (constantI S_ 32 16384#32),
    StableHlo.unary main_c_116 main_v309 (broadcastInDim S2097152 ![] bcast_S_S2097152 : (⟨S_, .i32⟩ : BufTy).Contents (Elt F) → (⟨S2097152, .i32⟩ : BufTy).Contents (Elt F)),
    StableHlo.binary main_v308 main_v309 main_v310 (muli : (⟨S2097152, .i32⟩ : BufTy).Contents (Elt F) → (⟨S2097152, .i32⟩ : BufTy).Contents (Elt F) → (⟨S2097152, .i32⟩ : BufTy).Contents (Elt F)),
    StableHlo.unary main_v290 main_v311 (fptosi 32 : (⟨S2097152, .f32⟩ : BufTy).Contents (Elt F) → (⟨S2097152, .i32⟩ : BufTy).Contents (Elt F)),
    StableHlo.nullary main_c_117 (constantI S_ 32 128#32),
    StableHlo.unary main_c_117 main_v312 (broadcastInDim S2097152 ![] bcast_S_S2097152 : (⟨S_, .i32⟩ : BufTy).Contents (Elt F) → (⟨S2097152, .i32⟩ : BufTy).Contents (Elt F)),
    StableHlo.binary main_v311 main_v312 main_v313 (muli : (⟨S2097152, .i32⟩ : BufTy).Contents (Elt F) → (⟨S2097152, .i32⟩ : BufTy).Contents (Elt F) → (⟨S2097152, .i32⟩ : BufTy).Contents (Elt F)),
    StableHlo.binary main_v310 main_v313 main_v314 (addi : (⟨S2097152, .i32⟩ : BufTy).Contents (Elt F) → (⟨S2097152, .i32⟩ : BufTy).Contents (Elt F) → (⟨S2097152, .i32⟩ : BufTy).Contents (Elt F)),
    StableHlo.unary main_v293 main_v315 (fptosi 32 : (⟨S2097152, .f32⟩ : BufTy).Contents (Elt F) → (⟨S2097152, .i32⟩ : BufTy).Contents (Elt F)),
    StableHlo.binary main_v314 main_v315 main_v316 (addi : (⟨S2097152, .i32⟩ : BufTy).Contents (Elt F) → (⟨S2097152, .i32⟩ : BufTy).Contents (Elt F) → (⟨S2097152, .i32⟩ : BufTy).Contents (Elt F)),
    StableHlo.TRef.nullary main_call34.c (constantI S_ 32 0#32),
    StableHlo.TRef.unary main_call34.c main_call34.v0 (broadcastInDim S2097152 ![] bcast_S_S2097152),
    StableHlo.TRef.binary (.of main_v316 : StableHlo.TRef sig ⟨S2097152, .i32⟩) main_call34.v0 main_call34.v1 (cmpi .slt),
    StableHlo.TRef.nullary main_call34.c_0 (constantI S_ 32 2097152#32),
    StableHlo.TRef.unary main_call34.c_0 main_call34.v2 (broadcastInDim S2097152 ![] bcast_S_S2097152),
    StableHlo.TRef.binary (.of main_v316 : StableHlo.TRef sig ⟨S2097152, .i32⟩) main_call34.v2 main_call34.v3 addi,
    StableHlo.TRef.ternary main_call34.v1 main_call34.v3 (.of main_v316 : StableHlo.TRef sig ⟨S2097152, .i32⟩) main_call34.call0.v0 select,
    StableHlo.TRef.unary main_call34.call0.v0 main_call34.v5 (broadcastInDim S2097152x1 ![0] bcast_S2097152_S2097152x1_0),
    StableHlo.TRef.nullary main_call34.c_1 (constantI S1 32 2097151#32),
    StableHlo.TRef.nullary main_call34.c_2 (constantI S_ 32 0#32),
    StableHlo.TRef.unary main_call34.c_2 main_call34.v6 (broadcastInDim S2097152x1 ![] bcast_S_S2097152x1),
    StableHlo.TRef.binary main_call34.v5 main_call34.v6 main_call34.v7 (cmpi .sge),
    StableHlo.TRef.unary main_call34.c_1 main_call34.v8 (broadcastInDim S1x1 ![1] bcast_S1_S1x1_1),
    StableHlo.TRef.unary main_call34.v8 main_call34.v9 (broadcastInDim S2097152x1 ![0, 1] bcast_S1x1_S2097152x1_0_1),
    StableHlo.TRef.binary main_call34.v5 main_call34.v9 main_call34.v10 (cmpi .sle),
    StableHlo.TRef.binary main_call34.v7 main_call34.v10 main_call34.v11 andi,
    StableHlo.TRef.nullary main_call34.c_3 (constantI S_ 1 1#1),
    StableHlo.TRef.binary main_call34.v11 main_call34.c_3 main_call34.v12 (fun x v => Host.reduce IntOp.andi x v reducesTo_S2097152x1_S2097152_d1 h_S_),
    StableHlo.TRef.binary (.of main_v4 : StableHlo.TRef sig ⟨S8x2097152, .f32⟩) main_call34.v5 main_call34.v13 (fun x i => Host.gather gather_S8x2097152_S2097152x1_S8x2097152_0_1_n_n_1_1_81 x i),
    StableHlo.TRef.unary main_call34.v12 main_call34.v14 (broadcastInDim S8x2097152 ![1] bcast_S2097152_S8x2097152_1),
    StableHlo.TRef.nullary main_call34.cst (constant S_ .f32 0x7FC00000#32),
    StableHlo.TRef.unary main_call34.cst main_call34.v15 (broadcastInDim S8x2097152 ![] bcast_S_S8x2097152),
    StableHlo.TRef.ternary main_call34.v14 main_call34.v13 main_call34.v15 main_call34.v16 select,
    StableHlo.unary main_v307 main_v318 (broadcastInDim S1x2097152 ![1] bcast_S2097152_S1x2097152_1 : (⟨S2097152, .f32⟩ : BufTy).Contents (Elt F) → (⟨S1x2097152, .f32⟩ : BufTy).Contents (Elt F)),
    StableHlo.unary main_v318 main_v319 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v319 main_v317 main_v320 (mulf : (⟨S8x2097152, .f32⟩ : BufTy).Contents (Elt F) → (⟨S8x2097152, .f32⟩ : BufTy).Contents (Elt F) → (⟨S8x2097152, .f32⟩ : BufTy).Contents (Elt F)),
    StableHlo.binary main_v283 main_v320 main_v321 (addf : (⟨S8x2097152, .f32⟩ : BufTy).Contents (Elt F) → (⟨S8x2097152, .f32⟩ : BufTy).Contents (Elt F) → (⟨S8x2097152, .f32⟩ : BufTy).Contents (Elt F)),
    StableHlo.binary main_v284 main_v307 main_v322 (addf : (⟨S2097152, .f32⟩ : BufTy).Contents (Elt F) → (⟨S2097152, .f32⟩ : BufTy).Contents (Elt F) → (⟨S2097152, .f32⟩ : BufTy).Contents (Elt F)) ]

/-- Statements 444 … 450 of @main: 12 operations. -/
abbrev posta : List (HloOp τ sig (Elt F)) :=
  [ StableHlo.nullary main_cst_118 (constant S_ .f32 0x322BCC77#32),
    StableHlo.nullary main_cst_119 (constant S_ .f32 0x41000000#32),
    StableHlo.TRef.unary (.of main_cst_118 : StableHlo.TRef sig ⟨S_, .f32⟩) main_call35.v0 id,
    StableHlo.TRef.unary main_call35.v0 main_call35.v1 (broadcastInDim S2097152 ![] bcast_S_S2097152),
    StableHlo.TRef.binary main_call35.v1 (.of main_v322 : StableHlo.TRef sig ⟨S2097152, .f32⟩) main_call35.v2 maximumf,
    StableHlo.TRef.unary (.of main_cst_119 : StableHlo.TRef sig ⟨S_, .f32⟩) main_call35.v3 id,
    StableHlo.TRef.unary main_call35.v3 main_call35.v4 (broadcastInDim S2097152 ![] bcast_S_S2097152),
    StableHlo.TRef.binary main_call35.v4 main_call35.v2 main_call35.v5 minimumf,
    StableHlo.unary main_v323 main_v324 (broadcastInDim S1x2097152 ![1] bcast_S2097152_S1x2097152_1 : (⟨S2097152, .f32⟩ : BufTy).Contents (Elt F) → (⟨S1x2097152, .f32⟩ : BufTy).Contents (Elt F)),
    StableHlo.unary main_v324 main_v325 (broadcastInDim S8x2097152 ![0, 1] bcast_S1x2097152_S8x2097152_0_1 : (⟨S1x2097152, .f32⟩ : BufTy).Contents (Elt F) → (⟨S8x2097152, .f32⟩ : BufTy).Contents (Elt F)),
    StableHlo.binary main_v321 main_v325 main_v326 (Host.divf : (⟨S8x2097152, .f32⟩ : BufTy).Contents (Elt F) → (⟨S8x2097152, .f32⟩ : BufTy).Contents (Elt F) → (⟨S8x2097152, .f32⟩ : BufTy).Contents (Elt F)),
    StableHlo.reshape main_v326 main_v327 rfl shapeCasts_S8x2097152_S8x128x128x128x1 ]

end Cert.ReferenceIdeal.Hand

end
-- ==== Proof.RefLine.lean ====
/-
  The reference program's @main as one line of host operations, and its run read back.

  @main is printed in eight windows; each window is the straight line `seq` of its operations once the outlined functions'
  definitions are unfolded at their calls (a call is the callee's body on the operands: unfolding is the inlining) and
  sequencing is reassociated. The whole program is then the line of all the operations (`seq_append`), and `run_seq`
  reads the run back: every weakly fair execution terminates and every buffer ends at the fold `after ops` of the
  operations' results over the launch contents.
-/
import proofs.«133722_j65515431133592_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order: the lines before the corners, the eight corners (each in the pieces the printed
    windows cut it into), the lines after. -/
abbrev ops : List (HloOp τ sig (Elt F)) :=
  prea ++ (k0a ++ (k0b ++ (k1a ++ (k1b ++ (k2a ++ (k2b ++ (k3a ++ (k4a ++ (k4b ++ (k5a ++ (k5b ++ (k6a ++ (k6b ++ (k7a ++ (k7b ++ (posta))))))))))))))))

/-! ## Each printed window is the line of its operations -/

set_option maxRecDepth 16384 in
set_option maxHeartbeats 4000000 in
theorem part0_eq (c : Dev nD) : main_part0 (F := F) c = seq (prea ++ (k0a)) := by
  simp only [main_part0, fn_clip.body, fn_take.body, fn_where.body, fn_clip_0.body, prea, k0a, List.cons_append, List.nil_append, seq, bind_assoc, pure_bind]
  rfl

set_option maxRecDepth 16384 in
set_option maxHeartbeats 4000000 in
theorem part1_eq (c : Dev nD) : main_part1 (F := F) c = seq (k0b ++ (k1a)) := by
  simp only [main_part1, fn_clip.body, fn_take.body, fn_where.body, fn_clip_0.body, k0b, k1a, List.cons_append, List.nil_append, seq, bind_assoc, pure_bind]
  rfl

set_option maxRecDepth 16384 in
set_option maxHeartbeats 4000000 in
theorem part2_eq (c : Dev nD) : main_part2 (F := F) c = seq (k1b ++ (k2a)) := by
  simp only [main_part2, fn_clip.body, fn_take.body, fn_where.body, fn_clip_0.body, k1b, k2a, List.cons_append, List.nil_append, seq, bind_assoc, pure_bind]
  rfl

set_option maxRecDepth 16384 in
set_option maxHeartbeats 4000000 in
theorem part3_eq (c : Dev nD) : main_part3 (F := F) c = seq (k2b ++ (k3a ++ (k4a))) := by
  simp only [main_part3, fn_clip.body, fn_take.body, fn_where.body, fn_clip_0.body, k2b, k3a, k4a, List.cons_append, List.nil_append, seq, bind_assoc, pure_bind]
  rfl

set_option maxRecDepth 16384 in
set_option maxHeartbeats 4000000 in
theorem part4_eq (c : Dev nD) : main_part4 (F := F) c = seq (k4b ++ (k5a)) := by
  simp only [main_part4, fn_clip.body, fn_take.body, fn_where.body, fn_clip_0.body, k4b, k5a, List.cons_append, List.nil_append, seq, bind_assoc, pure_bind]
  rfl

set_option maxRecDepth 16384 in
set_option maxHeartbeats 4000000 in
theorem part5_eq (c : Dev nD) : main_part5 (F := F) c = seq (k5b ++ (k6a)) := by
  simp only [main_part5, fn_clip.body, fn_take.body, fn_where.body, fn_clip_0.body, k5b, k6a, List.cons_append, List.nil_append, seq, bind_assoc, pure_bind]
  rfl

set_option maxRecDepth 16384 in
set_option maxHeartbeats 4000000 in
theorem part6_eq (c : Dev nD) : main_part6 (F := F) c = seq (k6b ++ (k7a)) := by
  simp only [main_part6, fn_clip.body, fn_take.body, fn_where.body, fn_clip_0.body, k6b, k7a, List.cons_append, List.nil_append, seq, bind_assoc, pure_bind]
  rfl

set_option maxRecDepth 16384 in
set_option maxHeartbeats 4000000 in
theorem part7_eq (c : Dev nD) : main_part7 (F := F) c = seq (k7b ++ posta) := by
  simp only [main_part7, fn_clip.body, fn_take.body, fn_where.body, fn_clip_0.body, k7b, posta, List.cons_append, List.nil_append, seq, bind_assoc, pure_bind]

/-- @main is the line of all its operations: the windows in order, each the line of its own (`seq_append`). -/
theorem main_eq (c : Dev nD) : main (F := F) c = seq ops := by
  simp only [main, part0_eq, part1_eq, part2_eq, part3_eq, part4_eq, part5_eq, part6_eq, part7_eq, ops, seq_append, bind_assoc]

end Cert.ReferenceIdeal.Hand

end
-- ==== Proof.RefSide.lean ====
/-
  Side conditions of the reference's line of operations, list by list: every operation touches TensorCore references only,
  every operation determines its results (none allocates a buffer with contents not chosen), and no operation writes one
  of @main's six argument arrays, so each list leaves them as they were.
-/
import proofs.«133722_j65515431133592_2_alg».proof.Proof.RefOps
import proofs.«133722_j65515431133592_2_alg».proof.Proof.LibAfterAppend

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What `run_seq` asks of a line of operations, and that it leaves the six argument arrays alone. -/
structure Good (l : List (HloOp τ sig (Elt F))) : Prop where
  sub : l.Forall fun op => op.bufs ⊆ tcRefs τ sig
  fresh : ∀ op ∈ l, op.fresh = ∅
  args : ∀ V : Valuation τ sig (Elt F),
    after l V (main_arg0 : DevRef τ sig) = V (main_arg0 : DevRef τ sig) ∧ after l V (main_arg1 : DevRef τ sig) = V (main_arg1 : DevRef τ sig)
    ∧ after l V (main_arg2 : DevRef τ sig) = V (main_arg2 : DevRef τ sig) ∧ after l V (main_arg3 : DevRef τ sig) = V (main_arg3 : DevRef τ sig)
    ∧ after l V (main_arg4 : DevRef τ sig) = V (main_arg4 : DevRef τ sig) ∧ after l V (main_arg5 : DevRef τ sig) = V (main_arg5 : DevRef τ sig)

/-- Two good lines one after the other are a good line: the properties are per operation, and the contents after the
    appended line are the second's from the first's (`after_append`). -/
theorem Good.append {l₁ l₂ : List (HloOp τ sig (Elt F))} (h₁ : Good l₁) (h₂ : Good l₂) : Good (l₁ ++ l₂) where
  sub := List.forall_iff_forall_mem.2 fun op hop => by
    rcases List.mem_append.1 hop with h | h
    · exact List.forall_iff_forall_mem.1 h₁.sub op h
    · exact List.forall_iff_forall_mem.1 h₂.sub op h
  fresh := fun op hop => by
    rcases List.mem_append.1 hop with h | h
    · exact h₁.fresh op h
    · exact h₂.fresh op h
  args := fun V => by
    obtain ⟨a0, a1, a2, a3, a4, a5⟩ := h₁.args V
    obtain ⟨b0, b1, b2, b3, b4, b5⟩ := h₂.args (after l₁ V)
    rw [after_append]
    exact ⟨b0.trans a0, b1.trans a1, b2.trans a2, b3.trans a3, b4.trans a4, b5.trans a5⟩

/-- A literal list's operations each touch TensorCore references only: the builders' `*_bufs_sub`, one per item. -/
macro "bufs_sub_all" : tactic =>
  `(tactic| (simp only [List.Forall, nullary_bufs_sub, unary_bufs_sub, binary_bufs_sub, ternary_bufs_sub, reshape_bufs_sub, and_self]))

/-- No operation of a literal list leaves contents not chosen: item by item, `fresh` is the empty set by computation. -/
macro "fresh_all" : tactic =>
  `(tactic| (intro _ h; (repeat (cases h with | head => rfl | tail _ h => ?_)); exact nomatch h))

set_option maxRecDepth 16384 in
set_option maxHeartbeats 4000000 in
theorem prea_good : Good (prea : List (HloOp τ sig (Elt F))) where
  sub := by unfold prea; bufs_sub_all
  fresh := by unfold prea; fresh_all
  args := fun V => by
    unfold prea
    refine ⟨?_, ?_, ?_, ?_, ?_, ?_⟩ <;> after_results_simp

set_option maxRecDepth 16384 in
set_option maxHeartbeats 4000000 in
theorem k0a_good : Good (k0a : List (HloOp τ sig (Elt F))) where
  sub := by unfold k0a; bufs_sub_all
  fresh := by unfold k0a; fresh_all
  args := fun V => by
    unfold k0a
    refine ⟨?_, ?_, ?_, ?_, ?_, ?_⟩ <;> after_results_simp

set_option maxRecDepth 16384 in
set_option maxHeartbeats 4000000 in
theorem k0b_good : Good (k0b : List (HloOp τ sig (Elt F))) where
  sub := by unfold k0b; bufs_sub_all
  fresh := by unfold k0b; fresh_all
  args := fun V => by
    unfold k0b
    refine ⟨?_, ?_, ?_, ?_, ?_, ?_⟩ <;> after_results_simp

set_option maxRecDepth 16384 in
set_option maxHeartbeats 4000000 in
theorem k1a_good : Good (k1a : List (HloOp τ sig (Elt F))) where
  sub := by unfold k1a; bufs_sub_all
  fresh := by unfold k1a; fresh_all
  args := fun V => by
    unfold k1a
    refine ⟨?_, ?_, ?_, ?_, ?_, ?_⟩ <;> after_results_simp

set_option maxRecDepth 16384 in
set_option maxHeartbeats 4000000 in
theorem k1b_good : Good (k1b : List (HloOp τ sig (Elt F))) where
  sub := by unfold k1b; bufs_sub_all
  fresh := by unfold k1b; fresh_all
  args := fun V => by
    unfold k1b
    refine ⟨?_, ?_, ?_, ?_, ?_, ?_⟩ <;> after_results_simp

set_option maxRecDepth 16384 in
set_option maxHeartbeats 4000000 in
theorem k2a_good : Good (k2a : List (HloOp τ sig (Elt F))) where
  sub := by unfold k2a; bufs_sub_all
  fresh := by unfold k2a; fresh_all
  args := fun V => by
    unfold k2a
    refine ⟨?_, ?_, ?_, ?_, ?_, ?_⟩ <;> after_results_simp

set_option maxRecDepth 16384 in
set_option maxHeartbeats 4000000 in
theorem k2b_good : Good (k2b : List (HloOp τ sig (Elt F))) where
  sub := by unfold k2b; bufs_sub_all
  fresh := by unfold k2b; fresh_all
  args := fun V => by
    unfold k2b
    refine ⟨?_, ?_, ?_, ?_, ?_, ?_⟩ <;> after_results_simp

set_option maxRecDepth 16384 in
set_option maxHeartbeats 4000000 in
theorem k3a_good : Good (k3a : List (HloOp τ sig (Elt F))) where
  sub := by unfold k3a; bufs_sub_all
  fresh := by unfold k3a; fresh_all
  args := fun V => by
    unfold k3a
    refine ⟨?_, ?_, ?_, ?_, ?_, ?_⟩ <;> after_results_simp

set_option maxRecDepth 16384 in
set_option maxHeartbeats 4000000 in
theorem k4a_good : Good (k4a : List (HloOp τ sig (Elt F))) where
  sub := by unfold k4a; bufs_sub_all
  fresh := by unfold k4a; fresh_all
  args := fun V => by
    unfold k4a
    refine ⟨?_, ?_, ?_, ?_, ?_, ?_⟩ <;> after_results_simp

set_option maxRecDepth 16384 in
set_option maxHeartbeats 4000000 in
theorem k4b_good : Good (k4b : List (HloOp τ sig (Elt F))) where
  sub := by unfold k4b; bufs_sub_all
  fresh := by unfold k4b; fresh_all
  args := fun V => by
    unfold k4b
    refine ⟨?_, ?_, ?_, ?_, ?_, ?_⟩ <;> after_results_simp

set_option maxRecDepth 16384 in
set_option maxHeartbeats 4000000 in
theorem k5a_good : Good (k5a : List (HloOp τ sig (Elt F))) where
  sub := by unfold k5a; bufs_sub_all
  fresh := by unfold k5a; fresh_all
  args := fun V => by
    unfold k5a
    refine ⟨?_, ?_, ?_, ?_, ?_, ?_⟩ <;> after_results_simp

set_option maxRecDepth 16384 in
set_option maxHeartbeats 4000000 in
theorem k5b_good : Good (k5b : List (HloOp τ sig (Elt F))) where
  sub := by unfold k5b; bufs_sub_all
  fresh := by unfold k5b; fresh_all
  args := fun V => by
    unfold k5b
    refine ⟨?_, ?_, ?_, ?_, ?_, ?_⟩ <;> after_results_simp

set_option maxRecDepth 16384 in
set_option maxHeartbeats 4000000 in
theorem k6a_good : Good (k6a : List (HloOp τ sig (Elt F))) where
  sub := by unfold k6a; bufs_sub_all
  fresh := by unfold k6a; fresh_all
  args := fun V => by
    unfold k6a
    refine ⟨?_, ?_, ?_, ?_, ?_, ?_⟩ <;> after_results_simp

set_option maxRecDepth 16384 in
set_option maxHeartbeats 4000000 in
theorem k6b_good : Good (k6b : List (HloOp τ sig (Elt F))) where
  sub := by unfold k6b; bufs_sub_all
  fresh := by unfold k6b; fresh_all
  args := fun V => by
    unfold k6b
    refine ⟨?_, ?_, ?_, ?_, ?_, ?_⟩ <;> after_results_simp

set_option maxRecDepth 16384 in
set_option maxHeartbeats 4000000 in
theorem k7a_good : Good (k7a : List (HloOp τ sig (Elt F))) where
  sub := by unfold k7a; bufs_sub_all
  fresh := by unfold k7a; fresh_all
  args := fun V => by
    unfold k7a
    refine ⟨?_, ?_, ?_, ?_, ?_, ?_⟩ <;> after_results_simp

set_option maxRecDepth 16384 in
set_option maxHeartbeats 4000000 in
theorem k7b_good : Good (k7b : List (HloOp τ sig (Elt F))) where
  sub := by unfold k7b; bufs_sub_all
  fresh := by unfold k7b; fresh_all
  args := fun V => by
    unfold k7b
    refine ⟨?_, ?_, ?_, ?_, ?_, ?_⟩ <;> after_results_simp

set_option maxRecDepth 16384 in
set_option maxHeartbeats 4000000 in
theorem posta_good : Good (posta : List (HloOp τ sig (Elt F))) where
  sub := by unfold posta; bufs_sub_all
  fresh := by unfold posta; fresh_all
  args := fun V => by
    unfold posta
    refine ⟨?_, ?_, ?_, ?_, ?_, ?_⟩ <;> after_results_simp

end Cert.ReferenceIdeal.Hand

end
-- ==== Proof.RefRun.lean ====
/-
  The reference program's run and its frame.

  The line of all of @main's operations satisfies what `run_seq` asks (each list does, and the properties pass to appended
  lists), so from any memory with zero counters every weakly fair execution of @main terminates, nothing faulting, with every
  TensorCore buffer at the fold `after ops` of the operations' results over the launch contents. No operation writes an
  argument array, so the six arguments end as they began: the frame.
-/
import proofs.«133722_j65515431133592_2_alg».proof.Proof.RefLine
import proofs.«133722_j65515431133592_2_alg».proof.Proof.RefSide

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The whole line is good: its lists are, in order. -/
theorem ops_good : Good (ops : List (HloOp τ sig (Elt F))) :=
  prea_good.append (k0a_good.append (k0b_good.append (k1a_good.append (k1b_good.append (k2a_good.append (k2b_good.append (k3a_good.append (k4a_good.append (k4b_good.append (k5a_good.append (k5b_good.append (k6a_good.append (k6b_good.append (k7a_good.append (k7b_good.append (posta_good))))))))))))))))

theorem ops_sub : (ops : List (HloOp τ sig (Elt F))).Forall fun op => op.bufs ⊆ tcRefs τ sig := ops_good.sub

-- the decision enumerates the signature's 772 references
set_option maxRecDepth 100000 in
/-- The signature scopes no TensorCore buffer (the program has no kernel, hence no staging buffer and no scratch). -/
theorem scopedRefs_eq : (Finset.univ.filter fun b : Ref sig .tc => b.isScoped) = ∅ := by decide
/-- It has no semaphore at all. -/
theorem scopedSems_eq : (Finset.univ.filter fun sm : SemLoc sig => sm.isScoped .tc) = ∅ := by decide

/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_good.fresh)

/-! ## The arguments are not written -/

theorem arg0_eq (V : Valuation τ sig (Elt F)) : after ops V (main_arg0 : DevRef τ sig) = V (main_arg0 : DevRef τ sig) :=
  (ops_good.args V).1

theorem arg1_eq (V : Valuation τ sig (Elt F)) : after ops V (main_arg1 : DevRef τ sig) = V (main_arg1 : DevRef τ sig) :=
  (ops_good.args V).2.1

theorem arg2_eq (V : Valuation τ sig (Elt F)) : after ops V (main_arg2 : DevRef τ sig) = V (main_arg2 : DevRef τ sig) :=
  (ops_good.args V).2.2.1

theorem arg3_eq (V : Valuation τ sig (Elt F)) : after ops V (main_arg3 : DevRef τ sig) = V (main_arg3 : DevRef τ sig) :=
  (ops_good.args V).2.2.2.1

theorem arg4_eq (V : Valuation τ sig (Elt F)) : after ops V (main_arg4 : DevRef τ sig) = V (main_arg4 : DevRef τ sig) :=
  (ops_good.args V).2.2.2.2.1

theorem arg5_eq (V : Valuation τ sig (Elt F)) : after ops V (main_arg5 : DevRef τ sig) = V (main_arg5 : DevRef τ sig) :=
  (ops_good.args V).2.2.2.2.2

/-- The frame: @main runs (terminates, no fault) and its six argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.Hand

end
-- ==== Proof.RefStages.lean ====
/-
  The reference program's result as a term of its six arguments, in small named stages that follow the program's own lines.

  The program: p = T · (S · (R · points) + ct), a [4, N] array (N = 128³ = 2097152) of voxel coordinates; its rows 0, 1, 2 are
  the coordinates along the three axes. Each coordinate is clipped to [0, 127] and floored. Eight corner blocks follow, one per
  offset (dk, dj, di) ∈ {0,1}³: the corner's integer coordinates are the clipped floor plus the offset, its weight the product
  over the axes of 1 - |clipped coordinate - corner coordinate|, its flat index i · 16384 + j · 128 + k; the block adds
  weight · x[·, index] to the running values and the weight to the running total. The result is values / clip(total, 1e-8, 8),
  reshaped to the volume.

  Every stage is spelled with the program's own operations, so that the run's fold at a buffer is the stage by computation.
-/
import proofs.«133722_j65515431133592_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A vector of N floats, of N indices; an 8 × N and a 4 × N array of floats; a 4 × 4 matrix; the volume. -/
abbrev VecN (F : FTy → Type) : Type := (⟨S2097152, .f32⟩ : BufTy).Contents (Elt F)
abbrev IdxN (F : FTy → Type) : Type := (⟨S2097152, .i32⟩ : BufTy).Contents (Elt F)
abbrev Mat8N (F : FTy → Type) : Type := (⟨S8x2097152, .f32⟩ : BufTy).Contents (Elt F)
abbrev Mat4N (F : FTy → Type) : Type := (⟨S4x2097152, .f32⟩ : BufTy).Contents (Elt F)
abbrev Mat44 (F : FTy → Type) : Type := (⟨S4x4, .f32⟩ : BufTy).Contents (Elt F)
abbrev Vol (F : FTy → Type) : Type := (⟨S8x128x128x128x1, .f32⟩ : BufTy).Contents (Elt F)

/-! ## Before the corners -/

/-- A 4 × 4 matrix times a 4 × N array (the program's dot_general, default precision). -/
def mat4 (A : Mat44 F) (p : Mat4N F) : Mat4N F :=
  Host.dotGeneral dot_S4x4_S4x2097152_S4x2097152_1_0_0_1_n_n none A p

/-- The voxel coordinates p = T · (S · (R · points) + ct). -/
def coords (pts ct : Mat4N F) (R S T : Mat44 F) : Mat4N F :=
  mat4 T (addf (mat4 S (mat4 R pts)) ct)

/-- Rows 0, 1, 2 of a 4 × N array as vectors: the slice of one row, reshaped. -/
def row0 (p : Mat4N F) : VecN F :=
  shapeCast S2097152 ((extractStridedSlice S1x2097152 ![0, 0] p slices_S4x2097152_S1x2097152_0_0 : (⟨S1x2097152, .f32⟩ : BufTy).Contents (Elt F))) shapeCasts_S1x2097152_S2097152
def row1 (p : Mat4N F) : VecN F :=
  shapeCast S2097152 ((extractStridedSlice S1x2097152 ![1, 0] p slices_S4x2097152_S1x2097152_1_0 : (⟨S1x2097152, .f32⟩ : BufTy).Contents (Elt F))) shapeCasts_S1x2097152_S2097152
def row2 (p : Mat4N F) : VecN F :=
  shapeCast S2097152 ((extractStridedSlice S1x2097152 ![2, 0] p slices_S4x2097152_S1x2097152_2_0 : (⟨S1x2097152, .f32⟩ : BufTy).Contents (Elt F))) shapeCasts_S1x2097152_S2097152

/-- The float constant of the given bits at every one of the N places. -/
def splatN (w : BitVec 32) : VecN F :=
  broadcastInDim S2097152 ![] bcast_S_S2097152 (constant S_ .f32 w : (⟨S_, .f32⟩ : BufTy).Contents (Elt F))

/-- The integer constant at every one of the N places. -/
def splatI (w : BitVec 32) : IdxN F :=
  broadcastInDim S2097152 ![] bcast_S_S2097152 (constantI S_ 32 w : (⟨S_, .i32⟩ : BufTy).Contents (Elt F))

/-- jnp.clip(x, 0, 127) as the program's outlined @clip computes it: the lower bound a float constant, the upper the
    integer 127 converted; max with the lower first, then min with the upper. -/
def clip127 (x : VecN F) : VecN F :=
  minimumf
    (broadcastInDim S2097152 ![] bcast_S_S2097152 (sitofp .f32 (constantI S_ 32 127#32 : (⟨S_, .i32⟩ : BufTy).Contents (Elt F)) : (⟨S_, .f32⟩ : BufTy).Contents (Elt F)) : VecN F)
    (maximumf (splatN 0x00000000#32) x)

/-- The array of the volume's values the corners gather from: x as 8 × N. -/
def flatX (x : Vol F) : Mat8N F :=
  shapeCast S8x2097152 x shapeCasts_S8x128x128x128x1_S8x2097152

/-- The running values and the running total of weights before the first corner: zero. -/
def vals0 : Mat8N F :=
  broadcastInDim S8x2097152 ![] bcast_S_S8x2097152 (constant S_ .f32 0x00000000#32 : (⟨S_, .f32⟩ : BufTy).Contents (Elt F))
def wtot0 : VecN F := splatN 0x00000000#32

/-! ## One corner -/

/-- The corner's coordinate along one axis: the floored coordinate plus the offset (the float constant of bits `d`: 0 or 1),
    clipped to [0, 127]. -/
def cornerCoord (d : BitVec 32) (f : VecN F) : VecN F :=
  clip127 (addf f (splatN d))

/-- The weight along one axis: 1 - |clipped coordinate - corner coordinate|. -/
def axisWeight (c i : VecN F) : VecN F :=
  subf (splatN 0x3F800000#32) (Host.absf (subf c i))

/-- The corner's weight: the product of the three axes' weights. -/
def cornerWeight (ci cj ck i j k : VecN F) : VecN F :=
  mulf (mulf (axisWeight ci i) (axisWeight cj j)) (axisWeight ck k)

/-- The corner's flat index i · 16384 + j · 128 + k, the coordinates converted to integers. -/
def cornerIndex (i j k : VecN F) : IdxN F :=
  addi (addi (muli (fptosi 32 i : IdxN F) (splatI (F := F) 16384#32)) (muli (fptosi 32 j : IdxN F) (splatI (F := F) 128#32))) (fptosi 32 k : IdxN F)

/-- The index as the gather takes it, N × 1: a negative index wrapped by N first (the outlined @_where), as jnp.take does. -/
def takeIndex (idx : IdxN F) : (⟨S2097152x1, .i32⟩ : BufTy).Contents (Elt F) :=
  broadcastInDim S2097152x1 ![0] bcast_S2097152_S2097152x1_0
    (select (cmpi .slt idx (splatI (F := F) 0#32)) (addi idx (splatI (F := F) 2097152#32)) idx : IdxN F)

/-- Which places' (wrapped) index lies in [0, N - 1]: the mask of jnp.take's fill mode. -/
def takeMask (i5 : (⟨S2097152x1, .i32⟩ : BufTy).Contents (Elt F)) : (⟨S2097152, .i1⟩ : BufTy).Contents (Elt F) :=
  Host.reduce IntOp.andi
    (andi
      (cmpi .sge i5 (broadcastInDim S2097152x1 ![] bcast_S_S2097152x1 (constantI S_ 32 0#32 : (⟨S_, .i32⟩ : BufTy).Contents (Elt F)) : (⟨S2097152x1, .i32⟩ : BufTy).Contents (Elt F)))
      (cmpi .sle i5 (broadcastInDim S2097152x1 ![0, 1] bcast_S1x1_S2097152x1_0_1
        (broadcastInDim S1x1 ![1] bcast_S1_S1x1_1 (constantI S1 32 2097151#32 : (⟨S1, .i32⟩ : BufTy).Contents (Elt F)) : (⟨S1x1, .i32⟩ : BufTy).Contents (Elt F)) : (⟨S2097152x1, .i32⟩ : BufTy).Contents (Elt F)))
      : (⟨S2097152x1, .i1⟩ : BufTy).Contents (Elt F))
    (constantI S_ 1 1#1 : (⟨S_, .i1⟩ : BufTy).Contents (Elt F)) reducesTo_S2097152x1_S2097152_d1 h_S_

/-- jnp.take(xf, idx, axis = 1) as the program's outlined @_take computes it: the gathered columns where the index is in
    bounds, the NaN constant elsewhere. -/
def takeCols (xf : Mat8N F) (idx : IdxN F) : Mat8N F :=
  select
    (broadcastInDim S8x2097152 ![1] bcast_S2097152_S8x2097152_1 (takeMask (takeIndex idx)) : (⟨S8x2097152, .i1⟩ : BufTy).Contents (Elt F))
    (Host.gather gather_S8x2097152_S2097152x1_S8x2097152_0_1_n_n_1_1_81 xf (takeIndex idx) : Mat8N F)
    (broadcastInDim S8x2097152 ![] bcast_S_S8x2097152 (constant S_ .f32 0x7FC00000#32 : (⟨S_, .f32⟩ : BufTy).Contents (Elt F)) : Mat8N F)

/-- A vector of N weights at each of the 8 rows. -/
def rows8 (w : VecN F) : Mat8N F :=
  broadcastInDim S8x2097152 ![0, 1] bcast_S1x2097152_S8x2097152_0_1
    (broadcastInDim S1x2097152 ![1] bcast_S2097152_S1x2097152_1 w : (⟨S1x2097152, .f32⟩ : BufTy).Contents (Elt F))

/-- One corner block, the offsets' float constants given by their bits (`di`, `dj`, `dk`: 0x00000000 or 0x3F800000): from
    the flattened volume, the clipped coordinates `ci cj ck`, the floored coordinates `fi fj fk`, the running values and the
    running total, the new running values and the new running total. -/
def cornerStep (di dj dk : BitVec 32) (xf : Mat8N F) (ci cj ck fi fj fk : VecN F) (vals : Mat8N F) (wtot : VecN F) : Mat8N F × VecN F :=
  (addf vals (mulf (rows8 (cornerWeight ci cj ck (cornerCoord di fi) (cornerCoord dj fj) (cornerCoord dk fk)))
      (takeCols xf (cornerIndex (cornerCoord di fi) (cornerCoord dj fj) (cornerCoord dk fk)))),
   addf wtot (cornerWeight ci cj ck (cornerCoord di fi) (cornerCoord dj fj) (cornerCoord dk fk)))

/-! ## After the corners -/

/-- jnp.clip(w, 1e-8, 8.0) as the program's outlined @clip_0 computes it (both bounds float constants). -/
def clipTotal (w : VecN F) : VecN F :=
  minimumf (splatN 0x41000000#32) (maximumf (splatN 0x322BCC77#32) w)

/-- The result from the last running values and total: values / clipped total at every row, as the volume. -/
def finish (vals : Mat8N F) (wtot : VecN F) : Vol F :=
  shapeCast S8x128x128x128x1 (Host.divf vals (rows8 (clipTotal wtot)) : Mat8N F) shapeCasts_S8x2097152_S8x128x128x128x1

/-! ## The whole -/

/-- The eight corners in the program's order, (dk, dj, di) = (0,0,0), (0,0,1), (0,1,0), (0,1,1), (1,0,0), …: the running pair
    after all of them, from zero. -/
def corners (xf : Mat8N F) (ci cj ck fi fj fk : VecN F) : Mat8N F × VecN F :=
  let s0 := cornerStep 0x00000000#32 0x00000000#32 0x00000000#32 xf ci cj ck fi fj fk vals0 wtot0
  let s1 := cornerStep 0x3F800000#32 0x00000000#32 0x00000000#32 xf ci cj ck fi fj fk s0.1 s0.2
  let s2 := cornerStep 0x00000000#32 0x3F800000#32 0x00000000#32 xf ci cj ck fi fj fk s1.1 s1.2
  let s3 := cornerStep 0x3F800000#32 0x3F800000#32 0x00000000#32 xf ci cj ck fi fj fk s2.1 s2.2
  let s4 := cornerStep 0x00000000#32 0x00000000#32 0x3F800000#32 xf ci cj ck fi fj fk s3.1 s3.2
  let s5 := cornerStep 0x3F800000#32 0x00000000#32 0x3F800000#32 xf ci cj ck fi fj fk s4.1 s4.2
  let s6 := cornerStep 0x00000000#32 0x3F800000#32 0x3F800000#32 xf ci cj ck fi fj fk s5.1 s5.2
  cornerStep 0x3F800000#32 0x3F800000#32 0x3F800000#32 xf ci cj ck fi fj fk s6.1 s6.2

/-- The reference's result from its six arguments: the volume `x`, the points and the translation `ct` (4 × N), the three
    4 × 4 matrices. -/
def refOut (x : Vol F) (pts ct : Mat4N F) (R S T : Mat44 F) : Vol F :=
  let p := coords pts ct R S T
  let s := corners (flatX x) (clip127 (row0 p)) (clip127 (row1 p)) (clip127 (row2 p))
    (Host.floor (row0 p)) (Host.floor (row1 p)) (Host.floor (row2 p))
  finish s.1 s.2

end Cert.ReferenceIdeal.Hand

end
-- ==== Proof.RefCast.lean ====
/-
  Contents carried to a typed reference's buffer type and back are the contents. The outlined functions' operations are
  stated at the tensor values' types and carried to the buffers' types (`toBuf`) and back (`ofBuf`); a run's fold through a
  chain of them meets the two in pairs, and this is all it needs of them.
-/
import Idealize.ShloMosaic.Lib.StableHlo

namespace Cert.ReferenceIdeal.Hand

open Idealize.ShloMosaic

theorem ofBuf_toBuf {sg : RefSig} {T : BufTy} {Val : EltTy → Type} (x : StableHlo.TRef sg T) (v : T.Contents Val) :
    x.ofBuf (x.toBuf v) = v := by
  obtain ⟨r, h, h2, h3⟩ := x
  subst h
  rfl

end Cert.ReferenceIdeal.Hand
-- ==== Proof.RefValPre.lean ====
/-
  The reference program's lines before the first corner, read back: from the launch contents V, the flattened volume, the
  three coordinates clipped and floored, and the running pair at zero, each the named stage of V at the arguments.
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem pre_eq (V : Valuation τ sig (Elt F)) :
    after prea V (main_v4 : DevRef τ sig) = flatX (V (main_arg0 : DevRef τ sig))
    ∧ after prea V (main_v11 : DevRef τ sig) = clip127 (row0 (coords (V (main_arg1 : DevRef τ sig)) (V (main_arg2 : DevRef τ sig)) (V (main_arg3 : DevRef τ sig)) (V (main_arg4 : DevRef τ sig)) (V (main_arg5 : DevRef τ sig))))
    ∧ after prea V (main_v12 : DevRef τ sig) = clip127 (row1 (coords (V (main_arg1 : DevRef τ sig)) (V (main_arg2 : DevRef τ sig)) (V (main_arg3 : DevRef τ sig)) (V (main_arg4 : DevRef τ sig)) (V (main_arg5 : DevRef τ sig))))
    ∧ after prea V (main_v13 : DevRef τ sig) = clip127 (row2 (coords (V (main_arg1 : DevRef τ sig)) (V (main_arg2 : DevRef τ sig)) (V (main_arg3 : DevRef τ sig)) (V (main_arg4 : DevRef τ sig)) (V (main_arg5 : DevRef τ sig))))
    ∧ after prea V (main_v14 : DevRef τ sig) = Host.floor (row0 (coords (V (main_arg1 : DevRef τ sig)) (V (main_arg2 : DevRef τ sig)) (V (main_arg3 : DevRef τ sig)) (V (main_arg4 : DevRef τ sig)) (V (main_arg5 : DevRef τ sig))))
    ∧ after prea V (main_v15 : DevRef τ sig) = Host.floor (row1 (coords (V (main_arg1 : DevRef τ sig)) (V (main_arg2 : DevRef τ sig)) (V (main_arg3 : DevRef τ sig)) (V (main_arg4 : DevRef τ sig)) (V (main_arg5 : DevRef τ sig))))
    ∧ after prea V (main_v16 : DevRef τ sig) = Host.floor (row2 (coords (V (main_arg1 : DevRef τ sig)) (V (main_arg2 : DevRef τ sig)) (V (main_arg3 : DevRef τ sig)) (V (main_arg4 : DevRef τ sig)) (V (main_arg5 : DevRef τ sig))))
    ∧ after prea V (main_v17 : DevRef τ sig) = vals0
    ∧ after prea V (main_v18 : DevRef τ sig) = wtot0 := by
  unfold prea
  refine ⟨?_, ?_, ?_, ?_, ?_, ?_, ?_, ?_, ?_⟩ <;> after_results_simp
  all_goals (try simp only [ofBuf_toBuf])
  all_goals (first | rfl | fail "pre_eq: the composed term is not the stage by computation")

end Cert.ReferenceIdeal.Hand

end
-- ==== Proof.RefValK0.lean ====
/-
  The first corner block of the reference program (offsets' bits: di = 0x00000000#32, dj = 0x00000000#32, dk = 0x00000000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k0_vals (W : Valuation τ sig (Elt F)) :
    after k0b (after k0a (W)) (main_v55 : DevRef τ sig)
      = (cornerStep 0x00000000#32 0x00000000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v17 : DevRef τ sig)) (W (main_v18 : DevRef τ sig))).1 := by
  unfold k0a k0b
  after_results_simp
  all_goals (try simp only [ofBuf_toBuf])
  all_goals (first | rfl | fail "k0_vals: the composed term is not the stage by computation")

attribute [local irreducible] Host.gather Host.reduce in
set_option maxRecDepth 16384 in
set_option maxHeartbeats 4000000 in
/-- The new running total. -/
theorem k0_wtot (W : Valuation τ sig (Elt F)) :
    after k0b (after k0a (W)) (main_v56 : DevRef τ sig)
      = (cornerStep 0x00000000#32 0x00000000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v17 : DevRef τ sig)) (W (main_v18 : DevRef τ sig))).2 := by
  unfold k0a k0b
  after_results_simp
  all_goals (try simp only [ofBuf_toBuf])
  all_goals (first | rfl | fail "k0_wtot: the composed term is not the stage by computation")

set_option maxRecDepth 16384 in
set_option maxHeartbeats 4000000 in
/-- The block writes none of the seven buffers every corner reads. -/
theorem k0_keeps (W : Valuation τ sig (Elt F)) :
    after k0b (after k0a (W)) (main_v4 : DevRef τ sig) = W (main_v4 : DevRef τ sig)
    ∧ after k0b (after k0a (W)) (main_v11 : DevRef τ sig) = W (main_v11 : DevRef τ sig)
    ∧ after k0b (after k0a (W)) (main_v12 : DevRef τ sig) = W (main_v12 : DevRef τ sig)
    ∧ after k0b (after k0a (W)) (main_v13 : DevRef τ sig) = W (main_v13 : DevRef τ sig)
    ∧ after k0b (after k0a (W)) (main_v14 : DevRef τ sig) = W (main_v14 : DevRef τ sig)
    ∧ after k0b (after k0a (W)) (main_v15 : DevRef τ sig) = W (main_v15 : DevRef τ sig)
    ∧ after k0b (after k0a (W)) (main_v16 : DevRef τ sig) = W (main_v16 : DevRef τ sig) := by
  unfold k0a k0b
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k0_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v17 : DevRef τ sig) = vals) (hwtot : W (main_v18 : DevRef τ sig) = wtot) :
    after k0b (after k0a (W)) (main_v4 : DevRef τ sig) = xf
    ∧ after k0b (after k0a (W)) (main_v11 : DevRef τ sig) = ci
    ∧ after k0b (after k0a (W)) (main_v12 : DevRef τ sig) = cj
    ∧ after k0b (after k0a (W)) (main_v13 : DevRef τ sig) = ck
    ∧ after k0b (after k0a (W)) (main_v14 : DevRef τ sig) = fi
    ∧ after k0b (after k0a (W)) (main_v15 : DevRef τ sig) = fj
    ∧ after k0b (after k0a (W)) (main_v16 : DevRef τ sig) = fk
    ∧ after k0b (after k0a (W)) (main_v55 : DevRef τ sig) = (cornerStep 0x00000000#32 0x00000000#32 0x00000000#32 xf ci cj ck fi fj fk vals wtot).1
    ∧ after k0b (after k0a (W)) (main_v56 : DevRef τ sig) = (cornerStep 0x00000000#32 0x00000000#32 0x00000000#32 xf ci cj ck fi fj fk vals wtot).2 := by
  obtain ⟨k1, k2, k3, k4, k5, k6, k7⟩ := k0_keeps W
  refine ⟨k1.trans hxf, k2.trans hci, k3.trans hcj, k4.trans hck, k5.trans hfi, k6.trans hfj, k7.trans hfk, ?_, ?_⟩
  · rw [k0_vals, hxf, hci, hcj, hck, hfi, hfj, hfk, hvals, hwtot]
  · rw [k0_wtot, hxf, hci, hcj, hck, hfi, hfj, hfk, hvals, hwtot]

end Cert.ReferenceIdeal.Hand

end
-- ==== Proof.RefValK1.lean ====
/-
  The second corner block of the reference program (offsets' bits: di = 0x3F800000#32, dj = 0x00000000#32, dk = 0x00000000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k1_vals (W : Valuation τ sig (Elt F)) :
    after k1b (after k1a (W)) (main_v93 : DevRef τ sig)
      = (cornerStep 0x3F800000#32 0x00000000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v55 : DevRef τ sig)) (W (main_v56 : DevRef τ sig))).1 := by
  unfold k1a k1b
  after_results_simp
  all_goals (try simp only [ofBuf_toBuf])
  all_goals (first | rfl | fail "k1_vals: the composed term is not the stage by computation")

attribute [local irreducible] Host.gather Host.reduce in
set_option maxRecDepth 16384 in
set_option maxHeartbeats 4000000 in
/-- The new running total. -/
theorem k1_wtot (W : Valuation τ sig (Elt F)) :
    after k1b (after k1a (W)) (main_v94 : DevRef τ sig)
      = (cornerStep 0x3F800000#32 0x00000000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v55 : DevRef τ sig)) (W (main_v56 : DevRef τ sig))).2 := by
  unfold k1a k1b
  after_results_simp
  all_goals (try simp only [ofBuf_toBuf])
  all_goals (first | rfl | fail "k1_wtot: the composed term is not the stage by computation")

set_option maxRecDepth 16384 in
set_option maxHeartbeats 4000000 in
/-- The block writes none of the seven buffers every corner reads. -/
theorem k1_keeps (W : Valuation τ sig (Elt F)) :
    after k1b (after k1a (W)) (main_v4 : DevRef τ sig) = W (main_v4 : DevRef τ sig)
    ∧ after k1b (after k1a (W)) (main_v11 : DevRef τ sig) = W (main_v11 : DevRef τ sig)
    ∧ after k1b (after k1a (W)) (main_v12 : DevRef τ sig) = W (main_v12 : DevRef τ sig)
    ∧ after k1b (after k1a (W)) (main_v13 : DevRef τ sig) = W (main_v13 : DevRef τ sig)
    ∧ after k1b (after k1a (W)) (main_v14 : DevRef τ sig) = W (main_v14 : DevRef τ sig)
    ∧ after k1b (after k1a (W)) (main_v15 : DevRef τ sig) = W (main_v15 : DevRef τ sig)
    ∧ after k1b (after k1a (W)) (main_v16 : DevRef τ sig) = W (main_v16 : DevRef τ sig) := by
  unfold k1a k1b
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k1_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v55 : DevRef τ sig) = vals) (hwtot : W (main_v56 : DevRef τ sig) = wtot) :
    after k1b (after k1a (W)) (main_v4 : DevRef τ sig) = xf
    ∧ after k1b (after k1a (W)) (main_v11 : DevRef τ sig) = ci
    ∧ after k1b (after k1a (W)) (main_v12 : DevRef τ sig) = cj
    ∧ after k1b (after k1a (W)) (main_v13 : DevRef τ sig) = ck
    ∧ after k1b (after k1a (W)) (main_v14 : DevRef τ sig) = fi
    ∧ after k1b (after k1a (W)) (main_v15 : DevRef τ sig) = fj
    ∧ after k1b (after k1a (W)) (main_v16 : DevRef τ sig) = fk
    ∧ after k1b (after k1a (W)) (main_v93 : DevRef τ sig) = (cornerStep 0x3F800000#32 0x00000000#32 0x00000000#32 xf ci cj ck fi fj fk vals wtot).1
    ∧ after k1b (after k1a (W)) (main_v94 : DevRef τ sig) = (cornerStep 0x3F800000#32 0x00000000#32 0x00000000#32 xf ci cj ck fi fj fk vals wtot).2 := by
  obtain ⟨k1, k2, k3, k4, k5, k6, k7⟩ := k1_keeps W
  refine ⟨k1.trans hxf, k2.trans hci, k3.trans hcj, k4.trans hck, k5.trans hfi, k6.trans hfj, k7.trans hfk, ?_, ?_⟩
  · rw [k1_vals, hxf, hci, hcj, hck, hfi, hfj, hfk, hvals, hwtot]
  · rw [k1_wtot, hxf, hci, hcj, hck, hfi, hfj, hfk, hvals, hwtot]

end Cert.ReferenceIdeal.Hand

end
-- ==== Proof.RefValK2.lean ====
/-
  The third corner block of the reference program (offsets' bits: di = 0x00000000#32, dj = 0x3F800000#32, dk = 0x00000000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k2_vals (W : Valuation τ sig (Elt F)) :
    after k2b (after k2a (W)) (main_v131 : DevRef τ sig)
      = (cornerStep 0x00000000#32 0x3F800000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v93 : DevRef τ sig)) (W (main_v94 : DevRef τ sig))).1 := by
  unfold k2a k2b
  after_results_simp
  all_goals (try simp only [ofBuf_toBuf])
  all_goals (first | rfl | fail "k2_vals: the composed term is not the stage by computation")

attribute [local irreducible] Host.gather Host.reduce in
set_option maxRecDepth 16384 in
set_option maxHeartbeats 4000000 in
/-- The new running total. -/
theorem k2_wtot (W : Valuation τ sig (Elt F)) :
    after k2b (after k2a (W)) (main_v132 : DevRef τ sig)
      = (cornerStep 0x00000000#32 0x3F800000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v93 : DevRef τ sig)) (W (main_v94 : DevRef τ sig))).2 := by
  unfold k2a k2b
  after_results_simp
  all_goals (try simp only [ofBuf_toBuf])
  all_goals (first | rfl | fail "k2_wtot: the composed term is not the stage by computation")

set_option maxRecDepth 16384 in
set_option maxHeartbeats 4000000 in
/-- The block writes none of the seven buffers every corner reads. -/
theorem k2_keeps (W : Valuation τ sig (Elt F)) :
    after k2b (after k2a (W)) (main_v4 : DevRef τ sig) = W (main_v4 : DevRef τ sig)
    ∧ after k2b (after k2a (W)) (main_v11 : DevRef τ sig) = W (main_v11 : DevRef τ sig)
    ∧ after k2b (after k2a (W)) (main_v12 : DevRef τ sig) = W (main_v12 : DevRef τ sig)
    ∧ after k2b (after k2a (W)) (main_v13 : DevRef τ sig) = W (main_v13 : DevRef τ sig)
    ∧ after k2b (after k2a (W)) (main_v14 : DevRef τ sig) = W (main_v14 : DevRef τ sig)
    ∧ after k2b (after k2a (W)) (main_v15 : DevRef τ sig) = W (main_v15 : DevRef τ sig)
    ∧ after k2b (after k2a (W)) (main_v16 : DevRef τ sig) = W (main_v16 : DevRef τ sig) := by
  unfold k2a k2b
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k2_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v93 : DevRef τ sig) = vals) (hwtot : W (main_v94 : DevRef τ sig) = wtot) :
    after k2b (after k2a (W)) (main_v4 : DevRef τ sig) = xf
    ∧ after k2b (after k2a (W)) (main_v11 : DevRef τ sig) = ci
    ∧ after k2b (after k2a (W)) (main_v12 : DevRef τ sig) = cj
    ∧ after k2b (after k2a (W)) (main_v13 : DevRef τ sig) = ck
    ∧ after k2b (after k2a (W)) (main_v14 : DevRef τ sig) = fi
    ∧ after k2b (after k2a (W)) (main_v15 : DevRef τ sig) = fj
    ∧ after k2b (after k2a (W)) (main_v16 : DevRef τ sig) = fk
    ∧ after k2b (after k2a (W)) (main_v131 : DevRef τ sig) = (cornerStep 0x00000000#32 0x3F800000#32 0x00000000#32 xf ci cj ck fi fj fk vals wtot).1
    ∧ after k2b (after k2a (W)) (main_v132 : DevRef τ sig) = (cornerStep 0x00000000#32 0x3F800000#32 0x00000000#32 xf ci cj ck fi fj fk vals wtot).2 := by
  obtain ⟨k1, k2, k3, k4, k5, k6, k7⟩ := k2_keeps W
  refine ⟨k1.trans hxf, k2.trans hci, k3.trans hcj, k4.trans hck, k5.trans hfi, k6.trans hfj, k7.trans hfk, ?_, ?_⟩
  · rw [k2_vals, hxf, hci, hcj, hck, hfi, hfj, hfk, hvals, hwtot]
  · rw [k2_wtot, hxf, hci, hcj, hck, hfi, hfj, hfk, hvals, hwtot]

end Cert.ReferenceIdeal.Hand

end
-- ==== Proof.RefValK3.lean ====
/-
  The fourth corner block of the reference program (offsets' bits: di = 0x3F800000#32, dj = 0x3F800000#32, dk = 0x00000000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k3_vals (W : Valuation τ sig (Elt F)) :
    after k3a W (main_v169 : DevRef τ sig)
      = (cornerStep 0x3F800000#32 0x3F800000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v131 : DevRef τ sig)) (W (main_v132 : DevRef τ sig))).1 := by
  unfold k3a
  after_results_simp
  all_goals (try simp only [ofBuf_toBuf])
  all_goals (first | rfl | fail "k3_vals: the composed term is not the stage by computation")

attribute [local irreducible] Host.gather Host.reduce in
set_option maxRecDepth 16384 in
set_option maxHeartbeats 4000000 in
/-- The new running total. -/
theorem k3_wtot (W : Valuation τ sig (Elt F)) :
    after k3a W (main_v170 : DevRef τ sig)
      = (cornerStep 0x3F800000#32 0x3F800000#32 0x00000000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v131 : DevRef τ sig)) (W (main_v132 : DevRef τ sig))).2 := by
  unfold k3a
  after_results_simp
  all_goals (try simp only [ofBuf_toBuf])
  all_goals (first | rfl | fail "k3_wtot: the composed term is not the stage by computation")

set_option maxRecDepth 16384 in
set_option maxHeartbeats 4000000 in
/-- The block writes none of the seven buffers every corner reads. -/
theorem k3_keeps (W : Valuation τ sig (Elt F)) :
    after k3a W (main_v4 : DevRef τ sig) = W (main_v4 : DevRef τ sig)
    ∧ after k3a W (main_v11 : DevRef τ sig) = W (main_v11 : DevRef τ sig)
    ∧ after k3a W (main_v12 : DevRef τ sig) = W (main_v12 : DevRef τ sig)
    ∧ after k3a W (main_v13 : DevRef τ sig) = W (main_v13 : DevRef τ sig)
    ∧ after k3a W (main_v14 : DevRef τ sig) = W (main_v14 : DevRef τ sig)
    ∧ after k3a W (main_v15 : DevRef τ sig) = W (main_v15 : DevRef τ sig)
    ∧ after k3a W (main_v16 : DevRef τ sig) = W (main_v16 : DevRef τ sig) := by
  unfold k3a
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k3_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v131 : DevRef τ sig) = vals) (hwtot : W (main_v132 : DevRef τ sig) = wtot) :
    after k3a W (main_v4 : DevRef τ sig) = xf
    ∧ after k3a W (main_v11 : DevRef τ sig) = ci
    ∧ after k3a W (main_v12 : DevRef τ sig) = cj
    ∧ after k3a W (main_v13 : DevRef τ sig) = ck
    ∧ after k3a W (main_v14 : DevRef τ sig) = fi
    ∧ after k3a W (main_v15 : DevRef τ sig) = fj
    ∧ after k3a W (main_v16 : DevRef τ sig) = fk
    ∧ after k3a W (main_v169 : DevRef τ sig) = (cornerStep 0x3F800000#32 0x3F800000#32 0x00000000#32 xf ci cj ck fi fj fk vals wtot).1
    ∧ after k3a W (main_v170 : DevRef τ sig) = (cornerStep 0x3F800000#32 0x3F800000#32 0x00000000#32 xf ci cj ck fi fj fk vals wtot).2 := by
  obtain ⟨k1, k2, k3, k4, k5, k6, k7⟩ := k3_keeps W
  refine ⟨k1.trans hxf, k2.trans hci, k3.trans hcj, k4.trans hck, k5.trans hfi, k6.trans hfj, k7.trans hfk, ?_, ?_⟩
  · rw [k3_vals, hxf, hci, hcj, hck, hfi, hfj, hfk, hvals, hwtot]
  · rw [k3_wtot, hxf, hci, hcj, hck, hfi, hfj, hfk, hvals, hwtot]

end Cert.ReferenceIdeal.Hand

end
-- ==== Proof.RefValK4.lean ====
/-
  The fifth corner block of the reference program (offsets' bits: di = 0x00000000#32, dj = 0x00000000#32, dk = 0x3F800000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k4_vals (W : Valuation τ sig (Elt F)) :
    after k4b (after k4a (W)) (main_v207 : DevRef τ sig)
      = (cornerStep 0x00000000#32 0x00000000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v169 : DevRef τ sig)) (W (main_v170 : DevRef τ sig))).1 := by
  unfold k4a k4b
  after_results_simp
  all_goals (try simp only [ofBuf_toBuf])
  all_goals (first | rfl | fail "k4_vals: the composed term is not the stage by computation")

attribute [local irreducible] Host.gather Host.reduce in
set_option maxRecDepth 16384 in
set_option maxHeartbeats 4000000 in
/-- The new running total. -/
theorem k4_wtot (W : Valuation τ sig (Elt F)) :
    after k4b (after k4a (W)) (main_v208 : DevRef τ sig)
      = (cornerStep 0x00000000#32 0x00000000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v169 : DevRef τ sig)) (W (main_v170 : DevRef τ sig))).2 := by
  unfold k4a k4b
  after_results_simp
  all_goals (try simp only [ofBuf_toBuf])
  all_goals (first | rfl | fail "k4_wtot: the composed term is not the stage by computation")

set_option maxRecDepth 16384 in
set_option maxHeartbeats 4000000 in
/-- The block writes none of the seven buffers every corner reads. -/
theorem k4_keeps (W : Valuation τ sig (Elt F)) :
    after k4b (after k4a (W)) (main_v4 : DevRef τ sig) = W (main_v4 : DevRef τ sig)
    ∧ after k4b (after k4a (W)) (main_v11 : DevRef τ sig) = W (main_v11 : DevRef τ sig)
    ∧ after k4b (after k4a (W)) (main_v12 : DevRef τ sig) = W (main_v12 : DevRef τ sig)
    ∧ after k4b (after k4a (W)) (main_v13 : DevRef τ sig) = W (main_v13 : DevRef τ sig)
    ∧ after k4b (after k4a (W)) (main_v14 : DevRef τ sig) = W (main_v14 : DevRef τ sig)
    ∧ after k4b (after k4a (W)) (main_v15 : DevRef τ sig) = W (main_v15 : DevRef τ sig)
    ∧ after k4b (after k4a (W)) (main_v16 : DevRef τ sig) = W (main_v16 : DevRef τ sig) := by
  unfold k4a k4b
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k4_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v169 : DevRef τ sig) = vals) (hwtot : W (main_v170 : DevRef τ sig) = wtot) :
    after k4b (after k4a (W)) (main_v4 : DevRef τ sig) = xf
    ∧ after k4b (after k4a (W)) (main_v11 : DevRef τ sig) = ci
    ∧ after k4b (after k4a (W)) (main_v12 : DevRef τ sig) = cj
    ∧ after k4b (after k4a (W)) (main_v13 : DevRef τ sig) = ck
    ∧ after k4b (after k4a (W)) (main_v14 : DevRef τ sig) = fi
    ∧ after k4b (after k4a (W)) (main_v15 : DevRef τ sig) = fj
    ∧ after k4b (after k4a (W)) (main_v16 : DevRef τ sig) = fk
    ∧ after k4b (after k4a (W)) (main_v207 : DevRef τ sig) = (cornerStep 0x00000000#32 0x00000000#32 0x3F800000#32 xf ci cj ck fi fj fk vals wtot).1
    ∧ after k4b (after k4a (W)) (main_v208 : DevRef τ sig) = (cornerStep 0x00000000#32 0x00000000#32 0x3F800000#32 xf ci cj ck fi fj fk vals wtot).2 := by
  obtain ⟨k1, k2, k3, k4, k5, k6, k7⟩ := k4_keeps W
  refine ⟨k1.trans hxf, k2.trans hci, k3.trans hcj, k4.trans hck, k5.trans hfi, k6.trans hfj, k7.trans hfk, ?_, ?_⟩
  · rw [k4_vals, hxf, hci, hcj, hck, hfi, hfj, hfk, hvals, hwtot]
  · rw [k4_wtot, hxf, hci, hcj, hck, hfi, hfj, hfk, hvals, hwtot]

end Cert.ReferenceIdeal.Hand

end
-- ==== Proof.RefValK5.lean ====
/-
  The sixth corner block of the reference program (offsets' bits: di = 0x3F800000#32, dj = 0x00000000#32, dk = 0x3F800000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k5_vals (W : Valuation τ sig (Elt F)) :
    after k5b (after k5a (W)) (main_v245 : DevRef τ sig)
      = (cornerStep 0x3F800000#32 0x00000000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v207 : DevRef τ sig)) (W (main_v208 : DevRef τ sig))).1 := by
  unfold k5a k5b
  after_results_simp
  all_goals (try simp only [ofBuf_toBuf])
  all_goals (first | rfl | fail "k5_vals: the composed term is not the stage by computation")

attribute [local irreducible] Host.gather Host.reduce in
set_option maxRecDepth 16384 in
set_option maxHeartbeats 4000000 in
/-- The new running total. -/
theorem k5_wtot (W : Valuation τ sig (Elt F)) :
    after k5b (after k5a (W)) (main_v246 : DevRef τ sig)
      = (cornerStep 0x3F800000#32 0x00000000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v207 : DevRef τ sig)) (W (main_v208 : DevRef τ sig))).2 := by
  unfold k5a k5b
  after_results_simp
  all_goals (try simp only [ofBuf_toBuf])
  all_goals (first | rfl | fail "k5_wtot: the composed term is not the stage by computation")

set_option maxRecDepth 16384 in
set_option maxHeartbeats 4000000 in
/-- The block writes none of the seven buffers every corner reads. -/
theorem k5_keeps (W : Valuation τ sig (Elt F)) :
    after k5b (after k5a (W)) (main_v4 : DevRef τ sig) = W (main_v4 : DevRef τ sig)
    ∧ after k5b (after k5a (W)) (main_v11 : DevRef τ sig) = W (main_v11 : DevRef τ sig)
    ∧ after k5b (after k5a (W)) (main_v12 : DevRef τ sig) = W (main_v12 : DevRef τ sig)
    ∧ after k5b (after k5a (W)) (main_v13 : DevRef τ sig) = W (main_v13 : DevRef τ sig)
    ∧ after k5b (after k5a (W)) (main_v14 : DevRef τ sig) = W (main_v14 : DevRef τ sig)
    ∧ after k5b (after k5a (W)) (main_v15 : DevRef τ sig) = W (main_v15 : DevRef τ sig)
    ∧ after k5b (after k5a (W)) (main_v16 : DevRef τ sig) = W (main_v16 : DevRef τ sig) := by
  unfold k5a k5b
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k5_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v207 : DevRef τ sig) = vals) (hwtot : W (main_v208 : DevRef τ sig) = wtot) :
    after k5b (after k5a (W)) (main_v4 : DevRef τ sig) = xf
    ∧ after k5b (after k5a (W)) (main_v11 : DevRef τ sig) = ci
    ∧ after k5b (after k5a (W)) (main_v12 : DevRef τ sig) = cj
    ∧ after k5b (after k5a (W)) (main_v13 : DevRef τ sig) = ck
    ∧ after k5b (after k5a (W)) (main_v14 : DevRef τ sig) = fi
    ∧ after k5b (after k5a (W)) (main_v15 : DevRef τ sig) = fj
    ∧ after k5b (after k5a (W)) (main_v16 : DevRef τ sig) = fk
    ∧ after k5b (after k5a (W)) (main_v245 : DevRef τ sig) = (cornerStep 0x3F800000#32 0x00000000#32 0x3F800000#32 xf ci cj ck fi fj fk vals wtot).1
    ∧ after k5b (after k5a (W)) (main_v246 : DevRef τ sig) = (cornerStep 0x3F800000#32 0x00000000#32 0x3F800000#32 xf ci cj ck fi fj fk vals wtot).2 := by
  obtain ⟨k1, k2, k3, k4, k5, k6, k7⟩ := k5_keeps W
  refine ⟨k1.trans hxf, k2.trans hci, k3.trans hcj, k4.trans hck, k5.trans hfi, k6.trans hfj, k7.trans hfk, ?_, ?_⟩
  · rw [k5_vals, hxf, hci, hcj, hck, hfi, hfj, hfk, hvals, hwtot]
  · rw [k5_wtot, hxf, hci, hcj, hck, hfi, hfj, hfk, hvals, hwtot]

end Cert.ReferenceIdeal.Hand

end
-- ==== Proof.RefValK6.lean ====
/-
  The seventh corner block of the reference program (offsets' bits: di = 0x00000000#32, dj = 0x3F800000#32, dk = 0x3F800000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k6_vals (W : Valuation τ sig (Elt F)) :
    after k6b (after k6a (W)) (main_v283 : DevRef τ sig)
      = (cornerStep 0x00000000#32 0x3F800000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v245 : DevRef τ sig)) (W (main_v246 : DevRef τ sig))).1 := by
  unfold k6a k6b
  after_results_simp
  all_goals (try simp only [ofBuf_toBuf])
  all_goals (first | rfl | fail "k6_vals: the composed term is not the stage by computation")

attribute [local irreducible] Host.gather Host.reduce in
set_option maxRecDepth 16384 in
set_option maxHeartbeats 4000000 in
/-- The new running total. -/
theorem k6_wtot (W : Valuation τ sig (Elt F)) :
    after k6b (after k6a (W)) (main_v284 : DevRef τ sig)
      = (cornerStep 0x00000000#32 0x3F800000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v245 : DevRef τ sig)) (W (main_v246 : DevRef τ sig))).2 := by
  unfold k6a k6b
  after_results_simp
  all_goals (try simp only [ofBuf_toBuf])
  all_goals (first | rfl | fail "k6_wtot: the composed term is not the stage by computation")

set_option maxRecDepth 16384 in
set_option maxHeartbeats 4000000 in
/-- The block writes none of the seven buffers every corner reads. -/
theorem k6_keeps (W : Valuation τ sig (Elt F)) :
    after k6b (after k6a (W)) (main_v4 : DevRef τ sig) = W (main_v4 : DevRef τ sig)
    ∧ after k6b (after k6a (W)) (main_v11 : DevRef τ sig) = W (main_v11 : DevRef τ sig)
    ∧ after k6b (after k6a (W)) (main_v12 : DevRef τ sig) = W (main_v12 : DevRef τ sig)
    ∧ after k6b (after k6a (W)) (main_v13 : DevRef τ sig) = W (main_v13 : DevRef τ sig)
    ∧ after k6b (after k6a (W)) (main_v14 : DevRef τ sig) = W (main_v14 : DevRef τ sig)
    ∧ after k6b (after k6a (W)) (main_v15 : DevRef τ sig) = W (main_v15 : DevRef τ sig)
    ∧ after k6b (after k6a (W)) (main_v16 : DevRef τ sig) = W (main_v16 : DevRef τ sig) := by
  unfold k6a k6b
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k6_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v245 : DevRef τ sig) = vals) (hwtot : W (main_v246 : DevRef τ sig) = wtot) :
    after k6b (after k6a (W)) (main_v4 : DevRef τ sig) = xf
    ∧ after k6b (after k6a (W)) (main_v11 : DevRef τ sig) = ci
    ∧ after k6b (after k6a (W)) (main_v12 : DevRef τ sig) = cj
    ∧ after k6b (after k6a (W)) (main_v13 : DevRef τ sig) = ck
    ∧ after k6b (after k6a (W)) (main_v14 : DevRef τ sig) = fi
    ∧ after k6b (after k6a (W)) (main_v15 : DevRef τ sig) = fj
    ∧ after k6b (after k6a (W)) (main_v16 : DevRef τ sig) = fk
    ∧ after k6b (after k6a (W)) (main_v283 : DevRef τ sig) = (cornerStep 0x00000000#32 0x3F800000#32 0x3F800000#32 xf ci cj ck fi fj fk vals wtot).1
    ∧ after k6b (after k6a (W)) (main_v284 : DevRef τ sig) = (cornerStep 0x00000000#32 0x3F800000#32 0x3F800000#32 xf ci cj ck fi fj fk vals wtot).2 := by
  obtain ⟨k1, k2, k3, k4, k5, k6, k7⟩ := k6_keeps W
  refine ⟨k1.trans hxf, k2.trans hci, k3.trans hcj, k4.trans hck, k5.trans hfi, k6.trans hfj, k7.trans hfk, ?_, ?_⟩
  · rw [k6_vals, hxf, hci, hcj, hck, hfi, hfj, hfk, hvals, hwtot]
  · rw [k6_wtot, hxf, hci, hcj, hck, hfi, hfj, hfk, hvals, hwtot]

end Cert.ReferenceIdeal.Hand

end
-- ==== Proof.RefValK7.lean ====
/-
  The eighth corner block of the reference program (offsets' bits: di = 0x3F800000#32, dj = 0x3F800000#32, dk = 0x3F800000#32), read back: from any
  contents W, after the block's operations the new running values and the new running total are the corner stage
  `cornerStep` of what W holds at the flattened volume, the clipped and the floored coordinates and the old running pair, and
  the seven buffers every corner reads are as W had them (the block writes none of them).
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gather and the reduction are searches and folds over the operand's elements: kept folded, the equation never looks inside
attribute [local irreducible] Host.gather Host.reduce in
set_option maxRecDepth 16384 in
set_option maxHeartbeats 4000000 in
/-- The new running values: each operation's result at its own buffer is its function of its operands' contents, at any
    other buffer what was there; a value carried to a buffer's type and back is itself; the composed term is then the stage by
    unfolding the stage's definitions. -/
theorem k7_vals (W : Valuation τ sig (Elt F)) :
    after k7b (after k7a (W)) (main_v321 : DevRef τ sig)
      = (cornerStep 0x3F800000#32 0x3F800000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v283 : DevRef τ sig)) (W (main_v284 : DevRef τ sig))).1 := by
  unfold k7a k7b
  after_results_simp
  all_goals (try simp only [ofBuf_toBuf])
  all_goals (first | rfl | fail "k7_vals: the composed term is not the stage by computation")

attribute [local irreducible] Host.gather Host.reduce in
set_option maxRecDepth 16384 in
set_option maxHeartbeats 4000000 in
/-- The new running total. -/
theorem k7_wtot (W : Valuation τ sig (Elt F)) :
    after k7b (after k7a (W)) (main_v322 : DevRef τ sig)
      = (cornerStep 0x3F800000#32 0x3F800000#32 0x3F800000#32 (W (main_v4 : DevRef τ sig)) (W (main_v11 : DevRef τ sig)) (W (main_v12 : DevRef τ sig)) (W (main_v13 : DevRef τ sig)) (W (main_v14 : DevRef τ sig)) (W (main_v15 : DevRef τ sig)) (W (main_v16 : DevRef τ sig)) (W (main_v283 : DevRef τ sig)) (W (main_v284 : DevRef τ sig))).2 := by
  unfold k7a k7b
  after_results_simp
  all_goals (try simp only [ofBuf_toBuf])
  all_goals (first | rfl | fail "k7_wtot: the composed term is not the stage by computation")

set_option maxRecDepth 16384 in
set_option maxHeartbeats 4000000 in
/-- The block writes none of the seven buffers every corner reads. -/
theorem k7_keeps (W : Valuation τ sig (Elt F)) :
    after k7b (after k7a (W)) (main_v4 : DevRef τ sig) = W (main_v4 : DevRef τ sig)
    ∧ after k7b (after k7a (W)) (main_v11 : DevRef τ sig) = W (main_v11 : DevRef τ sig)
    ∧ after k7b (after k7a (W)) (main_v12 : DevRef τ sig) = W (main_v12 : DevRef τ sig)
    ∧ after k7b (after k7a (W)) (main_v13 : DevRef τ sig) = W (main_v13 : DevRef τ sig)
    ∧ after k7b (after k7a (W)) (main_v14 : DevRef τ sig) = W (main_v14 : DevRef τ sig)
    ∧ after k7b (after k7a (W)) (main_v15 : DevRef τ sig) = W (main_v15 : DevRef τ sig)
    ∧ after k7b (after k7a (W)) (main_v16 : DevRef τ sig) = W (main_v16 : DevRef τ sig) := by
  unfold k7a k7b
  refine ⟨?_, ?_, ?_, ?_, ?_, ?_, ?_⟩ <;> after_results_simp

/-- The block as a step: if W holds the flattened volume, the clipped and floored coordinates and a running pair at the
    block's input buffers, then after the block the same seven are still there and the output buffers hold the corner stage. -/
theorem k7_step (W : Valuation τ sig (Elt F)) {xf : Mat8N F} {ci cj ck fi fj fk : VecN F} {vals : Mat8N F} {wtot : VecN F}
    (hxf : W (main_v4 : DevRef τ sig) = xf) (hci : W (main_v11 : DevRef τ sig) = ci) (hcj : W (main_v12 : DevRef τ sig) = cj) (hck : W (main_v13 : DevRef τ sig) = ck) (hfi : W (main_v14 : DevRef τ sig) = fi) (hfj : W (main_v15 : DevRef τ sig) = fj) (hfk : W (main_v16 : DevRef τ sig) = fk)
    (hvals : W (main_v283 : DevRef τ sig) = vals) (hwtot : W (main_v284 : DevRef τ sig) = wtot) :
    after k7b (after k7a (W)) (main_v4 : DevRef τ sig) = xf
    ∧ after k7b (after k7a (W)) (main_v11 : DevRef τ sig) = ci
    ∧ after k7b (after k7a (W)) (main_v12 : DevRef τ sig) = cj
    ∧ after k7b (after k7a (W)) (main_v13 : DevRef τ sig) = ck
    ∧ after k7b (after k7a (W)) (main_v14 : DevRef τ sig) = fi
    ∧ after k7b (after k7a (W)) (main_v15 : DevRef τ sig) = fj
    ∧ after k7b (after k7a (W)) (main_v16 : DevRef τ sig) = fk
    ∧ after k7b (after k7a (W)) (main_v321 : DevRef τ sig) = (cornerStep 0x3F800000#32 0x3F800000#32 0x3F800000#32 xf ci cj ck fi fj fk vals wtot).1
    ∧ after k7b (after k7a (W)) (main_v322 : DevRef τ sig) = (cornerStep 0x3F800000#32 0x3F800000#32 0x3F800000#32 xf ci cj ck fi fj fk vals wtot).2 := by
  obtain ⟨k1, k2, k3, k4, k5, k6, k7⟩ := k7_keeps W
  refine ⟨k1.trans hxf, k2.trans hci, k3.trans hcj, k4.trans hck, k5.trans hfi, k6.trans hfj, k7.trans hfk, ?_, ?_⟩
  · rw [k7_vals, hxf, hci, hcj, hck, hfi, hfj, hfk, hvals, hwtot]
  · rw [k7_wtot, hxf, hci, hcj, hck, hfi, hfj, hfk, hvals, hwtot]

end Cert.ReferenceIdeal.Hand

end
-- ==== Proof.RefValPost.lean ====
/-
  The reference program's lines after the last corner, read back: from any contents W, the result buffer holds the last
  stage `finish` of what W holds at the last running values and the last running total.
-/
import proofs.«133722_j65515431133592_2_alg».proof.Proof.RefOps
import proofs.«133722_j65515431133592_2_alg».proof.Proof.RefStages
import proofs.«133722_j65515431133592_2_alg».proof.Proof.RefCast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem post_eq (W : Valuation τ sig (Elt F)) :
    after posta W (main_v327 : DevRef τ sig) = finish (W (main_v321 : DevRef τ sig)) (W (main_v322 : DevRef τ sig)) := by
  unfold posta
  after_results_simp
  all_goals (try simp only [ofBuf_toBuf])
  all_goals (first | rfl | fail "post_eq: the composed term is not the stage by computation")

end Cert.ReferenceIdeal.Hand

end
-- ==== Proof.RefOut.lean ====
/-
  The reference program's result buffer after the whole line of operations is the named term `refOut` of the six arguments.

  The contents after the whole line are the contents after each list in turn (`after_append`). The lines before the corners
  put the flattened volume, the clipped and floored coordinates and the zero running pair in their buffers; each corner block,
  as a step, keeps the first seven and replaces the running pair by the corner stage of it; the lines after the last corner
  turn the last running pair into the result. Threading the eight steps gives `corners`, and the whole `refOut`.
-/
import proofs.«133722_j65515431133592_2_alg».proof.Proof.RefLine
import proofs.«133722_j65515431133592_2_alg».proof.Proof.RefStages
import proofs.«133722_j65515431133592_2_alg».proof.Proof.RefValPre
import proofs.«133722_j65515431133592_2_alg».proof.Proof.RefValK0
import proofs.«133722_j65515431133592_2_alg».proof.Proof.RefValK1
import proofs.«133722_j65515431133592_2_alg».proof.Proof.RefValK2
import proofs.«133722_j65515431133592_2_alg».proof.Proof.RefValK3
import proofs.«133722_j65515431133592_2_alg».proof.Proof.RefValK4
import proofs.«133722_j65515431133592_2_alg».proof.Proof.RefValK5
import proofs.«133722_j65515431133592_2_alg».proof.Proof.RefValK6
import proofs.«133722_j65515431133592_2_alg».proof.Proof.RefValK7
import proofs.«133722_j65515431133592_2_alg».proof.Proof.RefValPost
import proofs.«133722_j65515431133592_2_alg».proof.Proof.LibAfterAppend

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem out_eq (V : Valuation τ sig (Elt F)) :
    after ops V (main_v327 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  simp only [ops, after_append]
  obtain ⟨a1, a2, a3, a4, a5, a6, a7, av, aw⟩ := pre_eq V
  obtain ⟨b1, b2, b3, b4, b5, b6, b7, bv, bw⟩ := k0_step _ a1 a2 a3 a4 a5 a6 a7 av aw
  obtain ⟨c1, c2, c3, c4, c5, c6, c7, cv, cw⟩ := k1_step _ b1 b2 b3 b4 b5 b6 b7 bv bw
  obtain ⟨d1, d2, d3, d4, d5, d6, d7, dv, dw⟩ := k2_step _ c1 c2 c3 c4 c5 c6 c7 cv cw
  obtain ⟨e1, e2, e3, e4, e5, e6, e7, ev, ew⟩ := k3_step _ d1 d2 d3 d4 d5 d6 d7 dv dw
  obtain ⟨f1, f2, f3, f4, f5, f6, f7, fv, fw⟩ := k4_step _ e1 e2 e3 e4 e5 e6 e7 ev ew
  obtain ⟨g1, g2, g3, g4, g5, g6, g7, gv, gw⟩ := k5_step _ f1 f2 f3 f4 f5 f6 f7 fv fw
  obtain ⟨h1, h2, h3, h4, h5, h6, h7, hv, hw⟩ := k6_step _ g1 g2 g3 g4 g5 g6 g7 gv gw
  obtain ⟨i1, i2, i3, i4, i5, i6, i7, iv, iw⟩ := k7_step _ h1 h2 h3 h4 h5 h6 h7 hv hw
  rw [post_eq, iv, iw]
  rfl

end Cert.ReferenceIdeal.Hand

end
-- ==== Proof.RefResult.lean ====
/-
  The reference program's run with its result named: from any memory with zero counters every weakly fair execution of @main
  terminates, nothing faulting, with the result buffer at the named term `refOut` of what the memory held at the six argument
  arrays, and those arrays unchanged. (The run leaves every buffer at the fold of the operations' results; the fold at the result
  buffer is `refOut`, at an argument what was there.)
-/
import proofs.«133722_j65515431133592_2_alg».proof.Proof.RefRun
import proofs.«133722_j65515431133592_2_alg».proof.Proof.RefOut

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ref_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v327)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_v327).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_main m ρ)

end Cert.ReferenceIdeal.Hand

end
-- ==== Proof.LibGatherCols.lean ====
/-
  `stablehlo.gather` of whole COLUMNS by a column of start indices, read at an index.  No program is imported.

  What `jnp.take(x, idx, axis = 1)` lowers to for a table `x : [A, C]` and `M` indices passed as an `[M, 1]` array (index
  vector axis 1, one component per start index, mapped to the operand's axis 1; slice sizes `[A, 1]`, axis 1 collapsed,
  axis 0 the result's offset axis): the result is `[A, M]`, and

  * `gather_cols_apply`: element `(b, p)` is `x` at row `b` and the column `idx[p, 0]`, read as a signed integer and
    clamped into `[0, C − 1]`.

  The dimension numbers are a literal record with an arbitrary proof of its conditions, so a program's own record with the
  same fields is this one by `rfl`.
-/
import Idealize.ShloMosaic.Lib.ValueIdx

noncomputable section

namespace Cert.Moe

open Idealize.ShloMosaic Idealize.ShloMosaic.ValueIdx

section
variable {α : Type}

/-- Dimension numbers of a gather of whole columns by a column of indices: operand `[A, C]`, start indices `[M, 1]`,
    result `[A, M]`. -/
abbrev colDims (A C M : Nat) (wf : GatherDims.WF ⟨2, ![A, C]⟩ ⟨2, ![M, 1]⟩ ⟨2, ![A, M]⟩ [0] [1] [] [1] [] 1 ![A, 1]) :
    GatherDims ⟨2, ![A, C]⟩ ⟨2, ![M, 1]⟩ ⟨2, ![A, M]⟩ where
  offsetDims := [0]
  collapsedSliceDims := [1]
  operandBatchingDims := []
  startIndicesBatchingDims := []
  startIndexMap := [1]
  indexVectorDim := 1
  sliceSizes := ![A, 1]
  wf := wf

set_option maxHeartbeats 50000 in
/-- THE COLUMN GATHER READ AT `(b, p)`: the operand at row `b` and the column `idx[p, 0]`, read signed and clamped into
    `[0, C − 1]`. -/
theorem gather_cols_apply {A C M w : Nat} (hC : 0 < C)
    (wf : GatherDims.WF ⟨2, ![A, C]⟩ ⟨2, ![M, 1]⟩ ⟨2, ![A, M]⟩ [0] [1] [] [1] [] 1 ![A, 1])
    (x : (⟨2, ![A, C]⟩ : Shape).Idx → α) (idx : IVec ⟨2, ![M, 1]⟩ w) (b : Fin A) (p : Fin M) :
    Host.gather (colDims A C M wf) x idx (ix2 b p)
      = x (ix2 b ⟨min (idx (ix2 p 0)).toInt.toNat (C - 1), by omega⟩) := by
  unfold Host.gather
  refine congrArg x ?_
  funext a
  refine Fin.ext ?_
  match a with
  | ⟨0, _⟩ =>
    show (colDims A C M wf).start (ix2 b p) idx 0 + (colDims A C M wf).batchCoord (ix2 b p) 0
      + (colDims A C M wf).offCoord (ix2 b p) 0 = b.val
    have hs : (colDims A C M wf).start (ix2 b p) idx 0 = 0 := by
      unfold GatherDims.start
      rw [dif_neg (show (0 : Fin 2) ∉ (colDims A C M wf).startIndexMap from
        (by decide : (0 : Fin 2) ∉ [(1 : Fin 2)]))]
    have ho : (colDims A C M wf).offCoord (ix2 b p) 0 = b.val := by
      unfold GatherDims.offCoord
      rw [dif_pos (show (0 : Fin 2) ∈ (colDims A C M wf).sKept from
        (GatherDims.mem_sKept _ _).mpr ⟨(by decide : (0 : Fin 2) ∉ [(1 : Fin 2)]), List.not_mem_nil⟩)]
      rfl
    rw [hs, ho, GatherDims.batchCoord_eq_zero _ _ _ List.not_mem_nil]
    omega
  | ⟨1, _⟩ =>
    show (colDims A C M wf).start (ix2 b p) idx 1 + (colDims A C M wf).batchCoord (ix2 b p) 1
      + (colDims A C M wf).offCoord (ix2 b p) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims A C M wf).startIndexMap from List.mem_singleton.mpr rfl)]
    have hsi : (colDims A C M wf).siIdx (ix2 b p) ⟨List.idxOf (1 : Fin 2) (colDims A C M wf).startIndexMap,
        List.idxOf_lt_length_iff.2 (List.mem_singleton.mpr rfl)⟩ = ix2 p 0 := by
      funext c; refine Fin.ext ?_
      match c with
      | ⟨0, _⟩ => rfl
      | ⟨1, _⟩ => rfl
    rw [hsi]
    rfl

end

end Cert.Moe

end
-- ==== Proof.RefLayer.lean ====
import proofs.«133722_j65515431133592_2_alg».proof.Proof.RefStages
import proofs.«133722_j65515431133592_2_alg».proof.Proof.Spec
import proofs.«133722_j65515431133592_2_alg».proof.Proof.LibGatherCols
import Idealize.ShloMosaic.Lib.ValueLayout
import Idealize.ShloMosaic.Lib.Pipeline.Value

/-! The reference's result is the layer: read at an index, each corner block adds the corner's weight times the volume's
    row read at the corner's index, and the weight; the corner's weight and index are the layer's vector forms of the three
    coordinate rows (the one numeric fact: the integer 127 converted is the float 127); the quotient is the resampled
    volume entry by entry. All at the exact instance. -/

noncomputable section

namespace Cert.ReferenceIdeal.Hand

open Cert.ReferenceIdeal Cert.ReferenceIdeal.Gen Idealize.ShloMosaic Idealize.ShloMosaic.ValueIdx

/-! ## Constants and splats at an index -/

/-- The integer 127 converted to a float is the float whose word is 0x42FE0000: both are the real 127. -/
theorem hi127 : (FloatOps.sitofp .f32 (127#32 : BitVec 32) : Ideal .f32) = Scalar.ofBits .f32 Cert.Warp.hiW := by
  show (((127#32 : BitVec 32).toInt : ℝ) : EReal) = Ideal.ofBits .f32 0x42FE0000#32
  simp [Ideal.ofBits, Ideal.ieee, -EReal.coe_mul]; norm_num

/-- A scalar spread over the N places reads that scalar everywhere. -/
theorem splatS_apply {α : Type} (v : S_.Idx → α) (j : S2097152.Idx) :
    broadcastInDim S2097152 ![] bcast_S_S2097152 v j = v ix0 :=
  broadcastInDim_apply _ _ _ j ix0 fun a => a.elim0
theorem splat8_apply {α : Type} (v : S_.Idx → α) (j : S8x2097152.Idx) :
    broadcastInDim S8x2097152 ![] bcast_S_S8x2097152 v j = v ix0 :=
  broadcastInDim_apply _ _ _ j ix0 fun a => a.elim0

variable {F : FTy → Type} [FloatOps F]

theorem splatN_apply (w : BitVec 32) (j : S2097152.Idx) : splatN (F := F) w j = FloatOps.ofBits .f32 w := splatS_apply _ j
theorem splatI_apply (w : BitVec 32) (j : S2097152.Idx) : splatI (F := F) w j = w := splatS_apply _ j
theorem vals0_apply (j : S8x2097152.Idx) : vals0 (F := F) j = FloatOps.ofBits .f32 0x00000000#32 := splat8_apply _ j
theorem wtot0_apply (j : S2097152.Idx) : wtot0 (F := F) j = FloatOps.ofBits .f32 0x00000000#32 := splatN_apply _ j

/-- A vector of N spread over the 8 rows reads, at (b, n), its entry n. -/
theorem rows8_apply (w : VecN F) (b : Fin 8) (n : Fin 2097152) : rows8 w (ix2 b n) = w (ix1 n) := by
  unfold rows8
  refine (broadcastInDim_apply _ _ _ (ix2 b n) (ix2 (0 : Fin 1) n) fun a => ?_).trans
    (broadcastInDim_apply _ _ _ (ix2 (0 : Fin 1) n) (ix1 n) fun a => ?_)
  · match a with
    | ⟨0, _⟩ => rfl
    | ⟨1, _⟩ => rfl
  · match a with
    | ⟨0, _⟩ => rfl

/-- The in-range bit spread over the rows reads, at (b, n), the bit of point n. -/
theorem mask_apply (v : IVec S2097152 1) (b : Fin 8) (n : Fin 2097152) :
    broadcastInDim S8x2097152 ![1] bcast_S2097152_S8x2097152_1 v (ix2 b n) = v (ix1 n) :=
  broadcastInDim_apply _ _ _ (ix2 b n) (ix1 n) fun a => match a with | ⟨0, _⟩ => rfl

/-! ## The coordinates, at the exact instance -/

/-- The clip to [0, 127] at an index is the layer's. -/
theorem clip127_apply (x : FVec Ideal S2097152 .f32) (j : S2097152.Idx) : clip127 (F := Ideal) x j = Cert.Warp.clipS (F := Ideal) (x j) := by
  show FloatOps.minimumf (broadcastInDim S2097152 ![] bcast_S_S2097152 (sitofp .f32 (constantI S_ 32 127#32 : IVec S_ 32) : FVec Ideal S_ .f32) j)
      (FloatOps.maximumf (splatN (F := Ideal) 0x00000000#32 j) (x j)) = _
  rw [splatS_apply, splatN_apply]
  show FloatOps.minimumf (FloatOps.sitofp .f32 (127#32 : BitVec 32) : Ideal .f32) _ = _
  rw [hi127]
  rfl

/-- A corner's coordinate at an index is the layer's. -/
theorem cornerCoord_apply (d : BitVec 32) (r : FVec Ideal S2097152 .f32) (j : S2097152.Idx) :
    cornerCoord (F := Ideal) d (Host.floor r) j = Cert.Warp.cornS (F := Ideal) d (r j) := by
  unfold cornerCoord
  rw [clip127_apply]
  show Cert.Warp.clipS (F := Ideal) (FloatOps.addf (FloatOps.hostUnary .floor (r j)) (splatN (F := Ideal) d j)) = _
  rw [splatN_apply]
  rfl

/-- One axis' weight at an index. -/
theorem axisWeight_apply (c i : FVec Ideal S2097152 .f32) (j : S2097152.Idx) :
    axisWeight (F := Ideal) c i j = FloatOps.subf (Scalar.ofBits .f32 Cert.Warp.oneW : Ideal .f32) (FloatOps.absf (FloatOps.subf (c j) (i j))) := by
  show FloatOps.subf (splatN (F := Ideal) 0x3F800000#32 j) (FloatOps.hostAbsf (FloatOps.subf (c j) (i j))) = _
  rw [splatN_apply]
  rfl

/-- One axis' weight of a corner is the layer's factor. -/
theorem axis_fac (d : BitVec 32) (a : FVec Ideal S2097152 .f32) (j : S2097152.Idx) :
    axisWeight (F := Ideal) (clip127 a) (cornerCoord d (Host.floor a)) j = Cert.Warp.facS (F := Ideal) d (a j) := by
  rw [axisWeight_apply, clip127_apply, cornerCoord_apply]
  rfl

/-- A corner's weight is the layer's vector form of the three coordinate rows. -/
theorem cornerWeight_eq (di dj dk : BitVec 32) (a b c : FVec Ideal S2097152 .f32) :
    cornerWeight (F := Ideal) (clip127 a) (clip127 b) (clip127 c) (cornerCoord di (Host.floor a)) (cornerCoord dj (Host.floor b)) (cornerCoord dk (Host.floor c))
      = Cert.Warp.wgtV (F := Ideal) S2097152 di dj dk a b c := by
  funext j
  refine Eq.trans ?_ (Cert.Warp.wgtV_apply (F := Ideal) S2097152 di dj dk a b c j).symm
  show FloatOps.mulf (F := Ideal) (FloatOps.mulf (axisWeight (F := Ideal) (clip127 a) (cornerCoord di (Host.floor a)) j)
      (axisWeight (F := Ideal) (clip127 b) (cornerCoord dj (Host.floor b)) j))
      (axisWeight (F := Ideal) (clip127 c) (cornerCoord dk (Host.floor c)) j) = _
  rw [axis_fac, axis_fac, axis_fac]
  rfl

theorem addi_at {s : Shape} (x y : IVec s 32) (j : s.Idx) : addi x y j = IntOp.addi (x j) (y j) := rfl
theorem muli_at {s : Shape} (x y : IVec s 32) (j : s.Idx) : muli x y j = IntOp.muli (x j) (y j) := rfl
theorem fptosi_at {s : Shape} (x : FVec Ideal s .f32) (j : s.Idx) : (fptosi 32 x : IVec s 32) j = FloatOps.fptosi 32 (x j) := rfl

/-- A corner's index is the layer's vector form of the three coordinate rows. -/
theorem cornerIndex_eq (di dj dk : BitVec 32) (a b c : FVec Ideal S2097152 .f32) :
    cornerIndex (F := Ideal) (cornerCoord di (Host.floor a)) (cornerCoord dj (Host.floor b)) (cornerCoord dk (Host.floor c))
      = Cert.Warp.idxV (F := Ideal) S2097152 di dj dk a b c := by
  funext j
  refine Eq.trans ?_ (Cert.Warp.idxV_apply (F := Ideal) S2097152 di dj dk a b c j).symm
  unfold cornerIndex Cert.Warp.idxS
  rw [addi_at, addi_at, muli_at, muli_at, fptosi_at, fptosi_at, fptosi_at, splatI_apply, splatI_apply, cornerCoord_apply, cornerCoord_apply, cornerCoord_apply]

/-! ## The take, at an index -/

/-- The index column and the in-range bits are the layer's (the same operations; the shape evidence is a proof). -/
theorem takeIndex_eq (idx : IVec S2097152 32) : takeIndex (F := F) idx = Cert.Warp.wrapCol idx := rfl
theorem takeMask_eq (col : IVec S2097152x1 32) : takeMask (F := F) col = Cert.Warp.inRange col := by
  have hlo : (broadcastInDim S2097152x1 ![] bcast_S_S2097152x1 (constantI S_ 32 0#32) : IVec S2097152x1 32)
      = broadcastInDim ⟨2, ![2097152, 1]⟩ ![] (by decide) (constantI ⟨0, ![]⟩ 32 0#32) := rfl
  have hhi : (broadcastInDim S2097152x1 ![0, 1] bcast_S1x1_S2097152x1_0_1
        (broadcastInDim S1x1 ![1] bcast_S1_S1x1_1 (constantI S1 32 2097151#32)) : IVec S2097152x1 32)
      = broadcastInDim ⟨2, ![2097152, 1]⟩ ![0, 1] (by decide)
          (broadcastInDim ⟨2, ![1, 1]⟩ ![1] (by decide) (constantI ⟨1, ![1]⟩ 32 2097151#32)) := rfl
  unfold takeMask Cert.Warp.inRange
  rw [hlo, hhi]

/-- A gathered column of the flattened volume, at row b, is the volume's row b at the gathered position. -/
theorem gather_apply (xf : FVec F S8x2097152 .f32) (col : IVec S2097152x1 32) (b : Fin 8) (n : Fin 2097152) :
    Host.gather gather_S8x2097152_S2097152x1_S8x2097152_0_1_n_n_1_1_81 xf col (ix2 b n)
      = xf (ix2 b (Cert.Warp.posOf col n)) :=
  Cert.Moe.gather_cols_apply (A := 8) (C := 2097152) (M := 2097152) (by decide) _ xf col b n

/-- THE TAKE AT (b, n): the layer's read of row b at point n's word. -/
theorem takeCols_apply (xf : FVec F S8x2097152 .f32) (idx : IVec S2097152 32) (b : Fin 8) (n : Fin 2097152) :
    takeCols (F := F) xf idx (ix2 b n) = Cert.Warp.takeS xf idx b n := by
  unfold takeCols Cert.Warp.takeS
  rw [select_apply, mask_apply, splat8_apply, takeMask_eq, takeIndex_eq, gather_apply]
  rfl

/-! ## The pointwise operations at an index -/

theorem addf_at {s : Shape} (a b : FVec F s .f32) (j : s.Idx) : addf a b j = FloatOps.addf (a j) (b j) := rfl
theorem mulf_at {s : Shape} (a b : FVec F s .f32) (j : s.Idx) : mulf a b j = FloatOps.mulf (a j) (b j) := rfl
theorem hdivf_at {s : Shape} (a b : FVec F s .f32) (j : s.Idx) : Host.divf a b j = FloatOps.hostDivf (a j) (b j) := rfl

/-- The clipped weight total at n. -/
theorem clipTotal_apply (w : FVec F S2097152 .f32) (j : S2097152.Idx) : clipTotal (F := F) w j = Cert.Warp.clipTotS (w j) := by
  show FloatOps.minimumf (splatN (F := F) 0x41000000#32 j) (FloatOps.maximumf (splatN (F := F) 0x322BCC77#32 j) (w j)) = _
  rw [splatN_apply, splatN_apply]
  rfl

/-- One corner block at (b, n): the running values grow by the weight at n times the volume's row b read at the index at n;
    the running total by the weight. -/
theorem step_vals (di dj dk : BitVec 32) (xf : FVec Ideal S8x2097152 .f32) (a b c : FVec Ideal S2097152 .f32)
    (vals : FVec Ideal S8x2097152 .f32) (wtot : FVec Ideal S2097152 .f32) (r : Fin 8) (n : Fin 2097152) :
    (cornerStep (F := Ideal) di dj dk xf (clip127 a) (clip127 b) (clip127 c) (Host.floor a) (Host.floor b) (Host.floor c) vals wtot).1 (ix2 r n)
      = FloatOps.addf (vals (ix2 r n)) (FloatOps.mulf (Cert.Warp.wgtV (F := Ideal) S2097152 di dj dk a b c (ix1 n))
          (Cert.Warp.takeS (F := Ideal) xf (Cert.Warp.idxV (F := Ideal) S2097152 di dj dk a b c) r n)) := by
  unfold cornerStep
  rw [cornerWeight_eq, cornerIndex_eq]
  show FloatOps.addf (vals (ix2 r n)) (FloatOps.mulf (rows8 (F := Ideal) (Cert.Warp.wgtV (F := Ideal) S2097152 di dj dk a b c) (ix2 r n))
      (takeCols (F := Ideal) xf (Cert.Warp.idxV (F := Ideal) S2097152 di dj dk a b c) (ix2 r n))) = _
  rw [rows8_apply, takeCols_apply]
theorem step_wtot (di dj dk : BitVec 32) (xf : FVec Ideal S8x2097152 .f32) (a b c : FVec Ideal S2097152 .f32)
    (vals : FVec Ideal S8x2097152 .f32) (wtot : FVec Ideal S2097152 .f32) (n : Fin 2097152) :
    (cornerStep (F := Ideal) di dj dk xf (clip127 a) (clip127 b) (clip127 c) (Host.floor a) (Host.floor b) (Host.floor c) vals wtot).2 (ix1 n)
      = FloatOps.addf (wtot (ix1 n)) (Cert.Warp.wgtV (F := Ideal) S2097152 di dj dk a b c (ix1 n)) := by
  unfold cornerStep
  rw [cornerWeight_eq]
  rfl

/-! ## The whole -/

/-- THE EIGHT CORNER BLOCKS AND THE QUOTIENT COMPUTE THE RESAMPLED VOLUME, from the flattened volume and the three
    coordinate rows. -/
theorem ref_resample (xf : FVec Ideal S8x2097152 .f32) (a b c : FVec Ideal S2097152 .f32) :
    finish (F := Ideal) (corners (F := Ideal) xf (clip127 a) (clip127 b) (clip127 c) (Host.floor a) (Host.floor b) (Host.floor c)).1
        (corners (F := Ideal) xf (clip127 a) (clip127 b) (clip127 c) (Host.floor a) (Host.floor b) (Host.floor c)).2
      = shapeCast S8x128x128x128x1 (Cert.Warp.resample (F := Ideal) xf a b c) shapeCasts_S8x2097152_S8x128x128x128x1 := by
  unfold finish
  refine congrArg (fun A => shapeCast S8x128x128x128x1 A shapeCasts_S8x2097152_S8x128x128x128x1) ?_
  funext q
  obtain ⟨r, n, rfl⟩ : ∃ (r : Fin 8) (n : Fin 2097152), q = ix2 r n := ⟨q 0, q 1, eq_ix2 q⟩
  rw [hdivf_at, rows8_apply, clipTotal_apply]
  unfold corners
  rw [step_vals, step_vals, step_vals, step_vals, step_vals, step_vals, step_vals, step_vals, vals0_apply,
    step_wtot, step_wtot, step_wtot, step_wtot, step_wtot, step_wtot, step_wtot, step_wtot, wtot0_apply]
  rfl

/-- The program's coordinates are the layer's (the products' dimension record is the plain matrix product's). -/
theorem coords_eq (pts ct : FVec Ideal S4x2097152 .f32) (R S T : FVec Ideal S4x4 .f32) :
    coords (F := Ideal) pts ct R S T = Cert.Warp.warpP (F := Ideal) none R S T pts ct := rfl
/-- A row of the coordinates is the layer's row. -/
theorem row0_eq (p : FVec Ideal S4x2097152 .f32) : row0 (F := Ideal) p = Cert.Warp.rowP (F := Ideal) 0 (by decide) p := rfl
theorem row1_eq (p : FVec Ideal S4x2097152 .f32) : row1 (F := Ideal) p = Cert.Warp.rowP (F := Ideal) 1 (by decide) p := rfl
theorem row2_eq (p : FVec Ideal S4x2097152 .f32) : row2 (F := Ideal) p = Cert.Warp.rowP (F := Ideal) 2 (by decide) p := rfl

/-- THE REFERENCE'S RESULT IS THE LAYER. -/
theorem refOut_eq (x : FVec Ideal S8x128x128x128x1 .f32) (pts ct : FVec Ideal S4x2097152 .f32) (R S T : FVec Ideal S4x4 .f32) :
    refOut (F := Ideal) x pts ct R S T = Cert.Warp.layer (F := Ideal) x pts ct R S T := by
  have h := ref_resample (flatX (F := Ideal) x) (row0 (F := Ideal) (coords (F := Ideal) pts ct R S T))
    (row1 (F := Ideal) (coords (F := Ideal) pts ct R S T)) (row2 (F := Ideal) (coords (F := Ideal) pts ct R S T))
  unfold refOut
  refine h.trans ?_
  rw [coords_eq, row0_eq, row1_eq, row2_eq]
  rfl

end Cert.ReferenceIdeal.Hand

end
-- ==== Proof.lean ====
/-
  The certificate of the warp-and-resample layer: a Pallas kernel that computes, for every one of the N = 128³ warped points,
  the eight trilinear corners' voxel indices and weights, with the gather and the weighted blend on the host around it,
  against a reference that does everything on the host.

  Frames. Each of the three programs runs to its end, faults nowhere and leaves its six argument arrays as they were: the
  kernel's program (as printed, and idealized) by the pipeline's launch theorem around its one region — its body loads three
  [1024, 128] blocks and stores sixteen [1, 1024, 128] slabs that tile its two output blocks —, with thirteen host lines
  before the region and 293 after it that write only their own result buffers; the reference as one straight line of 766
  host operations.

  Preserves. The idealization rewrote nothing: there is nothing to state.

  Algebraic. At the extended reals both programs end with the result buffer at ONE function of the six arguments,
  `Cert.Warp.layer`: with p = T (S (R points) + ct) and a, b, c its rows 0, 1, 2, entry (batch, point) is the sum over the
  eight corners, in the same order from zero, of weight × (the volume's row read at the corner's index, jnp.take's fill
  mode), over the clipped sum of the weights. The kernel's side: each stored slab is the corner's index or weight of the
  three loaded blocks, pointwise; the sixteen points' blocks tile the two [8, 16384, 128] arrays; a row of the flattened
  array is the corner's vector over all N points (a fold to [16384, 128] and back is the identity on positions); the table
  the rows are gathered from is the volume transposed, so a gathered row's column is the volume's row at the gathered
  position; and a matrix product's precision chooses nothing over the extended reals. The reference's side: the same
  scalar functions, its floor and absolute value the kernel's at this instance, its clip bound the integer 127 converted,
  which is the kernel's float 127.
-/
import proofs.«133722_j65515431133592_2_alg».proof.Defs
import proofs.«133722_j65515431133592_2_alg».proof.Proof.Gen.Kernel
import proofs.«133722_j65515431133592_2_alg».proof.Proof.Gen.KernelIdeal
import proofs.«133722_j65515431133592_2_alg».proof.Proof.Gen.ReferenceIdeal
import proofs.«133722_j65515431133592_2_alg».proof.Proof.Gen.Pre_finite_inputs
import proofs.«133722_j65515431133592_2_alg».proof.Proof.KernelFrame
import proofs.«133722_j65515431133592_2_alg».proof.Proof.KernelFinal
import proofs.«133722_j65515431133592_2_alg».proof.Proof.KernelLayer
import proofs.«133722_j65515431133592_2_alg».proof.Proof.RefRun
import proofs.«133722_j65515431133592_2_alg».proof.Proof.RefResult
import proofs.«133722_j65515431133592_2_alg».proof.Proof.RefLayer

noncomputable section

namespace Cert.Proof

open Idealize.ShloMosaic Idealize.ShloMosaic.TcCoe Idealize.SL.Sem

/-- The kernel's program as printed runs and keeps its arguments. -/
theorem frame_k : Cert.frame_Kernel := fun m ρ _ => Cert.Kernel.Hand.frame m ρ

/-- The idealized kernel's program runs and keeps its arguments. -/
theorem frame_ki : Cert.frame_KernelIdeal := fun m ρ _ => Cert.KernelIdeal.Hand.frame m ρ

/-- The idealized reference runs and keeps its arguments. -/
theorem frame_ri : Cert.frame_ReferenceIdeal := fun m ρ _ => Cert.ReferenceIdeal.Hand.frame m ρ

/-- The ideal pass rewrote no operation. -/
theorem preserves : Cert.preserves_Kernel_KernelIdeal := trivial

/-- Both idealized programs end with the result at the layer of the (agreeing) arguments. -/
theorem algebraic : Cert.algebraic_KernelIdeal_ReferenceIdeal := by
  intro m ρ m' ρ' _ hagree
  refine ⟨fun c => Cert.Warp.layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run (Cert.KernelIdeal.defs (F := Ideal)) _ _).mono
      (fun _ h c => ⟨(h c).1.trans (Cert.KernelIdeal.Hand.kernel_layer m c), (h c).2⟩)
      (Cert.KernelIdeal.Hand.kernel_run_final (F := Ideal) m ρ)
  · refine (θ_run (Cert.ReferenceIdeal.defs (F := Ideal)) _ _).mono (fun _ h c => ⟨(h c).1.trans ?_, (h c).2⟩)
      (Cert.ReferenceIdeal.Hand.ref_result (F := Ideal) m' ρ')
    rw [Cert.ReferenceIdeal.Hand.refOut_eq]
    obtain ⟨h0, h1, h2, h3, h4, h5⟩ := hagree c
    exact congr (congr (congr (congr (congr (congrArg (Cert.Warp.layer (F := Ideal)) h0) h1) h2) h3) h4) h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
